-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v195)) (v1 : (c : Dev Cert.KernelIdeal.nD) → Buf (Elt Ideal) ((c.tc : Thread Cert.KernelIdeal.nD Cert.KernelIdeal.τ).loc Cert.KernelIdeal.main_v223)) (v2 : (c : Dev Cert.KernelIdeal.nD) → Buf (Elt Ideal) ((c.tc : Thread Cert.KernelIdeal.nD Cert.KernelIdeal.τ).loc Cert.KernelIdeal.main_v240)) (v3 : (c : Dev Cert.KernelIdeal.nD) → Buf (Elt Ideal) ((c.tc : Thread Cert.KernelIdeal.nD Cert.KernelIdeal.τ).loc Cert.KernelIdeal.main_v257)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v195) = v0 c
          ∧ r.2.mem ((c.tc : Thread Cert.KernelIdeal.nD Cert.KernelIdeal.τ).loc Cert.KernelIdeal.main_v223) = v1 c
          ∧ r.2.mem ((c.tc : Thread Cert.KernelIdeal.nD Cert.KernelIdeal.τ).loc Cert.KernelIdeal.main_v240) = v2 c
          ∧ r.2.mem ((c.tc : Thread Cert.KernelIdeal.nD Cert.KernelIdeal.τ).loc Cert.KernelIdeal.main_v257) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v225) = v1 c
          ∧ r.2.mem ((c.tc : Thread Cert.ReferenceIdeal.nD Cert.ReferenceIdeal.τ).loc Cert.ReferenceIdeal.main_v252) = v2 c
          ∧ r.2.mem ((c.tc : Thread Cert.ReferenceIdeal.nD Cert.ReferenceIdeal.τ).loc Cert.ReferenceIdeal.main_v279) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S4000x128 : Shape := ⟨2, ![4000, 128]⟩
abbrev S2x1000000 : Shape := ⟨2, ![2, 1000000]⟩
abbrev S400000 : Shape := ⟨1, ![400000]⟩
abbrev S2x500000 : Shape := ⟨2, ![2, 500000]⟩
abbrev S128x64 : Shape := ⟨2, ![128, 64]⟩
abbrev S64x64 : Shape := ⟨2, ![64, 64]⟩
abbrev S64 : Shape := ⟨1, ![64]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S4000x128 : S_.BroadcastsInDim S4000x128 (![] : Fin 0 → Fin S4000x128.rank)
  reducesTo_S4000x128_S_d0_1 : S4000x128.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg25 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg25
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg21 : FVec F S64x64 .f32) (main_arg22 : FVec F S64x64 .f32) (main_arg23 : FVec F S64x64 .f32) (main_arg24 : FVec F S64 .f32) (main_arg25 : FVec F S64 .f32) (main_v63 : IVec S_ 1) (main_v67 : IVec S_ 1) : IVec S_ 1 :=
  let main_v68 : IVec S_ 1 := andi main_v63 main_v67
  let main_v69 : FVec F S64x64 .f32 := Host.absf main_arg21
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg22
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x64 .f32 := Host.absf main_arg23
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg24
  let main_cst_32 : FVec F S_ .f32 := constant S_ .f32 0x7F800000#32
  fn_part5 (F := F) main_arg25 main_v83 main_v84 main_cst_32

def fn_part3 {F : FTy → Type} [FloatOps F] (main_arg18 : FVec F S64x64 .f32) (main_arg19 : FVec F S64x64 .f32) (main_arg20 : FVec F S64x64 .f32) (main_arg21 : FVec F S64x64 .f32) (main_arg22 : FVec F S64x64 .f32) (main_arg23 : FVec F S64x64 .f32) (main_arg24 : FVec F S64 .f32) (main_arg25 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg18
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg19
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg20
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg21 main_arg22 main_arg23 main_arg24 main_arg25 main_v63 main_v67

def fn_part2 {F : FTy → Type} [FloatOps F] (main_arg14 : FVec F S128x64 .f32) (main_arg15 : FVec F S64x64 .f32) (main_arg16 : FVec F S64x64 .f32) (main_arg17 : FVec F S64x64 .f32) (main_arg18 : FVec F S64x64 .f32) (main_arg19 : FVec F S64x64 .f32) (main_arg20 : FVec F S64x64 .f32) (main_arg21 : FVec F S64x64 .f32) (main_arg22 : FVec F S64x64 .f32) (main_arg23 : FVec F S64x64 .f32) (main_arg24 : FVec F S64 .f32) (main_arg25 : FVec F S64 .f32) (main_v33 : IVec S_ 1) : IVec S_ 1 :=
  let main_v34 : FVec F S128x64 .f32 := Host.absf main_arg14
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64x64 .f32 := Host.absf main_arg15
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg16
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg17
  let main_cst_18 : FVec F S_ .f32 := constant S_ .f32 0x7F800000#32
  let main_v50 : FVec F S64x64 .f32 := broadcastInDim S64x64 ![] bcast_S_S64x64 main_cst_18
  fn_part3 (F := F) main_arg18 main_arg19 main_arg20 main_arg21 main_arg22 main_arg23 main_arg24 main_arg25 main_v48 main_v49 main_v50

def fn_part1 {F : FTy → Type} [FloatOps F] (main_arg11 : FVec F S128x64 .f32) (main_arg12 : FVec F S128x64 .f32) (main_arg13 : FVec F S128x64 .f32) (main_arg14 : FVec F S128x64 .f32) (main_arg15 : FVec F S64x64 .f32) (main_arg16 : FVec F S64x64 .f32) (main_arg17 : FVec F S64x64 .f32) (main_arg18 : FVec F S64x64 .f32) (main_arg19 : FVec F S64x64 .f32) (main_arg20 : FVec F S64x64 .f32) (main_arg21 : FVec F S64x64 .f32) (main_arg22 : FVec F S64x64 .f32) (main_arg23 : FVec F S64x64 .f32) (main_arg24 : FVec F S64 .f32) (main_arg25 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg11
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg12
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg13
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg14 main_arg15 main_arg16 main_arg17 main_arg18 main_arg19 main_arg20 main_arg21 main_arg22 main_arg23 main_arg24 main_arg25 main_v33

def fn {F : FTy → Type} [FloatOps F] (main_arg0 : FVec F S20000x128 .f32) (main_arg1 : FVec F S4000x128 .f32) (main_arg2 : IVec S2x1000000 32) (main_arg3 : IVec S400000 32) (main_arg4 : IVec S400000 32) (main_arg5 : IVec S2x500000 32) (main_arg6 : IVec S2x500000 32) (main_arg7 : IVec S2x500000 32) (main_arg8 : IVec S2x500000 32) (main_arg9 : FVec F S128x64 .f32) (main_arg10 : FVec F S128x64 .f32) (main_arg11 : FVec F S128x64 .f32) (main_arg12 : FVec F S128x64 .f32) (main_arg13 : FVec F S128x64 .f32) (main_arg14 : FVec F S128x64 .f32) (main_arg15 : FVec F S64x64 .f32) (main_arg16 : FVec F S64x64 .f32) (main_arg17 : FVec F S64x64 .f32) (main_arg18 : FVec F S64x64 .f32) (main_arg19 : FVec F S64x64 .f32) (main_arg20 : FVec F S64x64 .f32) (main_arg21 : FVec F S64x64 .f32) (main_arg22 : FVec F S64x64 .f32) (main_arg23 : FVec F S64x64 .f32) (main_arg24 : FVec F S64 .f32) (main_arg25 : FVec F S64 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S4000x128 .f32 := Host.absf main_arg1
  let main_cst_0 : FVec F S_ .f32 := constant S_ .f32 0x7F800000#32
  let main_v5 : FVec F S4000x128 .f32 := broadcastInDim S4000x128 ![] bcast_S_S4000x128 main_cst_0
  let main_v6 : IVec S4000x128 1 := cmpf .olt main_v4 main_v5
  let main_c_1 : IVec S_ 1 := constantI S_ 1 1#1
  let main_v7 : IVec S_ 1 := (fun x v => Host.reduce IntOp.andi x v reducesTo_S4000x128_S_d0_1 h_S_) main_v6 main_c_1
  let main_v8 : IVec S_ 1 := andi main_v3 main_v7
  let main_v9 : FVec F S128x64 .f32 := Host.absf main_arg9
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg10
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg11 main_arg12 main_arg13 main_arg14 main_arg15 main_arg16 main_arg17 main_arg18 main_arg19 main_arg20 main_arg21 main_arg22 main_arg23 main_arg24 main_arg25 main_v13 main_v16
-- ==== Kernel.lean ====
abbrev S20000x128 : Shape := ⟨2, ![20000, 128]⟩
abbrev S4000x128 : Shape := ⟨2, ![4000, 128]⟩
abbrev S2x1000000 : Shape := ⟨2, ![2, 1000000]⟩
abbrev S400000 : Shape := ⟨1, ![400000]⟩
abbrev S2x500000 : Shape := ⟨2, ![2, 500000]⟩
abbrev S128x64 : Shape := ⟨2, ![128, 64]⟩
abbrev S64x64 : Shape := ⟨2, ![64, 64]⟩
abbrev S64 : Shape := ⟨1, ![64]⟩
abbrev S20000x64 : Shape := ⟨2, ![20000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S400000x1 : Shape := ⟨2, ![400000, 1]⟩
abbrev S400000x64 : Shape := ⟨2, ![400000, 64]⟩
abbrev S4000x64 : Shape := ⟨2, ![4000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S64x500000 : Shape := ⟨2, ![64, 500000]⟩
abbrev S64x507904 : Shape := ⟨2, ![64, 507904]⟩
abbrev S1x507904 : Shape := ⟨2, ![1, 507904]⟩
abbrev S64x8192 : Shape := ⟨2, ![64, 8192]⟩
abbrev S1x8192 : Shape := ⟨2, ![1, 8192]⟩
abbrev S8192 : Shape := ⟨1, ![8192]⟩
abbrev S64x1 : Shape := ⟨2, ![64, 1]⟩

abbrev nBuf : Space → Nat
  | .hbm => 347
  | .vmem => 26
  | .smem => 0
  | _ => 0

abbrev hbmTy0_0 (i : Nat) : BufTy := match i % 128 with
  | 0 => ⟨S20000x128, .f32⟩
  | 1 => ⟨S4000x128, .f32⟩
  | 2 => ⟨S2x1000000, .i32⟩
  | 3 => ⟨S400000, .i32⟩
  | 4 => ⟨S400000, .i32⟩
  | 5 => ⟨S2x500000, .i32⟩
  | 6 => ⟨S2x500000, .i32⟩
  | 7 => ⟨S2x500000, .i32⟩
  | 8 => ⟨S2x500000, .i32⟩
  | 9 => ⟨S128x64, .f32⟩
  | 10 => ⟨S128x64, .f32⟩
  | 11 => ⟨S128x64, .f32⟩
  | 12 => ⟨S128x64, .f32⟩
  | 13 => ⟨S128x64, .f32⟩
  | 14 => ⟨S128x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64, .f32⟩
  | 25 => ⟨S64, .f32⟩
  | 26 => ⟨S20000x64, .f32⟩
  | 27 => ⟨S1x1000000, .i32⟩
  | 28 => ⟨S1000000, .i32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x64, .f32⟩
  | 38 => ⟨S1x1000000, .i32⟩
  | 39 => ⟨S1000000, .i32⟩
  | 40 => ⟨S_, .f32⟩
  | 41 => ⟨S20000x64, .f32⟩
  | 42 => ⟨S1000000x1, .i32⟩
  | 43 => ⟨S20000x64, .f32⟩
  | 44 => ⟨S_, .f32⟩
  | 45 => ⟨S20000x64, .f32⟩
  | 46 => ⟨S20000x64, .f32⟩
  | 47 => ⟨S20000x64, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x64, .f32⟩
  | 57 => ⟨S_, .f32⟩
  | 58 => ⟨S4000x64, .f32⟩
  | 59 => ⟨S400000x1, .i32⟩
  | 60 => ⟨S4000x64, .f32⟩
  | 61 => ⟨S4000x64, .f32⟩
  | 62 => ⟨S1x500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x64, .f32⟩
  | 73 => ⟨S1x500000, .i32⟩
  | 74 => ⟨S500000, .i32⟩
  | 75 => ⟨S_, .f32⟩
  | 76 => ⟨S4000x64, .f32⟩
  | 77 => ⟨S500000x1, .i32⟩
  | 78 => ⟨S4000x64, .f32⟩
  | 79 => ⟨S4000x64, .f32⟩
  | 80 => ⟨S4000x64, .f32⟩
  | 81 => ⟨S1x500000, .i32⟩
  | 82 => ⟨S500000, .i32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x64, .f32⟩
  | 92 => ⟨S1x500000, .i32⟩
  | 93 => ⟨S500000, .i32⟩
  | 94 => ⟨S_, .f32⟩
  | 95 => ⟨S4000x64, .f32⟩
  | 96 => ⟨S500000x1, .i32⟩
  | 97 => ⟨S4000x64, .f32⟩
  | 98 => ⟨S4000x64, .f32⟩
  | 99 => ⟨S4000x64, .f32⟩
  | 100 => ⟨S1x500000, .i32⟩
  | 101 => ⟨S500000, .i32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x64, .f32⟩
  | 111 => ⟨S1x500000, .i32⟩
  | 112 => ⟨S500000, .i32⟩
  | 113 => ⟨S_, .f32⟩
  | 114 => ⟨S4000x64, .f32⟩
  | 115 => ⟨S500000x1, .i32⟩
  | 116 => ⟨S4000x64, .f32⟩
  | 117 => ⟨S4000x64, .f32⟩
  | 118 => ⟨S4000x64, .f32⟩
  | 119 => ⟨S1x500000, .i32⟩
  | 120 => ⟨S500000, .i32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S20000x128, .f32⟩

abbrev hbmTy0_1 (i : Nat) : BufTy := match i % 128 with
  | 0 => ⟨S500000x1, .i32⟩
  | 1 => ⟨S500000x64, .f32⟩
  | 2 => ⟨S1x500000, .i32⟩
  | 3 => ⟨S500000, .i32⟩
  | 4 => ⟨S_, .f32⟩
  | 5 => ⟨S4000x64, .f32⟩
  | 6 => ⟨S500000x1, .i32⟩
  | 7 => ⟨S4000x64, .f32⟩
  | 8 => ⟨S4000x64, .f32⟩
  | 9 => ⟨S_, .f32⟩
  | 10 => ⟨S4000x64, .f32⟩
  | 11 => ⟨S4000x64, .f32⟩
  | 12 => ⟨S20000x64, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000x64, .f32⟩
  | 22 => ⟨S_, .f32⟩
  | 23 => ⟨S4000x64, .f32⟩
  | 24 => ⟨S400000x1, .i32⟩
  | 25 => ⟨S4000x64, .f32⟩
  | 26 => ⟨S4000x64, .f32⟩
  | 27 => ⟨S1x500000, .i32⟩
  | 28 => ⟨S500000, .i32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x64, .f32⟩
  | 38 => ⟨S1x500000, .i32⟩
  | 39 => ⟨S500000, .i32⟩
  | 40 => ⟨S_, .f32⟩
  | 41 => ⟨S4000x64, .f32⟩
  | 42 => ⟨S500000x1, .i32⟩
  | 43 => ⟨S4000x64, .f32⟩
  | 44 => ⟨S4000x64, .f32⟩
  | 45 => ⟨S4000x64, .f32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x64, .f32⟩
  | 57 => ⟨S1x500000, .i32⟩
  | 58 => ⟨S500000, .i32⟩
  | 59 => ⟨S_, .f32⟩
  | 60 => ⟨S4000x64, .f32⟩
  | 61 => ⟨S500000x1, .i32⟩
  | 62 => ⟨S4000x64, .f32⟩
  | 63 => ⟨S4000x64, .f32⟩
  | 64 => ⟨S4000x64, .f32⟩
  | 65 => ⟨S1x500000, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x64, .f32⟩
  | 76 => ⟨S1x500000, .i32⟩
  | 77 => ⟨S500000, .i32⟩
  | 78 => ⟨S_, .f32⟩
  | 79 => ⟨S4000x64, .f32⟩
  | 80 => ⟨S500000x1, .i32⟩
  | 81 => ⟨S4000x64, .f32⟩
  | 82 => ⟨S4000x64, .f32⟩
  | 83 => ⟨S4000x64, .f32⟩
  | 84 => ⟨S1x500000, .i32⟩
  | 85 => ⟨S500000, .i32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x64, .f32⟩
  | 95 => ⟨S1x500000, .i32⟩
  | 96 => ⟨S500000, .i32⟩
  | 97 => ⟨S_, .f32⟩
  | 98 => ⟨S4000x64, .f32⟩
  | 99 => ⟨S500000x1, .i32⟩
  | 100 => ⟨S4000x64, .f32⟩
  | 101 => ⟨S4000x64, .f32⟩
  | 102 => ⟨S_, .f32⟩
  | 103 => ⟨S4000x64, .f32⟩
  | 104 => ⟨S4000x64, .f32⟩
  | 105 => ⟨S1x500000, .i32⟩
  | 106 => ⟨S500000, .i32⟩
  | 107 => ⟨S1x500000, .i32⟩
  | 108 => ⟨S500000, .i32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x64, .f32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S500000x64, .f32⟩
  | 127 => ⟨S64x500000, .f32⟩
  | _ => ⟨S20000x128, .f32⟩

abbrev hbmTy0_2 (i : Nat) : BufTy := match i % 128 with
  | 0 => ⟨S64x500000, .bf16⟩
  | 1 => ⟨S64x500000, .f32⟩
  | 2 => ⟨S_, .i32⟩
  | 3 => ⟨S_, .bf16⟩
  | 4 => ⟨S64x507904, .bf16⟩
  | 5 => ⟨S_, .i32⟩
  | 6 => ⟨S_, .f32⟩
  | 7 => ⟨S64x507904, .f32⟩
  | 8 => ⟨S64x64, .f32⟩
  | 9 => ⟨S64x64, .bf16⟩
  | 10 => ⟨S1x507904, .f32⟩
  | 11 => ⟨S1x500000, .f32⟩
  | 12 => ⟨S500000, .f32⟩
  | 13 => ⟨S1x500000, .i32⟩
  | 14 => ⟨S500000, .i32⟩
  | 15 => ⟨S1x500000, .i32⟩
  | 16 => ⟨S500000, .i32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S500000x64, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x64, .f32⟩
  | 35 => ⟨S64x500000, .f32⟩
  | 36 => ⟨S64x500000, .bf16⟩
  | 37 => ⟨S64x500000, .f32⟩
  | 38 => ⟨S_, .i32⟩
  | 39 => ⟨S_, .bf16⟩
  | 40 => ⟨S64x507904, .bf16⟩
  | 41 => ⟨S_, .i32⟩
  | 42 => ⟨S_, .f32⟩
  | 43 => ⟨S64x507904, .f32⟩
  | 44 => ⟨S64x64, .f32⟩
  | 45 => ⟨S64x64, .bf16⟩
  | 46 => ⟨S1x507904, .f32⟩
  | 47 => ⟨S1x500000, .f32⟩
  | 48 => ⟨S500000, .f32⟩
  | 49 => ⟨S1x500000, .i32⟩
  | 50 => ⟨S500000, .i32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x64, .f32⟩
  | 60 => ⟨S64x500000, .f32⟩
  | 61 => ⟨S_, .i32⟩
  | 62 => ⟨S_, .f32⟩
  | 63 => ⟨S64x507904, .f32⟩
  | 64 => ⟨S64x64, .f32⟩
  | 65 => ⟨S64x64, .bf16⟩
  | 66 => ⟨S64x1, .f32⟩
  | 67 => ⟨S1x507904, .f32⟩
  | 68 => ⟨S1x500000, .f32⟩
  | 69 => ⟨S500000, .f32⟩
  | 70 => ⟨S1x500000, .i32⟩
  | 71 => ⟨S500000, .i32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x64, .f32⟩
  | 81 => ⟨S64x500000, .f32⟩
  | 82 => ⟨S_, .i32⟩
  | 83 => ⟨S_, .f32⟩
  | 84 => ⟨S64x507904, .f32⟩
  | 85 => ⟨S64x64, .f32⟩
  | 86 => ⟨S64x64, .bf16⟩
  | 87 => ⟨S64x1, .f32⟩
  | 88 => ⟨S1x507904, .f32⟩
  | 89 => ⟨S1x500000, .f32⟩
  | 90 => ⟨S500000, .f32⟩
  | _ => ⟨S20000x128, .f32⟩

abbrev hbmTy (i : Nat) : BufTy := match i / 128 with
  | 0 => hbmTy0_0 i
  | 1 => hbmTy0_1 i
  | 2 => hbmTy0_2 i
  | _ => ⟨S20000x128, .f32⟩

abbrev bufTy : (tb : Table) → Fin (tcTables nBuf tb) → BufTy
  | .hbm, ⟨i, _⟩ => hbmTy i
  | .local _ .vmem, ⟨0, _⟩ => ⟨S64x8192, .bf16⟩
  | .local _ .vmem, ⟨1, _⟩ => ⟨S64x8192, .bf16⟩
  | .local _ .vmem, ⟨2, _⟩ => ⟨S64x8192, .f32⟩
  | .local _ .vmem, ⟨3, _⟩ => ⟨S64x8192, .f32⟩
  | .local _ .vmem, ⟨4, _⟩ => ⟨S64x64, .bf16⟩
  | .local _ .vmem, ⟨5, _⟩ => ⟨S1x8192, .f32⟩
  | .local _ .vmem, ⟨6, _⟩ => ⟨S1x8192, .f32⟩
  | .local _ .vmem, ⟨7, _⟩ => ⟨S64x8192, .bf16⟩
  | .local _ .vmem, ⟨8, _⟩ => ⟨S64x8192, .bf16⟩
  | .local _ .vmem, ⟨9, _⟩ => ⟨S64x8192, .f32⟩
  | .local _ .vmem, ⟨10, _⟩ => ⟨S64x8192, .f32⟩
  | .local _ .vmem, ⟨11, _⟩ => ⟨S64x64, .bf16⟩
  | .local _ .vmem, ⟨12, _⟩ => ⟨S1x8192, .f32⟩
  | .local _ .vmem, ⟨13, _⟩ => ⟨S1x8192, .f32⟩
  | .local _ .vmem, ⟨14, _⟩ => ⟨S64x8192, .f32⟩
  | .local _ .vmem, ⟨15, _⟩ => ⟨S64x8192, .f32⟩
  | .local _ .vmem, ⟨16, _⟩ => ⟨S64x1, .f32⟩
  | .local _ .vmem, ⟨17, _⟩ => ⟨S64x64, .bf16⟩
  | .local _ .vmem, ⟨18, _⟩ => ⟨S1x8192, .f32⟩
  | .local _ .vmem, ⟨19, _⟩ => ⟨S1x8192, .f32⟩
  | .local _ .vmem, ⟨20, _⟩ => ⟨S64x8192, .f32⟩
  | .local _ .vmem, ⟨21, _⟩ => ⟨S64x8192, .f32⟩
  | .local _ .vmem, ⟨22, _⟩ => ⟨S64x1, .f32⟩
  | .local _ .vmem, ⟨23, _⟩ => ⟨S64x64, .bf16⟩
  | .local _ .vmem, ⟨24, _⟩ => ⟨S1x8192, .f32⟩
  | .local _ .vmem, ⟨25, _⟩ => ⟨S1x8192, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_v3 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call0_cst : Ref sig .tc := ⟨.hbm, 44, rfl⟩
abbrev main_call0_v0 : Ref sig .tc := ⟨.hbm, 45, rfl⟩
abbrev main_v15 : Ref sig .tc := ⟨.hbm, 46, rfl⟩
abbrev main_v16 : Ref sig .tc := ⟨.hbm, 47, rfl⟩
abbrev main_c_1 : Ref sig .tc := ⟨.hbm, 48, rfl⟩
abbrev main_v17 : Ref sig .tc := ⟨.hbm, 49, rfl⟩
abbrev main_v18 : Ref sig .tc := ⟨.hbm, 50, rfl⟩
abbrev main_c_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_4 : Ref sig .tc := ⟨.hbm, 64, rfl⟩
abbrev main_v30 : Ref sig .tc := ⟨.hbm, 65, rfl⟩
abbrev main_v31 : Ref sig .tc := ⟨.hbm, 66, rfl⟩
abbrev main_c_5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_6 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_7 : Ref sig .tc := ⟨.hbm, 83, rfl⟩
abbrev main_v46 : Ref sig .tc := ⟨.hbm, 84, rfl⟩
abbrev main_v47 : Ref sig .tc := ⟨.hbm, 85, rfl⟩
abbrev main_c_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_9 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_10 : Ref sig .tc := ⟨.hbm, 102, rfl⟩
abbrev main_v62 : Ref sig .tc := ⟨.hbm, 103, rfl⟩
abbrev main_v63 : Ref sig .tc := ⟨.hbm, 104, rfl⟩
abbrev main_c_11 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_12 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_13 : Ref sig .tc := ⟨.hbm, 121, rfl⟩
abbrev main_v78 : Ref sig .tc := ⟨.hbm, 122, rfl⟩
abbrev main_v79 : Ref sig .tc := ⟨.hbm, 123, rfl⟩
abbrev main_c_14 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_15 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_call1_cst : Ref sig .tc := ⟨.hbm, 137, rfl⟩
abbrev main_call1_v0 : Ref sig .tc := ⟨.hbm, 138, rfl⟩
abbrev main_v91 : Ref sig .tc := ⟨.hbm, 139, rfl⟩
abbrev main_v92 : Ref sig .tc := ⟨.hbm, 140, rfl⟩
abbrev main_c_16 : Ref sig .tc := ⟨.hbm, 141, rfl⟩
abbrev main_v93 : Ref sig .tc := ⟨.hbm, 142, rfl⟩
abbrev main_v94 : Ref sig .tc := ⟨.hbm, 143, rfl⟩
abbrev main_c_17 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_18 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_c_19 : Ref sig .tc := ⟨.hbm, 157, rfl⟩
abbrev main_v106 : Ref sig .tc := ⟨.hbm, 158, rfl⟩
abbrev main_v107 : Ref sig .tc := ⟨.hbm, 159, rfl⟩
abbrev main_c_20 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_21 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_c_22 : Ref sig .tc := ⟨.hbm, 176, rfl⟩
abbrev main_v122 : Ref sig .tc := ⟨.hbm, 177, rfl⟩
abbrev main_v123 : Ref sig .tc := ⟨.hbm, 178, rfl⟩
abbrev main_c_23 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_24 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_c_25 : Ref sig .tc := ⟨.hbm, 195, rfl⟩
abbrev main_v138 : Ref sig .tc := ⟨.hbm, 196, rfl⟩
abbrev main_v139 : Ref sig .tc := ⟨.hbm, 197, rfl⟩
abbrev main_c_26 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_27 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_c_28 : Ref sig .tc := ⟨.hbm, 214, rfl⟩
abbrev main_v154 : Ref sig .tc := ⟨.hbm, 215, rfl⟩
abbrev main_v155 : Ref sig .tc := ⟨.hbm, 216, rfl⟩
abbrev main_c_29 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_cst_30 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_call2_cst : Ref sig .tc := ⟨.hbm, 230, rfl⟩
abbrev main_call2_v0 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_c_31 : Ref sig .tc := ⟨.hbm, 237, rfl⟩
abbrev main_v172 : Ref sig .tc := ⟨.hbm, 238, rfl⟩
abbrev main_v173 : Ref sig .tc := ⟨.hbm, 239, rfl⟩
abbrev main_c_32 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_c_33 : Ref sig .tc := ⟨.hbm, 246, rfl⟩
abbrev main_v179 : Ref sig .tc := ⟨.hbm, 247, rfl⟩
abbrev main_v180 : Ref sig .tc := ⟨.hbm, 248, rfl⟩
abbrev main_c_34 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_c_35 : Ref sig .tc := ⟨.hbm, 258, rfl⟩
abbrev main_call3_v0 : Ref sig .tc := ⟨.hbm, 259, rfl⟩
abbrev main_v189 : Ref sig .tc := ⟨.hbm, 260, rfl⟩
abbrev main_c_36 : Ref sig .tc := ⟨.hbm, 261, rfl⟩
abbrev main_call4_v0 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_c_37 : Ref sig .tc := ⟨.hbm, 273, rfl⟩
abbrev main_v200 : Ref sig .tc := ⟨.hbm, 274, rfl⟩
abbrev main_v201 : Ref sig .tc := ⟨.hbm, 275, rfl⟩
abbrev main_c_38 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_c_39 : Ref sig .tc := ⟨.hbm, 282, rfl⟩
abbrev main_v207 : Ref sig .tc := ⟨.hbm, 283, rfl⟩
abbrev main_v208 : Ref sig .tc := ⟨.hbm, 284, rfl⟩
abbrev main_c_40 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_c_41 : Ref sig .tc := ⟨.hbm, 294, rfl⟩
abbrev main_call5_v0 : Ref sig .tc := ⟨.hbm, 295, rfl⟩
abbrev main_v217 : Ref sig .tc := ⟨.hbm, 296, rfl⟩
abbrev main_c_42 : Ref sig .tc := ⟨.hbm, 297, rfl⟩
abbrev main_call6_v0 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_c_43 : Ref sig .tc := ⟨.hbm, 307, rfl⟩
abbrev main_v226 : Ref sig .tc := ⟨.hbm, 308, rfl⟩
abbrev main_v227 : Ref sig .tc := ⟨.hbm, 309, rfl⟩
abbrev main_c_44 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_c_45 : Ref sig .tc := ⟨.hbm, 317, rfl⟩
abbrev main_call7_v0 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_c_46 : Ref sig .tc := ⟨.hbm, 328, rfl⟩
abbrev main_v243 : Ref sig .tc := ⟨.hbm, 329, rfl⟩
abbrev main_v244 : Ref sig .tc := ⟨.hbm, 330, rfl⟩
abbrev main_c_47 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_c_48 : Ref sig .tc := ⟨.hbm, 338, rfl⟩
abbrev main_call8_v0 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![62], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![62], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S64x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![62], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S64x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x8192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S20000x64 : S_.BroadcastsInDim S20000x64 (![] : Fin 0 → Fin S20000x64.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S4000x64 : S_.BroadcastsInDim S4000x64 (![] : Fin 0 → Fin S4000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  transposes_S500000x64_S64x500000_1_0 : S500000x64.Transposes [1, 0] S64x500000
  bitsLt_bf16_f32 : FTy.bits .bf16 < FTy.bits .f32
  pads_S64x500000_S64x507904_000_079040 : S64x500000.Pads (![0, 0] : Fin 2 → Nat) ![0, 7904] ![0, 0] S64x507904
  h_S_ : 0 < S_.numel
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  reduces_S64x8192_S8192 : S64x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  slices_S1x507904_S1x500000_0_0 : S1x507904.Slices ![0, 0] S1x500000
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  dot_S20000x128_S128x64_S20000x64_1_0_0_1_n_n_wf : DotDims.WF S20000x128 S128x64 S20000x64 [1] [0] [0] [1] [] []
  gather_S20000x64_S1000000x1_S1000000x64_1_0_n_n_0_1_164_wf : GatherDims.WF S20000x64 S1000000x1 S1000000x64 [1] [0] [] [0] [] 1 ![1, 64]
  scatter_S20000x64_S1000000x1_S1000000x64_1_0_0_1_wf : ScatterDims.WF S20000x64 S1000000x1 S1000000x64 [1] [0] [0] 1
  gather_S20000x64_S400000x1_S400000x64_1_0_n_n_0_1_164_wf : GatherDims.WF S20000x64 S400000x1 S400000x64 [1] [0] [] [0] [] 1 ![1, 64]
  scatter_S4000x64_S400000x1_S400000x64_1_0_0_1_wf : ScatterDims.WF S4000x64 S400000x1 S400000x64 [1] [0] [0] 1
  dot_S4000x128_S128x64_S4000x64_1_0_0_1_n_n_wf : DotDims.WF S4000x128 S128x64 S4000x64 [1] [0] [0] [1] [] []
  gather_S4000x64_S500000x1_S500000x64_1_0_n_n_0_1_164_wf : GatherDims.WF S4000x64 S500000x1 S500000x64 [1] [0] [] [0] [] 1 ![1, 64]
  scatter_S4000x64_S500000x1_S500000x64_1_0_0_1_wf : ScatterDims.WF S4000x64 S500000x1 S500000x64 [1] [0] [0] 1
  dot_S20000x64_S64x64_S20000x64_1_0_0_1_n_n_wf : DotDims.WF S20000x64 S64x64 S20000x64 [1] [0] [0] [1] [] []
  dot_S4000x64_S64x64_S4000x64_1_0_0_1_n_n_wf : DotDims.WF S4000x64 S64x64 S4000x64 [1] [0] [0] [1] [] []
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x507904.size a
  hwx0_0 : ∀ i : grid0.Coords, EltTy.bits .bf16 = 32 ∨ (Rect.block (s := S64x507904) S64x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x507904.size a
  hwx0_1 : ∀ i : grid0.Coords, EltTy.bits .f32 = 32 ∨ (Rect.block (s := S64x507904) S64x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x507904.size a
  hwx0_3 : ∀ i : grid0.Coords, EltTy.bits .f32 = 32 ∨ (Rect.block (s := S1x507904) S1x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x507904.size a
  hwx1_0 : ∀ i : grid1.Coords, EltTy.bits .bf16 = 32 ∨ (Rect.block (s := S64x507904) S64x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x8192.size a ≤ S64x507904.size a
  hwx1_1 : ∀ i : grid1.Coords, EltTy.bits .f32 = 32 ∨ (Rect.block (s := S64x507904) S64x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x507904.size a
  hwx1_3 : ∀ i : grid1.Coords, EltTy.bits .f32 = 32 ∨ (Rect.block (s := S1x507904) S1x8192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x8192.size a ≤ S64x507904.size a
  hwx2_0 : ∀ i : grid2.Coords, EltTy.bits .f32 = 32 ∨ (Rect.block (s := S64x507904) S64x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8192.size a ≤ S1x507904.size a
  hwx2_3 : ∀ i : grid2.Coords, EltTy.bits .f32 = 32 ∨ (Rect.block (s := S1x507904) S1x8192.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x8192.size a ≤ S64x507904.size a
  hwx3_0 : ∀ i : grid3.Coords, EltTy.bits .f32 = 32 ∨ (Rect.block (s := S64x507904) S64x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .bf16 = 32 ∨ (Rect.block (s := S64x64) S64x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x8192.size a ≤ S1x507904.size a
  hwx3_3 : ∀ i : grid3.Coords, EltTy.bits .f32 = 32 ∨ (Rect.block (s := S1x507904) S1x8192.size (cc3_transform_3 i) (hinb3_3 i)).WholeWords (EltTy.packing .f32)

variable [Facts₀]

def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def scatter_S4000x64_S400000x1_S400000x64_1_0_0_1 : ScatterDims S4000x64 S400000x1 S400000x64 where
  updateWindowDims := [1]
  insertedWindowDims := [0]
  scatterDimsToOperandDims := [0]
  indexVectorDim := 1
  wf := scatter_S4000x64_S400000x1_S400000x64_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S4000x64_S500000x1_S500000x64_1_0_n_n_0_1_164 : GatherDims S4000x64 S500000x1 S500000x64 where
  offsetDims := [1]
  collapsedSliceDims := [0]
  operandBatchingDims := []
  startIndicesBatchingDims := []
  startIndexMap := [0]
  indexVectorDim := 1
  sliceSizes := ![1, 64]
  wf := gather_S4000x64_S500000x1_S500000x64_1_0_n_n_0_1_164_wf
def scatter_S4000x64_S500000x1_S500000x64_1_0_0_1 : ScatterDims S4000x64 S500000x1 S500000x64 where
  updateWindowDims := [1]
  insertedWindowDims := [0]
  scatterDimsToOperandDims := [0]
  indexVectorDim := 1
  wf := scatter_S4000x64_S500000x1_S500000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_v189) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v190) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v192) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v193) S1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v217) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v218) S64x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v220) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v221) S1x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v234) S64x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v237) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v236) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v238) S1x8192.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v251) S64x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v254) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v253) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v255) S1x8192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x128 : Shape := ⟨2, ![20000, 128]⟩
abbrev S4000x128 : Shape := ⟨2, ![4000, 128]⟩
abbrev S2x1000000 : Shape := ⟨2, ![2, 1000000]⟩
abbrev S400000 : Shape := ⟨1, ![400000]⟩
abbrev S2x500000 : Shape := ⟨2, ![2, 500000]⟩
abbrev S128x64 : Shape := ⟨2, ![128, 64]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x64 : Shape := ⟨2, ![1000000, 64]⟩
abbrev S20000x64 : Shape := ⟨2, ![20000, 64]⟩
abbrev S400000x1 : Shape := ⟨2, ![400000, 1]⟩
abbrev S400000x128 : Shape := ⟨2, ![400000, 128]⟩
abbrev S400000x64 : Shape := ⟨2, ![400000, 64]⟩
abbrev S4000x64 : Shape := ⟨2, ![4000, 64]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x64 : Shape := ⟨2, ![500000, 64]⟩
abbrev S1x64 : Shape := ⟨2, ![1, 64]⟩

abbrev nBuf : Space → Nat
  | .hbm => 370
  | .vmem => 0
  | .smem => 0
  | _ => 0

abbrev hbmTy0_0 (i : Nat) : BufTy := match i % 128 with
  | 0 => ⟨S20000x128, .f32⟩
  | 1 => ⟨S4000x128, .f32⟩
  | 2 => ⟨S2x1000000, .i32⟩
  | 3 => ⟨S400000, .i32⟩
  | 4 => ⟨S400000, .i32⟩
  | 5 => ⟨S2x500000, .i32⟩
  | 6 => ⟨S2x500000, .i32⟩
  | 7 => ⟨S2x500000, .i32⟩
  | 8 => ⟨S2x500000, .i32⟩
  | 9 => ⟨S128x64, .f32⟩
  | 10 => ⟨S128x64, .f32⟩
  | 11 => ⟨S128x64, .f32⟩
  | 12 => ⟨S128x64, .f32⟩
  | 13 => ⟨S128x64, .f32⟩
  | 14 => ⟨S128x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64, .f32⟩
  | 25 => ⟨S64, .f32⟩
  | 26 => ⟨S1x1000000, .i32⟩
  | 27 => ⟨S1000000, .i32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x128, .f32⟩
  | 37 => ⟨S1000000x64, .f32⟩
  | 38 => ⟨S1x1000000, .i32⟩
  | 39 => ⟨S1000000, .i32⟩
  | 40 => ⟨S_, .f32⟩
  | 41 => ⟨S20000x64, .f32⟩
  | 42 => ⟨S1000000x1, .i32⟩
  | 43 => ⟨S20000x64, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x128, .f32⟩
  | 53 => ⟨S400000x64, .f32⟩
  | 54 => ⟨S_, .f32⟩
  | 55 => ⟨S4000x64, .f32⟩
  | 56 => ⟨S400000x1, .i32⟩
  | 57 => ⟨S4000x64, .f32⟩
  | 58 => ⟨S1x500000, .i32⟩
  | 59 => ⟨S500000, .i32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .f32⟩
  | 69 => ⟨S500000x64, .f32⟩
  | 70 => ⟨S1x500000, .i32⟩
  | 71 => ⟨S500000, .i32⟩
  | 72 => ⟨S_, .f32⟩
  | 73 => ⟨S4000x64, .f32⟩
  | 74 => ⟨S500000x1, .i32⟩
  | 75 => ⟨S4000x64, .f32⟩
  | 76 => ⟨S4000x64, .f32⟩
  | 77 => ⟨S1x500000, .i32⟩
  | 78 => ⟨S500000, .i32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x128, .f32⟩
  | 88 => ⟨S500000x64, .f32⟩
  | 89 => ⟨S1x500000, .i32⟩
  | 90 => ⟨S500000, .i32⟩
  | 91 => ⟨S_, .f32⟩
  | 92 => ⟨S4000x64, .f32⟩
  | 93 => ⟨S500000x1, .i32⟩
  | 94 => ⟨S4000x64, .f32⟩
  | 95 => ⟨S4000x64, .f32⟩
  | 96 => ⟨S1x500000, .i32⟩
  | 97 => ⟨S500000, .i32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S500000x64, .f32⟩
  | 108 => ⟨S1x500000, .i32⟩
  | 109 => ⟨S500000, .i32⟩
  | 110 => ⟨S_, .f32⟩
  | 111 => ⟨S4000x64, .f32⟩
  | 112 => ⟨S500000x1, .i32⟩
  | 113 => ⟨S4000x64, .f32⟩
  | 114 => ⟨S4000x64, .f32⟩
  | 115 => ⟨S1x500000, .i32⟩
  | 116 => ⟨S500000, .i32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x128, .f32⟩
  | 126 => ⟨S500000x64, .f32⟩
  | 127 => ⟨S1x500000, .i32⟩
  | _ => ⟨S20000x128, .f32⟩

abbrev hbmTy0_1 (i : Nat) : BufTy := match i % 128 with
  | 0 => ⟨S500000, .i32⟩
  | 1 => ⟨S_, .f32⟩
  | 2 => ⟨S4000x64, .f32⟩
  | 3 => ⟨S500000x1, .i32⟩
  | 4 => ⟨S4000x64, .f32⟩
  | 5 => ⟨S4000x64, .f32⟩
  | 6 => ⟨S_, .f32⟩
  | 7 => ⟨S20000x64, .f32⟩
  | 8 => ⟨S20000x64, .f32⟩
  | 9 => ⟨S_, .f32⟩
  | 10 => ⟨S4000x64, .f32⟩
  | 11 => ⟨S4000x64, .f32⟩
  | 12 => ⟨S1x1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x64, .f32⟩
  | 24 => ⟨S1x1000000, .i32⟩
  | 25 => ⟨S1000000, .i32⟩
  | 26 => ⟨S_, .f32⟩
  | 27 => ⟨S20000x64, .f32⟩
  | 28 => ⟨S1000000x1, .i32⟩
  | 29 => ⟨S20000x64, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x64, .f32⟩
  | 39 => ⟨S400000x64, .f32⟩
  | 40 => ⟨S_, .f32⟩
  | 41 => ⟨S4000x64, .f32⟩
  | 42 => ⟨S400000x1, .i32⟩
  | 43 => ⟨S4000x64, .f32⟩
  | 44 => ⟨S1x500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x64, .f32⟩
  | 55 => ⟨S500000x64, .f32⟩
  | 56 => ⟨S1x500000, .i32⟩
  | 57 => ⟨S500000, .i32⟩
  | 58 => ⟨S_, .f32⟩
  | 59 => ⟨S4000x64, .f32⟩
  | 60 => ⟨S500000x1, .i32⟩
  | 61 => ⟨S4000x64, .f32⟩
  | 62 => ⟨S4000x64, .f32⟩
  | 63 => ⟨S1x500000, .i32⟩
  | 64 => ⟨S500000, .i32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x64, .f32⟩
  | 74 => ⟨S500000x64, .f32⟩
  | 75 => ⟨S1x500000, .i32⟩
  | 76 => ⟨S500000, .i32⟩
  | 77 => ⟨S_, .f32⟩
  | 78 => ⟨S4000x64, .f32⟩
  | 79 => ⟨S500000x1, .i32⟩
  | 80 => ⟨S4000x64, .f32⟩
  | 81 => ⟨S4000x64, .f32⟩
  | 82 => ⟨S1x500000, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x64, .f32⟩
  | 93 => ⟨S500000x64, .f32⟩
  | 94 => ⟨S1x500000, .i32⟩
  | 95 => ⟨S500000, .i32⟩
  | 96 => ⟨S_, .f32⟩
  | 97 => ⟨S4000x64, .f32⟩
  | 98 => ⟨S500000x1, .i32⟩
  | 99 => ⟨S4000x64, .f32⟩
  | 100 => ⟨S4000x64, .f32⟩
  | 101 => ⟨S1x500000, .i32⟩
  | 102 => ⟨S500000, .i32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x64, .f32⟩
  | 112 => ⟨S500000x64, .f32⟩
  | 113 => ⟨S1x500000, .i32⟩
  | 114 => ⟨S500000, .i32⟩
  | 115 => ⟨S_, .f32⟩
  | 116 => ⟨S4000x64, .f32⟩
  | 117 => ⟨S500000x1, .i32⟩
  | 118 => ⟨S4000x64, .f32⟩
  | 119 => ⟨S4000x64, .f32⟩
  | 120 => ⟨S_, .f32⟩
  | 121 => ⟨S20000x64, .f32⟩
  | 122 => ⟨S20000x64, .f32⟩
  | 123 => ⟨S_, .f32⟩
  | 124 => ⟨S4000x64, .f32⟩
  | 125 => ⟨S4000x64, .f32⟩
  | 126 => ⟨S1x500000, .i32⟩
  | 127 => ⟨S500000, .i32⟩
  | _ => ⟨S20000x128, .f32⟩

abbrev hbmTy0_2 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x64, .f32⟩
  | 9 => ⟨S500000x64, .f32⟩
  | 10 => ⟨S1x500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x64, .f32⟩
  | 21 => ⟨S500000x64, .f32⟩
  | 22 => ⟨S_, .f32⟩
  | 23 => ⟨S500000, .f32⟩
  | 24 => ⟨S1x500000, .i32⟩
  | 25 => ⟨S500000, .i32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x64, .f32⟩
  | 35 => ⟨S500000x64, .f32⟩
  | 36 => ⟨S1x500000, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x64, .f32⟩
  | 47 => ⟨S500000x64, .f32⟩
  | 48 => ⟨S_, .f32⟩
  | 49 => ⟨S500000, .f32⟩
  | 50 => ⟨S1x500000, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x64, .f32⟩
  | 61 => ⟨S1x500000, .i32⟩
  | 62 => ⟨S500000, .i32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x64, .f32⟩
  | 72 => ⟨S1x64, .f32⟩
  | 73 => ⟨S500000x64, .f32⟩
  | 74 => ⟨S500000x64, .f32⟩
  | 75 => ⟨S500000x64, .f32⟩
  | 76 => ⟨S1x64, .f32⟩
  | 77 => ⟨S500000x64, .f32⟩
  | 78 => ⟨S500000x64, .f32⟩
  | 79 => ⟨S500000x64, .f32⟩
  | 80 => ⟨S_, .f32⟩
  | 81 => ⟨S500000, .f32⟩
  | 82 => ⟨S1x500000, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x64, .f32⟩
  | 93 => ⟨S1x500000, .i32⟩
  | 94 => ⟨S500000, .i32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S500000x64, .f32⟩
  | 104 => ⟨S1x64, .f32⟩
  | 105 => ⟨S500000x64, .f32⟩
  | 106 => ⟨S500000x64, .f32⟩
  | 107 => ⟨S500000x64, .f32⟩
  | 108 => ⟨S1x64, .f32⟩
  | 109 => ⟨S500000x64, .f32⟩
  | 110 => ⟨S500000x64, .f32⟩
  | 111 => ⟨S500000x64, .f32⟩
  | 112 => ⟨S_, .f32⟩
  | 113 => ⟨S500000, .f32⟩
  | _ => ⟨S20000x128, .f32⟩

abbrev hbmTy (i : Nat) : BufTy := match i / 128 with
  | 0 => hbmTy0_0 i
  | 1 => hbmTy0_1 i
  | 2 => hbmTy0_2 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_4 : Ref sig .tc := ⟨.hbm, 60, rfl⟩
abbrev main_v28 : Ref sig .tc := ⟨.hbm, 61, rfl⟩
abbrev main_v29 : Ref sig .tc := ⟨.hbm, 62, rfl⟩
abbrev main_c_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_6 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_7 : Ref sig .tc := ⟨.hbm, 79, rfl⟩
abbrev main_v44 : Ref sig .tc := ⟨.hbm, 80, rfl⟩
abbrev main_v45 : Ref sig .tc := ⟨.hbm, 81, rfl⟩
abbrev main_c_8 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_9 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_10 : Ref sig .tc := ⟨.hbm, 98, rfl⟩
abbrev main_v60 : Ref sig .tc := ⟨.hbm, 99, rfl⟩
abbrev main_v61 : Ref sig .tc := ⟨.hbm, 100, rfl⟩
abbrev main_c_11 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_12 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_13 : Ref sig .tc := ⟨.hbm, 117, rfl⟩
abbrev main_v76 : Ref sig .tc := ⟨.hbm, 118, rfl⟩
abbrev main_v77 : Ref sig .tc := ⟨.hbm, 119, rfl⟩
abbrev main_c_14 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_15 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_call0_cst : Ref sig .tc := ⟨.hbm, 134, rfl⟩
abbrev main_call0_v0 : Ref sig .tc := ⟨.hbm, 135, rfl⟩
abbrev main_v90 : Ref sig .tc := ⟨.hbm, 136, rfl⟩
abbrev main_call1_cst : Ref sig .tc := ⟨.hbm, 137, rfl⟩
abbrev main_call1_v0 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_c_16 : Ref sig .tc := ⟨.hbm, 142, rfl⟩
abbrev main_v94 : Ref sig .tc := ⟨.hbm, 143, rfl⟩
abbrev main_v95 : Ref sig .tc := ⟨.hbm, 144, rfl⟩
abbrev main_c_17 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_18 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_19 : Ref sig .tc := ⟨.hbm, 158, rfl⟩
abbrev main_v107 : Ref sig .tc := ⟨.hbm, 159, rfl⟩
abbrev main_v108 : Ref sig .tc := ⟨.hbm, 160, rfl⟩
abbrev main_c_20 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_21 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_c_22 : Ref sig .tc := ⟨.hbm, 174, rfl⟩
abbrev main_v120 : Ref sig .tc := ⟨.hbm, 175, rfl⟩
abbrev main_v121 : Ref sig .tc := ⟨.hbm, 176, rfl⟩
abbrev main_c_23 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_24 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_c_25 : Ref sig .tc := ⟨.hbm, 193, rfl⟩
abbrev main_v136 : Ref sig .tc := ⟨.hbm, 194, rfl⟩
abbrev main_v137 : Ref sig .tc := ⟨.hbm, 195, rfl⟩
abbrev main_c_26 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_27 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_28 : Ref sig .tc := ⟨.hbm, 212, rfl⟩
abbrev main_v152 : Ref sig .tc := ⟨.hbm, 213, rfl⟩
abbrev main_v153 : Ref sig .tc := ⟨.hbm, 214, rfl⟩
abbrev main_c_29 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_cst_30 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_c_31 : Ref sig .tc := ⟨.hbm, 231, rfl⟩
abbrev main_v168 : Ref sig .tc := ⟨.hbm, 232, rfl⟩
abbrev main_v169 : Ref sig .tc := ⟨.hbm, 233, rfl⟩
abbrev main_c_32 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_cst_33 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_call2_cst : Ref sig .tc := ⟨.hbm, 248, rfl⟩
abbrev main_call2_v0 : Ref sig .tc := ⟨.hbm, 249, rfl⟩
abbrev main_v182 : Ref sig .tc := ⟨.hbm, 250, rfl⟩
abbrev main_call3_cst : Ref sig .tc := ⟨.hbm, 251, rfl⟩
abbrev main_call3_v0 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_c_34 : Ref sig .tc := ⟨.hbm, 256, rfl⟩
abbrev main_v186 : Ref sig .tc := ⟨.hbm, 257, rfl⟩
abbrev main_v187 : Ref sig .tc := ⟨.hbm, 258, rfl⟩
abbrev main_c_35 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_c_36 : Ref sig .tc := ⟨.hbm, 268, rfl⟩
abbrev main_v196 : Ref sig .tc := ⟨.hbm, 269, rfl⟩
abbrev main_v197 : Ref sig .tc := ⟨.hbm, 270, rfl⟩
abbrev main_c_37 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_cst_38 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_c_39 : Ref sig .tc := ⟨.hbm, 282, rfl⟩
abbrev main_v207 : Ref sig .tc := ⟨.hbm, 283, rfl⟩
abbrev main_v208 : Ref sig .tc := ⟨.hbm, 284, rfl⟩
abbrev main_c_40 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_c_41 : Ref sig .tc := ⟨.hbm, 294, rfl⟩
abbrev main_v217 : Ref sig .tc := ⟨.hbm, 295, rfl⟩
abbrev main_v218 : Ref sig .tc := ⟨.hbm, 296, rfl⟩
abbrev main_c_42 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_cst_43 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_c_44 : Ref sig .tc := ⟨.hbm, 308, rfl⟩
abbrev main_v228 : Ref sig .tc := ⟨.hbm, 309, rfl⟩
abbrev main_v229 : Ref sig .tc := ⟨.hbm, 310, rfl⟩
abbrev main_c_45 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_c_46 : Ref sig .tc := ⟨.hbm, 319, rfl⟩
abbrev main_v237 : Ref sig .tc := ⟨.hbm, 320, rfl⟩
abbrev main_v238 : Ref sig .tc := ⟨.hbm, 321, rfl⟩
abbrev main_c_47 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_cst_48 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_c_49 : Ref sig .tc := ⟨.hbm, 340, rfl⟩
abbrev main_v255 : Ref sig .tc := ⟨.hbm, 341, rfl⟩
abbrev main_v256 : Ref sig .tc := ⟨.hbm, 342, rfl⟩
abbrev main_c_50 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_c_51 : Ref sig .tc := ⟨.hbm, 351, rfl⟩
abbrev main_v264 : Ref sig .tc := ⟨.hbm, 352, rfl⟩
abbrev main_v265 : Ref sig .tc := ⟨.hbm, 353, rfl⟩
abbrev main_c_52 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_cst_53 : Ref sig .tc := ⟨.hbm, 368, rfl⟩
abbrev main_v279 : Ref sig .tc := ⟨.hbm, 369, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S20000x64 : S_.BroadcastsInDim S20000x64 (![] : Fin 0 → Fin S20000x64.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S4000x64 : S_.BroadcastsInDim S4000x64 (![] : Fin 0 → Fin S4000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x64_S500000_d1 : S500000x64.ReducesTo [1] S500000
  h_S_ : 0 < S_.numel
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  gather_S20000x128_S1000000x1_S1000000x128_1_0_n_n_0_1_1128_wf : GatherDims.WF S20000x128 S1000000x1 S1000000x128 [1] [0] [] [0] [] 1 ![1, 128]
  dot_S1000000x128_S128x64_S1000000x64_1_0_0_1_n_n_wf : DotDims.WF S1000000x128 S128x64 S1000000x64 [1] [0] [0] [1] [] []
  scatter_S20000x64_S1000000x1_S1000000x64_1_0_0_1_wf : ScatterDims.WF S20000x64 S1000000x1 S1000000x64 [1] [0] [0] 1
  gather_S20000x128_S400000x1_S400000x128_1_0_n_n_0_1_1128_wf : GatherDims.WF S20000x128 S400000x1 S400000x128 [1] [0] [] [0] [] 1 ![1, 128]
  dot_S400000x128_S128x64_S400000x64_1_0_0_1_n_n_wf : DotDims.WF S400000x128 S128x64 S400000x64 [1] [0] [0] [1] [] []
  scatter_S4000x64_S400000x1_S400000x64_1_0_0_1_wf : ScatterDims.WF S4000x64 S400000x1 S400000x64 [1] [0] [0] 1
  gather_S4000x128_S500000x1_S500000x128_1_0_n_n_0_1_1128_wf : GatherDims.WF S4000x128 S500000x1 S500000x128 [1] [0] [] [0] [] 1 ![1, 128]
  dot_S500000x128_S128x64_S500000x64_1_0_0_1_n_n_wf : DotDims.WF S500000x128 S128x64 S500000x64 [1] [0] [0] [1] [] []
  scatter_S4000x64_S500000x1_S500000x64_1_0_0_1_wf : ScatterDims.WF S4000x64 S500000x1 S500000x64 [1] [0] [0] 1
  gather_S20000x64_S1000000x1_S1000000x64_1_0_n_n_0_1_164_wf : GatherDims.WF S20000x64 S1000000x1 S1000000x64 [1] [0] [] [0] [] 1 ![1, 64]
  dot_S1000000x64_S64x64_S1000000x64_1_0_0_1_n_n_wf : DotDims.WF S1000000x64 S64x64 S1000000x64 [1] [0] [0] [1] [] []
  gather_S20000x64_S400000x1_S400000x64_1_0_n_n_0_1_164_wf : GatherDims.WF S20000x64 S400000x1 S400000x64 [1] [0] [] [0] [] 1 ![1, 64]
  dot_S400000x64_S64x64_S400000x64_1_0_0_1_n_n_wf : DotDims.WF S400000x64 S64x64 S400000x64 [1] [0] [0] [1] [] []
  gather_S4000x64_S500000x1_S500000x64_1_0_n_n_0_1_164_wf : GatherDims.WF S4000x64 S500000x1 S500000x64 [1] [0] [] [0] [] 1 ![1, 64]
  dot_S500000x64_S64x64_S500000x64_1_0_0_1_n_n_wf : DotDims.WF S500000x64 S64x64 S500000x64 [1] [0] [0] [1] [] []

variable [Facts₀]

def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def scatter_S4000x64_S400000x1_S400000x64_1_0_0_1 : ScatterDims S4000x64 S400000x1 S400000x64 where
  updateWindowDims := [1]
  insertedWindowDims := [0]
  scatterDimsToOperandDims := [0]
  indexVectorDim := 1
  wf := scatter_S4000x64_S400000x1_S400000x64_1_0_0_1_wf
def gather_S4000x128_S500000x1_S500000x128_1_0_n_n_0_1_1128 : GatherDims S4000x128 S500000x1 S500000x128 where
  offsetDims := [1]
  collapsedSliceDims := [0]
  operandBatchingDims := []
  startIndicesBatchingDims := []
  startIndexMap := [0]
  indexVectorDim := 1
  sliceSizes := ![1, 128]
  wf := gather_S4000x128_S500000x1_S500000x128_1_0_n_n_0_1_1128_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def scatter_S4000x64_S500000x1_S500000x64_1_0_0_1 : ScatterDims S4000x64 S500000x1 S500000x64 where
  updateWindowDims := [1]
  insertedWindowDims := [0]
  scatterDimsToOperandDims := [0]
  indexVectorDim := 1
  wf := scatter_S4000x64_S500000x1_S500000x64_1_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf
def gather_S4000x64_S500000x1_S500000x64_1_0_n_n_0_1_164 : GatherDims S4000x64 S500000x1 S500000x64 where
  offsetDims := [1]
  collapsedSliceDims := [0]
  operandBatchingDims := []
  startIndicesBatchingDims := []
  startIndexMap := [0]
  indexVectorDim := 1
  sliceSizes := ![1, 64]
  wf := gather_S4000x64_S500000x1_S500000x64_1_0_n_n_0_1_164_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.KernelRun.lean ====
/-
  The run of the idealized kernel program with its four results named.

  Every weakly fair execution of the program on the TensorCores, from any memory with zero counters,
  terminates without fault, and in every final state each of the four result buffers holds what the
  fold of boundary contents assigns to it at the last boundary, and every argument array is as launched.
  The argument is the generated frame's: the program is a list of host stretches and kernel regions,
  the thread state at each boundary says that every unscoped buffer holds the boundary's contents, and
  the last such state is read against the final memory.  Here the four result buffers are read off that
  last state as well as the arguments.
-/
import proofs.«105939_j23287312679606_2_alg».proof.Proof.Gen.KernelIdeal.Frame

set_option maxRecDepth 16384

noncomputable section

namespace Cert.KernelIdeal.HostV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its results named: in every final state each result buffer holds the last boundary's
    contents at that buffer, and each argument array its launch contents. -/
theorem run_results : θ_run defs (onTc (τ := τ) (main (F := F))) ⟨m, fun _ => 0, ρ⟩ (fun r => ∀ c : Dev nD,
      r.2.mem ((c.tc : Thread nD τ).loc main_v195) = Gen.W27 m ρ c (Proc.devRef .tc main_v195)
      ∧ r.2.mem ((c.tc : Thread nD τ).loc main_v223) = Gen.W27 m ρ c (Proc.devRef .tc main_v223)
      ∧ r.2.mem ((c.tc : Thread nD τ).loc main_v240) = Gen.W27 m ρ c (Proc.devRef .tc main_v240)
      ∧ r.2.mem ((c.tc : Thread nD τ).loc main_v257) = Gen.W27 m ρ c (Proc.devRef .tc main_v257)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v195 (by decide)),
       h c _ (mem_uc main_v223 (by decide)),
       h c _ (mem_uc main_v240 (by decide)),
       h c _ (mem_uc main_v257 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c),
       (h c _ (mem_uc main_arg13 (by decide))).trans (W27_main_arg13 m ρ c),
       (h c _ (mem_uc main_arg14 (by decide))).trans (W27_main_arg14 m ρ c),
       (h c _ (mem_uc main_arg15 (by decide))).trans (W27_main_arg15 m ρ c),
       (h c _ (mem_uc main_arg16 (by decide))).trans (W27_main_arg16 m ρ c),
       (h c _ (mem_uc main_arg17 (by decide))).trans (W27_main_arg17 m ρ c),
       (h c _ (mem_uc main_arg18 (by decide))).trans (W27_main_arg18 m ρ c),
       (h c _ (mem_uc main_arg19 (by decide))).trans (W27_main_arg19 m ρ c),
       (h c _ (mem_uc main_arg20 (by decide))).trans (W27_main_arg20 m ρ c),
       (h c _ (mem_uc main_arg21 (by decide))).trans (W27_main_arg21 m ρ c),
       (h c _ (mem_uc main_arg22 (by decide))).trans (W27_main_arg22 m ρ c),
       (h c _ (mem_uc main_arg23 (by decide))).trans (W27_main_arg23 m ρ c),
       (h c _ (mem_uc main_arg24 (by decide))).trans (W27_main_arg24 m ρ c),
       (h c _ (mem_uc main_arg25 (by decide))).trans (W27_main_arg25 m ρ c)⟩)

end Cert.KernelIdeal.HostV

end
-- ==== Proof.KernelWalk.lean ====
/-
  Host stretches leave alone what they do not write.

  For each stretch of host operations of the program, the buffers its operations write are listed, and a
  buffer outside the list holds after the stretch what it held before, from any contents: each operation
  rewrites its own result buffer only.
-/
import proofs.«105939_j23287312679606_2_alg».proof.Proof.Gen.KernelIdeal.Frame
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One lemma per stretch: the fold of the stretch, read at a buffer it does not write -/

/-- The buffers `hostOps0` writes, in order. -/
abbrev skip0W : List (Ref sig .tc) := [main_v0, main_v1, main_v2, main_c, main_v3, main_v4, main_c_0, main_v5, main_v6, main_v7, main_v8, main_v9, main_v10, main_v11, main_cst, main_v12, main_v13, main_v14]
theorem skip0 (Z : Valuation τ sig (Elt F)) (b : Ref sig .tc) (hb : b ∉ skip0W) :
    StableHlo.after (hostOps0 (F := F)) Z (Proc.devRef .tc b) = Z (Proc.devRef .tc b) :=
  StableHlo.after_of_writes_sub (W := skip0W) hostOps0 Z (by
    simp only [hostOps0, skip0W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_1` writes, in order. -/
abbrev skip0_1W : List (Ref sig .tc) := [main_call0_cst, main_call0_v0, main_v15]
theorem skip0_1 (Z : Valuation τ sig (Elt F)) (b : Ref sig .tc) (hb : b ∉ skip0_1W) :
    StableHlo.after (hostOps0_1 (F := F)) Z (Proc.devRef .tc b) = Z (Proc.devRef .tc b) :=
  StableHlo.after_of_writes_sub (W := skip0_1W) hostOps0_1 Z (by
    simp only [hostOps0_1, skip0_1W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_2` writes, in order. -/
abbrev skip0_2W : List (Ref sig .tc) := [main_v16, main_c_1, main_v17, main_v18, main_c_2, main_v19, main_v20, main_v21, main_v22, main_v23, main_cst_3, main_v24, main_v25, main_v26, main_v27, main_v28, main_v29, main_c_4, main_v30, main_v31, main_c_5, main_v32, main_v33, main_v34, main_v35, main_v36, main_v37, main_v38, main_cst_6, main_v39, main_v40, main_v41, main_v42, main_v43, main_v44, main_v45, main_c_7, main_v46, main_v47, main_c_8, main_v48, main_v49, main_v50, main_v51, main_v52, main_v53, main_v54, main_cst_9, main_v55, main_v56, main_v57, main_v58, main_v59, main_v60, main_v61, main_c_10, main_v62, main_v63, main_c_11, main_v64, main_v65, main_v66, main_v67, main_v68, main_v69, main_v70, main_cst_12, main_v71, main_v72, main_v73, main_v74, main_v75, main_v76, main_v77, main_c_13, main_v78, main_v79, main_c_14, main_v80, main_v81, main_v82, main_v83, main_v84, main_v85, main_v86, main_cst_15, main_v87, main_v88, main_v89, main_v90]
theorem skip0_2 (Z : Valuation τ sig (Elt F)) (b : Ref sig .tc) (hb : b ∉ skip0_2W) :
    StableHlo.after (hostOps0_2 (F := F)) Z (Proc.devRef .tc b) = Z (Proc.devRef .tc b) :=
  StableHlo.after_of_writes_sub (W := skip0_2W) hostOps0_2 Z (by
    simp only [hostOps0_2, skip0_2W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_3` writes, in order. -/
abbrev skip0_3W : List (Ref sig .tc) := [main_call1_cst, main_call1_v0, main_v91]
theorem skip0_3 (Z : Valuation τ sig (Elt F)) (b : Ref sig .tc) (hb : b ∉ skip0_3W) :
    StableHlo.after (hostOps0_3 (F := F)) Z (Proc.devRef .tc b) = Z (Proc.devRef .tc b) :=
  StableHlo.after_of_writes_sub (W := skip0_3W) hostOps0_3 Z (by
    simp only [hostOps0_3, skip0_3W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_4` writes, in order. -/
abbrev skip0_4W : List (Ref sig .tc) := [main_v92, main_c_16, main_v93, main_v94, main_c_17, main_v95, main_v96, main_v97, main_v98, main_v99, main_cst_18, main_v100, main_v101, main_v102, main_v103, main_v104, main_v105, main_c_19, main_v106, main_v107, main_c_20, main_v108, main_v109, main_v110, main_v111, main_v112, main_v113, main_v114, main_cst_21, main_v115, main_v116, main_v117, main_v118, main_v119, main_v120, main_v121, main_c_22, main_v122, main_v123, main_c_23, main_v124, main_v125, main_v126, main_v127, main_v128, main_v129, main_v130, main_cst_24, main_v131, main_v132, main_v133, main_v134, main_v135, main_v136, main_v137, main_c_25, main_v138, main_v139, main_c_26, main_v140, main_v141, main_v142, main_v143, main_v144, main_v145, main_v146, main_cst_27, main_v147, main_v148, main_v149, main_v150, main_v151, main_v152, main_v153, main_c_28, main_v154, main_v155, main_c_29, main_v156, main_v157, main_v158, main_v159, main_v160, main_v161, main_v162, main_cst_30, main_v163, main_v164, main_v165, main_v166]
theorem skip0_4 (Z : Valuation τ sig (Elt F)) (b : Ref sig .tc) (hb : b ∉ skip0_4W) :
    StableHlo.after (hostOps0_4 (F := F)) Z (Proc.devRef .tc b) = Z (Proc.devRef .tc b) :=
  StableHlo.after_of_writes_sub (W := skip0_4W) hostOps0_4 Z (by
    simp only [hostOps0_4, skip0_4W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_5` writes, in order. -/
abbrev skip0_5W : List (Ref sig .tc) := [main_call2_cst, main_call2_v0, main_v167]
theorem skip0_5 (Z : Valuation τ sig (Elt F)) (b : Ref sig .tc) (hb : b ∉ skip0_5W) :
    StableHlo.after (hostOps0_5 (F := F)) Z (Proc.devRef .tc b) = Z (Proc.devRef .tc b) :=
  StableHlo.after_of_writes_sub (W := skip0_5W) hostOps0_5 Z (by
    simp only [hostOps0_5, skip0_5W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_6` writes, in order. -/
abbrev skip0_6W : List (Ref sig .tc) := [main_v168, main_v169, main_v170, main_v171, main_c_31, main_v172, main_v173, main_c_32, main_v174, main_v175, main_v176, main_v177, main_v178, main_c_33, main_v179, main_v180, main_c_34, main_v181, main_v182, main_v183, main_v184, main_v185, main_v186, main_v187, main_v188, main_c_35]
theorem skip0_6 (Z : Valuation τ sig (Elt F)) (b : Ref sig .tc) (hb : b ∉ skip0_6W) :
    StableHlo.after (hostOps0_6 (F := F)) Z (Proc.devRef .tc b) = Z (Proc.devRef .tc b) :=
  StableHlo.after_of_writes_sub (W := skip0_6W) hostOps0_6 Z (by
    simp only [hostOps0_6, skip0_6W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_7` writes, in order. -/
abbrev skip0_7W : List (Ref sig .tc) := [main_call3_v0, main_v189]
theorem skip0_7 (Z : Valuation τ sig (Elt F)) (b : Ref sig .tc) (hb : b ∉ skip0_7W) :
    StableHlo.after (hostOps0_7 (F := F)) Z (Proc.devRef .tc b) = Z (Proc.devRef .tc b) :=
  StableHlo.after_of_writes_sub (W := skip0_7W) hostOps0_7 Z (by
    simp only [hostOps0_7, skip0_7W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_8` writes, in order. -/
abbrev skip0_8W : List (Ref sig .tc) := [main_c_36]
theorem skip0_8 (Z : Valuation τ sig (Elt F)) (b : Ref sig .tc) (hb : b ∉ skip0_8W) :
    StableHlo.after (hostOps0_8 (F := F)) Z (Proc.devRef .tc b) = Z (Proc.devRef .tc b) :=
  StableHlo.after_of_writes_sub (W := skip0_8W) hostOps0_8 Z (by
    simp only [hostOps0_8, skip0_8W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_9` writes, in order. -/
abbrev skip0_9W : List (Ref sig .tc) := [main_call4_v0, main_v190]
theorem skip0_9 (Z : Valuation τ sig (Elt F)) (b : Ref sig .tc) (hb : b ∉ skip0_9W) :
    StableHlo.after (hostOps0_9 (F := F)) Z (Proc.devRef .tc b) = Z (Proc.devRef .tc b) :=
  StableHlo.after_of_writes_sub (W := skip0_9W) hostOps0_9 Z (by
    simp only [hostOps0_9, skip0_9W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps0_10` writes, in order. -/
abbrev skip0_10W : List (Ref sig .tc) := [main_v191, main_v192]
theorem skip0_10 (Z : Valuation τ sig (Elt F)) (b : Ref sig .tc) (hb : b ∉ skip0_10W) :
    StableHlo.after (hostOps0_10 (F := F)) Z (Proc.devRef .tc b) = Z (Proc.devRef .tc b) :=
  StableHlo.after_of_writes_sub (W := skip0_10W) hostOps0_10 Z (by
    simp only [hostOps0_10, skip0_10W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps1` writes, in order. -/
abbrev skip1W : List (Ref sig .tc) := [main_v194, main_v195, main_v196, main_v197, main_v198, main_v199, main_c_37, main_v200, main_v201, main_c_38, main_v202, main_v203, main_v204, main_v205, main_v206, main_c_39, main_v207, main_v208, main_c_40, main_v209, main_v210, main_v211, main_v212, main_v213, main_v214, main_v215, main_v216, main_c_41]
theorem skip1 (Z : Valuation τ sig (Elt F)) (b : Ref sig .tc) (hb : b ∉ skip1W) :
    StableHlo.after (hostOps1 (F := F)) Z (Proc.devRef .tc b) = Z (Proc.devRef .tc b) :=
  StableHlo.after_of_writes_sub (W := skip1W) hostOps1 Z (by
    simp only [hostOps1, skip1W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps1_1` writes, in order. -/
abbrev skip1_1W : List (Ref sig .tc) := [main_call5_v0, main_v217]
theorem skip1_1 (Z : Valuation τ sig (Elt F)) (b : Ref sig .tc) (hb : b ∉ skip1_1W) :
    StableHlo.after (hostOps1_1 (F := F)) Z (Proc.devRef .tc b) = Z (Proc.devRef .tc b) :=
  StableHlo.after_of_writes_sub (W := skip1_1W) hostOps1_1 Z (by
    simp only [hostOps1_1, skip1_1W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps1_2` writes, in order. -/
abbrev skip1_2W : List (Ref sig .tc) := [main_c_42]
theorem skip1_2 (Z : Valuation τ sig (Elt F)) (b : Ref sig .tc) (hb : b ∉ skip1_2W) :
    StableHlo.after (hostOps1_2 (F := F)) Z (Proc.devRef .tc b) = Z (Proc.devRef .tc b) :=
  StableHlo.after_of_writes_sub (W := skip1_2W) hostOps1_2 Z (by
    simp only [hostOps1_2, skip1_2W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps1_3` writes, in order. -/
abbrev skip1_3W : List (Ref sig .tc) := [main_call6_v0, main_v218]
theorem skip1_3 (Z : Valuation τ sig (Elt F)) (b : Ref sig .tc) (hb : b ∉ skip1_3W) :
    StableHlo.after (hostOps1_3 (F := F)) Z (Proc.devRef .tc b) = Z (Proc.devRef .tc b) :=
  StableHlo.after_of_writes_sub (W := skip1_3W) hostOps1_3 Z (by
    simp only [hostOps1_3, skip1_3W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps1_4` writes, in order. -/
abbrev skip1_4W : List (Ref sig .tc) := [main_v219, main_v220]
theorem skip1_4 (Z : Valuation τ sig (Elt F)) (b : Ref sig .tc) (hb : b ∉ skip1_4W) :
    StableHlo.after (hostOps1_4 (F := F)) Z (Proc.devRef .tc b) = Z (Proc.devRef .tc b) :=
  StableHlo.after_of_writes_sub (W := skip1_4W) hostOps1_4 Z (by
    simp only [hostOps1_4, skip1_4W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps2` writes, in order. -/
abbrev skip2W : List (Ref sig .tc) := [main_v222, main_v223, main_v224, main_v225, main_c_43, main_v226, main_v227, main_c_44, main_v228, main_v229, main_v230, main_v231, main_v232, main_v233, main_c_45]
theorem skip2 (Z : Valuation τ sig (Elt F)) (b : Ref sig .tc) (hb : b ∉ skip2W) :
    StableHlo.after (hostOps2 (F := F)) Z (Proc.devRef .tc b) = Z (Proc.devRef .tc b) :=
  StableHlo.after_of_writes_sub (W := skip2W) hostOps2 Z (by
    simp only [hostOps2, skip2W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps2_1` writes, in order. -/
abbrev skip2_1W : List (Ref sig .tc) := [main_call7_v0, main_v234]
theorem skip2_1 (Z : Valuation τ sig (Elt F)) (b : Ref sig .tc) (hb : b ∉ skip2_1W) :
    StableHlo.after (hostOps2_1 (F := F)) Z (Proc.devRef .tc b) = Z (Proc.devRef .tc b) :=
  StableHlo.after_of_writes_sub (W := skip2_1W) hostOps2_1 Z (by
    simp only [hostOps2_1, skip2_1W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps2_2` writes, in order. -/
abbrev skip2_2W : List (Ref sig .tc) := [main_v235, main_v236, main_v237]
theorem skip2_2 (Z : Valuation τ sig (Elt F)) (b : Ref sig .tc) (hb : b ∉ skip2_2W) :
    StableHlo.after (hostOps2_2 (F := F)) Z (Proc.devRef .tc b) = Z (Proc.devRef .tc b) :=
  StableHlo.after_of_writes_sub (W := skip2_2W) hostOps2_2 Z (by
    simp only [hostOps2_2, skip2_2W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps3` writes, in order. -/
abbrev skip3W : List (Ref sig .tc) := [main_v239, main_v240, main_v241, main_v242, main_c_46, main_v243, main_v244, main_c_47, main_v245, main_v246, main_v247, main_v248, main_v249, main_v250, main_c_48]
theorem skip3 (Z : Valuation τ sig (Elt F)) (b : Ref sig .tc) (hb : b ∉ skip3W) :
    StableHlo.after (hostOps3 (F := F)) Z (Proc.devRef .tc b) = Z (Proc.devRef .tc b) :=
  StableHlo.after_of_writes_sub (W := skip3W) hostOps3 Z (by
    simp only [hostOps3, skip3W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps3_1` writes, in order. -/
abbrev skip3_1W : List (Ref sig .tc) := [main_call8_v0, main_v251]
theorem skip3_1 (Z : Valuation τ sig (Elt F)) (b : Ref sig .tc) (hb : b ∉ skip3_1W) :
    StableHlo.after (hostOps3_1 (F := F)) Z (Proc.devRef .tc b) = Z (Proc.devRef .tc b) :=
  StableHlo.after_of_writes_sub (W := skip3_1W) hostOps3_1 Z (by
    simp only [hostOps3_1, skip3_1W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps3_2` writes, in order. -/
abbrev skip3_2W : List (Ref sig .tc) := [main_v252, main_v253, main_v254]
theorem skip3_2 (Z : Valuation τ sig (Elt F)) (b : Ref sig .tc) (hb : b ∉ skip3_2W) :
    StableHlo.after (hostOps3_2 (F := F)) Z (Proc.devRef .tc b) = Z (Proc.devRef .tc b) :=
  StableHlo.after_of_writes_sub (W := skip3_2W) hostOps3_2 Z (by
    simp only [hostOps3_2, skip3_2W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

/-- The buffers `hostOps4` writes, in order. -/
abbrev skip4W : List (Ref sig .tc) := [main_v256, main_v257]
theorem skip4 (Z : Valuation τ sig (Elt F)) (b : Ref sig .tc) (hb : b ∉ skip4W) :
    StableHlo.after (hostOps4 (F := F)) Z (Proc.devRef .tc b) = Z (Proc.devRef .tc b) :=
  StableHlo.after_of_writes_sub (W := skip4W) hostOps4 Z (by
    simp only [hostOps4, skip4W, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

end Cert.KernelIdeal.HostV

end
-- ==== Proof.KernelOut.lean ====
/-
  The four results of the idealized kernel program, read back to the kernel regions' output arrays.

  Each result is the reshape of the first 500000 columns of one region's 1 x 507904 output array, computed
  by the first two host operations after the region; no later operation and no later region writes the
  result or that array.  So the last boundary's contents at the result buffer are that reshape of that slice
  of what the region's pipeline leaves in its output array.
-/
import proofs.«105939_j23287312679606_2_alg».proof.Proof.KernelWalk
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the stretch after each region leaves at the result buffer, from any contents -/

/-- `hostOps1` at `main_v195`: the reshape of the slice of `main_v193`. -/
theorem res_main_v195 (Z : Valuation τ sig (Elt F)) :
    StableHlo.after (hostOps1 (F := F)) Z (Proc.devRef .tc main_v195)
      = shapeCast _ (extractStridedSlice S1x500000 ![0, 0] (Z (Proc.devRef .tc main_v193)) slices_S1x507904_S1x500000_0_0) shapeCasts_S1x500000_S500000 := by
  dsimp only [hostOps1]
  after_results_simp <;> rfl

/-- `hostOps2` at `main_v223`: the reshape of the slice of `main_v221`. -/
theorem res_main_v223 (Z : Valuation τ sig (Elt F)) :
    StableHlo.after (hostOps2 (F := F)) Z (Proc.devRef .tc main_v223)
      = shapeCast _ (extractStridedSlice S1x500000 ![0, 0] (Z (Proc.devRef .tc main_v221)) slices_S1x507904_S1x500000_0_0) shapeCasts_S1x500000_S500000 := by
  dsimp only [hostOps2]
  after_results_simp <;> rfl

/-- `hostOps3` at `main_v240`: the reshape of the slice of `main_v238`. -/
theorem res_main_v240 (Z : Valuation τ sig (Elt F)) :
    StableHlo.after (hostOps3 (F := F)) Z (Proc.devRef .tc main_v240)
      = shapeCast _ (extractStridedSlice S1x500000 ![0, 0] (Z (Proc.devRef .tc main_v238)) slices_S1x507904_S1x500000_0_0) shapeCasts_S1x500000_S500000 := by
  dsimp only [hostOps3]
  after_results_simp <;> rfl

/-- `hostOps4` at `main_v257`: the reshape of the slice of `main_v255`. -/
theorem res_main_v257 (Z : Valuation τ sig (Elt F)) :
    StableHlo.after (hostOps4 (F := F)) Z (Proc.devRef .tc main_v257)
      = shapeCast _ (extractStridedSlice S1x500000 ![0, 0] (Z (Proc.devRef .tc main_v255)) slices_S1x507904_S1x500000_0_0) shapeCasts_S1x500000_S500000 := by
  dsimp only [hostOps4]
  after_results_simp <;> rfl

/-! ## The results at the last boundary -/

/-- Result 0: the reshape of the first 500000 columns of region 0's output array as its pipeline leaves it. -/
theorem out0 (c : Dev nD) : Gen.W27 m ρ c (Proc.devRef .tc main_v195)
    = shapeCast _ (extractStridedSlice S1x500000 ![0, 0] ((Gen.dat0 (Gen.V11 m ρ) c).arrAt 3 cfg0.N) slices_S1x507904_S1x500000_0_0) shapeCasts_S1x500000_S500000 :=
  calc Gen.W27 m ρ c (Proc.devRef .tc main_v195)
    _ = Gen.W26 m ρ c (Proc.devRef .tc main_v195) := skip4 _ main_v195 (by decide)
    _ = Gen.W25 m ρ c (Proc.devRef .tc main_v195) := Gen.W26_of_ne m ρ c main_v195 (by decide)
    _ = Gen.W24 m ρ c (Proc.devRef .tc main_v195) := skip3_2 _ main_v195 (by decide)
    _ = Gen.W23 m ρ c (Proc.devRef .tc main_v195) := skip3_1 _ main_v195 (by decide)
    _ = Gen.W22 m ρ c (Proc.devRef .tc main_v195) := skip3 _ main_v195 (by decide)
    _ = Gen.W21 m ρ c (Proc.devRef .tc main_v195) := Gen.W22_of_ne m ρ c main_v195 (by decide)
    _ = Gen.W20 m ρ c (Proc.devRef .tc main_v195) := skip2_2 _ main_v195 (by decide)
    _ = Gen.W19 m ρ c (Proc.devRef .tc main_v195) := skip2_1 _ main_v195 (by decide)
    _ = Gen.W18 m ρ c (Proc.devRef .tc main_v195) := skip2 _ main_v195 (by decide)
    _ = Gen.W17 m ρ c (Proc.devRef .tc main_v195) := Gen.W18_of_ne m ρ c main_v195 (by decide)
    _ = Gen.W16 m ρ c (Proc.devRef .tc main_v195) := skip1_4 _ main_v195 (by decide)
    _ = Gen.W15 m ρ c (Proc.devRef .tc main_v195) := skip1_3 _ main_v195 (by decide)
    _ = Gen.W14 m ρ c (Proc.devRef .tc main_v195) := skip1_2 _ main_v195 (by decide)
    _ = Gen.W13 m ρ c (Proc.devRef .tc main_v195) := skip1_1 _ main_v195 (by decide)
    _ = shapeCast _ (extractStridedSlice S1x500000 ![0, 0] (Gen.W12 m ρ c (Proc.devRef .tc main_v193)) slices_S1x507904_S1x500000_0_0) shapeCasts_S1x500000_S500000 := res_main_v195 _
    _ = shapeCast _ (extractStridedSlice S1x500000 ![0, 0] ((Gen.dat0 (Gen.V11 m ρ) c).arrAt 3 cfg0.N) slices_S1x507904_S1x500000_0_0) shapeCasts_S1x500000_S500000 := by rw [show Gen.W12 m ρ c (Proc.devRef .tc main_v193) = (Gen.dat0 (Gen.V11 m ρ) c).arrAt 3 cfg0.N from Gen.W12_arr m ρ c 3]

/-- Result 1: the reshape of the first 500000 columns of region 1's output array as its pipeline leaves it. -/
theorem out1 (c : Dev nD) : Gen.W27 m ρ c (Proc.devRef .tc main_v223)
    = shapeCast _ (extractStridedSlice S1x500000 ![0, 0] ((Gen.dat1 (Gen.V17 m ρ) c).arrAt 3 cfg1.N) slices_S1x507904_S1x500000_0_0) shapeCasts_S1x500000_S500000 :=
  calc Gen.W27 m ρ c (Proc.devRef .tc main_v223)
    _ = Gen.W26 m ρ c (Proc.devRef .tc main_v223) := skip4 _ main_v223 (by decide)
    _ = Gen.W25 m ρ c (Proc.devRef .tc main_v223) := Gen.W26_of_ne m ρ c main_v223 (by decide)
    _ = Gen.W24 m ρ c (Proc.devRef .tc main_v223) := skip3_2 _ main_v223 (by decide)
    _ = Gen.W23 m ρ c (Proc.devRef .tc main_v223) := skip3_1 _ main_v223 (by decide)
    _ = Gen.W22 m ρ c (Proc.devRef .tc main_v223) := skip3 _ main_v223 (by decide)
    _ = Gen.W21 m ρ c (Proc.devRef .tc main_v223) := Gen.W22_of_ne m ρ c main_v223 (by decide)
    _ = Gen.W20 m ρ c (Proc.devRef .tc main_v223) := skip2_2 _ main_v223 (by decide)
    _ = Gen.W19 m ρ c (Proc.devRef .tc main_v223) := skip2_1 _ main_v223 (by decide)
    _ = shapeCast _ (extractStridedSlice S1x500000 ![0, 0] (Gen.W18 m ρ c (Proc.devRef .tc main_v221)) slices_S1x507904_S1x500000_0_0) shapeCasts_S1x500000_S500000 := res_main_v223 _
    _ = shapeCast _ (extractStridedSlice S1x500000 ![0, 0] ((Gen.dat1 (Gen.V17 m ρ) c).arrAt 3 cfg1.N) slices_S1x507904_S1x500000_0_0) shapeCasts_S1x500000_S500000 := by rw [show Gen.W18 m ρ c (Proc.devRef .tc main_v221) = (Gen.dat1 (Gen.V17 m ρ) c).arrAt 3 cfg1.N from Gen.W18_arr m ρ c 3]

/-- Result 2: the reshape of the first 500000 columns of region 2's output array as its pipeline leaves it. -/
theorem out2 (c : Dev nD) : Gen.W27 m ρ c (Proc.devRef .tc main_v240)
    = shapeCast _ (extractStridedSlice S1x500000 ![0, 0] ((Gen.dat2 (Gen.V21 m ρ) c).arrAt 3 cfg2.N) slices_S1x507904_S1x500000_0_0) shapeCasts_S1x500000_S500000 :=
  calc Gen.W27 m ρ c (Proc.devRef .tc main_v240)
    _ = Gen.W26 m ρ c (Proc.devRef .tc main_v240) := skip4 _ main_v240 (by decide)
    _ = Gen.W25 m ρ c (Proc.devRef .tc main_v240) := Gen.W26_of_ne m ρ c main_v240 (by decide)
    _ = Gen.W24 m ρ c (Proc.devRef .tc main_v240) := skip3_2 _ main_v240 (by decide)
    _ = Gen.W23 m ρ c (Proc.devRef .tc main_v240) := skip3_1 _ main_v240 (by decide)
    _ = shapeCast _ (extractStridedSlice S1x500000 ![0, 0] (Gen.W22 m ρ c (Proc.devRef .tc main_v238)) slices_S1x507904_S1x500000_0_0) shapeCasts_S1x500000_S500000 := res_main_v240 _
    _ = shapeCast _ (extractStridedSlice S1x500000 ![0, 0] ((Gen.dat2 (Gen.V21 m ρ) c).arrAt 3 cfg2.N) slices_S1x507904_S1x500000_0_0) shapeCasts_S1x500000_S500000 := by rw [show Gen.W22 m ρ c (Proc.devRef .tc main_v238) = (Gen.dat2 (Gen.V21 m ρ) c).arrAt 3 cfg2.N from Gen.W22_arr m ρ c 3]

/-- Result 3: the reshape of the first 500000 columns of region 3's output array as its pipeline leaves it. -/
theorem out3 (c : Dev nD) : Gen.W27 m ρ c (Proc.devRef .tc main_v257)
    = shapeCast _ (extractStridedSlice S1x500000 ![0, 0] ((Gen.dat3 (Gen.V25 m ρ) c).arrAt 3 cfg3.N) slices_S1x507904_S1x500000_0_0) shapeCasts_S1x500000_S500000 :=
  calc Gen.W27 m ρ c (Proc.devRef .tc main_v257)
    _ = shapeCast _ (extractStridedSlice S1x500000 ![0, 0] (Gen.W26 m ρ c (Proc.devRef .tc main_v255)) slices_S1x507904_S1x500000_0_0) shapeCasts_S1x500000_S500000 := res_main_v257 _
    _ = shapeCast _ (extractStridedSlice S1x500000 ![0, 0] ((Gen.dat3 (Gen.V25 m ρ) c).arrAt 3 cfg3.N) slices_S1x507904_S1x500000_0_0) shapeCasts_S1x500000_S500000 := by rw [show Gen.W26 m ρ c (Proc.devRef .tc main_v255) = (Gen.dat3 (Gen.V25 m ρ) c).arrAt 3 cfg3.N from Gen.W26_arr m ρ c 3]

end Cert.KernelIdeal.HostV

end
-- ==== Proof.KernelIn.lean ====
/-
  The three input arrays of each kernel region, at the contents the region is entered with.

  Each is the composed term of the host operations that compute it, over two kinds of atoms only: the node
  table (the contents of its buffer once the stretch that computes it has run; no later operation and no
  region writes that buffer) and the launch contents of argument arrays (which nothing writes).  The edge
  ends are a row of an edge-index argument, an index below zero shifted up by the table's 4000 rows; the
  table's rows at those indices are gathered, transposed to feature-major, for one end narrowed to the
  16-bit format, and padded on the right with zero columns to 507904 columns.  The relation matrix is
  transposed (and narrowed); the diagonal is reshaped to a column.
-/
import proofs.«105939_j23287312679606_2_alg».proof.Proof.KernelWalk
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The node table: what its buffer holds once the stretch that computes it has run. -/
def zdK (c : Dev nD) : (⟨S4000x64, .f32⟩ : BufTy).Contents (Elt F) := Gen.W6 m ρ c (Proc.devRef .tc main_v167)

/-! ## A buffer that nothing writes between two boundaries holds the same at both -/
theorem W6_eq_W0 (c : Dev nD) (b : Ref sig .tc) (h6 : b ∉ skip0_5W) (h5 : b ∉ skip0_4W) (h4 : b ∉ skip0_3W) (h3 : b ∉ skip0_2W) (h2 : b ∉ skip0_1W) (h1 : b ∉ skip0W) :
    Gen.W6 m ρ c (Proc.devRef .tc b) = Gen.W0 m ρ c (Proc.devRef .tc b) :=
  calc Gen.W6 m ρ c (Proc.devRef .tc b)
    _ = Gen.W5 m ρ c (Proc.devRef .tc b) := skip0_5 _ b h6
    _ = Gen.W4 m ρ c (Proc.devRef .tc b) := skip0_4 _ b h5
    _ = Gen.W3 m ρ c (Proc.devRef .tc b) := skip0_3 _ b h4
    _ = Gen.W2 m ρ c (Proc.devRef .tc b) := skip0_2 _ b h3
    _ = Gen.W1 m ρ c (Proc.devRef .tc b) := skip0_1 _ b h2
    _ = Gen.W0 m ρ c (Proc.devRef .tc b) := skip0 _ b h1

theorem W12_eq_W6 (c : Dev nD) (b : Ref sig .tc) (h12 : ∀ w, Pipeline.arrRef spec0 w ≠ b) (h11 : b ∉ skip0_10W) (h10 : b ∉ skip0_9W) (h9 : b ∉ skip0_8W) (h8 : b ∉ skip0_7W) (h7 : b ∉ skip0_6W) :
    Gen.W12 m ρ c (Proc.devRef .tc b) = Gen.W6 m ρ c (Proc.devRef .tc b) :=
  calc Gen.W12 m ρ c (Proc.devRef .tc b)
    _ = Gen.W11 m ρ c (Proc.devRef .tc b) := Gen.W12_of_ne m ρ c b h12
    _ = Gen.W10 m ρ c (Proc.devRef .tc b) := skip0_10 _ b h11
    _ = Gen.W9 m ρ c (Proc.devRef .tc b) := skip0_9 _ b h10
    _ = Gen.W8 m ρ c (Proc.devRef .tc b) := skip0_8 _ b h9
    _ = Gen.W7 m ρ c (Proc.devRef .tc b) := skip0_7 _ b h8
    _ = Gen.W6 m ρ c (Proc.devRef .tc b) := skip0_6 _ b h7

theorem W18_eq_W12 (c : Dev nD) (b : Ref sig .tc) (h18 : ∀ w, Pipeline.arrRef spec1 w ≠ b) (h17 : b ∉ skip1_4W) (h16 : b ∉ skip1_3W) (h15 : b ∉ skip1_2W) (h14 : b ∉ skip1_1W) (h13 : b ∉ skip1W) :
    Gen.W18 m ρ c (Proc.devRef .tc b) = Gen.W12 m ρ c (Proc.devRef .tc b) :=
  calc Gen.W18 m ρ c (Proc.devRef .tc b)
    _ = Gen.W17 m ρ c (Proc.devRef .tc b) := Gen.W18_of_ne m ρ c b h18
    _ = Gen.W16 m ρ c (Proc.devRef .tc b) := skip1_4 _ b h17
    _ = Gen.W15 m ρ c (Proc.devRef .tc b) := skip1_3 _ b h16
    _ = Gen.W14 m ρ c (Proc.devRef .tc b) := skip1_2 _ b h15
    _ = Gen.W13 m ρ c (Proc.devRef .tc b) := skip1_1 _ b h14
    _ = Gen.W12 m ρ c (Proc.devRef .tc b) := skip1 _ b h13

theorem W22_eq_W18 (c : Dev nD) (b : Ref sig .tc) (h22 : ∀ w, Pipeline.arrRef spec2 w ≠ b) (h21 : b ∉ skip2_2W) (h20 : b ∉ skip2_1W) (h19 : b ∉ skip2W) :
    Gen.W22 m ρ c (Proc.devRef .tc b) = Gen.W18 m ρ c (Proc.devRef .tc b) :=
  calc Gen.W22 m ρ c (Proc.devRef .tc b)
    _ = Gen.W21 m ρ c (Proc.devRef .tc b) := Gen.W22_of_ne m ρ c b h22
    _ = Gen.W20 m ρ c (Proc.devRef .tc b) := skip2_2 _ b h21
    _ = Gen.W19 m ρ c (Proc.devRef .tc b) := skip2_1 _ b h20
    _ = Gen.W18 m ρ c (Proc.devRef .tc b) := skip2 _ b h19

/-! ## The atoms at each region's base boundary -/

/-- An argument array at boundary 6 holds its launch contents. -/
theorem arg_W6 (c : Dev nD) (b : Ref sig .tc) (h6 : b ∉ skip0_5W) (h5 : b ∉ skip0_4W) (h4 : b ∉ skip0_3W) (h3 : b ∉ skip0_2W) (h2 : b ∉ skip0_1W) (h1 : b ∉ skip0W) :
    Gen.W6 m ρ c (Proc.devRef .tc b) = m ((c.tc : Thread nD τ).loc b) :=
  (W6_eq_W0 m ρ c b h6 h5 h4 h3 h2 h1).trans rfl

theorem zd_W12 (c : Dev nD) : Gen.W12 m ρ c (Proc.devRef .tc main_v167) = zdK m ρ c :=
  W12_eq_W6 m ρ c main_v167 (by decide) (by decide) (by decide) (by decide) (by decide) (by decide)
theorem zd_W18 (c : Dev nD) : Gen.W18 m ρ c (Proc.devRef .tc main_v167) = zdK m ρ c :=
  (W18_eq_W12 m ρ c main_v167 (by decide) (by decide) (by decide) (by decide) (by decide) (by decide)).trans (zd_W12 m ρ c)
theorem zd_W22 (c : Dev nD) : Gen.W22 m ρ c (Proc.devRef .tc main_v167) = zdK m ρ c :=
  (W22_eq_W18 m ρ c main_v167 (by decide) (by decide) (by decide) (by decide)).trans (zd_W18 m ρ c)
theorem main_arg5_W6 (c : Dev nD) : Gen.W6 m ρ c (Proc.devRef .tc main_arg5) = m ((c.tc : Thread nD τ).loc main_arg5) :=
  arg_W6 m ρ c main_arg5 (by decide) (by decide) (by decide) (by decide) (by decide) (by decide)
theorem main_arg21_W6 (c : Dev nD) : Gen.W6 m ρ c (Proc.devRef .tc main_arg21) = m ((c.tc : Thread nD τ).loc main_arg21) :=
  arg_W6 m ρ c main_arg21 (by decide) (by decide) (by decide) (by decide) (by decide) (by decide)
theorem main_arg6_W12 (c : Dev nD) : Gen.W12 m ρ c (Proc.devRef .tc main_arg6) = m ((c.tc : Thread nD τ).loc main_arg6) :=
  (W12_eq_W6 m ρ c main_arg6 (by decide) (by decide) (by decide) (by decide) (by decide) (by decide)).trans (arg_W6 m ρ c main_arg6 (by decide) (by decide) (by decide) (by decide) (by decide) (by decide))
theorem main_arg22_W12 (c : Dev nD) : Gen.W12 m ρ c (Proc.devRef .tc main_arg22) = m ((c.tc : Thread nD τ).loc main_arg22) :=
  (W12_eq_W6 m ρ c main_arg22 (by decide) (by decide) (by decide) (by decide) (by decide) (by decide)).trans (arg_W6 m ρ c main_arg22 (by decide) (by decide) (by decide) (by decide) (by decide) (by decide))
theorem main_arg7_W18 (c : Dev nD) : Gen.W18 m ρ c (Proc.devRef .tc main_arg7) = m ((c.tc : Thread nD τ).loc main_arg7) :=
  (W18_eq_W12 m ρ c main_arg7 (by decide) (by decide) (by decide) (by decide) (by decide) (by decide)).trans ((W12_eq_W6 m ρ c main_arg7 (by decide) (by decide) (by decide) (by decide) (by decide) (by decide)).trans (arg_W6 m ρ c main_arg7 (by decide) (by decide) (by decide) (by decide) (by decide) (by decide)))
theorem main_arg24_W18 (c : Dev nD) : Gen.W18 m ρ c (Proc.devRef .tc main_arg24) = m ((c.tc : Thread nD τ).loc main_arg24) :=
  (W18_eq_W12 m ρ c main_arg24 (by decide) (by decide) (by decide) (by decide) (by decide) (by decide)).trans ((W12_eq_W6 m ρ c main_arg24 (by decide) (by decide) (by decide) (by decide) (by decide) (by decide)).trans (arg_W6 m ρ c main_arg24 (by decide) (by decide) (by decide) (by decide) (by decide) (by decide)))
theorem main_arg23_W18 (c : Dev nD) : Gen.W18 m ρ c (Proc.devRef .tc main_arg23) = m ((c.tc : Thread nD τ).loc main_arg23) :=
  (W18_eq_W12 m ρ c main_arg23 (by decide) (by decide) (by decide) (by decide) (by decide) (by decide)).trans ((W12_eq_W6 m ρ c main_arg23 (by decide) (by decide) (by decide) (by decide) (by decide) (by decide)).trans (arg_W6 m ρ c main_arg23 (by decide) (by decide) (by decide) (by decide) (by decide) (by decide)))
theorem main_arg8_W22 (c : Dev nD) : Gen.W22 m ρ c (Proc.devRef .tc main_arg8) = m ((c.tc : Thread nD τ).loc main_arg8) :=
  (W22_eq_W18 m ρ c main_arg8 (by decide) (by decide) (by decide) (by decide)).trans ((W18_eq_W12 m ρ c main_arg8 (by decide) (by decide) (by decide) (by decide) (by decide) (by decide)).trans ((W12_eq_W6 m ρ c main_arg8 (by decide) (by decide) (by decide) (by decide) (by decide) (by decide)).trans (arg_W6 m ρ c main_arg8 (by decide) (by decide) (by decide) (by decide) (by decide) (by decide))))
theorem main_arg25_W22 (c : Dev nD) : Gen.W22 m ρ c (Proc.devRef .tc main_arg25) = m ((c.tc : Thread nD τ).loc main_arg25) :=
  (W22_eq_W18 m ρ c main_arg25 (by decide) (by decide) (by decide) (by decide)).trans ((W18_eq_W12 m ρ c main_arg25 (by decide) (by decide) (by decide) (by decide) (by decide) (by decide)).trans ((W12_eq_W6 m ρ c main_arg25 (by decide) (by decide) (by decide) (by decide) (by decide) (by decide)).trans (arg_W6 m ρ c main_arg25 (by decide) (by decide) (by decide) (by decide) (by decide) (by decide))))
theorem main_arg23_W22 (c : Dev nD) : Gen.W22 m ρ c (Proc.devRef .tc main_arg23) = m ((c.tc : Thread nD τ).loc main_arg23) :=
  (W22_eq_W18 m ρ c main_arg23 (by decide) (by decide) (by decide) (by decide)).trans ((W18_eq_W12 m ρ c main_arg23 (by decide) (by decide) (by decide) (by decide) (by decide) (by decide)).trans ((W12_eq_W6 m ρ c main_arg23 (by decide) (by decide) (by decide) (by decide) (by decide) (by decide)).trans (arg_W6 m ρ c main_arg23 (by decide) (by decide) (by decide) (by decide) (by decide) (by decide))))

/-! ## Region 0: its input arrays at the entry boundary 11, from boundary 6 -/

/-- The stretches from boundary 6 to region 0's entry, read at `main_v189`, from any contents. -/
theorem ent0_0 (Z : Valuation τ sig (Elt F)) :
    StableHlo.after (hostOps0_10 (F := F)) (StableHlo.after (hostOps0_9 (F := F)) (StableHlo.after (hostOps0_8 (F := F)) (StableHlo.after (hostOps0_7 (F := F)) (StableHlo.after (hostOps0_6 (F := F)) (Z))))) (Proc.devRef .tc main_v189)
      = pad S64x507904 ![0, 0] ![0, 7904] ![0, 0] (truncf .bf16 (transpose S64x500000 [1, 0] (Host.gather gather_S4000x64_S500000x1_S500000x64_1_0_n_n_0_1_164 (Z (Proc.devRef .tc main_v167)) (broadcastInDim S500000x1 ![0] bcast_S500000_S500000x1_0 (select (cmpi .slt (shapeCast _ (extractStridedSlice S1x500000 ![0, 0] (Z (Proc.devRef .tc main_arg5)) slices_S2x500000_S1x500000_0_0) shapeCasts_S1x500000_S500000) (broadcastInDim S500000 ![] bcast_S_S500000 (constantI S_ 32 0#32))) (addi (shapeCast _ (extractStridedSlice S1x500000 ![0, 0] (Z (Proc.devRef .tc main_arg5)) slices_S2x500000_S1x500000_0_0) shapeCasts_S1x500000_S500000) (broadcastInDim S500000 ![] bcast_S_S500000 (constantI S_ 32 4000#32))) (shapeCast _ (extractStridedSlice S1x500000 ![0, 0] (Z (Proc.devRef .tc main_arg5)) slices_S2x500000_S1x500000_0_0) shapeCasts_S1x500000_S500000)))) transposes_S500000x64_S64x500000_1_0) bitsLt_bf16_f32) (sitofp .bf16 (constantI S_ 32 0#32)) pads_S64x500000_S64x507904_000_079040 h_S_ := by
  dsimp only [hostOps0_6, hostOps0_7, hostOps0_8, hostOps0_9, hostOps0_10]
  after_results_simp <;> rfl

/-- Region 0's window 0 array `main_v189` as the region is entered. -/
theorem in0_0 (c : Dev nD) : Gen.V11 m ρ c main_v189
    = pad S64x507904 ![0, 0] ![0, 7904] ![0, 0] (truncf .bf16 (transpose S64x500000 [1, 0] (Host.gather gather_S4000x64_S500000x1_S500000x64_1_0_n_n_0_1_164 (zdK m ρ c) (broadcastInDim S500000x1 ![0] bcast_S500000_S500000x1_0 (select (cmpi .slt (shapeCast _ (extractStridedSlice S1x500000 ![0, 0] (m ((c.tc : Thread nD τ).loc main_arg5)) slices_S2x500000_S1x500000_0_0) shapeCasts_S1x500000_S500000) (broadcastInDim S500000 ![] bcast_S_S500000 (constantI S_ 32 0#32))) (addi (shapeCast _ (extractStridedSlice S1x500000 ![0, 0] (m ((c.tc : Thread nD τ).loc main_arg5)) slices_S2x500000_S1x500000_0_0) shapeCasts_S1x500000_S500000) (broadcastInDim S500000 ![] bcast_S_S500000 (constantI S_ 32 4000#32))) (shapeCast _ (extractStridedSlice S1x500000 ![0, 0] (m ((c.tc : Thread nD τ).loc main_arg5)) slices_S2x500000_S1x500000_0_0) shapeCasts_S1x500000_S500000)))) transposes_S500000x64_S64x500000_1_0) bitsLt_bf16_f32) (sitofp .bf16 (constantI S_ 32 0#32)) pads_S64x500000_S64x507904_000_079040 h_S_ :=
  (ent0_0 (Gen.W6 m ρ c)).trans (by
    rw [show Gen.W6 m ρ c (Proc.devRef .tc main_arg5) = m ((c.tc : Thread nD τ).loc main_arg5) from main_arg5_W6 m ρ c]
    rfl)

/-- The stretches from boundary 6 to region 0's entry, read at `main_v190`, from any contents. -/
theorem ent0_1 (Z : Valuation τ sig (Elt F)) :
    StableHlo.after (hostOps0_10 (F := F)) (StableHlo.after (hostOps0_9 (F := F)) (StableHlo.after (hostOps0_8 (F := F)) (StableHlo.after (hostOps0_7 (F := F)) (StableHlo.after (hostOps0_6 (F := F)) (Z))))) (Proc.devRef .tc main_v190)
      = pad S64x507904 ![0, 0] ![0, 7904] ![0, 0] (transpose S64x500000 [1, 0] (Host.gather gather_S4000x64_S500000x1_S500000x64_1_0_n_n_0_1_164 (Z (Proc.devRef .tc main_v167)) (broadcastInDim S500000x1 ![0] bcast_S500000_S500000x1_0 (select (cmpi .slt (shapeCast _ (extractStridedSlice S1x500000 ![1, 0] (Z (Proc.devRef .tc main_arg5)) slices_S2x500000_S1x500000_1_0) shapeCasts_S1x500000_S500000) (broadcastInDim S500000 ![] bcast_S_S500000 (constantI S_ 32 0#32))) (addi (shapeCast _ (extractStridedSlice S1x500000 ![1, 0] (Z (Proc.devRef .tc main_arg5)) slices_S2x500000_S1x500000_1_0) shapeCasts_S1x500000_S500000) (broadcastInDim S500000 ![] bcast_S_S500000 (constantI S_ 32 4000#32))) (shapeCast _ (extractStridedSlice S1x500000 ![1, 0] (Z (Proc.devRef .tc main_arg5)) slices_S2x500000_S1x500000_1_0) shapeCasts_S1x500000_S500000)))) transposes_S500000x64_S64x500000_1_0) (sitofp .f32 (constantI S_ 32 0#32)) pads_S64x500000_S64x507904_000_079040 h_S_ := by
  dsimp only [hostOps0_6, hostOps0_7, hostOps0_8, hostOps0_9, hostOps0_10]
  after_results_simp <;> rfl

/-- Region 0's window 1 array `main_v190` as the region is entered. -/
theorem in0_1 (c : Dev nD) : Gen.V11 m ρ c main_v190
    = pad S64x507904 ![0, 0] ![0, 7904] ![0, 0] (transpose S64x500000 [1, 0] (Host.gather gather_S4000x64_S500000x1_S500000x64_1_0_n_n_0_1_164 (zdK m ρ c) (broadcastInDim S500000x1 ![0] bcast_S500000_S500000x1_0 (select (cmpi .slt (shapeCast _ (extractStridedSlice S1x500000 ![1, 0] (m ((c.tc : Thread nD τ).loc main_arg5)) slices_S2x500000_S1x500000_1_0) shapeCasts_S1x500000_S500000) (broadcastInDim S500000 ![] bcast_S_S500000 (constantI S_ 32 0#32))) (addi (shapeCast _ (extractStridedSlice S1x500000 ![1, 0] (m ((c.tc : Thread nD τ).loc main_arg5)) slices_S2x500000_S1x500000_1_0) shapeCasts_S1x500000_S500000) (broadcastInDim S500000 ![] bcast_S_S500000 (constantI S_ 32 4000#32))) (shapeCast _ (extractStridedSlice S1x500000 ![1, 0] (m ((c.tc : Thread nD τ).loc main_arg5)) slices_S2x500000_S1x500000_1_0) shapeCasts_S1x500000_S500000)))) transposes_S500000x64_S64x500000_1_0) (sitofp .f32 (constantI S_ 32 0#32)) pads_S64x500000_S64x507904_000_079040 h_S_ :=
  (ent0_1 (Gen.W6 m ρ c)).trans (by
    rw [show Gen.W6 m ρ c (Proc.devRef .tc main_arg5) = m ((c.tc : Thread nD τ).loc main_arg5) from main_arg5_W6 m ρ c]
    rfl)

/-- The stretches from boundary 6 to region 0's entry, read at `main_v192`, from any contents. -/
theorem ent0_2 (Z : Valuation τ sig (Elt F)) :
    StableHlo.after (hostOps0_10 (F := F)) (StableHlo.after (hostOps0_9 (F := F)) (StableHlo.after (hostOps0_8 (F := F)) (StableHlo.after (hostOps0_7 (F := F)) (StableHlo.after (hostOps0_6 (F := F)) (Z))))) (Proc.devRef .tc main_v192)
      = truncf .bf16 (transpose S64x64 [1, 0] (Z (Proc.devRef .tc main_arg21)) transposes_S64x64_S64x64_1_0) bitsLt_bf16_f32 := by
  dsimp only [hostOps0_6, hostOps0_7, hostOps0_8, hostOps0_9, hostOps0_10]
  after_results_simp <;> rfl

/-- Region 0's window 2 array `main_v192` as the region is entered. -/
theorem in0_2 (c : Dev nD) : Gen.V11 m ρ c main_v192
    = truncf .bf16 (transpose S64x64 [1, 0] (m ((c.tc : Thread nD τ).loc main_arg21)) transposes_S64x64_S64x64_1_0) bitsLt_bf16_f32 :=
  (ent0_2 (Gen.W6 m ρ c)).trans (by
    rw [show Gen.W6 m ρ c (Proc.devRef .tc main_arg21) = m ((c.tc : Thread nD τ).loc main_arg21) from main_arg21_W6 m ρ c])

/-! ## Region 1: its input arrays at the entry boundary 17, from boundary 12 -/

/-- The stretches from boundary 12 to region 1's entry, read at `main_v217`, from any contents. -/
theorem ent1_0 (Z : Valuation τ sig (Elt F)) :
    StableHlo.after (hostOps1_4 (F := F)) (StableHlo.after (hostOps1_3 (F := F)) (StableHlo.after (hostOps1_2 (F := F)) (StableHlo.after (hostOps1_1 (F := F)) (StableHlo.after (hostOps1 (F := F)) (Z))))) (Proc.devRef .tc main_v217)
      = pad S64x507904 ![0, 0] ![0, 7904] ![0, 0] (truncf .bf16 (transpose S64x500000 [1, 0] (Host.gather gather_S4000x64_S500000x1_S500000x64_1_0_n_n_0_1_164 (Z (Proc.devRef .tc main_v167)) (broadcastInDim S500000x1 ![0] bcast_S500000_S500000x1_0 (select (cmpi .slt (shapeCast _ (extractStridedSlice S1x500000 ![0, 0] (Z (Proc.devRef .tc main_arg6)) slices_S2x500000_S1x500000_0_0) shapeCasts_S1x500000_S500000) (broadcastInDim S500000 ![] bcast_S_S500000 (constantI S_ 32 0#32))) (addi (shapeCast _ (extractStridedSlice S1x500000 ![0, 0] (Z (Proc.devRef .tc main_arg6)) slices_S2x500000_S1x500000_0_0) shapeCasts_S1x500000_S500000) (broadcastInDim S500000 ![] bcast_S_S500000 (constantI S_ 32 4000#32))) (shapeCast _ (extractStridedSlice S1x500000 ![0, 0] (Z (Proc.devRef .tc main_arg6)) slices_S2x500000_S1x500000_0_0) shapeCasts_S1x500000_S500000)))) transposes_S500000x64_S64x500000_1_0) bitsLt_bf16_f32) (sitofp .bf16 (constantI S_ 32 0#32)) pads_S64x500000_S64x507904_000_079040 h_S_ := by
  dsimp only [hostOps1, hostOps1_1, hostOps1_2, hostOps1_3, hostOps1_4]
  after_results_simp <;> rfl

/-- Region 1's window 0 array `main_v217` as the region is entered. -/
theorem in1_0 (c : Dev nD) : Gen.V17 m ρ c main_v217
    = pad S64x507904 ![0, 0] ![0, 7904] ![0, 0] (truncf .bf16 (transpose S64x500000 [1, 0] (Host.gather gather_S4000x64_S500000x1_S500000x64_1_0_n_n_0_1_164 (zdK m ρ c) (broadcastInDim S500000x1 ![0] bcast_S500000_S500000x1_0 (select (cmpi .slt (shapeCast _ (extractStridedSlice S1x500000 ![0, 0] (m ((c.tc : Thread nD τ).loc main_arg6)) slices_S2x500000_S1x500000_0_0) shapeCasts_S1x500000_S500000) (broadcastInDim S500000 ![] bcast_S_S500000 (constantI S_ 32 0#32))) (addi (shapeCast _ (extractStridedSlice S1x500000 ![0, 0] (m ((c.tc : Thread nD τ).loc main_arg6)) slices_S2x500000_S1x500000_0_0) shapeCasts_S1x500000_S500000) (broadcastInDim S500000 ![] bcast_S_S500000 (constantI S_ 32 4000#32))) (shapeCast _ (extractStridedSlice S1x500000 ![0, 0] (m ((c.tc : Thread nD τ).loc main_arg6)) slices_S2x500000_S1x500000_0_0) shapeCasts_S1x500000_S500000)))) transposes_S500000x64_S64x500000_1_0) bitsLt_bf16_f32) (sitofp .bf16 (constantI S_ 32 0#32)) pads_S64x500000_S64x507904_000_079040 h_S_ :=
  (ent1_0 (Gen.W12 m ρ c)).trans (by
    rw [show Gen.W12 m ρ c (Proc.devRef .tc main_v167) = zdK m ρ c from zd_W12 m ρ c,
      show Gen.W12 m ρ c (Proc.devRef .tc main_arg6) = m ((c.tc : Thread nD τ).loc main_arg6) from main_arg6_W12 m ρ c])

/-- The stretches from boundary 12 to region 1's entry, read at `main_v218`, from any contents. -/
theorem ent1_1 (Z : Valuation τ sig (Elt F)) :
    StableHlo.after (hostOps1_4 (F := F)) (StableHlo.after (hostOps1_3 (F := F)) (StableHlo.after (hostOps1_2 (F := F)) (StableHlo.after (hostOps1_1 (F := F)) (StableHlo.after (hostOps1 (F := F)) (Z))))) (Proc.devRef .tc main_v218)
      = pad S64x507904 ![0, 0] ![0, 7904] ![0, 0] (transpose S64x500000 [1, 0] (Host.gather gather_S4000x64_S500000x1_S500000x64_1_0_n_n_0_1_164 (Z (Proc.devRef .tc main_v167)) (broadcastInDim S500000x1 ![0] bcast_S500000_S500000x1_0 (select (cmpi .slt (shapeCast _ (extractStridedSlice S1x500000 ![1, 0] (Z (Proc.devRef .tc main_arg6)) slices_S2x500000_S1x500000_1_0) shapeCasts_S1x500000_S500000) (broadcastInDim S500000 ![] bcast_S_S500000 (constantI S_ 32 0#32))) (addi (shapeCast _ (extractStridedSlice S1x500000 ![1, 0] (Z (Proc.devRef .tc main_arg6)) slices_S2x500000_S1x500000_1_0) shapeCasts_S1x500000_S500000) (broadcastInDim S500000 ![] bcast_S_S500000 (constantI S_ 32 4000#32))) (shapeCast _ (extractStridedSlice S1x500000 ![1, 0] (Z (Proc.devRef .tc main_arg6)) slices_S2x500000_S1x500000_1_0) shapeCasts_S1x500000_S500000)))) transposes_S500000x64_S64x500000_1_0) (sitofp .f32 (constantI S_ 32 0#32)) pads_S64x500000_S64x507904_000_079040 h_S_ := by
  dsimp only [hostOps1, hostOps1_1, hostOps1_2, hostOps1_3, hostOps1_4]
  after_results_simp <;> rfl

/-- Region 1's window 1 array `main_v218` as the region is entered. -/
theorem in1_1 (c : Dev nD) : Gen.V17 m ρ c main_v218
    = pad S64x507904 ![0, 0] ![0, 7904] ![0, 0] (transpose S64x500000 [1, 0] (Host.gather gather_S4000x64_S500000x1_S500000x64_1_0_n_n_0_1_164 (zdK m ρ c) (broadcastInDim S500000x1 ![0] bcast_S500000_S500000x1_0 (select (cmpi .slt (shapeCast _ (extractStridedSlice S1x500000 ![1, 0] (m ((c.tc : Thread nD τ).loc main_arg6)) slices_S2x500000_S1x500000_1_0) shapeCasts_S1x500000_S500000) (broadcastInDim S500000 ![] bcast_S_S500000 (constantI S_ 32 0#32))) (addi (shapeCast _ (extractStridedSlice S1x500000 ![1, 0] (m ((c.tc : Thread nD τ).loc main_arg6)) slices_S2x500000_S1x500000_1_0) shapeCasts_S1x500000_S500000) (broadcastInDim S500000 ![] bcast_S_S500000 (constantI S_ 32 4000#32))) (shapeCast _ (extractStridedSlice S1x500000 ![1, 0] (m ((c.tc : Thread nD τ).loc main_arg6)) slices_S2x500000_S1x500000_1_0) shapeCasts_S1x500000_S500000)))) transposes_S500000x64_S64x500000_1_0) (sitofp .f32 (constantI S_ 32 0#32)) pads_S64x500000_S64x507904_000_079040 h_S_ :=
  (ent1_1 (Gen.W12 m ρ c)).trans (by
    rw [show Gen.W12 m ρ c (Proc.devRef .tc main_v167) = zdK m ρ c from zd_W12 m ρ c,
      show Gen.W12 m ρ c (Proc.devRef .tc main_arg6) = m ((c.tc : Thread nD τ).loc main_arg6) from main_arg6_W12 m ρ c])

/-- The stretches from boundary 12 to region 1's entry, read at `main_v220`, from any contents. -/
theorem ent1_2 (Z : Valuation τ sig (Elt F)) :
    StableHlo.after (hostOps1_4 (F := F)) (StableHlo.after (hostOps1_3 (F := F)) (StableHlo.after (hostOps1_2 (F := F)) (StableHlo.after (hostOps1_1 (F := F)) (StableHlo.after (hostOps1 (F := F)) (Z))))) (Proc.devRef .tc main_v220)
      = truncf .bf16 (transpose S64x64 [1, 0] (Z (Proc.devRef .tc main_arg22)) transposes_S64x64_S64x64_1_0) bitsLt_bf16_f32 := by
  dsimp only [hostOps1, hostOps1_1, hostOps1_2, hostOps1_3, hostOps1_4]
  after_results_simp <;> rfl

/-- Region 1's window 2 array `main_v220` as the region is entered. -/
theorem in1_2 (c : Dev nD) : Gen.V17 m ρ c main_v220
    = truncf .bf16 (transpose S64x64 [1, 0] (m ((c.tc : Thread nD τ).loc main_arg22)) transposes_S64x64_S64x64_1_0) bitsLt_bf16_f32 :=
  (ent1_2 (Gen.W12 m ρ c)).trans (by
    rw [show Gen.W12 m ρ c (Proc.devRef .tc main_arg22) = m ((c.tc : Thread nD τ).loc main_arg22) from main_arg22_W12 m ρ c])

/-! ## Region 2: its input arrays at the entry boundary 21, from boundary 18 -/

/-- The stretches from boundary 18 to region 2's entry, read at `main_v234`, from any contents. -/
theorem ent2_0 (Z : Valuation τ sig (Elt F)) :
    StableHlo.after (hostOps2_2 (F := F)) (StableHlo.after (hostOps2_1 (F := F)) (StableHlo.after (hostOps2 (F := F)) (Z))) (Proc.devRef .tc main_v234)
      = pad S64x507904 ![0, 0] ![0, 7904] ![0, 0] (transpose S64x500000 [1, 0] (Host.gather gather_S4000x64_S500000x1_S500000x64_1_0_n_n_0_1_164 (Z (Proc.devRef .tc main_v167)) (broadcastInDim S500000x1 ![0] bcast_S500000_S500000x1_0 (select (cmpi .slt (shapeCast _ (extractStridedSlice S1x500000 ![0, 0] (Z (Proc.devRef .tc main_arg7)) slices_S2x500000_S1x500000_0_0) shapeCasts_S1x500000_S500000) (broadcastInDim S500000 ![] bcast_S_S500000 (constantI S_ 32 0#32))) (addi (shapeCast _ (extractStridedSlice S1x500000 ![0, 0] (Z (Proc.devRef .tc main_arg7)) slices_S2x500000_S1x500000_0_0) shapeCasts_S1x500000_S500000) (broadcastInDim S500000 ![] bcast_S_S500000 (constantI S_ 32 4000#32))) (shapeCast _ (extractStridedSlice S1x500000 ![0, 0] (Z (Proc.devRef .tc main_arg7)) slices_S2x500000_S1x500000_0_0) shapeCasts_S1x500000_S500000)))) transposes_S500000x64_S64x500000_1_0) (sitofp .f32 (constantI S_ 32 0#32)) pads_S64x500000_S64x507904_000_079040 h_S_ := by
  dsimp only [hostOps2, hostOps2_1, hostOps2_2]
  after_results_simp <;> rfl

/-- Region 2's window 0 array `main_v234` as the region is entered. -/
theorem in2_0 (c : Dev nD) : Gen.V21 m ρ c main_v234
    = pad S64x507904 ![0, 0] ![0, 7904] ![0, 0] (transpose S64x500000 [1, 0] (Host.gather gather_S4000x64_S500000x1_S500000x64_1_0_n_n_0_1_164 (zdK m ρ c) (broadcastInDim S500000x1 ![0] bcast_S500000_S500000x1_0 (select (cmpi .slt (shapeCast _ (extractStridedSlice S1x500000 ![0, 0] (m ((c.tc : Thread nD τ).loc main_arg7)) slices_S2x500000_S1x500000_0_0) shapeCasts_S1x500000_S500000) (broadcastInDim S500000 ![] bcast_S_S500000 (constantI S_ 32 0#32))) (addi (shapeCast _ (extractStridedSlice S1x500000 ![0, 0] (m ((c.tc : Thread nD τ).loc main_arg7)) slices_S2x500000_S1x500000_0_0) shapeCasts_S1x500000_S500000) (broadcastInDim S500000 ![] bcast_S_S500000 (constantI S_ 32 4000#32))) (shapeCast _ (extractStridedSlice S1x500000 ![0, 0] (m ((c.tc : Thread nD τ).loc main_arg7)) slices_S2x500000_S1x500000_0_0) shapeCasts_S1x500000_S500000)))) transposes_S500000x64_S64x500000_1_0) (sitofp .f32 (constantI S_ 32 0#32)) pads_S64x500000_S64x507904_000_079040 h_S_ :=
  (ent2_0 (Gen.W18 m ρ c)).trans (by
    rw [show Gen.W18 m ρ c (Proc.devRef .tc main_v167) = zdK m ρ c from zd_W18 m ρ c,
      show Gen.W18 m ρ c (Proc.devRef .tc main_arg7) = m ((c.tc : Thread nD τ).loc main_arg7) from main_arg7_W18 m ρ c])

/-- The stretches from boundary 18 to region 2's entry, read at `main_v237`, from any contents. -/
theorem ent2_1 (Z : Valuation τ sig (Elt F)) :
    StableHlo.after (hostOps2_2 (F := F)) (StableHlo.after (hostOps2_1 (F := F)) (StableHlo.after (hostOps2 (F := F)) (Z))) (Proc.devRef .tc main_v237)
      = shapeCast _ (Z (Proc.devRef .tc main_arg24)) shapeCasts_S64_S64x1 := by
  dsimp only [hostOps2, hostOps2_1, hostOps2_2]
  after_results_simp <;> rfl

/-- Region 2's window 1 array `main_v237` as the region is entered. -/
theorem in2_1 (c : Dev nD) : Gen.V21 m ρ c main_v237
    = shapeCast _ (m ((c.tc : Thread nD τ).loc main_arg24)) shapeCasts_S64_S64x1 :=
  (ent2_1 (Gen.W18 m ρ c)).trans (by
    rw [show Gen.W18 m ρ c (Proc.devRef .tc main_arg24) = m ((c.tc : Thread nD τ).loc main_arg24) from main_arg24_W18 m ρ c])

/-- The stretches from boundary 18 to region 2's entry, read at `main_v236`, from any contents. -/
theorem ent2_2 (Z : Valuation τ sig (Elt F)) :
    StableHlo.after (hostOps2_2 (F := F)) (StableHlo.after (hostOps2_1 (F := F)) (StableHlo.after (hostOps2 (F := F)) (Z))) (Proc.devRef .tc main_v236)
      = truncf .bf16 (transpose S64x64 [1, 0] (Z (Proc.devRef .tc main_arg23)) transposes_S64x64_S64x64_1_0) bitsLt_bf16_f32 := by
  dsimp only [hostOps2, hostOps2_1, hostOps2_2]
  after_results_simp <;> rfl

/-- Region 2's window 2 array `main_v236` as the region is entered. -/
theorem in2_2 (c : Dev nD) : Gen.V21 m ρ c main_v236
    = truncf .bf16 (transpose S64x64 [1, 0] (m ((c.tc : Thread nD τ).loc main_arg23)) transposes_S64x64_S64x64_1_0) bitsLt_bf16_f32 :=
  (ent2_2 (Gen.W18 m ρ c)).trans (by
    rw [show Gen.W18 m ρ c (Proc.devRef .tc main_arg23) = m ((c.tc : Thread nD τ).loc main_arg23) from main_arg23_W18 m ρ c])

/-! ## Region 3: its input arrays at the entry boundary 25, from boundary 22 -/

/-- The stretches from boundary 22 to region 3's entry, read at `main_v251`, from any contents. -/
theorem ent3_0 (Z : Valuation τ sig (Elt F)) :
    StableHlo.after (hostOps3_2 (F := F)) (StableHlo.after (hostOps3_1 (F := F)) (StableHlo.after (hostOps3 (F := F)) (Z))) (Proc.devRef .tc main_v251)
      = pad S64x507904 ![0, 0] ![0, 7904] ![0, 0] (transpose S64x500000 [1, 0] (Host.gather gather_S4000x64_S500000x1_S500000x64_1_0_n_n_0_1_164 (Z (Proc.devRef .tc main_v167)) (broadcastInDim S500000x1 ![0] bcast_S500000_S500000x1_0 (select (cmpi .slt (shapeCast _ (extractStridedSlice S1x500000 ![0, 0] (Z (Proc.devRef .tc main_arg8)) slices_S2x500000_S1x500000_0_0) shapeCasts_S1x500000_S500000) (broadcastInDim S500000 ![] bcast_S_S500000 (constantI S_ 32 0#32))) (addi (shapeCast _ (extractStridedSlice S1x500000 ![0, 0] (Z (Proc.devRef .tc main_arg8)) slices_S2x500000_S1x500000_0_0) shapeCasts_S1x500000_S500000) (broadcastInDim S500000 ![] bcast_S_S500000 (constantI S_ 32 4000#32))) (shapeCast _ (extractStridedSlice S1x500000 ![0, 0] (Z (Proc.devRef .tc main_arg8)) slices_S2x500000_S1x500000_0_0) shapeCasts_S1x500000_S500000)))) transposes_S500000x64_S64x500000_1_0) (sitofp .f32 (constantI S_ 32 0#32)) pads_S64x500000_S64x507904_000_079040 h_S_ := by
  dsimp only [hostOps3, hostOps3_1, hostOps3_2]
  after_results_simp <;> rfl

/-- Region 3's window 0 array `main_v251` as the region is entered. -/
theorem in3_0 (c : Dev nD) : Gen.V25 m ρ c main_v251
    = pad S64x507904 ![0, 0] ![0, 7904] ![0, 0] (transpose S64x500000 [1, 0] (Host.gather gather_S4000x64_S500000x1_S500000x64_1_0_n_n_0_1_164 (zdK m ρ c) (broadcastInDim S500000x1 ![0] bcast_S500000_S500000x1_0 (select (cmpi .slt (shapeCast _ (extractStridedSlice S1x500000 ![0, 0] (m ((c.tc : Thread nD τ).loc main_arg8)) slices_S2x500000_S1x500000_0_0) shapeCasts_S1x500000_S500000) (broadcastInDim S500000 ![] bcast_S_S500000 (constantI S_ 32 0#32))) (addi (shapeCast _ (extractStridedSlice S1x500000 ![0, 0] (m ((c.tc : Thread nD τ).loc main_arg8)) slices_S2x500000_S1x500000_0_0) shapeCasts_S1x500000_S500000) (broadcastInDim S500000 ![] bcast_S_S500000 (constantI S_ 32 4000#32))) (shapeCast _ (extractStridedSlice S1x500000 ![0, 0] (m ((c.tc : Thread nD τ).loc main_arg8)) slices_S2x500000_S1x500000_0_0) shapeCasts_S1x500000_S500000)))) transposes_S500000x64_S64x500000_1_0) (sitofp .f32 (constantI S_ 32 0#32)) pads_S64x500000_S64x507904_000_079040 h_S_ :=
  (ent3_0 (Gen.W22 m ρ c)).trans (by
    rw [show Gen.W22 m ρ c (Proc.devRef .tc main_v167) = zdK m ρ c from zd_W22 m ρ c,
      show Gen.W22 m ρ c (Proc.devRef .tc main_arg8) = m ((c.tc : Thread nD τ).loc main_arg8) from main_arg8_W22 m ρ c])

/-- The stretches from boundary 22 to region 3's entry, read at `main_v254`, from any contents. -/
theorem ent3_1 (Z : Valuation τ sig (Elt F)) :
    StableHlo.after (hostOps3_2 (F := F)) (StableHlo.after (hostOps3_1 (F := F)) (StableHlo.after (hostOps3 (F := F)) (Z))) (Proc.devRef .tc main_v254)
      = shapeCast _ (Z (Proc.devRef .tc main_arg25)) shapeCasts_S64_S64x1 := by
  dsimp only [hostOps3, hostOps3_1, hostOps3_2]
  after_results_simp <;> rfl

/-- Region 3's window 1 array `main_v254` as the region is entered. -/
theorem in3_1 (c : Dev nD) : Gen.V25 m ρ c main_v254
    = shapeCast _ (m ((c.tc : Thread nD τ).loc main_arg25)) shapeCasts_S64_S64x1 :=
  (ent3_1 (Gen.W22 m ρ c)).trans (by
    rw [show Gen.W22 m ρ c (Proc.devRef .tc main_arg25) = m ((c.tc : Thread nD τ).loc main_arg25) from main_arg25_W22 m ρ c])

/-- The stretches from boundary 22 to region 3's entry, read at `main_v253`, from any contents. -/
theorem ent3_2 (Z : Valuation τ sig (Elt F)) :
    StableHlo.after (hostOps3_2 (F := F)) (StableHlo.after (hostOps3_1 (F := F)) (StableHlo.after (hostOps3 (F := F)) (Z))) (Proc.devRef .tc main_v253)
      = truncf .bf16 (transpose S64x64 [1, 0] (Z (Proc.devRef .tc main_arg23)) transposes_S64x64_S64x64_1_0) bitsLt_bf16_f32 := by
  dsimp only [hostOps3, hostOps3_1, hostOps3_2]
  after_results_simp <;> rfl

/-- Region 3's window 2 array `main_v253` as the region is entered. -/
theorem in3_2 (c : Dev nD) : Gen.V25 m ρ c main_v253
    = truncf .bf16 (transpose S64x64 [1, 0] (m ((c.tc : Thread nD τ).loc main_arg23)) transposes_S64x64_S64x64_1_0) bitsLt_bf16_f32 :=
  (ent3_2 (Gen.W22 m ρ c)).trans (by
    rw [show Gen.W22 m ρ c (Proc.devRef .tc main_arg23) = m ((c.tc : Thread nD τ).loc main_arg23) from main_arg23_W22 m ρ c])

end Cert.KernelIdeal.HostV

end
-- ==== Proof.DecoderSpec.lean ====
/-
  The two edge decoders, as plain sums on the extended reals, one edge (one column) at a time.

  The node table arrives feature-major: column `e` of `a`, `b` or `z` holds the 64 features of the node an
  edge `e` selects. The bilinear score of edge `e` is the sum over output features `j` of
  (the sum over `k` of `mt j k · a k e`) times `b j e`, where `mt` is the transposed relation matrix. The
  diagonal-rescaled score of edge `e` uses one table `z` for both ends, a per-feature scale `d`, and the
  transposed global matrix `rt`: the sum over `j` of (the sum over `k` of `rt j k · (z k e · d k)`) times
  `(z j e · d j)`.
-/
import Idealize.ShloMosaic.PureOps.Ideal
import Idealize.ShloMosaic.Lib.ValueIdx

noncomputable section

namespace Cert.DecoderSpec

open Idealize.ShloMosaic Idealize.ShloMosaic.ValueIdx

/-- The bilinear score of the edge in column `e`. -/
def bilinearCol (a b : (⟨2, ![64, 507904]⟩ : Shape).Idx → EReal) (mt : (⟨2, ![64, 64]⟩ : Shape).Idx → EReal)
    (e : Fin 507904) : EReal :=
  ∑ j : Fin 64, (∑ k : Fin 64, mt (ix2 j k) * a (ix2 k e)) * b (ix2 j e)

/-- The diagonal-rescaled score of the edge in column `e`. -/
def dedicomCol (z : (⟨2, ![64, 507904]⟩ : Shape).Idx → EReal) (d : (⟨2, ![64, 1]⟩ : Shape).Idx → EReal)
    (rt : (⟨2, ![64, 64]⟩ : Shape).Idx → EReal) (e : Fin 507904) : EReal :=
  ∑ j : Fin 64, (∑ k : Fin 64, rt (ix2 j k) * (z (ix2 k e) * d (ix2 k (0 : Fin 1)))) * (z (ix2 j e) * d (ix2 j (0 : Fin 1)))

end Cert.DecoderSpec

end
-- ==== Proof.PayloadAt.lean ====
/-
  The two edge decoders' block arithmetic, read at one column of a block.

  A block of a decoder is 8192 columns wide; the body stores one row of 8192 scores. At column `y` the bilinear
  body stores the sum over features `j` of (the sum over `k` of `mt j k · a k y`) times `b j y`: a 64x64 by 64x8192
  matrix product, an elementwise product with the second table's block, and a sum down the 64 rows. The
  diagonal-rescaled body first rescales its one table block row by row, `z k y · d k`, and then does the same
  with the rescaled block in both places.
-/
import proofs.«105939_j23287312679606_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayloadAt

open Cert.KernelIdeal Cert.KernelIdeal.Gen Idealize.ShloMosaic Idealize.ShloMosaic.ValueIdx

/-- A sum down the 64 rows of a 64x8192 block, kept as a one-row block, read at column `y`: the sum over the rows
    of the block's entries in that column. -/
theorem rowOfColumnSums_at (src : FVec Ideal S64x8192 .f32) (h : S64x8192.Reduces [0] S8192) (hφ : FKind.Formats .f32)
    (hacc : (0x00000000#32 : BitVec 32) = 0x00000000#32) (hc : S8192.ShapeCasts S1x8192) (y : Fin 8192) :
    shapeCast S1x8192 (multiReduction (F := Ideal) .add [0] S8192 src 0x00000000#32 h hφ hacc) hc (ix2 (0 : Fin 1) y)
      = ∑ j : Fin 64, src (ix2 j y) := by
  refine (shapeCast_addUnit_apply ![8192] _ hc (ix2 (0 : Fin 1) y)).trans ?_
  have e : (fun a : Fin 1 => (ix2 (0 : Fin 1) y : S1x8192.Idx) a.succ) = (ix1 y : S8192.Idx) :=
    funext fun a => by match a with | ⟨0, _⟩ => rfl
  rw [e]
  refine (Ideal.multiReduction_add_single src 0x00000000#32 h hφ hacc (ix1 y)).trans ?_
  refine Finset.sum_congr rfl fun j _ => congrArg src ?_
  funext a
  match a with
  | ⟨0, _⟩ => rfl
  | ⟨1, _⟩ => rfl

/-- The matrix product's left operand index at output `i` and contraction `q`: row `i 0` … -/
theorem lhs_0 (i : S64x8192.Idx) (q : dot_S64x64_S64x8192_S64x8192_1_0_0_1_n_n.contr.Idx) :
    (dot_S64x64_S64x8192_S64x8192_1_0_0_1_n_n.lhsIdx i q 0).val = (i 0).val := by
  unfold DotDims.lhsIdx
  rw [dif_neg (show ¬(0 : Fin S64x64.rank) ∈ dot_S64x64_S64x8192_S64x8192_1_0_0_1_n_n.lhsBatch by decide), dif_pos (show (0 : Fin S64x64.rank) ∈ dot_S64x64_S64x8192_S64x8192_1_0_0_1_n_n.lhsNonContracting by decide)]
  rfl
/-- … and column `q`. -/
theorem lhs_1 (i : S64x8192.Idx) (q : dot_S64x64_S64x8192_S64x8192_1_0_0_1_n_n.contr.Idx) :
    (dot_S64x64_S64x8192_S64x8192_1_0_0_1_n_n.lhsIdx i q 1).val = (q ⟨0, by decide⟩).val :=
  dot_S64x64_S64x8192_S64x8192_1_0_0_1_n_n.lhsIdx_val_of_single rfl i q
/-- The right operand index: row `q` … -/
theorem rhs_0 (i : S64x8192.Idx) (q : dot_S64x64_S64x8192_S64x8192_1_0_0_1_n_n.contr.Idx) :
    (dot_S64x64_S64x8192_S64x8192_1_0_0_1_n_n.rhsIdx i q 0).val = (q ⟨0, by decide⟩).val :=
  dot_S64x64_S64x8192_S64x8192_1_0_0_1_n_n.rhsIdx_val_of_single rfl i q
/-- … and column `i 1`. -/
theorem rhs_1 (i : S64x8192.Idx) (q : dot_S64x64_S64x8192_S64x8192_1_0_0_1_n_n.contr.Idx) :
    (dot_S64x64_S64x8192_S64x8192_1_0_0_1_n_n.rhsIdx i q 1).val = (i 1).val := by
  unfold DotDims.rhsIdx
  rw [dif_neg (show ¬(1 : Fin S64x8192.rank) ∈ dot_S64x64_S64x8192_S64x8192_1_0_0_1_n_n.rhsBatch by decide), dif_pos (show (1 : Fin S64x8192.rank) ∈ dot_S64x64_S64x8192_S64x8192_1_0_0_1_n_n.rhsNonContracting by decide)]
  rfl

/-- The 64x64 by 64x8192 matrix product into a zero accumulator, read at row `j` and column `y`: the sum over `k` of
    the matrix's entry `(j, k)` times the block's entry `(k, y)`. -/
theorem matrixTimesBlock_at (a : FVec Ideal S64x64 .bf16) (b : FVec Ideal S64x8192 .bf16) (j : Fin 64) (y : Fin 8192) :
    matmul dot_S64x64_S64x8192_S64x8192_1_0_0_1_n_n none a b (constant (F := Ideal) S64x8192 .f32 0x00000000#32) (ix2 j y)
      = ∑ k : Fin 64, a (ix2 j k) * b (ix2 k y) := by
  simp only [matmul]
  rw [Ideal.matmul_constant_zero_apply, ← Equiv.sum_comp (contrEquiv1 dot_S64x64_S64x8192_S64x8192_1_0_0_1_n_n 64 rfl rfl).symm]
  refine Finset.sum_congr rfl fun k _ => ?_
  have hk := contrEquiv1_symm_val dot_S64x64_S64x8192_S64x8192_1_0_0_1_n_n 64 rfl rfl k
  have el : dot_S64x64_S64x8192_S64x8192_1_0_0_1_n_n.lhsIdx (ix2 j y) ((contrEquiv1 dot_S64x64_S64x8192_S64x8192_1_0_0_1_n_n 64 rfl rfl).symm k) = ix2 j k :=
    funext fun c => Fin.ext (by
      match c with
      | ⟨0, _⟩ => exact lhs_0 _ _
      | ⟨1, _⟩ => exact (lhs_1 _ _).trans hk)
  have er : dot_S64x64_S64x8192_S64x8192_1_0_0_1_n_n.rhsIdx (ix2 j y) ((contrEquiv1 dot_S64x64_S64x8192_S64x8192_1_0_0_1_n_n 64 rfl rfl).symm k) = ix2 k y :=
    funext fun c => Fin.ext (by
      match c with
      | ⟨0, _⟩ => exact (rhs_0 _ _).trans hk
      | ⟨1, _⟩ => exact rhs_1 _ _)
  rw [el, er]

/-- The bilinear body's stored row at column `y`, from its three loaded blocks: the first table's block `x0`, the
    second table's block `x1`, the 64x64 matrix `x2`. -/
theorem bilinear_at (x0 : FVec Ideal S64x8192 .bf16) (x1 : FVec Ideal S64x8192 .f32) (x2 : FVec Ideal S64x64 .bf16) (y : Fin 8192) :
    k0_pay1 (F := Ideal) x2 x0 x1 (ix2 (0 : Fin 1) y)
      = ∑ j : Fin 64, (∑ k : Fin 64, x2 (ix2 j k) * x0 (ix2 k y)) * x1 (ix2 j y) := by
  unfold k0_pay1
  simp only [shapeCast_self]
  refine (rowOfColumnSums_at _ _ _ _ _ y).trans ?_
  refine Finset.sum_congr rfl fun j _ => ?_
  rw [mulf_apply]
  exact congrArg (· * x1 (ix2 j y)) (matrixTimesBlock_at x2 x0 j y)

/-- The second bilinear decoder's body is the same arithmetic. -/
theorem bilinear_at' (x0 : FVec Ideal S64x8192 .bf16) (x1 : FVec Ideal S64x8192 .f32) (x2 : FVec Ideal S64x64 .bf16) (y : Fin 8192) :
    k1_pay1 (F := Ideal) x2 x0 x1 (ix2 (0 : Fin 1) y)
      = ∑ j : Fin 64, (∑ k : Fin 64, x2 (ix2 j k) * x0 (ix2 k y)) * x1 (ix2 j y) :=
  bilinear_at x0 x1 x2 y

/-- The scale column spread over the 8192 columns, read at `(p, y)`: the scale of row `p`. -/
theorem scaleSpread_at (d : FVec Ideal S64x1 .f32) (h : S64x1.Broadcasts S64x8192) (p : Fin 64) (y : Fin 8192) :
    broadcastTo S64x8192 d h (ix2 p y) = d (ix2 p (0 : Fin 1)) :=
  broadcastTo_apply d h (ix2 p y) (ix2 p (0 : Fin 1)) fun a => by
    match a with
    | ⟨0, _⟩ => rfl
    | ⟨1, _⟩ => rfl

/-- The diagonal-rescaled body's stored row at column `y`, from its three loaded blocks: the table's block `x0`, the
    64x1 scale `x1`, the 64x64 matrix `x2`. -/
theorem dedicom_at (x0 : FVec Ideal S64x8192 .f32) (x1 : FVec Ideal S64x1 .f32) (x2 : FVec Ideal S64x64 .bf16) (y : Fin 8192) :
    k2_pay1 (F := Ideal) x0 x1 x2 (ix2 (0 : Fin 1) y)
      = ∑ j : Fin 64, (∑ k : Fin 64, x2 (ix2 j k) * (x0 (ix2 k y) * x1 (ix2 k (0 : Fin 1)))) * (x0 (ix2 j y) * x1 (ix2 j (0 : Fin 1))) := by
  unfold k2_pay1
  simp only [shapeCast_self]
  refine (rowOfColumnSums_at _ _ _ _ _ y).trans ?_
  refine Finset.sum_congr rfl fun j _ => ?_
  rw [mulf_apply, mulf_apply, scaleSpread_at]
  refine congrArg (· * (x0 (ix2 j y) * x1 (ix2 j (0 : Fin 1)))) ?_
  refine (matrixTimesBlock_at x2 _ j y).trans ?_
  refine Finset.sum_congr rfl fun k _ => ?_
  rw [truncf_apply, mulf_apply, scaleSpread_at]

/-- The second diagonal-rescaled decoder's body is the same arithmetic. -/
theorem dedicom_at' (x0 : FVec Ideal S64x8192 .f32) (x1 : FVec Ideal S64x1 .f32) (x2 : FVec Ideal S64x64 .bf16) (y : Fin 8192) :
    k3_pay1 (F := Ideal) x0 x1 x2 (ix2 (0 : Fin 1) y)
      = ∑ j : Fin 64, (∑ k : Fin 64, x2 (ix2 j k) * (x0 (ix2 k y) * x1 (ix2 k (0 : Fin 1)))) * (x0 (ix2 j y) * x1 (ix2 j (0 : Fin 1))) :=
  dedicom_at x0 x1 x2 y

end Cert.KernelIdeal.PayloadAt

end
-- ==== Proof.Region0.lean ====
/-
  The first bilinear decoder, from blocks to the array: after its 62 grid points the region's output array holds,
  in column `e`, the bilinear score of edge `e`, a function of the three input arrays as the region finds them.

  A grid point `t` reads columns `8192·t … 8192·t + 8191` of the two 64x507904 tables and the whole 64x64
  matrix, and writes columns `8192·t … 8192·t + 8191` of the 1x507904 output row; 62 · 8192 = 507904, so the 62
  blocks tile the row, and column `e` is written by point `e / 8192`.
-/
import proofs.«105939_j23287312679606_2_alg».proof.Proof.Gen.KernelIdeal.Frame
import proofs.«105939_j23287312679606_2_alg».proof.Proof.DecoderSpec
import proofs.«105939_j23287312679606_2_alg».proof.Proof.PayloadAt
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.DecoderSpec
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- What the body leaves in the output block, at column `y`, from the three input blocks: the body loads each block
    whole and stores the one row whole, so it is the body's arithmetic at that column. -/
theorem storedRow_at (x0 : Vec Ideal S64x8192 .bf16) (x1 : Vec Ideal S64x8192 .f32) (x2 : Vec Ideal S64x64 .bf16) (y : Fin 8192) :
    out0_3 (F := Ideal) x0 x1 x2 (ix2 (0 : Fin 1) y)
      = ∑ j : Fin 64, (∑ k : Fin 64, x2 (ix2 j k) * x0 (ix2 k y)) * x1 (ix2 j y) := by
  unfold out0_3
  rw [View.canon_unit_zero zeroOffsets]
  simp only [View.ld_unit_zero (S := S64x8192) zeroOffsets, View.ld_unit_zero (S := S64x64) zeroOffsets]
  exact PayloadAt.bilinear_at x0 x1 x2 y

/-- The block indices over the grid: the two tables' windows and the output's window sit at block `(0, t)` at
    point `t`, the matrix's window at block `(0, 0)` at every point. -/
theorem blockIndex : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The first table's block at point `t` is its columns `8192·t …`: entry `(k, y)` of the block is entry
    `(k, 8192·t + y)` of the array. -/
theorem firstTableBlock_at (c : Dev nD) (t : Fin cfg0.N) (k : Fin 64) (y : Fin 8192) (e : Fin 507904) (he : e.val = 8192 * t.val + y.val) :
    (iblk0 V c 0 t : Vec Ideal S64x8192 .bf16) (ix2 k y) = (V c main_v189 : S64x507904.Idx → EReal) (ix2 k e) := by
  obtain ⟨e0, e1, -⟩ := blockIndex t
  unfold iblk0
  rw [View.read_apply]
  show V c main_v189 _ = V c main_v189 _
  congr 1
  funext a
  apply Fin.ext
  match a with
  | ⟨0, _⟩ => show win0_0.index t 0 * 64 + 1 * k.val = k.val; rw [e0]; omega
  | ⟨1, _⟩ => show win0_0.index t 1 * 8192 + 1 * y.val = e.val; rw [e1, he]; omega

/-- The second table's block at point `t`, likewise. -/
theorem secondTableBlock_at (c : Dev nD) (t : Fin cfg0.N) (k : Fin 64) (y : Fin 8192) (e : Fin 507904) (he : e.val = 8192 * t.val + y.val) :
    (iblk0 V c 1 t : Vec Ideal S64x8192 .f32) (ix2 k y) = (V c main_v190 : S64x507904.Idx → EReal) (ix2 k e) := by
  obtain ⟨-, -, e0, e1, -⟩ := blockIndex t
  unfold iblk0
  rw [View.read_apply]
  show V c main_v190 _ = V c main_v190 _
  congr 1
  funext a
  apply Fin.ext
  match a with
  | ⟨0, _⟩ => show win0_1.index t 0 * 64 + 1 * k.val = k.val; rw [e0]; omega
  | ⟨1, _⟩ => show win0_1.index t 1 * 8192 + 1 * y.val = e.val; rw [e1, he]; omega

/-- The matrix's block at every point is the whole matrix. -/
theorem matrixBlock_at (c : Dev nD) (t : Fin cfg0.N) (j k : Fin 64) :
    (iblk0 V c 2 t : Vec Ideal S64x64 .bf16) (ix2 j k) = (V c main_v192 : S64x64.Idx → EReal) (ix2 j k) := by
  obtain ⟨-, -, -, -, e0, e1, -⟩ := blockIndex t
  unfold iblk0
  rw [View.read_apply]
  show V c main_v192 _ = V c main_v192 _
  congr 1
  funext a
  apply Fin.ext
  match a with
  | ⟨0, _⟩ => show win0_2.index t 0 * 64 + 1 * j.val = j.val; rw [e0]; omega
  | ⟨1, _⟩ => show win0_2.index t 1 * 64 + 1 * k.val = k.val; rw [e1]; omega

/-- What point `t` leaves in the output block at column `y` is the bilinear score of edge `8192·t + y`. -/
theorem storedScore_at (c : Dev nD) (t : Fin cfg0.N) (y : Fin 8192) (e : Fin 507904) (he : e.val = 8192 * t.val + y.val) :
    out0_3 (F := Ideal) (iblk0 V c 0 t) (iblk0 V c 1 t) (iblk0 V c 2 t) (ix2 (0 : Fin 1) y)
      = bilinearCol (V c main_v189) (V c main_v190) (V c main_v192) e := by
  refine (storedRow_at (iblk0 V c 0 t) (iblk0 V c 1 t) (iblk0 V c 2 t) y).trans ?_
  unfold bilinearCol
  refine Finset.sum_congr rfl fun j _ => ?_
  rw [secondTableBlock_at V c t j y e he]
  refine congrArg (· * _) (Finset.sum_congr rfl fun k _ => ?_)
  rw [matrixBlock_at V c t j k, firstTableBlock_at V c t k y e he]

/-- WHAT POINT `t` WRITES BACK is block `t` of the row of bilinear scores. -/
theorem writtenBack (c : Dev nD) (t : Fin cfg0.N) :
    (dat0 (F := Ideal) V c).flushed 3 t = ((cfg0.win 3).blk t).view.read (Elt Ideal)
      (fun i => bilinearCol (V c main_v189) (V c main_v190) (V c main_v192) ⟨(i 1).val, (i 1).isLt⟩) := by
  show (cfg0.win 3).cut (grid0.coords t) ((dat0 V c).after 3 t) = _
  rw [after0_3]
  obtain ⟨-, -, -, -, -, -, e0, e1⟩ := blockIndex t
  funext y
  have hy0 : (y 0).val < 1 := (y 0).isLt
  have hy1 : (y 1).val < 8192 := (y 1).isLt
  have ht : t.val < 62 := t.isLt
  rw [View.read_apply]
  have ey : (cfg0.win 3).xinj (grid0.coords t) y = ix2 (0 : Fin 1) (⟨(y 1).val, hy1⟩ : Fin 8192) :=
    funext fun a => Fin.ext (by
      match a with
      | ⟨0, _⟩ => show (y 0).val = 0; omega
      | ⟨1, _⟩ => rfl)
  show out0_3 (F := Ideal) (iblk0 V c 0 t) (iblk0 V c 1 t) (iblk0 V c 2 t) ((cfg0.win 3).xinj (grid0.coords t) y) = _
  rw [ey]
  refine (storedScore_at V c t ⟨(y 1).val, hy1⟩ ⟨8192 * t.val + (y 1).val, by omega⟩ rfl).trans ?_
  refine congrArg (bilinearCol (V c main_v189) (V c main_v190) (V c main_v192)) (Fin.ext ?_)
  show 8192 * t.val + (y 1).val = win0_3.index t 1 * 8192 + 1 * (y 1).val
  rw [e1]; omega

/-- A column of the output row is in point `t`'s block iff each coordinate is in the block's range on its axis. -/
theorem mem_block (t : Fin cfg0.N) (i : S1x507904.Idx) :
    i ∈ ((cfg0.win 3).blk t).view.set ↔ ∀ a : Fin 2, win0_3.index t a * S1x8192.size a ≤ (i a).val ∧ (i a).val < win0_3.index t a * S1x8192.size a + S1x8192.size a := by
  show i ∈ ((View.whole main_v193).slice (win0_3.rect t)).set ↔ _
  rw [View.set_slice_whole, Rect.mem_set_unit]
  exact Iff.rfl

/-- The 62 blocks tile the row: column `e` is in the block of point `e / 8192`. -/
theorem tiled (i : S1x507904.Idx) : ∃ t : Fin cfg0.N, (cfg0.win 3).flush t = true ∧ i ∈ ((cfg0.win 3).blk t).view.set := by
  have hi0 : (i 0).val < 1 := (i 0).isLt
  have hi1 : (i 1).val < 507904 := (i 1).isLt
  have hN : grid0.N = 62 := N_0
  let t : Fin cfg0.N := ⟨(i 1).val / 8192, by show (i 1).val / 8192 < grid0.N; rw [hN]; omega⟩
  obtain ⟨-, -, -, -, -, -, e0, e1⟩ := blockIndex t
  have et : t.val = (i 1).val / 8192 := rfl
  refine ⟨t, flush0_3 t, ?_⟩
  rw [mem_block]
  intro a
  match a with
  | ⟨0, _⟩ => show win0_3.index t 0 * 1 ≤ (i 0).val ∧ (i 0).val < win0_3.index t 0 * 1 + 1; rw [e0]; omega
  | ⟨1, _⟩ => show win0_3.index t 1 * 8192 ≤ (i 1).val ∧ (i 1).val < win0_3.index t 1 * 8192 + 8192; rw [e1, et]; omega

/-- THE ARRAY after the region's 62 points: column `e` of the output row is the bilinear score of edge `e`, of the
    two tables and the matrix as the region finds them. -/
theorem arr (c : Dev nD) :
    (dat0 (F := Ideal) V c).arrAt 3 cfg0.N
      = fun i => bilinearCol (V c main_v189) (V c main_v190) (V c main_v192) ⟨(i 1).val, (i 1).isLt⟩ :=
  (dat0 (F := Ideal) V c).arrAt_eq_of_cover 3 _ (fun t _ => writtenBack V c t) tiled

end Cert.KernelIdeal.Region0

end
-- ==== Proof.Region1.lean ====
/-
  The second bilinear decoder, from blocks to the array: after its 62 grid points the region's output array holds,
  in column `e`, the bilinear score of edge `e`, a function of the three input arrays as the region finds them.

  A grid point `t` reads columns `8192·t … 8192·t + 8191` of the two 64x507904 tables and the whole 64x64
  matrix, and writes columns `8192·t … 8192·t + 8191` of the 1x507904 output row; 62 · 8192 = 507904, so the 62
  blocks tile the row, and column `e` is written by point `e / 8192`.
-/
import proofs.«105939_j23287312679606_2_alg».proof.Proof.Gen.KernelIdeal.Frame
import proofs.«105939_j23287312679606_2_alg».proof.Proof.DecoderSpec
import proofs.«105939_j23287312679606_2_alg».proof.Proof.PayloadAt
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.DecoderSpec
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- What the body leaves in the output block, at column `y`, from the three input blocks: the body loads each block
    whole and stores the one row whole, so it is the body's arithmetic at that column. -/
theorem storedRow_at (x0 : Vec Ideal S64x8192 .bf16) (x1 : Vec Ideal S64x8192 .f32) (x2 : Vec Ideal S64x64 .bf16) (y : Fin 8192) :
    out1_3 (F := Ideal) x0 x1 x2 (ix2 (0 : Fin 1) y)
      = ∑ j : Fin 64, (∑ k : Fin 64, x2 (ix2 j k) * x0 (ix2 k y)) * x1 (ix2 j y) := by
  unfold out1_3
  rw [View.canon_unit_zero zeroOffsets]
  simp only [View.ld_unit_zero (S := S64x8192) zeroOffsets, View.ld_unit_zero (S := S64x64) zeroOffsets]
  exact PayloadAt.bilinear_at' x0 x1 x2 y

/-- The block indices over the grid: the two tables' windows and the output's window sit at block `(0, t)` at
    point `t`, the matrix's window at block `(0, 0)` at every point. -/
theorem blockIndex : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = t.val :=
  (by decide +kernel : ∀ t : Fin grid1.N, _)

/-- The first table's block at point `t` is its columns `8192·t …`: entry `(k, y)` of the block is entry
    `(k, 8192·t + y)` of the array. -/
theorem firstTableBlock_at (c : Dev nD) (t : Fin cfg1.N) (k : Fin 64) (y : Fin 8192) (e : Fin 507904) (he : e.val = 8192 * t.val + y.val) :
    (iblk1 V c 0 t : Vec Ideal S64x8192 .bf16) (ix2 k y) = (V c main_v217 : S64x507904.Idx → EReal) (ix2 k e) := by
  obtain ⟨e0, e1, -⟩ := blockIndex t
  unfold iblk1
  rw [View.read_apply]
  show V c main_v217 _ = V c main_v217 _
  congr 1
  funext a
  apply Fin.ext
  match a with
  | ⟨0, _⟩ => show win1_0.index t 0 * 64 + 1 * k.val = k.val; rw [e0]; omega
  | ⟨1, _⟩ => show win1_0.index t 1 * 8192 + 1 * y.val = e.val; rw [e1, he]; omega

/-- The second table's block at point `t`, likewise. -/
theorem secondTableBlock_at (c : Dev nD) (t : Fin cfg1.N) (k : Fin 64) (y : Fin 8192) (e : Fin 507904) (he : e.val = 8192 * t.val + y.val) :
    (iblk1 V c 1 t : Vec Ideal S64x8192 .f32) (ix2 k y) = (V c main_v218 : S64x507904.Idx → EReal) (ix2 k e) := by
  obtain ⟨-, -, e0, e1, -⟩ := blockIndex t
  unfold iblk1
  rw [View.read_apply]
  show V c main_v218 _ = V c main_v218 _
  congr 1
  funext a
  apply Fin.ext
  match a with
  | ⟨0, _⟩ => show win1_1.index t 0 * 64 + 1 * k.val = k.val; rw [e0]; omega
  | ⟨1, _⟩ => show win1_1.index t 1 * 8192 + 1 * y.val = e.val; rw [e1, he]; omega

/-- The matrix's block at every point is the whole matrix. -/
theorem matrixBlock_at (c : Dev nD) (t : Fin cfg1.N) (j k : Fin 64) :
    (iblk1 V c 2 t : Vec Ideal S64x64 .bf16) (ix2 j k) = (V c main_v220 : S64x64.Idx → EReal) (ix2 j k) := by
  obtain ⟨-, -, -, -, e0, e1, -⟩ := blockIndex t
  unfold iblk1
  rw [View.read_apply]
  show V c main_v220 _ = V c main_v220 _
  congr 1
  funext a
  apply Fin.ext
  match a with
  | ⟨0, _⟩ => show win1_2.index t 0 * 64 + 1 * j.val = j.val; rw [e0]; omega
  | ⟨1, _⟩ => show win1_2.index t 1 * 64 + 1 * k.val = k.val; rw [e1]; omega

/-- What point `t` leaves in the output block at column `y` is the bilinear score of edge `8192·t + y`. -/
theorem storedScore_at (c : Dev nD) (t : Fin cfg1.N) (y : Fin 8192) (e : Fin 507904) (he : e.val = 8192 * t.val + y.val) :
    out1_3 (F := Ideal) (iblk1 V c 0 t) (iblk1 V c 1 t) (iblk1 V c 2 t) (ix2 (0 : Fin 1) y)
      = bilinearCol (V c main_v217) (V c main_v218) (V c main_v220) e := by
  refine (storedRow_at (iblk1 V c 0 t) (iblk1 V c 1 t) (iblk1 V c 2 t) y).trans ?_
  unfold bilinearCol
  refine Finset.sum_congr rfl fun j _ => ?_
  rw [secondTableBlock_at V c t j y e he]
  refine congrArg (· * _) (Finset.sum_congr rfl fun k _ => ?_)
  rw [matrixBlock_at V c t j k, firstTableBlock_at V c t k y e he]

/-- WHAT POINT `t` WRITES BACK is block `t` of the row of bilinear scores. -/
theorem writtenBack (c : Dev nD) (t : Fin cfg1.N) :
    (dat1 (F := Ideal) V c).flushed 3 t = ((cfg1.win 3).blk t).view.read (Elt Ideal)
      (fun i => bilinearCol (V c main_v217) (V c main_v218) (V c main_v220) ⟨(i 1).val, (i 1).isLt⟩) := by
  show (cfg1.win 3).cut (grid1.coords t) ((dat1 V c).after 3 t) = _
  rw [after1_3]
  obtain ⟨-, -, -, -, -, -, e0, e1⟩ := blockIndex t
  funext y
  have hy0 : (y 0).val < 1 := (y 0).isLt
  have hy1 : (y 1).val < 8192 := (y 1).isLt
  have ht : t.val < 62 := t.isLt
  rw [View.read_apply]
  have ey : (cfg1.win 3).xinj (grid1.coords t) y = ix2 (0 : Fin 1) (⟨(y 1).val, hy1⟩ : Fin 8192) :=
    funext fun a => Fin.ext (by
      match a with
      | ⟨0, _⟩ => show (y 0).val = 0; omega
      | ⟨1, _⟩ => rfl)
  show out1_3 (F := Ideal) (iblk1 V c 0 t) (iblk1 V c 1 t) (iblk1 V c 2 t) ((cfg1.win 3).xinj (grid1.coords t) y) = _
  rw [ey]
  refine (storedScore_at V c t ⟨(y 1).val, hy1⟩ ⟨8192 * t.val + (y 1).val, by omega⟩ rfl).trans ?_
  refine congrArg (bilinearCol (V c main_v217) (V c main_v218) (V c main_v220)) (Fin.ext ?_)
  show 8192 * t.val + (y 1).val = win1_3.index t 1 * 8192 + 1 * (y 1).val
  rw [e1]; omega

/-- A column of the output row is in point `t`'s block iff each coordinate is in the block's range on its axis. -/
theorem mem_block (t : Fin cfg1.N) (i : S1x507904.Idx) :
    i ∈ ((cfg1.win 3).blk t).view.set ↔ ∀ a : Fin 2, win1_3.index t a * S1x8192.size a ≤ (i a).val ∧ (i a).val < win1_3.index t a * S1x8192.size a + S1x8192.size a := by
  show i ∈ ((View.whole main_v221).slice (win1_3.rect t)).set ↔ _
  rw [View.set_slice_whole, Rect.mem_set_unit]
  exact Iff.rfl

/-- The 62 blocks tile the row: column `e` is in the block of point `e / 8192`. -/
theorem tiled (i : S1x507904.Idx) : ∃ t : Fin cfg1.N, (cfg1.win 3).flush t = true ∧ i ∈ ((cfg1.win 3).blk t).view.set := by
  have hi0 : (i 0).val < 1 := (i 0).isLt
  have hi1 : (i 1).val < 507904 := (i 1).isLt
  have hN : grid1.N = 62 := N_1
  let t : Fin cfg1.N := ⟨(i 1).val / 8192, by show (i 1).val / 8192 < grid1.N; rw [hN]; omega⟩
  obtain ⟨-, -, -, -, -, -, e0, e1⟩ := blockIndex t
  have et : t.val = (i 1).val / 8192 := rfl
  refine ⟨t, flush1_3 t, ?_⟩
  rw [mem_block]
  intro a
  match a with
  | ⟨0, _⟩ => show win1_3.index t 0 * 1 ≤ (i 0).val ∧ (i 0).val < win1_3.index t 0 * 1 + 1; rw [e0]; omega
  | ⟨1, _⟩ => show win1_3.index t 1 * 8192 ≤ (i 1).val ∧ (i 1).val < win1_3.index t 1 * 8192 + 8192; rw [e1, et]; omega

/-- THE ARRAY after the region's 62 points: column `e` of the output row is the bilinear score of edge `e`, of the
    two tables and the matrix as the region finds them. -/
theorem arr (c : Dev nD) :
    (dat1 (F := Ideal) V c).arrAt 3 cfg1.N
      = fun i => bilinearCol (V c main_v217) (V c main_v218) (V c main_v220) ⟨(i 1).val, (i 1).isLt⟩ :=
  (dat1 (F := Ideal) V c).arrAt_eq_of_cover 3 _ (fun t _ => writtenBack V c t) tiled

end Cert.KernelIdeal.Region1

end
-- ==== Proof.Region2.lean ====
/-
  The first diagonal-rescaled decoder, from blocks to the array: after its 62 grid points the region's output array
  holds, in column `e`, the diagonal-rescaled score of edge `e`, a function of the three input arrays as the region
  finds them.

  A grid point `t` reads columns `8192·t … 8192·t + 8191` of the 64x507904 table, the whole 64x1 scale and the whole
  64x64 matrix, and writes columns `8192·t … 8192·t + 8191` of the 1x507904 output row; 62 · 8192 = 507904, so the
  62 blocks tile the row, and column `e` is written by point `e / 8192`.
-/
import proofs.«105939_j23287312679606_2_alg».proof.Proof.Gen.KernelIdeal.Frame
import proofs.«105939_j23287312679606_2_alg».proof.Proof.DecoderSpec
import proofs.«105939_j23287312679606_2_alg».proof.Proof.PayloadAt
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.DecoderSpec
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- What the body leaves in the output block, at column `y`, from the three input blocks: the body loads each block
    whole and stores the one row whole, so it is the body's arithmetic at that column. -/
theorem storedRow_at (x0 : Vec Ideal S64x8192 .f32) (x1 : Vec Ideal S64x1 .f32) (x2 : Vec Ideal S64x64 .bf16) (y : Fin 8192) :
    out2_3 (F := Ideal) x0 x1 x2 (ix2 (0 : Fin 1) y)
      = ∑ j : Fin 64, (∑ k : Fin 64, x2 (ix2 j k) * (x0 (ix2 k y) * x1 (ix2 k (0 : Fin 1)))) * (x0 (ix2 j y) * x1 (ix2 j (0 : Fin 1))) := by
  unfold out2_3
  rw [View.canon_unit_zero zeroOffsets]
  simp only [View.ld_unit_zero (S := S64x8192) zeroOffsets, View.ld_unit_zero (S := S64x1) zeroOffsets, View.ld_unit_zero (S := S64x64) zeroOffsets]
  exact PayloadAt.dedicom_at x0 x1 x2 y

/-- The block indices over the grid: the table's window and the output's window sit at block `(0, t)` at point `t`,
    the scale's and the matrix's windows at block `(0, 0)` at every point. -/
theorem blockIndex : ∀ t : Fin cfg2.N, win2_0.index t (0 : Fin 2) = 0 ∧ win2_0.index t (1 : Fin 2) = t.val
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = t.val :=
  (by decide +kernel : ∀ t : Fin grid2.N, _)

/-- The table's block at point `t` is its columns `8192·t …`: entry `(k, y)` of the block is entry `(k, 8192·t + y)`
    of the array. -/
theorem tableBlock_at (c : Dev nD) (t : Fin cfg2.N) (k : Fin 64) (y : Fin 8192) (e : Fin 507904) (he : e.val = 8192 * t.val + y.val) :
    (iblk2 V c 0 t : Vec Ideal S64x8192 .f32) (ix2 k y) = (V c main_v234 : S64x507904.Idx → EReal) (ix2 k e) := by
  obtain ⟨e0, e1, -⟩ := blockIndex t
  unfold iblk2
  rw [View.read_apply]
  show V c main_v234 _ = V c main_v234 _
  congr 1
  funext a
  apply Fin.ext
  match a with
  | ⟨0, _⟩ => show win2_0.index t 0 * 64 + 1 * k.val = k.val; rw [e0]; omega
  | ⟨1, _⟩ => show win2_0.index t 1 * 8192 + 1 * y.val = e.val; rw [e1, he]; omega

/-- The scale's block at every point is the whole scale column. -/
theorem scaleBlock_at (c : Dev nD) (t : Fin cfg2.N) (k : Fin 64) :
    (iblk2 V c 1 t : Vec Ideal S64x1 .f32) (ix2 k (0 : Fin 1)) = (V c main_v237 : S64x1.Idx → EReal) (ix2 k (0 : Fin 1)) := by
  obtain ⟨-, -, e0, e1, -⟩ := blockIndex t
  unfold iblk2
  rw [View.read_apply]
  show V c main_v237 _ = V c main_v237 _
  congr 1
  funext a
  apply Fin.ext
  match a with
  | ⟨0, _⟩ => show win2_1.index t 0 * 64 + 1 * k.val = k.val; rw [e0]; omega
  | ⟨1, _⟩ => show win2_1.index t 1 * 1 + 1 * (0 : Fin 1).val = (0 : Fin 1).val; rw [e1]; omega

/-- The matrix's block at every point is the whole matrix. -/
theorem matrixBlock_at (c : Dev nD) (t : Fin cfg2.N) (j k : Fin 64) :
    (iblk2 V c 2 t : Vec Ideal S64x64 .bf16) (ix2 j k) = (V c main_v236 : S64x64.Idx → EReal) (ix2 j k) := by
  obtain ⟨-, -, -, -, e0, e1, -⟩ := blockIndex t
  unfold iblk2
  rw [View.read_apply]
  show V c main_v236 _ = V c main_v236 _
  congr 1
  funext a
  apply Fin.ext
  match a with
  | ⟨0, _⟩ => show win2_2.index t 0 * 64 + 1 * j.val = j.val; rw [e0]; omega
  | ⟨1, _⟩ => show win2_2.index t 1 * 64 + 1 * k.val = k.val; rw [e1]; omega

/-- What point `t` leaves in the output block at column `y` is the diagonal-rescaled score of edge `8192·t + y`. -/
theorem storedScore_at (c : Dev nD) (t : Fin cfg2.N) (y : Fin 8192) (e : Fin 507904) (he : e.val = 8192 * t.val + y.val) :
    out2_3 (F := Ideal) (iblk2 V c 0 t) (iblk2 V c 1 t) (iblk2 V c 2 t) (ix2 (0 : Fin 1) y)
      = dedicomCol (V c main_v234) (V c main_v237) (V c main_v236) e := by
  refine (storedRow_at (iblk2 V c 0 t) (iblk2 V c 1 t) (iblk2 V c 2 t) y).trans ?_
  unfold dedicomCol
  refine Finset.sum_congr rfl fun j _ => ?_
  rw [tableBlock_at V c t j y e he, scaleBlock_at V c t j]
  refine congrArg (· * _) (Finset.sum_congr rfl fun k _ => ?_)
  rw [matrixBlock_at V c t j k, tableBlock_at V c t k y e he, scaleBlock_at V c t k]

/-- WHAT POINT `t` WRITES BACK is block `t` of the row of diagonal-rescaled scores. -/
theorem writtenBack (c : Dev nD) (t : Fin cfg2.N) :
    (dat2 (F := Ideal) V c).flushed 3 t = ((cfg2.win 3).blk t).view.read (Elt Ideal)
      (fun i => dedicomCol (V c main_v234) (V c main_v237) (V c main_v236) ⟨(i 1).val, (i 1).isLt⟩) := by
  show (cfg2.win 3).cut (grid2.coords t) ((dat2 V c).after 3 t) = _
  rw [after2_3]
  obtain ⟨-, -, -, -, -, -, e0, e1⟩ := blockIndex t
  funext y
  have hy0 : (y 0).val < 1 := (y 0).isLt
  have hy1 : (y 1).val < 8192 := (y 1).isLt
  have ht : t.val < 62 := t.isLt
  rw [View.read_apply]
  have ey : (cfg2.win 3).xinj (grid2.coords t) y = ix2 (0 : Fin 1) (⟨(y 1).val, hy1⟩ : Fin 8192) :=
    funext fun a => Fin.ext (by
      match a with
      | ⟨0, _⟩ => show (y 0).val = 0; omega
      | ⟨1, _⟩ => rfl)
  show out2_3 (F := Ideal) (iblk2 V c 0 t) (iblk2 V c 1 t) (iblk2 V c 2 t) ((cfg2.win 3).xinj (grid2.coords t) y) = _
  rw [ey]
  refine (storedScore_at V c t ⟨(y 1).val, hy1⟩ ⟨8192 * t.val + (y 1).val, by omega⟩ rfl).trans ?_
  refine congrArg (dedicomCol (V c main_v234) (V c main_v237) (V c main_v236)) (Fin.ext ?_)
  show 8192 * t.val + (y 1).val = win2_3.index t 1 * 8192 + 1 * (y 1).val
  rw [e1]; omega

/-- A column of the output row is in point `t`'s block iff each coordinate is in the block's range on its axis. -/
theorem mem_block (t : Fin cfg2.N) (i : S1x507904.Idx) :
    i ∈ ((cfg2.win 3).blk t).view.set ↔ ∀ a : Fin 2, win2_3.index t a * S1x8192.size a ≤ (i a).val ∧ (i a).val < win2_3.index t a * S1x8192.size a + S1x8192.size a := by
  show i ∈ ((View.whole main_v238).slice (win2_3.rect t)).set ↔ _
  rw [View.set_slice_whole, Rect.mem_set_unit]
  exact Iff.rfl

/-- The 62 blocks tile the row: column `e` is in the block of point `e / 8192`. -/
theorem tiled (i : S1x507904.Idx) : ∃ t : Fin cfg2.N, (cfg2.win 3).flush t = true ∧ i ∈ ((cfg2.win 3).blk t).view.set := by
  have hi0 : (i 0).val < 1 := (i 0).isLt
  have hi1 : (i 1).val < 507904 := (i 1).isLt
  have hN : grid2.N = 62 := N_2
  let t : Fin cfg2.N := ⟨(i 1).val / 8192, by show (i 1).val / 8192 < grid2.N; rw [hN]; omega⟩
  obtain ⟨-, -, -, -, -, -, e0, e1⟩ := blockIndex t
  have et : t.val = (i 1).val / 8192 := rfl
  refine ⟨t, flush2_3 t, ?_⟩
  rw [mem_block]
  intro a
  match a with
  | ⟨0, _⟩ => show win2_3.index t 0 * 1 ≤ (i 0).val ∧ (i 0).val < win2_3.index t 0 * 1 + 1; rw [e0]; omega
  | ⟨1, _⟩ => show win2_3.index t 1 * 8192 ≤ (i 1).val ∧ (i 1).val < win2_3.index t 1 * 8192 + 8192; rw [e1, et]; omega

/-- THE ARRAY after the region's 62 points: column `e` of the output row is the diagonal-rescaled score of edge `e`,
    of the table, the scale and the matrix as the region finds them. -/
theorem arr (c : Dev nD) :
    (dat2 (F := Ideal) V c).arrAt 3 cfg2.N
      = fun i => dedicomCol (V c main_v234) (V c main_v237) (V c main_v236) ⟨(i 1).val, (i 1).isLt⟩ :=
  (dat2 (F := Ideal) V c).arrAt_eq_of_cover 3 _ (fun t _ => writtenBack V c t) tiled

end Cert.KernelIdeal.Region2

end
-- ==== Proof.Region3.lean ====
/-
  The second diagonal-rescaled decoder, from blocks to the array: after its 62 grid points the region's output array
  holds, in column `e`, the diagonal-rescaled score of edge `e`, a function of the three input arrays as the region
  finds them.

  A grid point `t` reads columns `8192·t … 8192·t + 8191` of the 64x507904 table, the whole 64x1 scale and the whole
  64x64 matrix, and writes columns `8192·t … 8192·t + 8191` of the 1x507904 output row; 62 · 8192 = 507904, so the
  62 blocks tile the row, and column `e` is written by point `e / 8192`.
-/
import proofs.«105939_j23287312679606_2_alg».proof.Proof.Gen.KernelIdeal.Frame
import proofs.«105939_j23287312679606_2_alg».proof.Proof.DecoderSpec
import proofs.«105939_j23287312679606_2_alg».proof.Proof.PayloadAt
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx Cert.DecoderSpec
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- What the body leaves in the output block, at column `y`, from the three input blocks: the body loads each block
    whole and stores the one row whole, so it is the body's arithmetic at that column. -/
theorem storedRow_at (x0 : Vec Ideal S64x8192 .f32) (x1 : Vec Ideal S64x1 .f32) (x2 : Vec Ideal S64x64 .bf16) (y : Fin 8192) :
    out3_3 (F := Ideal) x0 x1 x2 (ix2 (0 : Fin 1) y)
      = ∑ j : Fin 64, (∑ k : Fin 64, x2 (ix2 j k) * (x0 (ix2 k y) * x1 (ix2 k (0 : Fin 1)))) * (x0 (ix2 j y) * x1 (ix2 j (0 : Fin 1))) := by
  unfold out3_3
  rw [View.canon_unit_zero zeroOffsets]
  simp only [View.ld_unit_zero (S := S64x8192) zeroOffsets, View.ld_unit_zero (S := S64x1) zeroOffsets, View.ld_unit_zero (S := S64x64) zeroOffsets]
  exact PayloadAt.dedicom_at' x0 x1 x2 y

/-- The block indices over the grid: the table's window and the output's window sit at block `(0, t)` at point `t`,
    the scale's and the matrix's windows at block `(0, 0)` at every point. -/
theorem blockIndex : ∀ t : Fin cfg3.N, win3_0.index t (0 : Fin 2) = 0 ∧ win3_0.index t (1 : Fin 2) = t.val
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = t.val :=
  (by decide +kernel : ∀ t : Fin grid3.N, _)

/-- The table's block at point `t` is its columns `8192·t …`: entry `(k, y)` of the block is entry `(k, 8192·t + y)`
    of the array. -/
theorem tableBlock_at (c : Dev nD) (t : Fin cfg3.N) (k : Fin 64) (y : Fin 8192) (e : Fin 507904) (he : e.val = 8192 * t.val + y.val) :
    (iblk3 V c 0 t : Vec Ideal S64x8192 .f32) (ix2 k y) = (V c main_v251 : S64x507904.Idx → EReal) (ix2 k e) := by
  obtain ⟨e0, e1, -⟩ := blockIndex t
  unfold iblk3
  rw [View.read_apply]
  show V c main_v251 _ = V c main_v251 _
  congr 1
  funext a
  apply Fin.ext
  match a with
  | ⟨0, _⟩ => show win3_0.index t 0 * 64 + 1 * k.val = k.val; rw [e0]; omega
  | ⟨1, _⟩ => show win3_0.index t 1 * 8192 + 1 * y.val = e.val; rw [e1, he]; omega

/-- The scale's block at every point is the whole scale column. -/
theorem scaleBlock_at (c : Dev nD) (t : Fin cfg3.N) (k : Fin 64) :
    (iblk3 V c 1 t : Vec Ideal S64x1 .f32) (ix2 k (0 : Fin 1)) = (V c main_v254 : S64x1.Idx → EReal) (ix2 k (0 : Fin 1)) := by
  obtain ⟨-, -, e0, e1, -⟩ := blockIndex t
  unfold iblk3
  rw [View.read_apply]
  show V c main_v254 _ = V c main_v254 _
  congr 1
  funext a
  apply Fin.ext
  match a with
  | ⟨0, _⟩ => show win3_1.index t 0 * 64 + 1 * k.val = k.val; rw [e0]; omega
  | ⟨1, _⟩ => show win3_1.index t 1 * 1 + 1 * (0 : Fin 1).val = (0 : Fin 1).val; rw [e1]; omega

/-- The matrix's block at every point is the whole matrix. -/
theorem matrixBlock_at (c : Dev nD) (t : Fin cfg3.N) (j k : Fin 64) :
    (iblk3 V c 2 t : Vec Ideal S64x64 .bf16) (ix2 j k) = (V c main_v253 : S64x64.Idx → EReal) (ix2 j k) := by
  obtain ⟨-, -, -, -, e0, e1, -⟩ := blockIndex t
  unfold iblk3
  rw [View.read_apply]
  show V c main_v253 _ = V c main_v253 _
  congr 1
  funext a
  apply Fin.ext
  match a with
  | ⟨0, _⟩ => show win3_2.index t 0 * 64 + 1 * j.val = j.val; rw [e0]; omega
  | ⟨1, _⟩ => show win3_2.index t 1 * 64 + 1 * k.val = k.val; rw [e1]; omega

/-- What point `t` leaves in the output block at column `y` is the diagonal-rescaled score of edge `8192·t + y`. -/
theorem storedScore_at (c : Dev nD) (t : Fin cfg3.N) (y : Fin 8192) (e : Fin 507904) (he : e.val = 8192 * t.val + y.val) :
    out3_3 (F := Ideal) (iblk3 V c 0 t) (iblk3 V c 1 t) (iblk3 V c 2 t) (ix2 (0 : Fin 1) y)
      = dedicomCol (V c main_v251) (V c main_v254) (V c main_v253) e := by
  refine (storedRow_at (iblk3 V c 0 t) (iblk3 V c 1 t) (iblk3 V c 2 t) y).trans ?_
  unfold dedicomCol
  refine Finset.sum_congr rfl fun j _ => ?_
  rw [tableBlock_at V c t j y e he, scaleBlock_at V c t j]
  refine congrArg (· * _) (Finset.sum_congr rfl fun k _ => ?_)
  rw [matrixBlock_at V c t j k, tableBlock_at V c t k y e he, scaleBlock_at V c t k]

/-- WHAT POINT `t` WRITES BACK is block `t` of the row of diagonal-rescaled scores. -/
theorem writtenBack (c : Dev nD) (t : Fin cfg3.N) :
    (dat3 (F := Ideal) V c).flushed 3 t = ((cfg3.win 3).blk t).view.read (Elt Ideal)
      (fun i => dedicomCol (V c main_v251) (V c main_v254) (V c main_v253) ⟨(i 1).val, (i 1).isLt⟩) := by
  show (cfg3.win 3).cut (grid3.coords t) ((dat3 V c).after 3 t) = _
  rw [after3_3]
  obtain ⟨-, -, -, -, -, -, e0, e1⟩ := blockIndex t
  funext y
  have hy0 : (y 0).val < 1 := (y 0).isLt
  have hy1 : (y 1).val < 8192 := (y 1).isLt
  have ht : t.val < 62 := t.isLt
  rw [View.read_apply]
  have ey : (cfg3.win 3).xinj (grid3.coords t) y = ix2 (0 : Fin 1) (⟨(y 1).val, hy1⟩ : Fin 8192) :=
    funext fun a => Fin.ext (by
      match a with
      | ⟨0, _⟩ => show (y 0).val = 0; omega
      | ⟨1, _⟩ => rfl)
  show out3_3 (F := Ideal) (iblk3 V c 0 t) (iblk3 V c 1 t) (iblk3 V c 2 t) ((cfg3.win 3).xinj (grid3.coords t) y) = _
  rw [ey]
  refine (storedScore_at V c t ⟨(y 1).val, hy1⟩ ⟨8192 * t.val + (y 1).val, by omega⟩ rfl).trans ?_
  refine congrArg (dedicomCol (V c main_v251) (V c main_v254) (V c main_v253)) (Fin.ext ?_)
  show 8192 * t.val + (y 1).val = win3_3.index t 1 * 8192 + 1 * (y 1).val
  rw [e1]; omega

/-- A column of the output row is in point `t`'s block iff each coordinate is in the block's range on its axis. -/
theorem mem_block (t : Fin cfg3.N) (i : S1x507904.Idx) :
    i ∈ ((cfg3.win 3).blk t).view.set ↔ ∀ a : Fin 2, win3_3.index t a * S1x8192.size a ≤ (i a).val ∧ (i a).val < win3_3.index t a * S1x8192.size a + S1x8192.size a := by
  show i ∈ ((View.whole main_v255).slice (win3_3.rect t)).set ↔ _
  rw [View.set_slice_whole, Rect.mem_set_unit]
  exact Iff.rfl

/-- The 62 blocks tile the row: column `e` is in the block of point `e / 8192`. -/
theorem tiled (i : S1x507904.Idx) : ∃ t : Fin cfg3.N, (cfg3.win 3).flush t = true ∧ i ∈ ((cfg3.win 3).blk t).view.set := by
  have hi0 : (i 0).val < 1 := (i 0).isLt
  have hi1 : (i 1).val < 507904 := (i 1).isLt
  have hN : grid3.N = 62 := N_3
  let t : Fin cfg3.N := ⟨(i 1).val / 8192, by show (i 1).val / 8192 < grid3.N; rw [hN]; omega⟩
  obtain ⟨-, -, -, -, -, -, e0, e1⟩ := blockIndex t
  have et : t.val = (i 1).val / 8192 := rfl
  refine ⟨t, flush3_3 t, ?_⟩
  rw [mem_block]
  intro a
  match a with
  | ⟨0, _⟩ => show win3_3.index t 0 * 1 ≤ (i 0).val ∧ (i 0).val < win3_3.index t 0 * 1 + 1; rw [e0]; omega
  | ⟨1, _⟩ => show win3_3.index t 1 * 8192 ≤ (i 1).val ∧ (i 1).val < win3_3.index t 1 * 8192 + 8192; rw [e1, et]; omega

/-- THE ARRAY after the region's 62 points: column `e` of the output row is the diagonal-rescaled score of edge `e`,
    of the table, the scale and the matrix as the region finds them. -/
theorem arr (c : Dev nD) :
    (dat3 (F := Ideal) V c).arrAt 3 cfg3.N
      = fun i => dedicomCol (V c main_v251) (V c main_v254) (V c main_v253) ⟨(i 1).val, (i 1).isLt⟩ :=
  (dat3 (F := Ideal) V c).arrAt_eq_of_cover 3 _ (fun t _ => writtenBack V c t) tiled

end Cert.KernelIdeal.Region3

end
-- ==== Proof.LibRowGather.lean ====
/-
  A gather of whole rows, read at an index.

  What indexing a table `x : [N, C]` by an integer vector lowers to: start indices of shape `[E, 1]`, the
  result `[E, C]`; result row `e` is the table's row at the start index `idx[e, 0]`, read as a signed integer
  and clamped into `[0, N - 1]`; the column is kept. So the gather is a selection of rows by a function of
  the indices alone: it does not depend on the table's contents, and two tables with the same number of rows
  are read at the same rows.
-/
import Idealize.ShloMosaic.PureOps.Ideal
import Idealize.ShloMosaic.Lib.ValueIdx

noncomputable section

namespace Cert.LibRowGather

open Idealize.ShloMosaic Idealize.ShloMosaic.ValueIdx

/-- The dimension numbers of a row gather, for a table `[N, C]`, start indices `[E, 1]` and a result `[E, C]`. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the start index, signed, clamped into `[0, N - 1]`. -/
def rowSel (N : Nat) {E w : Nat} (hN : 0 < N) (idx : IVec ⟨2, ![E, 1]⟩ w) (e : Fin E) : Fin N :=
  ⟨min (idx (ix2 e (0 : Fin 1))).toInt.toNat (N - 1), by omega⟩

/-- On the row axis the operand index is the selected row. -/
theorem rowDims_operandIdx_row {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowDims N E C wf).operandIdx y idx (0 : Fin 2)).val = (rowSel N hN idx (y 0)).val := by
  show (rowDims N E C wf).start y idx (0 : Fin 2) + (rowDims N E C wf).batchCoord y (0 : Fin 2)
    + (rowDims N E C wf).offCoord y (0 : Fin 2) = _
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims N E C wf).startIndexMap from List.mem_singleton.mpr rfl)]
  have hsi : (rowDims N E C wf).siIdx y ⟨List.idxOf (0 : Fin 2) (rowDims N E C wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- On the column axis the operand index is the result's column. -/
theorem rowDims_operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowDims N E C wf).operandIdx y idx (1 : Fin 2)).val = (y 1).val := by
  have hne : ¬ (1 : Fin 2) ∈ ([0] : List (Fin 2)) := fun h =>
    absurd (congrArg Fin.val (List.mem_singleton.mp h)) (show ¬ ((1 : ℕ) = 0) by decide)
  show (rowDims N E C wf).start y idx (1 : Fin 2) + (rowDims N E C wf).batchCoord y (1 : Fin 2)
    + (rowDims N E C wf).offCoord y (1 : Fin 2) = _
  have h0 : (rowDims N E C wf).start y idx (1 : Fin 2) = 0 := by
    unfold GatherDims.start
    rw [dif_neg hne]
  have hk : (1 : Fin 2) ∈ (rowDims N E C wf).sKept :=
    (GatherDims.mem_sKept _ _).mpr ⟨hne, List.not_mem_nil⟩
  rw [h0, GatherDims.batchCoord_eq_zero _ _ _ List.not_mem_nil, Nat.add_zero, Nat.zero_add]
  unfold GatherDims.offCoord
  rw [dif_pos hk]
  rfl

/-- The operand index of result position `y`: the selected row, the same column. -/
theorem rowDims_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    (rowDims N E C wf).operandIdx y idx = ix2 (rowSel N hN idx (y 0)) (y 1) := by
  funext a
  refine Fin.ext ?_
  match a with
  | ⟨0, _⟩ => exact rowDims_operandIdx_row hN wf idx y
  | ⟨1, _⟩ => exact rowDims_operandIdx_col wf idx y

/-- The gather read at `(e, j)`: the table at the selected row, column `j`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j) = x (ix2 (rowSel N hN idx e) j) := by
  unfold Host.gather
  rw [rowDims_operandIdx hN wf idx (ix2 e j)]
  rfl

end Cert.LibRowGather

end
-- ==== Proof.ScoreSpec.lean ====
/-
  The two edge scores, as sums on the extended reals over a node table `z` of 4000 nodes with 64 features.

  Bilinear: for an edge from node `s` to node `t` and a relation matrix `M`, the score is
  `Σ_j (Σ_k z s k · M k j) · z t j`. Diagonal-rescaled: for an edge whose two ends both read node `s`, a
  per-feature scale `v` and a matrix `R`, the score is `Σ_j ((Σ_k (z s k · v k) · R k j) · v j) · z s j`.
  These are the reference's orders of the products; any other order of the same factors is the same number,
  multiplication of extended reals being commutative and associative.
-/
import Idealize.ShloMosaic.PureOps.Ideal
import Idealize.ShloMosaic.Lib.ValueIdx

noncomputable section

namespace Cert.ScoreSpec

open Idealize.ShloMosaic Idealize.ShloMosaic.ValueIdx

/-- The bilinear score of an edge from node `s` to node `t`. -/
def bilinearScore (z : (⟨2, ![4000, 64]⟩ : Shape).Idx → EReal) (M : (⟨2, ![64, 64]⟩ : Shape).Idx → EReal)
    (s t : Fin 4000) : EReal :=
  ∑ j : Fin 64, (∑ k : Fin 64, z (ix2 s k) * M (ix2 k j)) * z (ix2 t j)

/-- The diagonal-rescaled score of an edge whose two ends read node `s`. -/
def dedicomScore (z : (⟨2, ![4000, 64]⟩ : Shape).Idx → EReal) (v : (⟨1, ![64]⟩ : Shape).Idx → EReal)
    (R : (⟨2, ![64, 64]⟩ : Shape).Idx → EReal) (s : Fin 4000) : EReal :=
  ∑ j : Fin 64, ((∑ k : Fin 64, (z (ix2 s k) * v (ix1 k)) * R (ix2 k j)) * v (ix1 j)) * z (ix2 s j)

end Cert.ScoreSpec

end
-- ==== Proof.TableK.lean ====
/-
  The node tables of the two-layer message-passing encoder, as one function of the program's arguments
  (the order this program computes them in: each relation projects the whole source table and then selects the rows its edges name).

  A relation's messages: for every edge, the 64 projected features of its source node, summed at the edge's
  target node. A layer's drug table is the positive part of the sum of the five relations that end at drugs
  (one from genes, four among drugs); the first layer's gene table is the positive part of the gene-to-gene
  messages. The second layer reads the first layer's two tables; only its drug table is used afterwards.
-/
import proofs.«105939_j23287312679606_2_alg».proof.Proof.Gen.KernelIdeal
import Idealize.ShloMosaic.PureOps.Ideal

noncomputable section

namespace Cert.KernelIdeal.TableV

open Idealize.ShloMosaic

/-- Row 0 of a `[2, 1000000]` edge list, as a vector of 1000000 node numbers. -/
def edgeRow_1000000_0 (x : IVec Cert.KernelIdeal.S2x1000000 32) : IVec Cert.KernelIdeal.S1000000 32 :=
  shapeCast Cert.KernelIdeal.S1000000 (extractStridedSlice Cert.KernelIdeal.S1x1000000 ![0, 0] x Cert.KernelIdeal.Gen.slices_S2x1000000_S1x1000000_0_0) Cert.KernelIdeal.Gen.shapeCasts_S1x1000000_S1000000

/-- Row 1 of a `[2, 1000000]` edge list, as a vector of 1000000 node numbers. -/
def edgeRow_1000000_1 (x : IVec Cert.KernelIdeal.S2x1000000 32) : IVec Cert.KernelIdeal.S1000000 32 :=
  shapeCast Cert.KernelIdeal.S1000000 (extractStridedSlice Cert.KernelIdeal.S1x1000000 ![1, 0] x Cert.KernelIdeal.Gen.slices_S2x1000000_S1x1000000_1_0) Cert.KernelIdeal.Gen.shapeCasts_S1x1000000_S1000000

/-- Row 0 of a `[2, 500000]` edge list, as a vector of 500000 node numbers. -/
def edgeRow_500000_0 (x : IVec Cert.KernelIdeal.S2x500000 32) : IVec Cert.KernelIdeal.S500000 32 :=
  shapeCast Cert.KernelIdeal.S500000 (extractStridedSlice Cert.KernelIdeal.S1x500000 ![0, 0] x Cert.KernelIdeal.Gen.slices_S2x500000_S1x500000_0_0) Cert.KernelIdeal.Gen.shapeCasts_S1x500000_S500000

/-- Row 1 of a `[2, 500000]` edge list, as a vector of 500000 node numbers. -/
def edgeRow_500000_1 (x : IVec Cert.KernelIdeal.S2x500000 32) : IVec Cert.KernelIdeal.S500000 32 :=
  shapeCast Cert.KernelIdeal.S500000 (extractStridedSlice Cert.KernelIdeal.S1x500000 ![1, 0] x Cert.KernelIdeal.Gen.slices_S2x500000_S1x500000_1_0) Cert.KernelIdeal.Gen.shapeCasts_S1x500000_S500000

/-- Source node numbers as a column of start indices, a negative number counted from the end (`+ 20000`). -/
def wrap_20000_1000000 (i : IVec Cert.KernelIdeal.S1000000 32) : IVec Cert.KernelIdeal.S1000000x1 32 :=
  broadcastInDim Cert.KernelIdeal.S1000000x1 ![0] Cert.KernelIdeal.Gen.bcast_S1000000_S1000000x1_0
    (select (cmpi .slt i (broadcastInDim Cert.KernelIdeal.S1000000 ![] Cert.KernelIdeal.Gen.bcast_S_S1000000 (constantI Cert.KernelIdeal.S_ 32 0#32)))
      (addi i (broadcastInDim Cert.KernelIdeal.S1000000 ![] Cert.KernelIdeal.Gen.bcast_S_S1000000 (constantI Cert.KernelIdeal.S_ 32 20000#32))) i)

/-- Source node numbers as a column of start indices, a negative number counted from the end (`+ 20000`). -/
def wrap_20000_400000 (i : IVec Cert.KernelIdeal.S400000 32) : IVec Cert.KernelIdeal.S400000x1 32 :=
  broadcastInDim Cert.KernelIdeal.S400000x1 ![0] Cert.KernelIdeal.Gen.bcast_S400000_S400000x1_0
    (select (cmpi .slt i (broadcastInDim Cert.KernelIdeal.S400000 ![] Cert.KernelIdeal.Gen.bcast_S_S400000 (constantI Cert.KernelIdeal.S_ 32 0#32)))
      (addi i (broadcastInDim Cert.KernelIdeal.S400000 ![] Cert.KernelIdeal.Gen.bcast_S_S400000 (constantI Cert.KernelIdeal.S_ 32 20000#32))) i)

/-- Source node numbers as a column of start indices, a negative number counted from the end (`+ 4000`). -/
def wrap_4000_500000 (i : IVec Cert.KernelIdeal.S500000 32) : IVec Cert.KernelIdeal.S500000x1 32 :=
  broadcastInDim Cert.KernelIdeal.S500000x1 ![0] Cert.KernelIdeal.Gen.bcast_S500000_S500000x1_0
    (select (cmpi .slt i (broadcastInDim Cert.KernelIdeal.S500000 ![] Cert.KernelIdeal.Gen.bcast_S_S500000 (constantI Cert.KernelIdeal.S_ 32 0#32)))
      (addi i (broadcastInDim Cert.KernelIdeal.S500000 ![] Cert.KernelIdeal.Gen.bcast_S_S500000 (constantI Cert.KernelIdeal.S_ 32 4000#32))) i)

/-- Target node numbers as a column of scatter indices. -/
def col_1000000 (i : IVec Cert.KernelIdeal.S1000000 32) : IVec Cert.KernelIdeal.S1000000x1 32 :=
  broadcastInDim Cert.KernelIdeal.S1000000x1 ![0] Cert.KernelIdeal.Gen.bcast_S1000000_S1000000x1_0 i

/-- Target node numbers as a column of scatter indices. -/
def col_400000 (i : IVec Cert.KernelIdeal.S400000 32) : IVec Cert.KernelIdeal.S400000x1 32 :=
  broadcastInDim Cert.KernelIdeal.S400000x1 ![0] Cert.KernelIdeal.Gen.bcast_S400000_S400000x1_0 i

/-- Target node numbers as a column of scatter indices. -/
def col_500000 (i : IVec Cert.KernelIdeal.S500000 32) : IVec Cert.KernelIdeal.S500000x1 32 :=
  broadcastInDim Cert.KernelIdeal.S500000x1 ![0] Cert.KernelIdeal.Gen.bcast_S500000_S500000x1_0 i

/-- The zero table of 20000 nodes. -/
def zeros_20000 : FVec Ideal Cert.KernelIdeal.S20000x64 .f32 :=
  broadcastInDim Cert.KernelIdeal.S20000x64 ![] Cert.KernelIdeal.Gen.bcast_S_S20000x64 (constant (F := Ideal) Cert.KernelIdeal.S_ .f32 0x00000000#32)

/-- The positive part of a table of 20000 nodes, entry by entry. -/
def relu_20000 (x : FVec Ideal Cert.KernelIdeal.S20000x64 .f32) : FVec Ideal Cert.KernelIdeal.S20000x64 .f32 :=
  maximumf (F := Ideal) x zeros_20000

/-- The zero table of 4000 nodes. -/
def zeros_4000 : FVec Ideal Cert.KernelIdeal.S4000x64 .f32 :=
  broadcastInDim Cert.KernelIdeal.S4000x64 ![] Cert.KernelIdeal.Gen.bcast_S_S4000x64 (constant (F := Ideal) Cert.KernelIdeal.S_ .f32 0x00000000#32)

/-- The positive part of a table of 4000 nodes, entry by entry. -/
def relu_4000 (x : FVec Ideal Cert.KernelIdeal.S4000x64 .f32) : FVec Ideal Cert.KernelIdeal.S4000x64 .f32 :=
  maximumf (F := Ideal) x zeros_4000

/-- The gene-to-gene messages of the first layer: every edge carries the projected row of its source node (the table is projected first, then the rows selected),
    and the messages are summed at their target nodes. -/
def msg_gg1 (x : FVec Ideal Cert.KernelIdeal.S20000x128 .f32) (W : FVec Ideal Cert.KernelIdeal.S128x64 .f32)
    (src dst : IVec Cert.KernelIdeal.S1000000x1 32) : FVec Ideal Cert.KernelIdeal.S20000x64 .f32 :=
  Host.scatterAdd (F := Ideal) Cert.KernelIdeal.scatter_S20000x64_S1000000x1_S1000000x64_1_0_0_1 zeros_20000 dst
    (Host.gather Cert.KernelIdeal.gather_S20000x64_S1000000x1_S1000000x64_1_0_n_n_0_1_164
      (Host.dotGeneral (F := Ideal) Cert.KernelIdeal.dot_S20000x128_S128x64_S20000x64_1_0_0_1_n_n none x W) src)

/-- The gene-to-drug messages of the first layer: every edge carries the projected row of its source node (the table is projected first, then the rows selected),
    and the messages are summed at their target nodes. -/
def msg_gd1 (x : FVec Ideal Cert.KernelIdeal.S20000x128 .f32) (W : FVec Ideal Cert.KernelIdeal.S128x64 .f32)
    (src dst : IVec Cert.KernelIdeal.S400000x1 32) : FVec Ideal Cert.KernelIdeal.S4000x64 .f32 :=
  Host.scatterAdd (F := Ideal) Cert.KernelIdeal.scatter_S4000x64_S400000x1_S400000x64_1_0_0_1 zeros_4000 dst
    (Host.gather Cert.KernelIdeal.gather_S20000x64_S400000x1_S400000x64_1_0_n_n_0_1_164
      (Host.dotGeneral (F := Ideal) Cert.KernelIdeal.dot_S20000x128_S128x64_S20000x64_1_0_0_1_n_n none x W) src)

/-- The drug-to-drug messages of the first layer: every edge carries the projected row of its source node (the table is projected first, then the rows selected),
    and the messages are summed at their target nodes. -/
def msg_dd1 (x : FVec Ideal Cert.KernelIdeal.S4000x128 .f32) (W : FVec Ideal Cert.KernelIdeal.S128x64 .f32)
    (src dst : IVec Cert.KernelIdeal.S500000x1 32) : FVec Ideal Cert.KernelIdeal.S4000x64 .f32 :=
  Host.scatterAdd (F := Ideal) Cert.KernelIdeal.scatter_S4000x64_S500000x1_S500000x64_1_0_0_1 zeros_4000 dst
    (Host.gather Cert.KernelIdeal.gather_S4000x64_S500000x1_S500000x64_1_0_n_n_0_1_164
      (Host.dotGeneral (F := Ideal) Cert.KernelIdeal.dot_S4000x128_S128x64_S4000x64_1_0_0_1_n_n none x W) src)

/-- The gene-to-drug messages of the second layer: every edge carries the projected row of its source node (the table is projected first, then the rows selected),
    and the messages are summed at their target nodes. -/
def msg_gd2 (x : FVec Ideal Cert.KernelIdeal.S20000x64 .f32) (W : FVec Ideal Cert.KernelIdeal.S64x64 .f32)
    (src dst : IVec Cert.KernelIdeal.S400000x1 32) : FVec Ideal Cert.KernelIdeal.S4000x64 .f32 :=
  Host.scatterAdd (F := Ideal) Cert.KernelIdeal.scatter_S4000x64_S400000x1_S400000x64_1_0_0_1 zeros_4000 dst
    (Host.gather Cert.KernelIdeal.gather_S20000x64_S400000x1_S400000x64_1_0_n_n_0_1_164
      (Host.dotGeneral (F := Ideal) Cert.KernelIdeal.dot_S20000x64_S64x64_S20000x64_1_0_0_1_n_n none x W) src)

/-- The drug-to-drug messages of the second layer: every edge carries the projected row of its source node (the table is projected first, then the rows selected),
    and the messages are summed at their target nodes. -/
def msg_dd2 (x : FVec Ideal Cert.KernelIdeal.S4000x64 .f32) (W : FVec Ideal Cert.KernelIdeal.S64x64 .f32)
    (src dst : IVec Cert.KernelIdeal.S500000x1 32) : FVec Ideal Cert.KernelIdeal.S4000x64 .f32 :=
  Host.scatterAdd (F := Ideal) Cert.KernelIdeal.scatter_S4000x64_S500000x1_S500000x64_1_0_0_1 zeros_4000 dst
    (Host.gather Cert.KernelIdeal.gather_S4000x64_S500000x1_S500000x64_1_0_n_n_0_1_164
      (Host.dotGeneral (F := Ideal) Cert.KernelIdeal.dot_S4000x64_S64x64_S4000x64_1_0_0_1_n_n none x W) src)

/-- The first layer's gene table. -/
def geneTable1 (x0 : FVec Ideal Cert.KernelIdeal.S20000x128 .f32) (x2 : IVec Cert.KernelIdeal.S2x1000000 32) (x9 : FVec Ideal Cert.KernelIdeal.S128x64 .f32) :
    FVec Ideal Cert.KernelIdeal.S20000x64 .f32 :=
  relu_20000 (msg_gg1 x0 x9 (wrap_20000_1000000 (edgeRow_1000000_0 x2)) (col_1000000 (edgeRow_1000000_1 x2)))

/-- The first layer's drug messages, summed over the five relations, before the positive part. -/
def drugSum1 (x0 : FVec Ideal Cert.KernelIdeal.S20000x128 .f32) (x1 : FVec Ideal Cert.KernelIdeal.S4000x128 .f32) (x3 x4 : IVec Cert.KernelIdeal.S400000 32)
    (x5 x6 x7 x8 : IVec Cert.KernelIdeal.S2x500000 32) (x10 x11 x12 x13 x14 : FVec Ideal Cert.KernelIdeal.S128x64 .f32) :
    FVec Ideal Cert.KernelIdeal.S4000x64 .f32 :=
  addf (F := Ideal) (addf (F := Ideal) (addf (F := Ideal) (addf (F := Ideal)
    (msg_gd1 x0 x10 (wrap_20000_400000 x3) (col_400000 x4))
    (msg_dd1 x1 x11 (wrap_4000_500000 (edgeRow_500000_0 x5)) (col_500000 (edgeRow_500000_1 x5))))
    (msg_dd1 x1 x12 (wrap_4000_500000 (edgeRow_500000_0 x6)) (col_500000 (edgeRow_500000_1 x6))))
    (msg_dd1 x1 x13 (wrap_4000_500000 (edgeRow_500000_0 x7)) (col_500000 (edgeRow_500000_1 x7))))
    (msg_dd1 x1 x14 (wrap_4000_500000 (edgeRow_500000_0 x8)) (col_500000 (edgeRow_500000_1 x8)))

/-- The second layer's drug messages, from the first layer's gene table `g` and drug table `d`. -/
def drugSum2 (g : FVec Ideal Cert.KernelIdeal.S20000x64 .f32) (d : FVec Ideal Cert.KernelIdeal.S4000x64 .f32) (x3 x4 : IVec Cert.KernelIdeal.S400000 32)
    (x5 x6 x7 x8 : IVec Cert.KernelIdeal.S2x500000 32) (x16 x17 x18 x19 x20 : FVec Ideal Cert.KernelIdeal.S64x64 .f32) :
    FVec Ideal Cert.KernelIdeal.S4000x64 .f32 :=
  addf (F := Ideal) (addf (F := Ideal) (addf (F := Ideal) (addf (F := Ideal)
    (msg_gd2 g x16 (wrap_20000_400000 x3) (col_400000 x4))
    (msg_dd2 d x17 (wrap_4000_500000 (edgeRow_500000_0 x5)) (col_500000 (edgeRow_500000_1 x5))))
    (msg_dd2 d x18 (wrap_4000_500000 (edgeRow_500000_0 x6)) (col_500000 (edgeRow_500000_1 x6))))
    (msg_dd2 d x19 (wrap_4000_500000 (edgeRow_500000_0 x7)) (col_500000 (edgeRow_500000_1 x7))))
    (msg_dd2 d x20 (wrap_4000_500000 (edgeRow_500000_0 x8)) (col_500000 (edgeRow_500000_1 x8)))

/-- The drug table the decoders read: two layers. -/
def drugTable (x0 : FVec Ideal Cert.KernelIdeal.S20000x128 .f32) (x1 : FVec Ideal Cert.KernelIdeal.S4000x128 .f32) (x2 : IVec Cert.KernelIdeal.S2x1000000 32)
    (x3 x4 : IVec Cert.KernelIdeal.S400000 32) (x5 x6 x7 x8 : IVec Cert.KernelIdeal.S2x500000 32)
    (x9 x10 x11 x12 x13 x14 : FVec Ideal Cert.KernelIdeal.S128x64 .f32) (x16 x17 x18 x19 x20 : FVec Ideal Cert.KernelIdeal.S64x64 .f32) :
    FVec Ideal Cert.KernelIdeal.S4000x64 .f32 :=
  relu_4000 (drugSum2 (geneTable1 x0 x2 x9) (relu_4000 (drugSum1 x0 x1 x3 x4 x5 x6 x7 x8 x10 x11 x12 x13 x14))
    x3 x4 x5 x6 x7 x8 x16 x17 x18 x19 x20)

end Cert.KernelIdeal.TableV

end
-- ==== Proof.KernelScore.lean ====
/-
  The kernel program's four results, read edge by edge.

  Each result is the first 500000 columns of one decoder region's output row, reshaped to a vector. Column `e` of
  that row is the decoder's score of column `e` of its input tables (the region modules), and column `e < 500000`
  of an input table is, feature by feature, the node table's row at the node the edge list names for edge `e`:
  the table's rows are gathered at the edge ends, transposed to feature-major, narrowed where the decoder wants
  the 16-bit format (the identity on extended reals) and padded on the right with columns that no result reads.
  The relation matrix arrives transposed, the per-feature scale as a column. What is left is the order of the
  factors: multiplication of extended reals is commutative and associative, so the decoder's
  `Σ_k M k j · z s k` is the score's `Σ_k z s k · M k j`, and likewise for the rescaled score.
-/
import proofs.«105939_j23287312679606_2_alg».proof.Proof.KernelOut
import proofs.«105939_j23287312679606_2_alg».proof.Proof.KernelIn
import proofs.«105939_j23287312679606_2_alg».proof.Proof.Region0
import proofs.«105939_j23287312679606_2_alg».proof.Proof.Region1
import proofs.«105939_j23287312679606_2_alg».proof.Proof.Region2
import proofs.«105939_j23287312679606_2_alg».proof.Proof.Region3
import proofs.«105939_j23287312679606_2_alg».proof.Proof.LibRowGather
import proofs.«105939_j23287312679606_2_alg».proof.Proof.ScoreSpec
import proofs.«105939_j23287312679606_2_alg».proof.Proof.TableK
import Idealize.ShloMosaic.Lib.KernelVsHost
import Idealize.ShloMosaic.Lib.Pipeline.Value

set_option maxRecDepth 16384

noncomputable section

namespace Cert.KernelIdeal.ScoreV

open Cert.KernelIdeal Cert.KernelIdeal.Gen Idealize.ShloMosaic Idealize.ShloMosaic.TcCoe Idealize.SL.Sem
open Idealize.ShloMosaic.ValueIdx Cert.DecoderSpec Cert.ScoreSpec Cert.LibRowGather

/-! ## The layout operations, read at an index -/

/-- The first 500000 columns of a one-row array, reshaped to a vector, read at `e`: the row's column `e`. -/
theorem result_at (A : S1x507904.Idx → EReal) (hs : S1x507904.Slices ![0, 0] S1x500000) (hc : S1x500000.ShapeCasts S500000)
    (e : Fin 500000) (e' : Fin 507904) (he : e'.val = e.val) :
    shapeCast S500000 (extractStridedSlice S1x500000 ![0, 0] A hs) hc (ix1 e) = A (ix2 (0 : Fin 1) e') := by
  refine (shapeCast_apply _ hc (ix1 e) (ix2 (0 : Fin 1) e) ?_).trans ?_
  · rw [Shape.rowMajor_val_two, Shape.rowMajor_val_one]
    show 0 * 500000 + e.val = e.val
    omega
  · exact extractStridedSlice_apply ![0, 0] A hs (ix2 (0 : Fin 1) e) (ix2 (0 : Fin 1) e') fun a => by
      match a with
      | ⟨0, _⟩ => rfl
      | ⟨1, _⟩ => show e'.val = 0 + e.val; omega

/-- A 64x500000 table padded on the right to 507904 columns, read at a column `e < 500000`: the table there. -/
theorem padded_at {φ : FTy} (x : FVec Ideal S64x500000 φ) {u : Shape} (padv : FVec Ideal u φ)
    (hp : S64x500000.Pads ![0, 0] ![0, 7904] ![0, 0] S64x507904) (hu : 0 < u.numel)
    (k : Fin 64) (e : Fin 500000) (e' : Fin 507904) (he : e'.val = e.val) :
    pad S64x507904 ![0, 0] ![0, 7904] ![0, 0] x padv hp hu (ix2 k e') = x (ix2 k e) :=
  pad_apply_of_inside ![0, 0] ![0, 7904] ![0, 0] x padv hp hu (ix2 k e') (ix2 k e) fun a => by
    match a with
    | ⟨0, _⟩ => show k.val = 0 + k.val * (0 + 1); omega
    | ⟨1, _⟩ => show e'.val = 0 + e.val * (0 + 1); omega

/-- The node table's rows gathered at the start indices `idx` and transposed to feature-major, read at feature `k`
    and edge `e`: the table's row that `idx` selects for `e`, at feature `k`. -/
theorem transposedRows_at (z : S4000x64.Idx → EReal) (idx : IVec S500000x1 32) (ht : S500000x64.Transposes [1, 0] S64x500000)
    (k : Fin 64) (e : Fin 500000) :
    transpose S64x500000 [1, 0] (Host.gather gather_S4000x64_S500000x1_S500000x64_1_0_n_n_0_1_164 z idx) ht (ix2 k e)
      = z (ix2 (rowSel 4000 (by decide) idx e) k) := by
  refine (transpose_apply [1, 0] _ ht (ix2 k e) (ix2 e k) fun b => ?_).trans ?_
  · match b with
    | ⟨0, _⟩ => rfl
    | ⟨1, _⟩ => rfl
  · exact gather_rows_apply (by decide) _ z idx e k

/-- The same gathered, transposed table narrowed to the 16-bit format (the identity on extended reals). -/
theorem narrowedRows_at (z : S4000x64.Idx → EReal) (idx : IVec S500000x1 32) (ht : S500000x64.Transposes [1, 0] S64x500000)
    (hb : FTy.bf16.bits < FTy.f32.bits) (k : Fin 64) (e : Fin 500000) :
    (truncf .bf16 (transpose S64x500000 [1, 0] (Host.gather gather_S4000x64_S500000x1_S500000x64_1_0_n_n_0_1_164 z idx) ht) hb
        : FVec Ideal S64x500000 .bf16) (ix2 k e)
      = z (ix2 (rowSel 4000 (by decide) idx e) k) :=
  (truncf_apply _ hb (ix2 k e)).trans (transposedRows_at z idx ht k e)

/-- The relation matrix transposed and narrowed, read at `(j, k)`: the matrix at `(k, j)`. -/
theorem transposedMatrix_at (M : FVec Ideal S64x64 .f32) (ht : S64x64.Transposes [1, 0] S64x64) (hb : FTy.bf16.bits < FTy.f32.bits)
    (j k : Fin 64) :
    (truncf .bf16 (transpose S64x64 [1, 0] M ht) hb : FVec Ideal S64x64 .bf16) (ix2 j k) = M (ix2 k j) :=
  (truncf_apply _ hb (ix2 j k)).trans (transpose_apply [1, 0] M ht (ix2 j k) (ix2 k j) fun b => by
    match b with
    | ⟨0, _⟩ => rfl
    | ⟨1, _⟩ => rfl)

/-- The per-feature scale reshaped to a column, read at row `k`: the scale of feature `k`. -/
theorem scaleColumn_at (v : S64.Idx → EReal) (hc : S64.ShapeCasts S64x1) (k : Fin 64) :
    shapeCast S64x1 v hc (ix2 k (0 : Fin 1)) = v (ix1 k) :=
  shapeCast_apply v hc (ix2 k (0 : Fin 1)) (ix1 k) (by
    rw [Shape.rowMajor_val_two, Shape.rowMajor_val_one]
    show k.val = k.val * 1 + 0
    omega)

/-! ## The order of the factors -/

/-- A bilinear decoder column whose tables read rows `s` and `t` of the node table `z` and whose matrix is the
    transpose of `M` is the bilinear score of `s` and `t`. -/
theorem bilinear_of_reads (a b : S64x507904.Idx → EReal) (mt M : S64x64.Idx → EReal) (z : S4000x64.Idx → EReal)
    (s t : Fin 4000) (e' : Fin 507904)
    (ha : ∀ k : Fin 64, a (ix2 k e') = z (ix2 s k)) (hb : ∀ j : Fin 64, b (ix2 j e') = z (ix2 t j))
    (hm : ∀ j k : Fin 64, mt (ix2 j k) = M (ix2 k j)) :
    bilinearCol a b mt e' = bilinearScore z M s t := by
  unfold bilinearCol bilinearScore
  refine Finset.sum_congr rfl fun j _ => ?_
  rw [hb j]
  refine congrArg (· * z (ix2 t j)) (Finset.sum_congr rfl fun k _ => ?_)
  rw [hm j k, ha k, mul_comm]

/-- A diagonal-rescaled decoder column whose table reads row `s` of the node table `z`, whose scale column is `v` and
    whose matrix is the transpose of `R` is the diagonal-rescaled score of `s`. -/
theorem dedicom_of_reads (zt : S64x507904.Idx → EReal) (d : S64x1.Idx → EReal) (rt R : S64x64.Idx → EReal)
    (z : S4000x64.Idx → EReal) (v : S64.Idx → EReal) (s : Fin 4000) (e' : Fin 507904)
    (hz : ∀ k : Fin 64, zt (ix2 k e') = z (ix2 s k)) (hd : ∀ k : Fin 64, d (ix2 k (0 : Fin 1)) = v (ix1 k))
    (hr : ∀ j k : Fin 64, rt (ix2 j k) = R (ix2 k j)) :
    dedicomCol zt d rt e' = dedicomScore z v R s := by
  unfold dedicomCol dedicomScore
  refine Finset.sum_congr rfl fun j _ => ?_
  rw [hz j, hd j]
  have hs : (∑ k : Fin 64, rt (ix2 j k) * (zt (ix2 k e') * d (ix2 k (0 : Fin 1))))
      = ∑ k : Fin 64, (z (ix2 s k) * v (ix1 k)) * R (ix2 k j) :=
    Finset.sum_congr rfl fun k _ => by rw [hr j k, hz k, hd k, mul_comm]
  rw [hs, mul_comm (z (ix2 s j)) (v (ix1 j)), ← mul_assoc]

/-! ## The four results -/

variable (m : (ℓ : Loc nD τ sig) → Buf (Elt Ideal) ℓ) (ρ : Dev nD → PrngReg)

/-- The first bilinear result at edge `e`: the bilinear score of the two nodes the edge list names, under the
    relation's matrix. -/
theorem score0 (c : Dev nD) (e : Fin 500000) :
    Gen.W27 (F := Ideal) m ρ c (Proc.devRef .tc main_v195) (ix1 e)
      = bilinearScore (HostV.zdK m ρ c) (m ((c.tc : Thread nD τ).loc main_arg21))
          (rowSel 4000 (by decide) (TableV.wrap_4000_500000 (TableV.edgeRow_500000_0 (m ((c.tc : Thread nD τ).loc main_arg5)))) e)
          (rowSel 4000 (by decide) (TableV.wrap_4000_500000 (TableV.edgeRow_500000_1 (m ((c.tc : Thread nD τ).loc main_arg5)))) e) := by
  have he : e.val < 507904 := by have := e.isLt; omega
  refine (congrFun (HostV.out0 m ρ c) (ix1 e)).trans ?_
  rw [Region0.arr (Gen.V11 m ρ) c]
  refine (result_at _ _ _ e ⟨e.val, he⟩ rfl).trans ?_
  show bilinearCol _ _ _ (⟨e.val, he⟩ : Fin 507904) = _
  refine bilinear_of_reads _ _ _ _ _ _ _ _ (fun k => ?_) (fun j => ?_) (fun j k => ?_)
  · exact (congrFun (HostV.in0_0 m ρ c) _).trans
      ((padded_at _ _ _ _ k e _ rfl).trans (narrowedRows_at _ _ _ _ k e))
  · exact (congrFun (HostV.in0_1 m ρ c) _).trans ((padded_at _ _ _ _ j e _ rfl).trans (transposedRows_at _ _ _ j e))
  · exact (congrFun (HostV.in0_2 m ρ c) _).trans (transposedMatrix_at _ _ _ j k)

/-- The second bilinear result at edge `e`: the bilinear score of the two nodes the edge list names, under the
    relation's matrix. -/
theorem score1 (c : Dev nD) (e : Fin 500000) :
    Gen.W27 (F := Ideal) m ρ c (Proc.devRef .tc main_v223) (ix1 e)
      = bilinearScore (HostV.zdK m ρ c) (m ((c.tc : Thread nD τ).loc main_arg22))
          (rowSel 4000 (by decide) (TableV.wrap_4000_500000 (TableV.edgeRow_500000_0 (m ((c.tc : Thread nD τ).loc main_arg6)))) e)
          (rowSel 4000 (by decide) (TableV.wrap_4000_500000 (TableV.edgeRow_500000_1 (m ((c.tc : Thread nD τ).loc main_arg6)))) e) := by
  have he : e.val < 507904 := by have := e.isLt; omega
  refine (congrFun (HostV.out1 m ρ c) (ix1 e)).trans ?_
  rw [Region1.arr (Gen.V17 m ρ) c]
  refine (result_at _ _ _ e ⟨e.val, he⟩ rfl).trans ?_
  show bilinearCol _ _ _ (⟨e.val, he⟩ : Fin 507904) = _
  refine bilinear_of_reads _ _ _ _ _ _ _ _ (fun k => ?_) (fun j => ?_) (fun j k => ?_)
  · exact (congrFun (HostV.in1_0 m ρ c) _).trans
      ((padded_at _ _ _ _ k e _ rfl).trans (narrowedRows_at _ _ _ _ k e))
  · exact (congrFun (HostV.in1_1 m ρ c) _).trans ((padded_at _ _ _ _ j e _ rfl).trans (transposedRows_at _ _ _ j e))
  · exact (congrFun (HostV.in1_2 m ρ c) _).trans (transposedMatrix_at _ _ _ j k)

/-- The first diagonal-rescaled result at edge `e`: the diagonal-rescaled score of the node the edge list's first
    row names, under the per-feature scale and the matrix. -/
theorem score2 (c : Dev nD) (e : Fin 500000) :
    Gen.W27 (F := Ideal) m ρ c (Proc.devRef .tc main_v240) (ix1 e)
      = dedicomScore (HostV.zdK m ρ c) (m ((c.tc : Thread nD τ).loc main_arg24)) (m ((c.tc : Thread nD τ).loc main_arg23))
          (rowSel 4000 (by decide) (TableV.wrap_4000_500000 (TableV.edgeRow_500000_0 (m ((c.tc : Thread nD τ).loc main_arg7)))) e) := by
  have he : e.val < 507904 := by have := e.isLt; omega
  refine (congrFun (HostV.out2 m ρ c) (ix1 e)).trans ?_
  rw [Region2.arr (Gen.V21 m ρ) c]
  refine (result_at _ _ _ e ⟨e.val, he⟩ rfl).trans ?_
  show dedicomCol _ _ _ (⟨e.val, he⟩ : Fin 507904) = _
  refine dedicom_of_reads _ _ _ _ _ _ _ _ (fun k => ?_) (fun k => ?_) (fun j k => ?_)
  · exact (congrFun (HostV.in2_0 m ρ c) _).trans ((padded_at _ _ _ _ k e _ rfl).trans (transposedRows_at _ _ _ k e))
  · exact (congrFun (HostV.in2_1 m ρ c) _).trans (scaleColumn_at _ _ k)
  · exact (congrFun (HostV.in2_2 m ρ c) _).trans (transposedMatrix_at _ _ _ j k)

/-- The second diagonal-rescaled result at edge `e`: the diagonal-rescaled score of the node the edge list's first
    row names, under the per-feature scale and the matrix. -/
theorem score3 (c : Dev nD) (e : Fin 500000) :
    Gen.W27 (F := Ideal) m ρ c (Proc.devRef .tc main_v257) (ix1 e)
      = dedicomScore (HostV.zdK m ρ c) (m ((c.tc : Thread nD τ).loc main_arg25)) (m ((c.tc : Thread nD τ).loc main_arg23))
          (rowSel 4000 (by decide) (TableV.wrap_4000_500000 (TableV.edgeRow_500000_0 (m ((c.tc : Thread nD τ).loc main_arg8)))) e) := by
  have he : e.val < 507904 := by have := e.isLt; omega
  refine (congrFun (HostV.out3 m ρ c) (ix1 e)).trans ?_
  rw [Region3.arr (Gen.V25 m ρ) c]
  refine (result_at _ _ _ e ⟨e.val, he⟩ rfl).trans ?_
  show dedicomCol _ _ _ (⟨e.val, he⟩ : Fin 507904) = _
  refine dedicom_of_reads _ _ _ _ _ _ _ _ (fun k => ?_) (fun k => ?_) (fun j k => ?_)
  · exact (congrFun (HostV.in3_0 m ρ c) _).trans ((padded_at _ _ _ _ k e _ rfl).trans (transposedRows_at _ _ _ k e))
  · exact (congrFun (HostV.in3_1 m ρ c) _).trans (scaleColumn_at _ _ k)
  · exact (congrFun (HostV.in3_2 m ρ c) _).trans (transposedMatrix_at _ _ _ j k)

end Cert.KernelIdeal.ScoreV

end
-- ==== Proof.KernelTableA.lean ====
/-
  The first layer of the encoder, stretch by stretch, from any contents.

  The first host stretch computes the gene-to-gene messages, the second their positive part (the first
  layer's gene table), the third the five relations' messages into drugs and their sum, the fourth the
  positive part of that sum (the first layer's drug table).  Each is read at the stretch's last buffer.
-/
import proofs.«105939_j23287312679606_2_alg».proof.Proof.KernelWalk
import proofs.«105939_j23287312679606_2_alg».proof.Proof.TableK
import Idealize.ShloMosaic.PureOps.Ideal

set_option maxRecDepth 16384

noncomputable section

namespace Cert.KernelIdeal.HostV

open Cert.KernelIdeal Cert.KernelIdeal.Gen
open Idealize.ShloMosaic Idealize.ShloMosaic.TcCoe Idealize.ShloMosaic.Tactic
open Idealize.SL Idealize.SL.Sem

/-! ## Each stretch at its last buffer, from any contents -/

/-- The first stretch: the gene-to-gene messages of the first layer. -/
theorem tab0 (Z : Valuation τ sig (Elt Ideal)) :
    StableHlo.after (hostOps0 (F := Ideal)) Z (Proc.devRef .tc main_v14)
      = Cert.KernelIdeal.TableV.msg_gg1 (Z (Proc.devRef .tc main_arg0)) (Z (Proc.devRef .tc main_arg9)) (Cert.KernelIdeal.TableV.wrap_20000_1000000 (Cert.KernelIdeal.TableV.edgeRow_1000000_0 (Z (Proc.devRef .tc main_arg2)))) (Cert.KernelIdeal.TableV.col_1000000 (Cert.KernelIdeal.TableV.edgeRow_1000000_1 (Z (Proc.devRef .tc main_arg2)))) := by
  dsimp only [hostOps0]
  after_results_simp <;> rfl

/-- The positive part of a table of 20000 nodes. -/
theorem tab0_1 (Z : Valuation τ sig (Elt Ideal)) :
    StableHlo.after (hostOps0_1 (F := Ideal)) Z (Proc.devRef .tc main_v15)
      = Cert.KernelIdeal.TableV.relu_20000 (Z (Proc.devRef .tc main_v14)) := by
  dsimp only [hostOps0_1]
  after_results_simp <;> rfl

set_option maxHeartbeats 8000000 in
/-- The first layer's five relations into drugs, summed. -/
theorem tab0_2 (Z : Valuation τ sig (Elt Ideal)) :
    StableHlo.after (hostOps0_2 (F := Ideal)) Z (Proc.devRef .tc main_v90)
      = Cert.KernelIdeal.TableV.drugSum1 (Z (Proc.devRef .tc main_arg0)) (Z (Proc.devRef .tc main_arg1)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg10)) (Z (Proc.devRef .tc main_arg11)) (Z (Proc.devRef .tc main_arg12)) (Z (Proc.devRef .tc main_arg13)) (Z (Proc.devRef .tc main_arg14)) := by
  dsimp only [hostOps0_2]
  after_results_simp <;> rfl

/-- The positive part of a table of 4000 nodes. -/
theorem tab0_3 (Z : Valuation τ sig (Elt Ideal)) :
    StableHlo.after (hostOps0_3 (F := Ideal)) Z (Proc.devRef .tc main_v91)
      = Cert.KernelIdeal.TableV.relu_4000 (Z (Proc.devRef .tc main_v90)) := by
  dsimp only [hostOps0_3]
  after_results_simp <;> rfl

end Cert.KernelIdeal.HostV

end
-- ==== Proof.KernelTableB.lean ====
/-
  The second layer of the encoder, stretch by stretch, from any contents.

  The fifth host stretch computes the second layer's five relations' messages into drugs, over the first
  layer's two tables, and their sum; the sixth the positive part of that sum: the node table the decoders
  read.  Each is read at the stretch's last buffer.
-/
import proofs.«105939_j23287312679606_2_alg».proof.Proof.KernelWalk
import proofs.«105939_j23287312679606_2_alg».proof.Proof.TableK
import Idealize.ShloMosaic.PureOps.Ideal

set_option maxRecDepth 16384

noncomputable section

namespace Cert.KernelIdeal.HostV

open Cert.KernelIdeal Cert.KernelIdeal.Gen
open Idealize.ShloMosaic Idealize.ShloMosaic.TcCoe Idealize.ShloMosaic.Tactic
open Idealize.SL Idealize.SL.Sem

/-! ## Each stretch at its last buffer, from any contents -/

set_option maxHeartbeats 8000000 in
/-- The second layer's five relations into drugs, over the first layer's two tables, summed. -/
theorem tab0_4 (Z : Valuation τ sig (Elt Ideal)) :
    StableHlo.after (hostOps0_4 (F := Ideal)) Z (Proc.devRef .tc main_v166)
      = Cert.KernelIdeal.TableV.drugSum2 (Z (Proc.devRef .tc main_v15)) (Z (Proc.devRef .tc main_v91)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg16)) (Z (Proc.devRef .tc main_arg17)) (Z (Proc.devRef .tc main_arg18)) (Z (Proc.devRef .tc main_arg19)) (Z (Proc.devRef .tc main_arg20)) := by
  dsimp only [hostOps0_4]
  after_results_simp <;> rfl

/-- The positive part of a table of 4000 nodes. -/
theorem tab0_5 (Z : Valuation τ sig (Elt Ideal)) :
    StableHlo.after (hostOps0_5 (F := Ideal)) Z (Proc.devRef .tc main_v167)
      = Cert.KernelIdeal.TableV.relu_4000 (Z (Proc.devRef .tc main_v166)) := by
  dsimp only [hostOps0_5]
  after_results_simp <;> rfl

end Cert.KernelIdeal.HostV

end
-- ==== Proof.KernelTable.lean ====
/-
  The node table the decoders read, as the two-layer encoder's function of the program's arguments.

  The six stretches that compute it are chained: the first layer's gene table and every argument array are
  untouched by the stretches between the one that writes them (or the launch) and the one that reads them,
  so each stretch's atoms are the previous stretches' results or launch contents.
-/
import proofs.«105939_j23287312679606_2_alg».proof.Proof.KernelIn
import proofs.«105939_j23287312679606_2_alg».proof.Proof.KernelTableA
import proofs.«105939_j23287312679606_2_alg».proof.Proof.KernelTableB
import Idealize.ShloMosaic.PureOps.Ideal

set_option maxRecDepth 16384

noncomputable section

namespace Cert.KernelIdeal.HostV

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-! ## An argument array at the early boundaries -/

theorem arg_W2 (c : Dev nD) (b : Ref sig .tc) (h2 : b ∉ skip0_1W) (h1 : b ∉ skip0W) :
    Gen.W2 m ρ c (Proc.devRef .tc b) = m ((c.tc : Thread nD τ).loc b) :=
  (skip0_1 _ b h2).trans ((skip0 _ b h1).trans rfl)
theorem arg_W4 (c : Dev nD) (b : Ref sig .tc) (h4 : b ∉ skip0_3W) (h3 : b ∉ skip0_2W) (h2 : b ∉ skip0_1W) (h1 : b ∉ skip0W) :
    Gen.W4 m ρ c (Proc.devRef .tc b) = m ((c.tc : Thread nD τ).loc b) :=
  (skip0_3 _ b h4).trans ((skip0_2 _ b h3).trans (arg_W2 m ρ c b h2 h1))

/-! ## The chain -/

/-- The first layer's gene table, at the boundary where the second layer reads it. -/
theorem gene1_W4 (c : Dev nD) : Gen.W4 m ρ c (Proc.devRef .tc main_v15)
    = Cert.KernelIdeal.TableV.relu_20000 (Cert.KernelIdeal.TableV.msg_gg1 (m ((c.tc : Thread nD τ).loc main_arg0)) (m ((c.tc : Thread nD τ).loc main_arg9)) (Cert.KernelIdeal.TableV.wrap_20000_1000000 (Cert.KernelIdeal.TableV.edgeRow_1000000_0 (m ((c.tc : Thread nD τ).loc main_arg2)))) (Cert.KernelIdeal.TableV.col_1000000 (Cert.KernelIdeal.TableV.edgeRow_1000000_1 (m ((c.tc : Thread nD τ).loc main_arg2))))) :=
  calc Gen.W4 m ρ c (Proc.devRef .tc main_v15)
    _ = Gen.W3 m ρ c (Proc.devRef .tc main_v15) := skip0_3 _ main_v15 (by decide)
    _ = Gen.W2 m ρ c (Proc.devRef .tc main_v15) := skip0_2 _ main_v15 (by decide)
    _ = Cert.KernelIdeal.TableV.relu_20000 (Gen.W1 m ρ c (Proc.devRef .tc main_v14)) := tab0_1 _
    _ = Cert.KernelIdeal.TableV.relu_20000 (Cert.KernelIdeal.TableV.msg_gg1 (m ((c.tc : Thread nD τ).loc main_arg0)) (m ((c.tc : Thread nD τ).loc main_arg9)) (Cert.KernelIdeal.TableV.wrap_20000_1000000 (Cert.KernelIdeal.TableV.edgeRow_1000000_0 (m ((c.tc : Thread nD τ).loc main_arg2)))) (Cert.KernelIdeal.TableV.col_1000000 (Cert.KernelIdeal.TableV.edgeRow_1000000_1 (m ((c.tc : Thread nD τ).loc main_arg2))))) := congrArg Cert.KernelIdeal.TableV.relu_20000 (tab0 _)

/-- The first layer's drug table, at the boundary where the second layer reads it. -/
theorem drug1_W4 (c : Dev nD) : Gen.W4 m ρ c (Proc.devRef .tc main_v91)
    = Cert.KernelIdeal.TableV.relu_4000 (Cert.KernelIdeal.TableV.drugSum1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) :=
  calc Gen.W4 m ρ c (Proc.devRef .tc main_v91)
    _ = Cert.KernelIdeal.TableV.relu_4000 (Gen.W3 m ρ c (Proc.devRef .tc main_v90)) := tab0_3 _
    _ = Cert.KernelIdeal.TableV.relu_4000 (Cert.KernelIdeal.TableV.drugSum1 (Gen.W2 m ρ c (Proc.devRef .tc main_arg0)) (Gen.W2 m ρ c (Proc.devRef .tc main_arg1)) (Gen.W2 m ρ c (Proc.devRef .tc main_arg3)) (Gen.W2 m ρ c (Proc.devRef .tc main_arg4)) (Gen.W2 m ρ c (Proc.devRef .tc main_arg5)) (Gen.W2 m ρ c (Proc.devRef .tc main_arg6)) (Gen.W2 m ρ c (Proc.devRef .tc main_arg7)) (Gen.W2 m ρ c (Proc.devRef .tc main_arg8)) (Gen.W2 m ρ c (Proc.devRef .tc main_arg10)) (Gen.W2 m ρ c (Proc.devRef .tc main_arg11)) (Gen.W2 m ρ c (Proc.devRef .tc main_arg12)) (Gen.W2 m ρ c (Proc.devRef .tc main_arg13)) (Gen.W2 m ρ c (Proc.devRef .tc main_arg14))) := congrArg Cert.KernelIdeal.TableV.relu_4000 (tab0_2 _)
    _ = Cert.KernelIdeal.TableV.relu_4000 (Cert.KernelIdeal.TableV.drugSum1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := by
      rw [show Gen.W2 m ρ c (Proc.devRef .tc main_arg0) = m ((c.tc : Thread nD τ).loc main_arg0) from arg_W2 m ρ c main_arg0 (by decide) (by decide),
        show Gen.W2 m ρ c (Proc.devRef .tc main_arg1) = m ((c.tc : Thread nD τ).loc main_arg1) from arg_W2 m ρ c main_arg1 (by decide) (by decide),
        show Gen.W2 m ρ c (Proc.devRef .tc main_arg3) = m ((c.tc : Thread nD τ).loc main_arg3) from arg_W2 m ρ c main_arg3 (by decide) (by decide),
        show Gen.W2 m ρ c (Proc.devRef .tc main_arg4) = m ((c.tc : Thread nD τ).loc main_arg4) from arg_W2 m ρ c main_arg4 (by decide) (by decide),
        show Gen.W2 m ρ c (Proc.devRef .tc main_arg5) = m ((c.tc : Thread nD τ).loc main_arg5) from arg_W2 m ρ c main_arg5 (by decide) (by decide),
        show Gen.W2 m ρ c (Proc.devRef .tc main_arg6) = m ((c.tc : Thread nD τ).loc main_arg6) from arg_W2 m ρ c main_arg6 (by decide) (by decide),
        show Gen.W2 m ρ c (Proc.devRef .tc main_arg7) = m ((c.tc : Thread nD τ).loc main_arg7) from arg_W2 m ρ c main_arg7 (by decide) (by decide),
        show Gen.W2 m ρ c (Proc.devRef .tc main_arg8) = m ((c.tc : Thread nD τ).loc main_arg8) from arg_W2 m ρ c main_arg8 (by decide) (by decide),
        show Gen.W2 m ρ c (Proc.devRef .tc main_arg10) = m ((c.tc : Thread nD τ).loc main_arg10) from arg_W2 m ρ c main_arg10 (by decide) (by decide),
        show Gen.W2 m ρ c (Proc.devRef .tc main_arg11) = m ((c.tc : Thread nD τ).loc main_arg11) from arg_W2 m ρ c main_arg11 (by decide) (by decide),
        show Gen.W2 m ρ c (Proc.devRef .tc main_arg12) = m ((c.tc : Thread nD τ).loc main_arg12) from arg_W2 m ρ c main_arg12 (by decide) (by decide),
        show Gen.W2 m ρ c (Proc.devRef .tc main_arg13) = m ((c.tc : Thread nD τ).loc main_arg13) from arg_W2 m ρ c main_arg13 (by decide) (by decide),
        show Gen.W2 m ρ c (Proc.devRef .tc main_arg14) = m ((c.tc : Thread nD τ).loc main_arg14) from arg_W2 m ρ c main_arg14 (by decide) (by decide)]

/-- The node table is the two-layer encoder's drug table of the arguments. -/
theorem zdK_eq (c : Dev nD) : zdK (F := Ideal) m ρ c
    = Cert.KernelIdeal.TableV.drugTable (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  calc zdK (F := Ideal) m ρ c
    _ = Cert.KernelIdeal.TableV.relu_4000 (Gen.W5 m ρ c (Proc.devRef .tc main_v166)) := tab0_5 _
    _ = Cert.KernelIdeal.TableV.relu_4000 (Cert.KernelIdeal.TableV.drugSum2 (Gen.W4 m ρ c (Proc.devRef .tc main_v15)) (Gen.W4 m ρ c (Proc.devRef .tc main_v91)) (Gen.W4 m ρ c (Proc.devRef .tc main_arg3)) (Gen.W4 m ρ c (Proc.devRef .tc main_arg4)) (Gen.W4 m ρ c (Proc.devRef .tc main_arg5)) (Gen.W4 m ρ c (Proc.devRef .tc main_arg6)) (Gen.W4 m ρ c (Proc.devRef .tc main_arg7)) (Gen.W4 m ρ c (Proc.devRef .tc main_arg8)) (Gen.W4 m ρ c (Proc.devRef .tc main_arg16)) (Gen.W4 m ρ c (Proc.devRef .tc main_arg17)) (Gen.W4 m ρ c (Proc.devRef .tc main_arg18)) (Gen.W4 m ρ c (Proc.devRef .tc main_arg19)) (Gen.W4 m ρ c (Proc.devRef .tc main_arg20))) := congrArg Cert.KernelIdeal.TableV.relu_4000 (tab0_4 _)
    _ = Cert.KernelIdeal.TableV.relu_4000 (Cert.KernelIdeal.TableV.drugSum2 (Cert.KernelIdeal.TableV.relu_20000 (Cert.KernelIdeal.TableV.msg_gg1 (m ((c.tc : Thread nD τ).loc main_arg0)) (m ((c.tc : Thread nD τ).loc main_arg9)) (Cert.KernelIdeal.TableV.wrap_20000_1000000 (Cert.KernelIdeal.TableV.edgeRow_1000000_0 (m ((c.tc : Thread nD τ).loc main_arg2)))) (Cert.KernelIdeal.TableV.col_1000000 (Cert.KernelIdeal.TableV.edgeRow_1000000_1 (m ((c.tc : Thread nD τ).loc main_arg2)))))) (Cert.KernelIdeal.TableV.relu_4000 (Cert.KernelIdeal.TableV.drugSum1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
      rw [gene1_W4 m ρ c, drug1_W4 m ρ c,
        show Gen.W4 m ρ c (Proc.devRef .tc main_arg3) = m ((c.tc : Thread nD τ).loc main_arg3) from arg_W4 m ρ c main_arg3 (by decide) (by decide) (by decide) (by decide),
        show Gen.W4 m ρ c (Proc.devRef .tc main_arg4) = m ((c.tc : Thread nD τ).loc main_arg4) from arg_W4 m ρ c main_arg4 (by decide) (by decide) (by decide) (by decide),
        show Gen.W4 m ρ c (Proc.devRef .tc main_arg5) = m ((c.tc : Thread nD τ).loc main_arg5) from arg_W4 m ρ c main_arg5 (by decide) (by decide) (by decide) (by decide),
        show Gen.W4 m ρ c (Proc.devRef .tc main_arg6) = m ((c.tc : Thread nD τ).loc main_arg6) from arg_W4 m ρ c main_arg6 (by decide) (by decide) (by decide) (by decide),
        show Gen.W4 m ρ c (Proc.devRef .tc main_arg7) = m ((c.tc : Thread nD τ).loc main_arg7) from arg_W4 m ρ c main_arg7 (by decide) (by decide) (by decide) (by decide),
        show Gen.W4 m ρ c (Proc.devRef .tc main_arg8) = m ((c.tc : Thread nD τ).loc main_arg8) from arg_W4 m ρ c main_arg8 (by decide) (by decide) (by decide) (by decide),
        show Gen.W4 m ρ c (Proc.devRef .tc main_arg16) = m ((c.tc : Thread nD τ).loc main_arg16) from arg_W4 m ρ c main_arg16 (by decide) (by decide) (by decide) (by decide),
        show Gen.W4 m ρ c (Proc.devRef .tc main_arg17) = m ((c.tc : Thread nD τ).loc main_arg17) from arg_W4 m ρ c main_arg17 (by decide) (by decide) (by decide) (by decide),
        show Gen.W4 m ρ c (Proc.devRef .tc main_arg18) = m ((c.tc : Thread nD τ).loc main_arg18) from arg_W4 m ρ c main_arg18 (by decide) (by decide) (by decide) (by decide),
        show Gen.W4 m ρ c (Proc.devRef .tc main_arg19) = m ((c.tc : Thread nD τ).loc main_arg19) from arg_W4 m ρ c main_arg19 (by decide) (by decide) (by decide) (by decide),
        show Gen.W4 m ρ c (Proc.devRef .tc main_arg20) = m ((c.tc : Thread nD τ).loc main_arg20) from arg_W4 m ρ c main_arg20 (by decide) (by decide) (by decide) (by decide)]
    _ = Cert.KernelIdeal.TableV.drugTable (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := rfl

end Cert.KernelIdeal.HostV

end
-- ==== Proof.TableR.lean ====
/-
  The node tables of the two-layer message-passing encoder, as one function of the program's arguments
  (the order this program computes them in: each relation selects the source rows its edges name and then projects them).

  A relation's messages: for every edge, the 64 projected features of its source node, summed at the edge's
  target node. A layer's drug table is the positive part of the sum of the five relations that end at drugs
  (one from genes, four among drugs); the first layer's gene table is the positive part of the gene-to-gene
  messages. The second layer reads the first layer's two tables; only its drug table is used afterwards.
-/
import proofs.«105939_j23287312679606_2_alg».proof.Proof.Gen.ReferenceIdeal
import Idealize.ShloMosaic.PureOps.Ideal

noncomputable section

namespace Cert.ReferenceIdeal.TableV

open Idealize.ShloMosaic

/-- Row 0 of a `[2, 1000000]` edge list, as a vector of 1000000 node numbers. -/
def edgeRow_1000000_0 (x : IVec Cert.ReferenceIdeal.S2x1000000 32) : IVec Cert.ReferenceIdeal.S1000000 32 :=
  shapeCast Cert.ReferenceIdeal.S1000000 (extractStridedSlice Cert.ReferenceIdeal.S1x1000000 ![0, 0] x Cert.ReferenceIdeal.Gen.slices_S2x1000000_S1x1000000_0_0) Cert.ReferenceIdeal.Gen.shapeCasts_S1x1000000_S1000000

/-- Row 1 of a `[2, 1000000]` edge list, as a vector of 1000000 node numbers. -/
def edgeRow_1000000_1 (x : IVec Cert.ReferenceIdeal.S2x1000000 32) : IVec Cert.ReferenceIdeal.S1000000 32 :=
  shapeCast Cert.ReferenceIdeal.S1000000 (extractStridedSlice Cert.ReferenceIdeal.S1x1000000 ![1, 0] x Cert.ReferenceIdeal.Gen.slices_S2x1000000_S1x1000000_1_0) Cert.ReferenceIdeal.Gen.shapeCasts_S1x1000000_S1000000

/-- Row 0 of a `[2, 500000]` edge list, as a vector of 500000 node numbers. -/
def edgeRow_500000_0 (x : IVec Cert.ReferenceIdeal.S2x500000 32) : IVec Cert.ReferenceIdeal.S500000 32 :=
  shapeCast Cert.ReferenceIdeal.S500000 (extractStridedSlice Cert.ReferenceIdeal.S1x500000 ![0, 0] x Cert.ReferenceIdeal.Gen.slices_S2x500000_S1x500000_0_0) Cert.ReferenceIdeal.Gen.shapeCasts_S1x500000_S500000

/-- Row 1 of a `[2, 500000]` edge list, as a vector of 500000 node numbers. -/
def edgeRow_500000_1 (x : IVec Cert.ReferenceIdeal.S2x500000 32) : IVec Cert.ReferenceIdeal.S500000 32 :=
  shapeCast Cert.ReferenceIdeal.S500000 (extractStridedSlice Cert.ReferenceIdeal.S1x500000 ![1, 0] x Cert.ReferenceIdeal.Gen.slices_S2x500000_S1x500000_1_0) Cert.ReferenceIdeal.Gen.shapeCasts_S1x500000_S500000

/-- Source node numbers as a column of start indices, a negative number counted from the end (`+ 20000`). -/
def wrap_20000_1000000 (i : IVec Cert.ReferenceIdeal.S1000000 32) : IVec Cert.ReferenceIdeal.S1000000x1 32 :=
  broadcastInDim Cert.ReferenceIdeal.S1000000x1 ![0] Cert.ReferenceIdeal.Gen.bcast_S1000000_S1000000x1_0
    (select (cmpi .slt i (broadcastInDim Cert.ReferenceIdeal.S1000000 ![] Cert.ReferenceIdeal.Gen.bcast_S_S1000000 (constantI Cert.ReferenceIdeal.S_ 32 0#32)))
      (addi i (broadcastInDim Cert.ReferenceIdeal.S1000000 ![] Cert.ReferenceIdeal.Gen.bcast_S_S1000000 (constantI Cert.ReferenceIdeal.S_ 32 20000#32))) i)

/-- Source node numbers as a column of start indices, a negative number counted from the end (`+ 20000`). -/
def wrap_20000_400000 (i : IVec Cert.ReferenceIdeal.S400000 32) : IVec Cert.ReferenceIdeal.S400000x1 32 :=
  broadcastInDim Cert.ReferenceIdeal.S400000x1 ![0] Cert.ReferenceIdeal.Gen.bcast_S400000_S400000x1_0
    (select (cmpi .slt i (broadcastInDim Cert.ReferenceIdeal.S400000 ![] Cert.ReferenceIdeal.Gen.bcast_S_S400000 (constantI Cert.ReferenceIdeal.S_ 32 0#32)))
      (addi i (broadcastInDim Cert.ReferenceIdeal.S400000 ![] Cert.ReferenceIdeal.Gen.bcast_S_S400000 (constantI Cert.ReferenceIdeal.S_ 32 20000#32))) i)

/-- Source node numbers as a column of start indices, a negative number counted from the end (`+ 4000`). -/
def wrap_4000_500000 (i : IVec Cert.ReferenceIdeal.S500000 32) : IVec Cert.ReferenceIdeal.S500000x1 32 :=
  broadcastInDim Cert.ReferenceIdeal.S500000x1 ![0] Cert.ReferenceIdeal.Gen.bcast_S500000_S500000x1_0
    (select (cmpi .slt i (broadcastInDim Cert.ReferenceIdeal.S500000 ![] Cert.ReferenceIdeal.Gen.bcast_S_S500000 (constantI Cert.ReferenceIdeal.S_ 32 0#32)))
      (addi i (broadcastInDim Cert.ReferenceIdeal.S500000 ![] Cert.ReferenceIdeal.Gen.bcast_S_S500000 (constantI Cert.ReferenceIdeal.S_ 32 4000#32))) i)

/-- Target node numbers as a column of scatter indices. -/
def col_1000000 (i : IVec Cert.ReferenceIdeal.S1000000 32) : IVec Cert.ReferenceIdeal.S1000000x1 32 :=
  broadcastInDim Cert.ReferenceIdeal.S1000000x1 ![0] Cert.ReferenceIdeal.Gen.bcast_S1000000_S1000000x1_0 i

/-- Target node numbers as a column of scatter indices. -/
def col_400000 (i : IVec Cert.ReferenceIdeal.S400000 32) : IVec Cert.ReferenceIdeal.S400000x1 32 :=
  broadcastInDim Cert.ReferenceIdeal.S400000x1 ![0] Cert.ReferenceIdeal.Gen.bcast_S400000_S400000x1_0 i

/-- Target node numbers as a column of scatter indices. -/
def col_500000 (i : IVec Cert.ReferenceIdeal.S500000 32) : IVec Cert.ReferenceIdeal.S500000x1 32 :=
  broadcastInDim Cert.ReferenceIdeal.S500000x1 ![0] Cert.ReferenceIdeal.Gen.bcast_S500000_S500000x1_0 i

/-- The zero table of 20000 nodes. -/
def zeros_20000 : FVec Ideal Cert.ReferenceIdeal.S20000x64 .f32 :=
  broadcastInDim Cert.ReferenceIdeal.S20000x64 ![] Cert.ReferenceIdeal.Gen.bcast_S_S20000x64 (constant (F := Ideal) Cert.ReferenceIdeal.S_ .f32 0x00000000#32)

/-- The positive part of a table of 20000 nodes, entry by entry. -/
def relu_20000 (x : FVec Ideal Cert.ReferenceIdeal.S20000x64 .f32) : FVec Ideal Cert.ReferenceIdeal.S20000x64 .f32 :=
  maximumf (F := Ideal) x zeros_20000

/-- The zero table of 4000 nodes. -/
def zeros_4000 : FVec Ideal Cert.ReferenceIdeal.S4000x64 .f32 :=
  broadcastInDim Cert.ReferenceIdeal.S4000x64 ![] Cert.ReferenceIdeal.Gen.bcast_S_S4000x64 (constant (F := Ideal) Cert.ReferenceIdeal.S_ .f32 0x00000000#32)

/-- The positive part of a table of 4000 nodes, entry by entry. -/
def relu_4000 (x : FVec Ideal Cert.ReferenceIdeal.S4000x64 .f32) : FVec Ideal Cert.ReferenceIdeal.S4000x64 .f32 :=
  maximumf (F := Ideal) x zeros_4000

/-- The gene-to-gene messages of the first layer: every edge carries the row of its source node, projected (the rows are selected first, then projected),
    and the messages are summed at their target nodes. -/
def msg_gg1 (x : FVec Ideal Cert.ReferenceIdeal.S20000x128 .f32) (W : FVec Ideal Cert.ReferenceIdeal.S128x64 .f32)
    (src dst : IVec Cert.ReferenceIdeal.S1000000x1 32) : FVec Ideal Cert.ReferenceIdeal.S20000x64 .f32 :=
  Host.scatterAdd (F := Ideal) Cert.ReferenceIdeal.scatter_S20000x64_S1000000x1_S1000000x64_1_0_0_1 zeros_20000 dst
    (Host.dotGeneral (F := Ideal) Cert.ReferenceIdeal.dot_S1000000x128_S128x64_S1000000x64_1_0_0_1_n_n none
      (Host.gather Cert.ReferenceIdeal.gather_S20000x128_S1000000x1_S1000000x128_1_0_n_n_0_1_1128 x src) W)

/-- The gene-to-drug messages of the first layer: every edge carries the row of its source node, projected (the rows are selected first, then projected),
    and the messages are summed at their target nodes. -/
def msg_gd1 (x : FVec Ideal Cert.ReferenceIdeal.S20000x128 .f32) (W : FVec Ideal Cert.ReferenceIdeal.S128x64 .f32)
    (src dst : IVec Cert.ReferenceIdeal.S400000x1 32) : FVec Ideal Cert.ReferenceIdeal.S4000x64 .f32 :=
  Host.scatterAdd (F := Ideal) Cert.ReferenceIdeal.scatter_S4000x64_S400000x1_S400000x64_1_0_0_1 zeros_4000 dst
    (Host.dotGeneral (F := Ideal) Cert.ReferenceIdeal.dot_S400000x128_S128x64_S400000x64_1_0_0_1_n_n none
      (Host.gather Cert.ReferenceIdeal.gather_S20000x128_S400000x1_S400000x128_1_0_n_n_0_1_1128 x src) W)

/-- The drug-to-drug messages of the first layer: every edge carries the row of its source node, projected (the rows are selected first, then projected),
    and the messages are summed at their target nodes. -/
def msg_dd1 (x : FVec Ideal Cert.ReferenceIdeal.S4000x128 .f32) (W : FVec Ideal Cert.ReferenceIdeal.S128x64 .f32)
    (src dst : IVec Cert.ReferenceIdeal.S500000x1 32) : FVec Ideal Cert.ReferenceIdeal.S4000x64 .f32 :=
  Host.scatterAdd (F := Ideal) Cert.ReferenceIdeal.scatter_S4000x64_S500000x1_S500000x64_1_0_0_1 zeros_4000 dst
    (Host.dotGeneral (F := Ideal) Cert.ReferenceIdeal.dot_S500000x128_S128x64_S500000x64_1_0_0_1_n_n none
      (Host.gather Cert.ReferenceIdeal.gather_S4000x128_S500000x1_S500000x128_1_0_n_n_0_1_1128 x src) W)

/-- The gene-to-drug messages of the second layer: every edge carries the row of its source node, projected (the rows are selected first, then projected),
    and the messages are summed at their target nodes. -/
def msg_gd2 (x : FVec Ideal Cert.ReferenceIdeal.S20000x64 .f32) (W : FVec Ideal Cert.ReferenceIdeal.S64x64 .f32)
    (src dst : IVec Cert.ReferenceIdeal.S400000x1 32) : FVec Ideal Cert.ReferenceIdeal.S4000x64 .f32 :=
  Host.scatterAdd (F := Ideal) Cert.ReferenceIdeal.scatter_S4000x64_S400000x1_S400000x64_1_0_0_1 zeros_4000 dst
    (Host.dotGeneral (F := Ideal) Cert.ReferenceIdeal.dot_S400000x64_S64x64_S400000x64_1_0_0_1_n_n none
      (Host.gather Cert.ReferenceIdeal.gather_S20000x64_S400000x1_S400000x64_1_0_n_n_0_1_164 x src) W)

/-- The drug-to-drug messages of the second layer: every edge carries the row of its source node, projected (the rows are selected first, then projected),
    and the messages are summed at their target nodes. -/
def msg_dd2 (x : FVec Ideal Cert.ReferenceIdeal.S4000x64 .f32) (W : FVec Ideal Cert.ReferenceIdeal.S64x64 .f32)
    (src dst : IVec Cert.ReferenceIdeal.S500000x1 32) : FVec Ideal Cert.ReferenceIdeal.S4000x64 .f32 :=
  Host.scatterAdd (F := Ideal) Cert.ReferenceIdeal.scatter_S4000x64_S500000x1_S500000x64_1_0_0_1 zeros_4000 dst
    (Host.dotGeneral (F := Ideal) Cert.ReferenceIdeal.dot_S500000x64_S64x64_S500000x64_1_0_0_1_n_n none
      (Host.gather Cert.ReferenceIdeal.gather_S4000x64_S500000x1_S500000x64_1_0_n_n_0_1_164 x src) W)

/-- The first layer's gene table. -/
def geneTable1 (x0 : FVec Ideal Cert.ReferenceIdeal.S20000x128 .f32) (x2 : IVec Cert.ReferenceIdeal.S2x1000000 32) (x9 : FVec Ideal Cert.ReferenceIdeal.S128x64 .f32) :
    FVec Ideal Cert.ReferenceIdeal.S20000x64 .f32 :=
  relu_20000 (msg_gg1 x0 x9 (wrap_20000_1000000 (edgeRow_1000000_0 x2)) (col_1000000 (edgeRow_1000000_1 x2)))

/-- The first layer's drug messages, summed over the five relations, before the positive part. -/
def drugSum1 (x0 : FVec Ideal Cert.ReferenceIdeal.S20000x128 .f32) (x1 : FVec Ideal Cert.ReferenceIdeal.S4000x128 .f32) (x3 x4 : IVec Cert.ReferenceIdeal.S400000 32)
    (x5 x6 x7 x8 : IVec Cert.ReferenceIdeal.S2x500000 32) (x10 x11 x12 x13 x14 : FVec Ideal Cert.ReferenceIdeal.S128x64 .f32) :
    FVec Ideal Cert.ReferenceIdeal.S4000x64 .f32 :=
  addf (F := Ideal) (addf (F := Ideal) (addf (F := Ideal) (addf (F := Ideal)
    (msg_gd1 x0 x10 (wrap_20000_400000 x3) (col_400000 x4))
    (msg_dd1 x1 x11 (wrap_4000_500000 (edgeRow_500000_0 x5)) (col_500000 (edgeRow_500000_1 x5))))
    (msg_dd1 x1 x12 (wrap_4000_500000 (edgeRow_500000_0 x6)) (col_500000 (edgeRow_500000_1 x6))))
    (msg_dd1 x1 x13 (wrap_4000_500000 (edgeRow_500000_0 x7)) (col_500000 (edgeRow_500000_1 x7))))
    (msg_dd1 x1 x14 (wrap_4000_500000 (edgeRow_500000_0 x8)) (col_500000 (edgeRow_500000_1 x8)))

/-- The second layer's drug messages, from the first layer's gene table `g` and drug table `d`. -/
def drugSum2 (g : FVec Ideal Cert.ReferenceIdeal.S20000x64 .f32) (d : FVec Ideal Cert.ReferenceIdeal.S4000x64 .f32) (x3 x4 : IVec Cert.ReferenceIdeal.S400000 32)
    (x5 x6 x7 x8 : IVec Cert.ReferenceIdeal.S2x500000 32) (x16 x17 x18 x19 x20 : FVec Ideal Cert.ReferenceIdeal.S64x64 .f32) :
    FVec Ideal Cert.ReferenceIdeal.S4000x64 .f32 :=
  addf (F := Ideal) (addf (F := Ideal) (addf (F := Ideal) (addf (F := Ideal)
    (msg_gd2 g x16 (wrap_20000_400000 x3) (col_400000 x4))
    (msg_dd2 d x17 (wrap_4000_500000 (edgeRow_500000_0 x5)) (col_500000 (edgeRow_500000_1 x5))))
    (msg_dd2 d x18 (wrap_4000_500000 (edgeRow_500000_0 x6)) (col_500000 (edgeRow_500000_1 x6))))
    (msg_dd2 d x19 (wrap_4000_500000 (edgeRow_500000_0 x7)) (col_500000 (edgeRow_500000_1 x7))))
    (msg_dd2 d x20 (wrap_4000_500000 (edgeRow_500000_0 x8)) (col_500000 (edgeRow_500000_1 x8)))

/-- The drug table the decoders read: two layers. -/
def drugTable (x0 : FVec Ideal Cert.ReferenceIdeal.S20000x128 .f32) (x1 : FVec Ideal Cert.ReferenceIdeal.S4000x128 .f32) (x2 : IVec Cert.ReferenceIdeal.S2x1000000 32)
    (x3 x4 : IVec Cert.ReferenceIdeal.S400000 32) (x5 x6 x7 x8 : IVec Cert.ReferenceIdeal.S2x500000 32)
    (x9 x10 x11 x12 x13 x14 : FVec Ideal Cert.ReferenceIdeal.S128x64 .f32) (x16 x17 x18 x19 x20 : FVec Ideal Cert.ReferenceIdeal.S64x64 .f32) :
    FVec Ideal Cert.ReferenceIdeal.S4000x64 .f32 :=
  relu_4000 (drugSum2 (geneTable1 x0 x2 x9) (relu_4000 (drugSum1 x0 x1 x3 x4 x5 x6 x7 x8 x10 x11 x12 x13 x14))
    x3 x4 x5 x6 x7 x8 x16 x17 x18 x19 x20)

end Cert.ReferenceIdeal.TableV

end
-- ==== Proof.LibGatherDot.lean ====
/-
  Selecting rows commutes with a row-wise linear map, on the extended reals.

  Let `x` be a table of rows, `W` a matrix, and `g` a gather that reads, for each result position, one
  clamped row of its operand and keeps the column. Then gathering rows of the product `x · W` gives the
  same array as multiplying the gathered rows of `x` by `W`: at result position `y` both are the sum,
  over the contraction coordinate `k`, of `x` at (the row `y` selects, `k`) times `W` at (`k`, the
  column of `y`). Nothing about the reals is used beyond the two sums having the same terms, so the
  statement holds at infinite entries too.

  The lemma is stated for any pair of contraction records and any pair of gather records with a single
  contraction axis of extent `K`; what identifies "the row `y` selects" and "the column of `y`" on the
  two sides are the two hypotheses on operand indices, which compute on literal dimension numbers.
-/
import Idealize.ShloMosaic.PureOps.Ideal
import Idealize.ShloMosaic.PureOps.Ideal.Laws
import Idealize.ShloMosaic.Lib.ValueIdx

noncomputable section

namespace Cert.LibGatherDot

open Idealize.ShloMosaic Idealize.ShloMosaic.ValueIdx

/-- Gathering rows of `x · W` is multiplying the gathered rows of `x` by `W`.
    `hl`: the left operand's index of the product, at the row a result position selects, is the
    gathered operand's index at the left index of the second product; `hrr`: the right operand's
    indices agree. -/
theorem gather_dot_comm {s sW so sg sgo si : Shape} {w : Nat}
    (D : DotDims s sW so) (D' : DotDims sg sW sgo) (dg : GatherDims so si sgo) (dg' : GatherDims s si sg)
    (K : Nat) (hr : D.contr.rank = 1) (hs : D.contr.size ⟨0, by omega⟩ = K)
    (hr' : D'.contr.rank = 1) (hs' : D'.contr.size ⟨0, by omega⟩ = K)
    (hl : ∀ (y : sgo.Idx) (idx : IVec si w) (k : Fin K),
      D.lhsIdx (dg.operandIdx y idx) ((contrEquiv1 D K hr hs).symm k)
        = dg'.operandIdx (D'.lhsIdx y ((contrEquiv1 D' K hr' hs').symm k)) idx)
    (hrr : ∀ (y : sgo.Idx) (idx : IVec si w) (k : Fin K),
      D.rhsIdx (dg.operandIdx y idx) ((contrEquiv1 D K hr hs).symm k)
        = D'.rhsIdx y ((contrEquiv1 D' K hr' hs').symm k))
    (x : FVec Ideal s .f32) (W : FVec Ideal sW .f32) (idx : IVec si w) :
    Host.gather dg (Host.dotGeneral (F := Ideal) D none x W) idx
      = Host.dotGeneral (F := Ideal) D' none (Host.gather dg' x idx) W := by
  funext y
  show FloatOps.dotGeneral D none .single x W (dg.operandIdx y idx)
    = FloatOps.dotGeneral D' none .single (Host.gather dg' x idx) W y
  rw [Ideal.dotGeneral_apply, Ideal.dotGeneral_apply,
    ← Equiv.sum_comp (contrEquiv1 D K hr hs).symm, ← Equiv.sum_comp (contrEquiv1 D' K hr' hs').symm]
  refine Finset.sum_congr rfl fun k _ => ?_
  rw [hl y idx k, hrr y idx k]
  rfl

end Cert.LibGatherDot

end
-- ==== Proof.LibDotIdx.lean ====
/-
  The operand indices of a contraction on an axis that is NOT contracted: the left operand reads the result
  index at that axis's position among the result's axes (after the batch axes), the right operand at its
  position after the left operand's free axes. (On a contracted axis both read the contraction index: the
  library's `lhsIdx_val_of_single` / `rhsIdx_val_of_single`.)
-/
import Idealize.ShloMosaic.PureOps.Ideal

noncomputable section

namespace Cert.LibDotIdx

open Idealize.ShloMosaic

/-- A free axis `a` of the left operand reads the result index at position `p`, where `p` counts the batch axes and
    then `a`'s place among the left free axes. -/
theorem lhsIdx_val_of_free {sl sr so : Shape} (D : DotDims sl sr so) (a : Fin sl.rank)
    (hb : a ∉ D.lhsBatch) (hn : a ∈ D.lhsNonContracting) (j : so.Idx) (k : D.contr.Idx)
    (p : Fin so.rank) (hp : p.val = D.lhsBatch.length + D.lhsNonContracting.idxOf a) :
    (D.lhsIdx j k a).val = (j p).val := by
  unfold DotDims.lhsIdx
  rw [dif_neg hb, dif_pos hn]
  simp only [Fin.val_cast]
  exact congrArg (fun q => (j q).val) (Fin.ext hp.symm)

/-- A free axis `a` of the right operand reads the result index at position `p`, after the batch axes and the left
    operand's free axes. -/
theorem rhsIdx_val_of_free {sl sr so : Shape} (D : DotDims sl sr so) (a : Fin sr.rank)
    (hb : a ∉ D.rhsBatch) (hn : a ∈ D.rhsNonContracting) (j : so.Idx) (k : D.contr.Idx)
    (p : Fin so.rank)
    (hp : p.val = D.lhsBatch.length + D.lhsNonContracting.length + D.rhsNonContracting.idxOf a) :
    (D.rhsIdx j k a).val = (j p).val := by
  unfold DotDims.rhsIdx
  rw [dif_neg hb, dif_pos hn]
  simp only [Fin.val_cast]
  exact congrArg (fun q => (j q).val) (Fin.ext hp.symm)

end Cert.LibDotIdx

end
-- ==== Proof.Messages.lean ====
/-
  The message-passing step of the two programs differs in one place: one projects the whole node table by the
  relation's weight matrix and then selects, for every edge, the row of its source node; the other selects
  the source rows first and projects the selected rows. Row selection commutes with a row-wise linear map, so
  the two are the same array. This module states that for each of the five shapes the programs use (three in
  the first layer, two in the second), over the printed dimension numbers of both programs.
-/
import proofs.«105939_j23287312679606_2_alg».proof.Proof.Gen.KernelIdeal
import proofs.«105939_j23287312679606_2_alg».proof.Proof.Gen.ReferenceIdeal
import proofs.«105939_j23287312679606_2_alg».proof.Proof.LibGatherDot
import proofs.«105939_j23287312679606_2_alg».proof.Proof.LibRowGather
import proofs.«105939_j23287312679606_2_alg».proof.Proof.LibDotIdx

noncomputable section

namespace Cert.Bridge.Messages

open Idealize.ShloMosaic Idealize.ShloMosaic.ValueIdx
open Cert.LibGatherDot Cert.LibRowGather Cert.LibDotIdx

/-- Projecting every node and then selecting the rows the edges name is selecting the rows and then projecting
    them: the gene-to-gene messages of the first layer (20000 nodes of 128 features, 1000000 edges). -/
theorem comm_gg1 (x : FVec Ideal (⟨2, ![20000, 128]⟩ : Shape) .f32) (W : FVec Ideal (⟨2, ![128, 64]⟩ : Shape) .f32) (idx : IVec (⟨2, ![1000000, 1]⟩ : Shape) 32) :
    Host.gather Cert.KernelIdeal.gather_S20000x64_S1000000x1_S1000000x64_1_0_n_n_0_1_164 (Host.dotGeneral (F := Ideal) Cert.KernelIdeal.dot_S20000x128_S128x64_S20000x64_1_0_0_1_n_n none x W) idx
      = Host.dotGeneral (F := Ideal) Cert.ReferenceIdeal.dot_S1000000x128_S128x64_S1000000x64_1_0_0_1_n_n none (Host.gather Cert.ReferenceIdeal.gather_S20000x128_S1000000x1_S1000000x128_1_0_n_n_0_1_1128 x idx) W :=
  gather_dot_comm Cert.KernelIdeal.dot_S20000x128_S128x64_S20000x64_1_0_0_1_n_n Cert.ReferenceIdeal.dot_S1000000x128_S128x64_S1000000x64_1_0_0_1_n_n Cert.KernelIdeal.gather_S20000x64_S1000000x1_S1000000x64_1_0_n_n_0_1_164 Cert.ReferenceIdeal.gather_S20000x128_S1000000x1_S1000000x128_1_0_n_n_0_1_1128 128 rfl rfl rfl rfl
    (fun y idx k => by
      have hN : 0 < 20000 := by decide
      have hk := contrEquiv1_symm_val Cert.KernelIdeal.dot_S20000x128_S128x64_S20000x64_1_0_0_1_n_n 128 rfl rfl k
      have hk' := contrEquiv1_symm_val Cert.ReferenceIdeal.dot_S1000000x128_S128x64_S1000000x64_1_0_0_1_n_n 128 rfl rfl k
      have h1 : (Cert.KernelIdeal.gather_S20000x64_S1000000x1_S1000000x64_1_0_n_n_0_1_164).operandIdx y idx = ix2 (rowSel 20000 hN idx (y 0)) (y 1) :=
        rowDims_operandIdx hN _ idx y
      have h2 : ∀ z : (⟨2, ![1000000, 128]⟩ : Shape).Idx,
          (Cert.ReferenceIdeal.gather_S20000x128_S1000000x1_S1000000x128_1_0_n_n_0_1_1128).operandIdx z idx = ix2 (rowSel 20000 hN idx (z 0)) (z 1) :=
        fun z => rowDims_operandIdx hN _ idx z
      rw [h1, h2]
      funext a
      refine Fin.ext ?_
      match a with
      | ⟨0, _⟩ =>
        refine (lhsIdx_val_of_free Cert.KernelIdeal.dot_S20000x128_S128x64_S20000x64_1_0_0_1_n_n 0 (by decide) (by decide) _ _ 0 (by decide)).trans ?_
        exact congrArg (fun r => (rowSel 20000 hN idx r).val)
          (Fin.ext (lhsIdx_val_of_free Cert.ReferenceIdeal.dot_S1000000x128_S128x64_S1000000x64_1_0_0_1_n_n 0 (by decide) (by decide) y _ 0 (by decide))).symm
      | ⟨1, _⟩ =>
        refine ((Cert.KernelIdeal.dot_S20000x128_S128x64_S20000x64_1_0_0_1_n_n).lhsIdx_val_of_single rfl _ _).trans (hk.trans ?_)
        exact (hk'.symm.trans ((Cert.ReferenceIdeal.dot_S1000000x128_S128x64_S1000000x64_1_0_0_1_n_n).lhsIdx_val_of_single rfl y _).symm))
    (fun y idx k => by
      have hN : 0 < 20000 := by decide
      have hk := contrEquiv1_symm_val Cert.KernelIdeal.dot_S20000x128_S128x64_S20000x64_1_0_0_1_n_n 128 rfl rfl k
      have hk' := contrEquiv1_symm_val Cert.ReferenceIdeal.dot_S1000000x128_S128x64_S1000000x64_1_0_0_1_n_n 128 rfl rfl k
      have h1 : (Cert.KernelIdeal.gather_S20000x64_S1000000x1_S1000000x64_1_0_n_n_0_1_164).operandIdx y idx = ix2 (rowSel 20000 hN idx (y 0)) (y 1) :=
        rowDims_operandIdx hN _ idx y
      rw [h1]
      funext a
      refine Fin.ext ?_
      match a with
      | ⟨0, _⟩ =>
        exact (((Cert.KernelIdeal.dot_S20000x128_S128x64_S20000x64_1_0_0_1_n_n).rhsIdx_val_of_single rfl _ _).trans hk).trans
          (hk'.symm.trans ((Cert.ReferenceIdeal.dot_S1000000x128_S128x64_S1000000x64_1_0_0_1_n_n).rhsIdx_val_of_single rfl y _).symm)
      | ⟨1, _⟩ =>
        refine (rhsIdx_val_of_free Cert.KernelIdeal.dot_S20000x128_S128x64_S20000x64_1_0_0_1_n_n 1 (by decide) (by decide) _ _ 1 (by decide)).trans ?_
        exact (rhsIdx_val_of_free Cert.ReferenceIdeal.dot_S1000000x128_S128x64_S1000000x64_1_0_0_1_n_n 1 (by decide) (by decide) y _ 1 (by decide)).symm)
    x W idx

/-- Projecting every node and then selecting the rows the edges name is selecting the rows and then projecting
    them: the gene-to-drug messages of the first layer (20000 nodes of 128 features, 400000 edges). -/
theorem comm_gd1 (x : FVec Ideal (⟨2, ![20000, 128]⟩ : Shape) .f32) (W : FVec Ideal (⟨2, ![128, 64]⟩ : Shape) .f32) (idx : IVec (⟨2, ![400000, 1]⟩ : Shape) 32) :
    Host.gather Cert.KernelIdeal.gather_S20000x64_S400000x1_S400000x64_1_0_n_n_0_1_164 (Host.dotGeneral (F := Ideal) Cert.KernelIdeal.dot_S20000x128_S128x64_S20000x64_1_0_0_1_n_n none x W) idx
      = Host.dotGeneral (F := Ideal) Cert.ReferenceIdeal.dot_S400000x128_S128x64_S400000x64_1_0_0_1_n_n none (Host.gather Cert.ReferenceIdeal.gather_S20000x128_S400000x1_S400000x128_1_0_n_n_0_1_1128 x idx) W :=
  gather_dot_comm Cert.KernelIdeal.dot_S20000x128_S128x64_S20000x64_1_0_0_1_n_n Cert.ReferenceIdeal.dot_S400000x128_S128x64_S400000x64_1_0_0_1_n_n Cert.KernelIdeal.gather_S20000x64_S400000x1_S400000x64_1_0_n_n_0_1_164 Cert.ReferenceIdeal.gather_S20000x128_S400000x1_S400000x128_1_0_n_n_0_1_1128 128 rfl rfl rfl rfl
    (fun y idx k => by
      have hN : 0 < 20000 := by decide
      have hk := contrEquiv1_symm_val Cert.KernelIdeal.dot_S20000x128_S128x64_S20000x64_1_0_0_1_n_n 128 rfl rfl k
      have hk' := contrEquiv1_symm_val Cert.ReferenceIdeal.dot_S400000x128_S128x64_S400000x64_1_0_0_1_n_n 128 rfl rfl k
      have h1 : (Cert.KernelIdeal.gather_S20000x64_S400000x1_S400000x64_1_0_n_n_0_1_164).operandIdx y idx = ix2 (rowSel 20000 hN idx (y 0)) (y 1) :=
        rowDims_operandIdx hN _ idx y
      have h2 : ∀ z : (⟨2, ![400000, 128]⟩ : Shape).Idx,
          (Cert.ReferenceIdeal.gather_S20000x128_S400000x1_S400000x128_1_0_n_n_0_1_1128).operandIdx z idx = ix2 (rowSel 20000 hN idx (z 0)) (z 1) :=
        fun z => rowDims_operandIdx hN _ idx z
      rw [h1, h2]
      funext a
      refine Fin.ext ?_
      match a with
      | ⟨0, _⟩ =>
        refine (lhsIdx_val_of_free Cert.KernelIdeal.dot_S20000x128_S128x64_S20000x64_1_0_0_1_n_n 0 (by decide) (by decide) _ _ 0 (by decide)).trans ?_
        exact congrArg (fun r => (rowSel 20000 hN idx r).val)
          (Fin.ext (lhsIdx_val_of_free Cert.ReferenceIdeal.dot_S400000x128_S128x64_S400000x64_1_0_0_1_n_n 0 (by decide) (by decide) y _ 0 (by decide))).symm
      | ⟨1, _⟩ =>
        refine ((Cert.KernelIdeal.dot_S20000x128_S128x64_S20000x64_1_0_0_1_n_n).lhsIdx_val_of_single rfl _ _).trans (hk.trans ?_)
        exact (hk'.symm.trans ((Cert.ReferenceIdeal.dot_S400000x128_S128x64_S400000x64_1_0_0_1_n_n).lhsIdx_val_of_single rfl y _).symm))
    (fun y idx k => by
      have hN : 0 < 20000 := by decide
      have hk := contrEquiv1_symm_val Cert.KernelIdeal.dot_S20000x128_S128x64_S20000x64_1_0_0_1_n_n 128 rfl rfl k
      have hk' := contrEquiv1_symm_val Cert.ReferenceIdeal.dot_S400000x128_S128x64_S400000x64_1_0_0_1_n_n 128 rfl rfl k
      have h1 : (Cert.KernelIdeal.gather_S20000x64_S400000x1_S400000x64_1_0_n_n_0_1_164).operandIdx y idx = ix2 (rowSel 20000 hN idx (y 0)) (y 1) :=
        rowDims_operandIdx hN _ idx y
      rw [h1]
      funext a
      refine Fin.ext ?_
      match a with
      | ⟨0, _⟩ =>
        exact (((Cert.KernelIdeal.dot_S20000x128_S128x64_S20000x64_1_0_0_1_n_n).rhsIdx_val_of_single rfl _ _).trans hk).trans
          (hk'.symm.trans ((Cert.ReferenceIdeal.dot_S400000x128_S128x64_S400000x64_1_0_0_1_n_n).rhsIdx_val_of_single rfl y _).symm)
      | ⟨1, _⟩ =>
        refine (rhsIdx_val_of_free Cert.KernelIdeal.dot_S20000x128_S128x64_S20000x64_1_0_0_1_n_n 1 (by decide) (by decide) _ _ 1 (by decide)).trans ?_
        exact (rhsIdx_val_of_free Cert.ReferenceIdeal.dot_S400000x128_S128x64_S400000x64_1_0_0_1_n_n 1 (by decide) (by decide) y _ 1 (by decide)).symm)
    x W idx

/-- Projecting every node and then selecting the rows the edges name is selecting the rows and then projecting
    them: the drug-to-drug messages of the first layer (4000 nodes of 128 features, 500000 edges). -/
theorem comm_dd1 (x : FVec Ideal (⟨2, ![4000, 128]⟩ : Shape) .f32) (W : FVec Ideal (⟨2, ![128, 64]⟩ : Shape) .f32) (idx : IVec (⟨2, ![500000, 1]⟩ : Shape) 32) :
    Host.gather Cert.KernelIdeal.gather_S4000x64_S500000x1_S500000x64_1_0_n_n_0_1_164 (Host.dotGeneral (F := Ideal) Cert.KernelIdeal.dot_S4000x128_S128x64_S4000x64_1_0_0_1_n_n none x W) idx
      = Host.dotGeneral (F := Ideal) Cert.ReferenceIdeal.dot_S500000x128_S128x64_S500000x64_1_0_0_1_n_n none (Host.gather Cert.ReferenceIdeal.gather_S4000x128_S500000x1_S500000x128_1_0_n_n_0_1_1128 x idx) W :=
  gather_dot_comm Cert.KernelIdeal.dot_S4000x128_S128x64_S4000x64_1_0_0_1_n_n Cert.ReferenceIdeal.dot_S500000x128_S128x64_S500000x64_1_0_0_1_n_n Cert.KernelIdeal.gather_S4000x64_S500000x1_S500000x64_1_0_n_n_0_1_164 Cert.ReferenceIdeal.gather_S4000x128_S500000x1_S500000x128_1_0_n_n_0_1_1128 128 rfl rfl rfl rfl
    (fun y idx k => by
      have hN : 0 < 4000 := by decide
      have hk := contrEquiv1_symm_val Cert.KernelIdeal.dot_S4000x128_S128x64_S4000x64_1_0_0_1_n_n 128 rfl rfl k
      have hk' := contrEquiv1_symm_val Cert.ReferenceIdeal.dot_S500000x128_S128x64_S500000x64_1_0_0_1_n_n 128 rfl rfl k
      have h1 : (Cert.KernelIdeal.gather_S4000x64_S500000x1_S500000x64_1_0_n_n_0_1_164).operandIdx y idx = ix2 (rowSel 4000 hN idx (y 0)) (y 1) :=
        rowDims_operandIdx hN _ idx y
      have h2 : ∀ z : (⟨2, ![500000, 128]⟩ : Shape).Idx,
          (Cert.ReferenceIdeal.gather_S4000x128_S500000x1_S500000x128_1_0_n_n_0_1_1128).operandIdx z idx = ix2 (rowSel 4000 hN idx (z 0)) (z 1) :=
        fun z => rowDims_operandIdx hN _ idx z
      rw [h1, h2]
      funext a
      refine Fin.ext ?_
      match a with
      | ⟨0, _⟩ =>
        refine (lhsIdx_val_of_free Cert.KernelIdeal.dot_S4000x128_S128x64_S4000x64_1_0_0_1_n_n 0 (by decide) (by decide) _ _ 0 (by decide)).trans ?_
        exact congrArg (fun r => (rowSel 4000 hN idx r).val)
          (Fin.ext (lhsIdx_val_of_free Cert.ReferenceIdeal.dot_S500000x128_S128x64_S500000x64_1_0_0_1_n_n 0 (by decide) (by decide) y _ 0 (by decide))).symm
      | ⟨1, _⟩ =>
        refine ((Cert.KernelIdeal.dot_S4000x128_S128x64_S4000x64_1_0_0_1_n_n).lhsIdx_val_of_single rfl _ _).trans (hk.trans ?_)
        exact (hk'.symm.trans ((Cert.ReferenceIdeal.dot_S500000x128_S128x64_S500000x64_1_0_0_1_n_n).lhsIdx_val_of_single rfl y _).symm))
    (fun y idx k => by
      have hN : 0 < 4000 := by decide
      have hk := contrEquiv1_symm_val Cert.KernelIdeal.dot_S4000x128_S128x64_S4000x64_1_0_0_1_n_n 128 rfl rfl k
      have hk' := contrEquiv1_symm_val Cert.ReferenceIdeal.dot_S500000x128_S128x64_S500000x64_1_0_0_1_n_n 128 rfl rfl k
      have h1 : (Cert.KernelIdeal.gather_S4000x64_S500000x1_S500000x64_1_0_n_n_0_1_164).operandIdx y idx = ix2 (rowSel 4000 hN idx (y 0)) (y 1) :=
        rowDims_operandIdx hN _ idx y
      rw [h1]
      funext a
      refine Fin.ext ?_
      match a with
      | ⟨0, _⟩ =>
        exact (((Cert.KernelIdeal.dot_S4000x128_S128x64_S4000x64_1_0_0_1_n_n).rhsIdx_val_of_single rfl _ _).trans hk).trans
          (hk'.symm.trans ((Cert.ReferenceIdeal.dot_S500000x128_S128x64_S500000x64_1_0_0_1_n_n).rhsIdx_val_of_single rfl y _).symm)
      | ⟨1, _⟩ =>
        refine (rhsIdx_val_of_free Cert.KernelIdeal.dot_S4000x128_S128x64_S4000x64_1_0_0_1_n_n 1 (by decide) (by decide) _ _ 1 (by decide)).trans ?_
        exact (rhsIdx_val_of_free Cert.ReferenceIdeal.dot_S500000x128_S128x64_S500000x64_1_0_0_1_n_n 1 (by decide) (by decide) y _ 1 (by decide)).symm)
    x W idx

/-- Projecting every node and then selecting the rows the edges name is selecting the rows and then projecting
    them: the gene-to-drug messages of the second layer (20000 nodes of 64 features, 400000 edges). -/
theorem comm_gd2 (x : FVec Ideal (⟨2, ![20000, 64]⟩ : Shape) .f32) (W : FVec Ideal (⟨2, ![64, 64]⟩ : Shape) .f32) (idx : IVec (⟨2, ![400000, 1]⟩ : Shape) 32) :
    Host.gather Cert.KernelIdeal.gather_S20000x64_S400000x1_S400000x64_1_0_n_n_0_1_164 (Host.dotGeneral (F := Ideal) Cert.KernelIdeal.dot_S20000x64_S64x64_S20000x64_1_0_0_1_n_n none x W) idx
      = Host.dotGeneral (F := Ideal) Cert.ReferenceIdeal.dot_S400000x64_S64x64_S400000x64_1_0_0_1_n_n none (Host.gather Cert.ReferenceIdeal.gather_S20000x64_S400000x1_S400000x64_1_0_n_n_0_1_164 x idx) W :=
  gather_dot_comm Cert.KernelIdeal.dot_S20000x64_S64x64_S20000x64_1_0_0_1_n_n Cert.ReferenceIdeal.dot_S400000x64_S64x64_S400000x64_1_0_0_1_n_n Cert.KernelIdeal.gather_S20000x64_S400000x1_S400000x64_1_0_n_n_0_1_164 Cert.ReferenceIdeal.gather_S20000x64_S400000x1_S400000x64_1_0_n_n_0_1_164 64 rfl rfl rfl rfl
    (fun y idx k => by
      have hN : 0 < 20000 := by decide
      have hk := contrEquiv1_symm_val Cert.KernelIdeal.dot_S20000x64_S64x64_S20000x64_1_0_0_1_n_n 64 rfl rfl k
      have hk' := contrEquiv1_symm_val Cert.ReferenceIdeal.dot_S400000x64_S64x64_S400000x64_1_0_0_1_n_n 64 rfl rfl k
      have h1 : (Cert.KernelIdeal.gather_S20000x64_S400000x1_S400000x64_1_0_n_n_0_1_164).operandIdx y idx = ix2 (rowSel 20000 hN idx (y 0)) (y 1) :=
        rowDims_operandIdx hN _ idx y
      have h2 : ∀ z : (⟨2, ![400000, 64]⟩ : Shape).Idx,
          (Cert.ReferenceIdeal.gather_S20000x64_S400000x1_S400000x64_1_0_n_n_0_1_164).operandIdx z idx = ix2 (rowSel 20000 hN idx (z 0)) (z 1) :=
        fun z => rowDims_operandIdx hN _ idx z
      rw [h1, h2]
      funext a
      refine Fin.ext ?_
      match a with
      | ⟨0, _⟩ =>
        refine (lhsIdx_val_of_free Cert.KernelIdeal.dot_S20000x64_S64x64_S20000x64_1_0_0_1_n_n 0 (by decide) (by decide) _ _ 0 (by decide)).trans ?_
        exact congrArg (fun r => (rowSel 20000 hN idx r).val)
          (Fin.ext (lhsIdx_val_of_free Cert.ReferenceIdeal.dot_S400000x64_S64x64_S400000x64_1_0_0_1_n_n 0 (by decide) (by decide) y _ 0 (by decide))).symm
      | ⟨1, _⟩ =>
        refine ((Cert.KernelIdeal.dot_S20000x64_S64x64_S20000x64_1_0_0_1_n_n).lhsIdx_val_of_single rfl _ _).trans (hk.trans ?_)
        exact (hk'.symm.trans ((Cert.ReferenceIdeal.dot_S400000x64_S64x64_S400000x64_1_0_0_1_n_n).lhsIdx_val_of_single rfl y _).symm))
    (fun y idx k => by
      have hN : 0 < 20000 := by decide
      have hk := contrEquiv1_symm_val Cert.KernelIdeal.dot_S20000x64_S64x64_S20000x64_1_0_0_1_n_n 64 rfl rfl k
      have hk' := contrEquiv1_symm_val Cert.ReferenceIdeal.dot_S400000x64_S64x64_S400000x64_1_0_0_1_n_n 64 rfl rfl k
      have h1 : (Cert.KernelIdeal.gather_S20000x64_S400000x1_S400000x64_1_0_n_n_0_1_164).operandIdx y idx = ix2 (rowSel 20000 hN idx (y 0)) (y 1) :=
        rowDims_operandIdx hN _ idx y
      rw [h1]
      funext a
      refine Fin.ext ?_
      match a with
      | ⟨0, _⟩ =>
        exact (((Cert.KernelIdeal.dot_S20000x64_S64x64_S20000x64_1_0_0_1_n_n).rhsIdx_val_of_single rfl _ _).trans hk).trans
          (hk'.symm.trans ((Cert.ReferenceIdeal.dot_S400000x64_S64x64_S400000x64_1_0_0_1_n_n).rhsIdx_val_of_single rfl y _).symm)
      | ⟨1, _⟩ =>
        refine (rhsIdx_val_of_free Cert.KernelIdeal.dot_S20000x64_S64x64_S20000x64_1_0_0_1_n_n 1 (by decide) (by decide) _ _ 1 (by decide)).trans ?_
        exact (rhsIdx_val_of_free Cert.ReferenceIdeal.dot_S400000x64_S64x64_S400000x64_1_0_0_1_n_n 1 (by decide) (by decide) y _ 1 (by decide)).symm)
    x W idx

/-- Projecting every node and then selecting the rows the edges name is selecting the rows and then projecting
    them: the drug-to-drug messages of the second layer (4000 nodes of 64 features, 500000 edges). -/
theorem comm_dd2 (x : FVec Ideal (⟨2, ![4000, 64]⟩ : Shape) .f32) (W : FVec Ideal (⟨2, ![64, 64]⟩ : Shape) .f32) (idx : IVec (⟨2, ![500000, 1]⟩ : Shape) 32) :
    Host.gather Cert.KernelIdeal.gather_S4000x64_S500000x1_S500000x64_1_0_n_n_0_1_164 (Host.dotGeneral (F := Ideal) Cert.KernelIdeal.dot_S4000x64_S64x64_S4000x64_1_0_0_1_n_n none x W) idx
      = Host.dotGeneral (F := Ideal) Cert.ReferenceIdeal.dot_S500000x64_S64x64_S500000x64_1_0_0_1_n_n none (Host.gather Cert.ReferenceIdeal.gather_S4000x64_S500000x1_S500000x64_1_0_n_n_0_1_164 x idx) W :=
  gather_dot_comm Cert.KernelIdeal.dot_S4000x64_S64x64_S4000x64_1_0_0_1_n_n Cert.ReferenceIdeal.dot_S500000x64_S64x64_S500000x64_1_0_0_1_n_n Cert.KernelIdeal.gather_S4000x64_S500000x1_S500000x64_1_0_n_n_0_1_164 Cert.ReferenceIdeal.gather_S4000x64_S500000x1_S500000x64_1_0_n_n_0_1_164 64 rfl rfl rfl rfl
    (fun y idx k => by
      have hN : 0 < 4000 := by decide
      have hk := contrEquiv1_symm_val Cert.KernelIdeal.dot_S4000x64_S64x64_S4000x64_1_0_0_1_n_n 64 rfl rfl k
      have hk' := contrEquiv1_symm_val Cert.ReferenceIdeal.dot_S500000x64_S64x64_S500000x64_1_0_0_1_n_n 64 rfl rfl k
      have h1 : (Cert.KernelIdeal.gather_S4000x64_S500000x1_S500000x64_1_0_n_n_0_1_164).operandIdx y idx = ix2 (rowSel 4000 hN idx (y 0)) (y 1) :=
        rowDims_operandIdx hN _ idx y
      have h2 : ∀ z : (⟨2, ![500000, 64]⟩ : Shape).Idx,
          (Cert.ReferenceIdeal.gather_S4000x64_S500000x1_S500000x64_1_0_n_n_0_1_164).operandIdx z idx = ix2 (rowSel 4000 hN idx (z 0)) (z 1) :=
        fun z => rowDims_operandIdx hN _ idx z
      rw [h1, h2]
      funext a
      refine Fin.ext ?_
      match a with
      | ⟨0, _⟩ =>
        refine (lhsIdx_val_of_free Cert.KernelIdeal.dot_S4000x64_S64x64_S4000x64_1_0_0_1_n_n 0 (by decide) (by decide) _ _ 0 (by decide)).trans ?_
        exact congrArg (fun r => (rowSel 4000 hN idx r).val)
          (Fin.ext (lhsIdx_val_of_free Cert.ReferenceIdeal.dot_S500000x64_S64x64_S500000x64_1_0_0_1_n_n 0 (by decide) (by decide) y _ 0 (by decide))).symm
      | ⟨1, _⟩ =>
        refine ((Cert.KernelIdeal.dot_S4000x64_S64x64_S4000x64_1_0_0_1_n_n).lhsIdx_val_of_single rfl _ _).trans (hk.trans ?_)
        exact (hk'.symm.trans ((Cert.ReferenceIdeal.dot_S500000x64_S64x64_S500000x64_1_0_0_1_n_n).lhsIdx_val_of_single rfl y _).symm))
    (fun y idx k => by
      have hN : 0 < 4000 := by decide
      have hk := contrEquiv1_symm_val Cert.KernelIdeal.dot_S4000x64_S64x64_S4000x64_1_0_0_1_n_n 64 rfl rfl k
      have hk' := contrEquiv1_symm_val Cert.ReferenceIdeal.dot_S500000x64_S64x64_S500000x64_1_0_0_1_n_n 64 rfl rfl k
      have h1 : (Cert.KernelIdeal.gather_S4000x64_S500000x1_S500000x64_1_0_n_n_0_1_164).operandIdx y idx = ix2 (rowSel 4000 hN idx (y 0)) (y 1) :=
        rowDims_operandIdx hN _ idx y
      rw [h1]
      funext a
      refine Fin.ext ?_
      match a with
      | ⟨0, _⟩ =>
        exact (((Cert.KernelIdeal.dot_S4000x64_S64x64_S4000x64_1_0_0_1_n_n).rhsIdx_val_of_single rfl _ _).trans hk).trans
          (hk'.symm.trans ((Cert.ReferenceIdeal.dot_S500000x64_S64x64_S500000x64_1_0_0_1_n_n).rhsIdx_val_of_single rfl y _).symm)
      | ⟨1, _⟩ =>
        refine (rhsIdx_val_of_free Cert.KernelIdeal.dot_S4000x64_S64x64_S4000x64_1_0_0_1_n_n 1 (by decide) (by decide) _ _ 1 (by decide)).trans ?_
        exact (rhsIdx_val_of_free Cert.ReferenceIdeal.dot_S500000x64_S64x64_S500000x64_1_0_0_1_n_n 1 (by decide) (by decide) y _ 1 (by decide)).symm)
    x W idx

end Cert.Bridge.Messages

end
-- ==== Proof.TableEq.lean ====
/-
  The two programs compute the same drug table. Relation by relation the messages agree — projecting the table
  and then selecting rows is selecting rows and then projecting them — and everything around the messages
  (the wrapping of negative node numbers, the sums at the target nodes, the sum over relations, the positive
  part, the second layer on top of the first) is the same operations on both sides.
-/
import proofs.«105939_j23287312679606_2_alg».proof.Proof.TableK
import proofs.«105939_j23287312679606_2_alg».proof.Proof.TableR
import proofs.«105939_j23287312679606_2_alg».proof.Proof.Messages

noncomputable section

namespace Cert.Bridge.Tables

open Idealize.ShloMosaic

theorem msg_gg1_eq (x : FVec Ideal (⟨2, ![20000, 128]⟩ : Shape) .f32) (W : FVec Ideal (⟨2, ![128, 64]⟩ : Shape) .f32)
    (src dst : IVec (⟨2, ![1000000, 1]⟩ : Shape) 32) :
    Cert.KernelIdeal.TableV.msg_gg1 x W src dst = Cert.ReferenceIdeal.TableV.msg_gg1 x W src dst := by
  unfold Cert.KernelIdeal.TableV.msg_gg1 Cert.ReferenceIdeal.TableV.msg_gg1
  rw [Cert.Bridge.Messages.comm_gg1]
  rfl

theorem msg_gd1_eq (x : FVec Ideal (⟨2, ![20000, 128]⟩ : Shape) .f32) (W : FVec Ideal (⟨2, ![128, 64]⟩ : Shape) .f32)
    (src dst : IVec (⟨2, ![400000, 1]⟩ : Shape) 32) :
    Cert.KernelIdeal.TableV.msg_gd1 x W src dst = Cert.ReferenceIdeal.TableV.msg_gd1 x W src dst := by
  unfold Cert.KernelIdeal.TableV.msg_gd1 Cert.ReferenceIdeal.TableV.msg_gd1
  rw [Cert.Bridge.Messages.comm_gd1]
  rfl

theorem msg_dd1_eq (x : FVec Ideal (⟨2, ![4000, 128]⟩ : Shape) .f32) (W : FVec Ideal (⟨2, ![128, 64]⟩ : Shape) .f32)
    (src dst : IVec (⟨2, ![500000, 1]⟩ : Shape) 32) :
    Cert.KernelIdeal.TableV.msg_dd1 x W src dst = Cert.ReferenceIdeal.TableV.msg_dd1 x W src dst := by
  unfold Cert.KernelIdeal.TableV.msg_dd1 Cert.ReferenceIdeal.TableV.msg_dd1
  rw [Cert.Bridge.Messages.comm_dd1]
  rfl

theorem msg_gd2_eq (x : FVec Ideal (⟨2, ![20000, 64]⟩ : Shape) .f32) (W : FVec Ideal (⟨2, ![64, 64]⟩ : Shape) .f32)
    (src dst : IVec (⟨2, ![400000, 1]⟩ : Shape) 32) :
    Cert.KernelIdeal.TableV.msg_gd2 x W src dst = Cert.ReferenceIdeal.TableV.msg_gd2 x W src dst := by
  unfold Cert.KernelIdeal.TableV.msg_gd2 Cert.ReferenceIdeal.TableV.msg_gd2
  rw [Cert.Bridge.Messages.comm_gd2]
  rfl

theorem msg_dd2_eq (x : FVec Ideal (⟨2, ![4000, 64]⟩ : Shape) .f32) (W : FVec Ideal (⟨2, ![64, 64]⟩ : Shape) .f32)
    (src dst : IVec (⟨2, ![500000, 1]⟩ : Shape) 32) :
    Cert.KernelIdeal.TableV.msg_dd2 x W src dst = Cert.ReferenceIdeal.TableV.msg_dd2 x W src dst := by
  unfold Cert.KernelIdeal.TableV.msg_dd2 Cert.ReferenceIdeal.TableV.msg_dd2
  rw [Cert.Bridge.Messages.comm_dd2]
  rfl

/-- The drug table the decoders read is the same function of the arguments in both programs. -/
theorem drugTable_eq (x0 : FVec Ideal (⟨2, ![20000, 128]⟩ : Shape) .f32) (x1 : FVec Ideal (⟨2, ![4000, 128]⟩ : Shape) .f32)
    (x2 : IVec (⟨2, ![2, 1000000]⟩ : Shape) 32) (x3 x4 : IVec (⟨1, ![400000]⟩ : Shape) 32)
    (x5 x6 x7 x8 : IVec (⟨2, ![2, 500000]⟩ : Shape) 32)
    (x9 x10 x11 x12 x13 x14 : FVec Ideal (⟨2, ![128, 64]⟩ : Shape) .f32)
    (x16 x17 x18 x19 x20 : FVec Ideal (⟨2, ![64, 64]⟩ : Shape) .f32) :
    Cert.KernelIdeal.TableV.drugTable x0 x1 x2 x3 x4 x5 x6 x7 x8 x9 x10 x11 x12 x13 x14 x16 x17 x18 x19 x20
      = Cert.ReferenceIdeal.TableV.drugTable x0 x1 x2 x3 x4 x5 x6 x7 x8 x9 x10 x11 x12 x13 x14 x16 x17 x18 x19 x20 := by
  unfold Cert.KernelIdeal.TableV.drugTable Cert.ReferenceIdeal.TableV.drugTable Cert.KernelIdeal.TableV.geneTable1 Cert.ReferenceIdeal.TableV.geneTable1 Cert.KernelIdeal.TableV.drugSum1 Cert.ReferenceIdeal.TableV.drugSum1
    Cert.KernelIdeal.TableV.drugSum2 Cert.ReferenceIdeal.TableV.drugSum2
  simp only [msg_gg1_eq, msg_gd1_eq, msg_dd1_eq, msg_gd2_eq, msg_dd2_eq]
  rfl

end Cert.Bridge.Tables

end
-- ==== Proof.RefPieces1.lean ====
/-
  The reference's first layer cut into seven consecutive pieces: one per relation's messages (the
  gene-to-gene messages first, then the relation from genes into drugs, then the four relations among
  drugs, each of these four adding its messages to the running sum), and last the two positive parts.
  Running the layer is running the pieces in order, and a piece leaves alone every buffer it does not
  write.
-/
import proofs.«105939_j23287312679606_2_alg».proof.Proof.RefOps
import Idealize.ShloMosaic.Lib.StableHlo.Run

set_option maxRecDepth 16384

noncomputable section

namespace Cert.ReferenceIdeal.RunV.L1

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Operations 0 to 17 of the layer. -/
abbrev P0 : List (HloOp τ sig (Elt F)) :=
  ( unary main_arg2 main_v0 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v0 main_v1 rfl shapeCasts_S1x1000000_S1000000
  :: nullary main_c (constantI S_ 32 0#32)
  :: unary main_c main_v2 (broadcastInDim S1000000 ![] bcast_S_S1000000 : (⟨S_, .i32⟩ : BufTy).Contents (Elt F) → (⟨S1000000, .i32⟩ : BufTy).Contents (Elt F))
  :: binary main_v1 main_v2 main_v3 (cmpi .slt : (⟨S1000000, .i32⟩ : BufTy).Contents (Elt F) → (⟨S1000000, .i32⟩ : BufTy).Contents (Elt F) → (⟨S1000000, .i1⟩ : BufTy).Contents (Elt F))
  :: nullary main_c_0 (constantI S_ 32 20000#32)
  :: unary main_c_0 main_v4 (broadcastInDim S1000000 ![] bcast_S_S1000000 : (⟨S_, .i32⟩ : BufTy).Contents (Elt F) → (⟨S1000000, .i32⟩ : BufTy).Contents (Elt F))
  :: binary main_v1 main_v4 main_v5 (addi : (⟨S1000000, .i32⟩ : BufTy).Contents (Elt F) → (⟨S1000000, .i32⟩ : BufTy).Contents (Elt F) → (⟨S1000000, .i32⟩ : BufTy).Contents (Elt F))
  :: ternary main_v3 main_v5 main_v1 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v6 main_v7 (broadcastInDim S1000000x1 ![0] bcast_S1000000_S1000000x1_0 : (⟨S1000000, .i32⟩ : BufTy).Contents (Elt F) → (⟨S1000000x1, .i32⟩ : BufTy).Contents (Elt F))
  :: binary main_arg0 main_v7 main_v8 ((fun x i => Host.gather gather_S20000x128_S1000000x1_S1000000x128_1_0_n_n_0_1_1128 x i) : (⟨S20000x128, .f32⟩ : BufTy).Contents (Elt F) → (⟨S1000000x1, .i32⟩ : BufTy).Contents (Elt F) → (⟨S1000000x128, .f32⟩ : BufTy).Contents (Elt F))
  :: binary main_v8 main_arg9 main_v9 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F))
  :: unary main_arg2 main_v10 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v10 main_v11 rfl shapeCasts_S1x1000000_S1000000
  :: nullary main_cst (constant S_ .f32 0x00000000#32)
  :: unary main_cst main_v12 (broadcastInDim S20000x64 ![] bcast_S_S20000x64 : (⟨S_, .f32⟩ : BufTy).Contents (Elt F) → (⟨S20000x64, .f32⟩ : BufTy).Contents (Elt F))
  :: unary main_v11 main_v13 (broadcastInDim S1000000x1 ![0] bcast_S1000000_S1000000x1_0 : (⟨S1000000, .i32⟩ : BufTy).Contents (Elt F) → (⟨S1000000x1, .i32⟩ : BufTy).Contents (Elt F))
  :: ternary main_v12 main_v13 main_v9 main_v14 ((fun x i u => Host.scatterAdd scatter_S20000x64_S1000000x1_S1000000x64_1_0_0_1 x i u) : (⟨S20000x64, .f32⟩ : BufTy).Contents (Elt F) → (⟨S1000000x1, .i32⟩ : BufTy).Contents (Elt F) → (⟨S1000000x64, .f32⟩ : BufTy).Contents (Elt F) → (⟨S20000x64, .f32⟩ : BufTy).Contents (Elt F))
  :: [] )

/-- Operations 18 to 31 of the layer. -/
abbrev P1 : List (HloOp τ sig (Elt F)) :=
  ( nullary main_c_1 (constantI S_ 32 0#32)
  :: unary main_c_1 main_v15 (broadcastInDim S400000 ![] bcast_S_S400000 : (⟨S_, .i32⟩ : BufTy).Contents (Elt F) → (⟨S400000, .i32⟩ : BufTy).Contents (Elt F))
  :: binary main_arg3 main_v15 main_v16 (cmpi .slt : (⟨S400000, .i32⟩ : BufTy).Contents (Elt F) → (⟨S400000, .i32⟩ : BufTy).Contents (Elt F) → (⟨S400000, .i1⟩ : BufTy).Contents (Elt F))
  :: nullary main_c_2 (constantI S_ 32 20000#32)
  :: unary main_c_2 main_v17 (broadcastInDim S400000 ![] bcast_S_S400000 : (⟨S_, .i32⟩ : BufTy).Contents (Elt F) → (⟨S400000, .i32⟩ : BufTy).Contents (Elt F))
  :: binary main_arg3 main_v17 main_v18 (addi : (⟨S400000, .i32⟩ : BufTy).Contents (Elt F) → (⟨S400000, .i32⟩ : BufTy).Contents (Elt F) → (⟨S400000, .i32⟩ : BufTy).Contents (Elt F))
  :: ternary main_v16 main_v18 main_arg3 main_v19 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
  :: unary main_v19 main_v20 (broadcastInDim S400000x1 ![0] bcast_S400000_S400000x1_0 : (⟨S400000, .i32⟩ : BufTy).Contents (Elt F) → (⟨S400000x1, .i32⟩ : BufTy).Contents (Elt F))
  :: binary main_arg0 main_v20 main_v21 ((fun x i => Host.gather gather_S20000x128_S400000x1_S400000x128_1_0_n_n_0_1_1128 x i) : (⟨S20000x128, .f32⟩ : BufTy).Contents (Elt F) → (⟨S400000x1, .i32⟩ : BufTy).Contents (Elt F) → (⟨S400000x128, .f32⟩ : BufTy).Contents (Elt F))
  :: binary main_v21 main_arg10 main_v22 ((fun l r => Host.dotGeneral dot_S400000x128_S128x64_S400000x64_1_0_0_1_n_n none l r) : (⟨S400000x128, .f32⟩ : BufTy).Contents (Elt F) → (⟨S128x64, .f32⟩ : BufTy).Contents (Elt F) → (⟨S400000x64, .f32⟩ : BufTy).Contents (Elt F))
  :: nullary main_cst_3 (constant S_ .f32 0x00000000#32)
  :: unary main_cst_3 main_v23 (broadcastInDim S4000x64 ![] bcast_S_S4000x64 : (⟨S_, .f32⟩ : BufTy).Contents (Elt F) → (⟨S4000x64, .f32⟩ : BufTy).Contents (Elt F))
  :: unary main_arg4 main_v24 (broadcastInDim S400000x1 ![0] bcast_S400000_S400000x1_0 : (⟨S400000, .i32⟩ : BufTy).Contents (Elt F) → (⟨S400000x1, .i32⟩ : BufTy).Contents (Elt F))
  :: ternary main_v23 main_v24 main_v22 main_v25 ((fun x i u => Host.scatterAdd scatter_S4000x64_S400000x1_S400000x64_1_0_0_1 x i u) : (⟨S4000x64, .f32⟩ : BufTy).Contents (Elt F) → (⟨S400000x1, .i32⟩ : BufTy).Contents (Elt F) → (⟨S400000x64, .f32⟩ : BufTy).Contents (Elt F) → (⟨S4000x64, .f32⟩ : BufTy).Contents (Elt F))
  :: [] )

/-- Operations 32 to 50 of the layer. -/
abbrev P2 : List (HloOp τ sig (Elt F)) :=
  ( unary main_arg5 main_v26 ((extractStridedSlice S1x500000 ![0, 0] · slices_S2x500000_S1x500000_0_0) : (⟨S2x500000, .i32⟩ : BufTy).Contents (Elt F) → (⟨S1x500000, .i32⟩ : BufTy).Contents (Elt F))
  :: reshape main_v26 main_v27 rfl shapeCasts_S1x500000_S500000
  :: nullary main_c_4 (constantI S_ 32 0#32)
  :: unary main_c_4 main_v28 (broadcastInDim S500000 ![] bcast_S_S500000 : (⟨S_, .i32⟩ : BufTy).Contents (Elt F) → (⟨S500000, .i32⟩ : BufTy).Contents (Elt F))
  :: binary main_v27 main_v28 main_v29 (cmpi .slt : (⟨S500000, .i32⟩ : BufTy).Contents (Elt F) → (⟨S500000, .i32⟩ : BufTy).Contents (Elt F) → (⟨S500000, .i1⟩ : BufTy).Contents (Elt F))
  :: nullary main_c_5 (constantI S_ 32 4000#32)
  :: unary main_c_5 main_v30 (broadcastInDim S500000 ![] bcast_S_S500000 : (⟨S_, .i32⟩ : BufTy).Contents (Elt F) → (⟨S500000, .i32⟩ : BufTy).Contents (Elt F))
  :: binary main_v27 main_v30 main_v31 (addi : (⟨S500000, .i32⟩ : BufTy).Contents (Elt F) → (⟨S500000, .i32⟩ : BufTy).Contents (Elt F) → (⟨S500000, .i32⟩ : BufTy).Contents (Elt F))
  :: ternary main_v29 main_v31 main_v27 main_v32 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: unary main_v32 main_v33 (broadcastInDim S500000x1 ![0] bcast_S500000_S500000x1_0 : (⟨S500000, .i32⟩ : BufTy).Contents (Elt F) → (⟨S500000x1, .i32⟩ : BufTy).Contents (Elt F))
  :: binary main_arg1 main_v33 main_v34 ((fun x i => Host.gather gather_S4000x128_S500000x1_S500000x128_1_0_n_n_0_1_1128 x i) : (⟨S4000x128, .f32⟩ : BufTy).Contents (Elt F) → (⟨S500000x1, .i32⟩ : BufTy).Contents (Elt F) → (⟨S500000x128, .f32⟩ : BufTy).Contents (Elt F))
  :: binary main_v34 main_arg11 main_v35 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F))
  :: unary main_arg5 main_v36 ((extractStridedSlice S1x500000 ![1, 0] · slices_S2x500000_S1x500000_1_0) : (⟨S2x500000, .i32⟩ : BufTy).Contents (Elt F) → (⟨S1x500000, .i32⟩ : BufTy).Contents (Elt F))
  :: reshape main_v36 main_v37 rfl shapeCasts_S1x500000_S500000
  :: nullary main_cst_6 (constant S_ .f32 0x00000000#32)
  :: unary main_cst_6 main_v38 (broadcastInDim S4000x64 ![] bcast_S_S4000x64 : (⟨S_, .f32⟩ : BufTy).Contents (Elt F) → (⟨S4000x64, .f32⟩ : BufTy).Contents (Elt F))
  :: unary main_v37 main_v39 (broadcastInDim S500000x1 ![0] bcast_S500000_S500000x1_0 : (⟨S500000, .i32⟩ : BufTy).Contents (Elt F) → (⟨S500000x1, .i32⟩ : BufTy).Contents (Elt F))
  :: ternary main_v38 main_v39 main_v35 main_v40 ((fun x i u => Host.scatterAdd scatter_S4000x64_S500000x1_S500000x64_1_0_0_1 x i u) : (⟨S4000x64, .f32⟩ : BufTy).Contents (Elt F) → (⟨S500000x1, .i32⟩ : BufTy).Contents (Elt F) → (⟨S500000x64, .f32⟩ : BufTy).Contents (Elt F) → (⟨S4000x64, .f32⟩ : BufTy).Contents (Elt F))
  :: binary main_v25 main_v40 main_v41 (addf : (⟨S4000x64, .f32⟩ : BufTy).Contents (Elt F) → (⟨S4000x64, .f32⟩ : BufTy).Contents (Elt F) → (⟨S4000x64, .f32⟩ : BufTy).Contents (Elt F))
  :: [] )

/-- Operations 51 to 69 of the layer. -/
abbrev P3 : List (HloOp τ sig (Elt F)) :=
  ( unary main_arg6 main_v42 ((extractStridedSlice S1x500000 ![0, 0] · slices_S2x500000_S1x500000_0_0) : (⟨S2x500000, .i32⟩ : BufTy).Contents (Elt F) → (⟨S1x500000, .i32⟩ : BufTy).Contents (Elt F))
  :: reshape main_v42 main_v43 rfl shapeCasts_S1x500000_S500000
  :: nullary main_c_7 (constantI S_ 32 0#32)
  :: unary main_c_7 main_v44 (broadcastInDim S500000 ![] bcast_S_S500000 : (⟨S_, .i32⟩ : BufTy).Contents (Elt F) → (⟨S500000, .i32⟩ : BufTy).Contents (Elt F))
  :: binary main_v43 main_v44 main_v45 (cmpi .slt : (⟨S500000, .i32⟩ : BufTy).Contents (Elt F) → (⟨S500000, .i32⟩ : BufTy).Contents (Elt F) → (⟨S500000, .i1⟩ : BufTy).Contents (Elt F))
  :: nullary main_c_8 (constantI S_ 32 4000#32)
  :: unary main_c_8 main_v46 (broadcastInDim S500000 ![] bcast_S_S500000 : (⟨S_, .i32⟩ : BufTy).Contents (Elt F) → (⟨S500000, .i32⟩ : BufTy).Contents (Elt F))
  :: binary main_v43 main_v46 main_v47 (addi : (⟨S500000, .i32⟩ : BufTy).Contents (Elt F) → (⟨S500000, .i32⟩ : BufTy).Contents (Elt F) → (⟨S500000, .i32⟩ : BufTy).Contents (Elt F))
  :: ternary main_v45 main_v47 main_v43 main_v48 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: unary main_v48 main_v49 (broadcastInDim S500000x1 ![0] bcast_S500000_S500000x1_0 : (⟨S500000, .i32⟩ : BufTy).Contents (Elt F) → (⟨S500000x1, .i32⟩ : BufTy).Contents (Elt F))
  :: binary main_arg1 main_v49 main_v50 ((fun x i => Host.gather gather_S4000x128_S500000x1_S500000x128_1_0_n_n_0_1_1128 x i) : (⟨S4000x128, .f32⟩ : BufTy).Contents (Elt F) → (⟨S500000x1, .i32⟩ : BufTy).Contents (Elt F) → (⟨S500000x128, .f32⟩ : BufTy).Contents (Elt F))
  :: binary main_v50 main_arg12 main_v51 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F))
  :: unary main_arg6 main_v52 ((extractStridedSlice S1x500000 ![1, 0] · slices_S2x500000_S1x500000_1_0) : (⟨S2x500000, .i32⟩ : BufTy).Contents (Elt F) → (⟨S1x500000, .i32⟩ : BufTy).Contents (Elt F))
  :: reshape main_v52 main_v53 rfl shapeCasts_S1x500000_S500000
  :: nullary main_cst_9 (constant S_ .f32 0x00000000#32)
  :: unary main_cst_9 main_v54 (broadcastInDim S4000x64 ![] bcast_S_S4000x64 : (⟨S_, .f32⟩ : BufTy).Contents (Elt F) → (⟨S4000x64, .f32⟩ : BufTy).Contents (Elt F))
  :: unary main_v53 main_v55 (broadcastInDim S500000x1 ![0] bcast_S500000_S500000x1_0 : (⟨S500000, .i32⟩ : BufTy).Contents (Elt F) → (⟨S500000x1, .i32⟩ : BufTy).Contents (Elt F))
  :: ternary main_v54 main_v55 main_v51 main_v56 ((fun x i u => Host.scatterAdd scatter_S4000x64_S500000x1_S500000x64_1_0_0_1 x i u) : (⟨S4000x64, .f32⟩ : BufTy).Contents (Elt F) → (⟨S500000x1, .i32⟩ : BufTy).Contents (Elt F) → (⟨S500000x64, .f32⟩ : BufTy).Contents (Elt F) → (⟨S4000x64, .f32⟩ : BufTy).Contents (Elt F))
  :: binary main_v41 main_v56 main_v57 (addf : (⟨S4000x64, .f32⟩ : BufTy).Contents (Elt F) → (⟨S4000x64, .f32⟩ : BufTy).Contents (Elt F) → (⟨S4000x64, .f32⟩ : BufTy).Contents (Elt F))
  :: [] )

/-- Operations 70 to 88 of the layer. -/
abbrev P4 : List (HloOp τ sig (Elt F)) :=
  ( unary main_arg7 main_v58 ((extractStridedSlice S1x500000 ![0, 0] · slices_S2x500000_S1x500000_0_0) : (⟨S2x500000, .i32⟩ : BufTy).Contents (Elt F) → (⟨S1x500000, .i32⟩ : BufTy).Contents (Elt F))
  :: reshape main_v58 main_v59 rfl shapeCasts_S1x500000_S500000
  :: nullary main_c_10 (constantI S_ 32 0#32)
  :: unary main_c_10 main_v60 (broadcastInDim S500000 ![] bcast_S_S500000 : (⟨S_, .i32⟩ : BufTy).Contents (Elt F) → (⟨S500000, .i32⟩ : BufTy).Contents (Elt F))
  :: binary main_v59 main_v60 main_v61 (cmpi .slt : (⟨S500000, .i32⟩ : BufTy).Contents (Elt F) → (⟨S500000, .i32⟩ : BufTy).Contents (Elt F) → (⟨S500000, .i1⟩ : BufTy).Contents (Elt F))
  :: nullary main_c_11 (constantI S_ 32 4000#32)
  :: unary main_c_11 main_v62 (broadcastInDim S500000 ![] bcast_S_S500000 : (⟨S_, .i32⟩ : BufTy).Contents (Elt F) → (⟨S500000, .i32⟩ : BufTy).Contents (Elt F))
  :: binary main_v59 main_v62 main_v63 (addi : (⟨S500000, .i32⟩ : BufTy).Contents (Elt F) → (⟨S500000, .i32⟩ : BufTy).Contents (Elt F) → (⟨S500000, .i32⟩ : BufTy).Contents (Elt F))
  :: ternary main_v61 main_v63 main_v59 main_v64 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: unary main_v64 main_v65 (broadcastInDim S500000x1 ![0] bcast_S500000_S500000x1_0 : (⟨S500000, .i32⟩ : BufTy).Contents (Elt F) → (⟨S500000x1, .i32⟩ : BufTy).Contents (Elt F))
  :: binary main_arg1 main_v65 main_v66 ((fun x i => Host.gather gather_S4000x128_S500000x1_S500000x128_1_0_n_n_0_1_1128 x i) : (⟨S4000x128, .f32⟩ : BufTy).Contents (Elt F) → (⟨S500000x1, .i32⟩ : BufTy).Contents (Elt F) → (⟨S500000x128, .f32⟩ : BufTy).Contents (Elt F))
  :: binary main_v66 main_arg13 main_v67 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F))
  :: unary main_arg7 main_v68 ((extractStridedSlice S1x500000 ![1, 0] · slices_S2x500000_S1x500000_1_0) : (⟨S2x500000, .i32⟩ : BufTy).Contents (Elt F) → (⟨S1x500000, .i32⟩ : BufTy).Contents (Elt F))
  :: reshape main_v68 main_v69 rfl shapeCasts_S1x500000_S500000
  :: nullary main_cst_12 (constant S_ .f32 0x00000000#32)
  :: unary main_cst_12 main_v70 (broadcastInDim S4000x64 ![] bcast_S_S4000x64 : (⟨S_, .f32⟩ : BufTy).Contents (Elt F) → (⟨S4000x64, .f32⟩ : BufTy).Contents (Elt F))
  :: unary main_v69 main_v71 (broadcastInDim S500000x1 ![0] bcast_S500000_S500000x1_0 : (⟨S500000, .i32⟩ : BufTy).Contents (Elt F) → (⟨S500000x1, .i32⟩ : BufTy).Contents (Elt F))
  :: ternary main_v70 main_v71 main_v67 main_v72 ((fun x i u => Host.scatterAdd scatter_S4000x64_S500000x1_S500000x64_1_0_0_1 x i u) : (⟨S4000x64, .f32⟩ : BufTy).Contents (Elt F) → (⟨S500000x1, .i32⟩ : BufTy).Contents (Elt F) → (⟨S500000x64, .f32⟩ : BufTy).Contents (Elt F) → (⟨S4000x64, .f32⟩ : BufTy).Contents (Elt F))
  :: binary main_v57 main_v72 main_v73 (addf : (⟨S4000x64, .f32⟩ : BufTy).Contents (Elt F) → (⟨S4000x64, .f32⟩ : BufTy).Contents (Elt F) → (⟨S4000x64, .f32⟩ : BufTy).Contents (Elt F))
  :: [] )

/-- Operations 89 to 107 of the layer. -/
abbrev P5 : List (HloOp τ sig (Elt F)) :=
  ( unary main_arg8 main_v74 ((extractStridedSlice S1x500000 ![0, 0] · slices_S2x500000_S1x500000_0_0) : (⟨S2x500000, .i32⟩ : BufTy).Contents (Elt F) → (⟨S1x500000, .i32⟩ : BufTy).Contents (Elt F))
  :: reshape main_v74 main_v75 rfl shapeCasts_S1x500000_S500000
  :: nullary main_c_13 (constantI S_ 32 0#32)
  :: unary main_c_13 main_v76 (broadcastInDim S500000 ![] bcast_S_S500000 : (⟨S_, .i32⟩ : BufTy).Contents (Elt F) → (⟨S500000, .i32⟩ : BufTy).Contents (Elt F))
  :: binary main_v75 main_v76 main_v77 (cmpi .slt : (⟨S500000, .i32⟩ : BufTy).Contents (Elt F) → (⟨S500000, .i32⟩ : BufTy).Contents (Elt F) → (⟨S500000, .i1⟩ : BufTy).Contents (Elt F))
  :: nullary main_c_14 (constantI S_ 32 4000#32)
  :: unary main_c_14 main_v78 (broadcastInDim S500000 ![] bcast_S_S500000 : (⟨S_, .i32⟩ : BufTy).Contents (Elt F) → (⟨S500000, .i32⟩ : BufTy).Contents (Elt F))
  :: binary main_v75 main_v78 main_v79 (addi : (⟨S500000, .i32⟩ : BufTy).Contents (Elt F) → (⟨S500000, .i32⟩ : BufTy).Contents (Elt F) → (⟨S500000, .i32⟩ : BufTy).Contents (Elt F))
  :: ternary main_v77 main_v79 main_v75 main_v80 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: unary main_v80 main_v81 (broadcastInDim S500000x1 ![0] bcast_S500000_S500000x1_0 : (⟨S500000, .i32⟩ : BufTy).Contents (Elt F) → (⟨S500000x1, .i32⟩ : BufTy).Contents (Elt F))
  :: binary main_arg1 main_v81 main_v82 ((fun x i => Host.gather gather_S4000x128_S500000x1_S500000x128_1_0_n_n_0_1_1128 x i) : (⟨S4000x128, .f32⟩ : BufTy).Contents (Elt F) → (⟨S500000x1, .i32⟩ : BufTy).Contents (Elt F) → (⟨S500000x128, .f32⟩ : BufTy).Contents (Elt F))
  :: binary main_v82 main_arg14 main_v83 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F))
  :: unary main_arg8 main_v84 ((extractStridedSlice S1x500000 ![1, 0] · slices_S2x500000_S1x500000_1_0) : (⟨S2x500000, .i32⟩ : BufTy).Contents (Elt F) → (⟨S1x500000, .i32⟩ : BufTy).Contents (Elt F))
  :: reshape main_v84 main_v85 rfl shapeCasts_S1x500000_S500000
  :: nullary main_cst_15 (constant S_ .f32 0x00000000#32)
  :: unary main_cst_15 main_v86 (broadcastInDim S4000x64 ![] bcast_S_S4000x64 : (⟨S_, .f32⟩ : BufTy).Contents (Elt F) → (⟨S4000x64, .f32⟩ : BufTy).Contents (Elt F))
  :: unary main_v85 main_v87 (broadcastInDim S500000x1 ![0] bcast_S500000_S500000x1_0 : (⟨S500000, .i32⟩ : BufTy).Contents (Elt F) → (⟨S500000x1, .i32⟩ : BufTy).Contents (Elt F))
  :: ternary main_v86 main_v87 main_v83 main_v88 ((fun x i u => Host.scatterAdd scatter_S4000x64_S500000x1_S500000x64_1_0_0_1 x i u) : (⟨S4000x64, .f32⟩ : BufTy).Contents (Elt F) → (⟨S500000x1, .i32⟩ : BufTy).Contents (Elt F) → (⟨S500000x64, .f32⟩ : BufTy).Contents (Elt F) → (⟨S4000x64, .f32⟩ : BufTy).Contents (Elt F))
  :: binary main_v73 main_v88 main_v89 (addf : (⟨S4000x64, .f32⟩ : BufTy).Contents (Elt F) → (⟨S4000x64, .f32⟩ : BufTy).Contents (Elt F) → (⟨S4000x64, .f32⟩ : BufTy).Contents (Elt F))
  :: [] )

/-- Operations 108 to 113 of the layer. -/
abbrev P6 : List (HloOp τ sig (Elt F)) :=
  ( TRef.nullary (TRef.of (T := ⟨S_, .f32⟩) main_call0_cst) (constant S_ .f32 0x00000000#32)
  :: TRef.unary (TRef.of (T := ⟨S_, .f32⟩) main_call0_cst) (TRef.of (T := ⟨S20000x64, .f32⟩) main_call0_v0) (broadcastInDim S20000x64 ![] bcast_S_S20000x64)
  :: TRef.binary (TRef.of (T := ⟨S20000x64, .f32⟩) main_v14) (TRef.of (T := ⟨S20000x64, .f32⟩) main_call0_v0) (TRef.of (T := ⟨S20000x64, .f32⟩) main_v90) maximumf
  :: TRef.nullary (TRef.of (T := ⟨S_, .f32⟩) main_call1_cst) (constant S_ .f32 0x00000000#32)
  :: TRef.unary (TRef.of (T := ⟨S_, .f32⟩) main_call1_cst) (TRef.of (T := ⟨S4000x64, .f32⟩) main_call1_v0) (broadcastInDim S4000x64 ![] bcast_S_S4000x64)
  :: TRef.binary (TRef.of (T := ⟨S4000x64, .f32⟩) main_v89) (TRef.of (T := ⟨S4000x64, .f32⟩) main_call1_v0) (TRef.of (T := ⟨S4000x64, .f32⟩) main_v91) maximumf
  :: [] )

set_option maxHeartbeats 4000000 in
/-- The layer is its pieces in order. -/
theorem cut : (layer1 : List (HloOp τ sig (Elt F))) = P0 ++ (P1 ++ (P2 ++ (P3 ++ (P4 ++ (P5 ++ P6))))) := rfl

/-- Running two lines one after the other is running their concatenation. -/
theorem app {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Running the layer is running its pieces in order. -/
theorem run (V : Valuation τ sig (Elt F)) :
    after (layer1 (F := F)) V = after P6 (after P5 (after P4 (after P3 (after P2 (after P1 (after P0 V)))))) := by
  rw [cut, app, app, app, app, app, app]

/-! ## A piece leaves alone what it does not write -/

/-- The buffers piece 0 writes, in order. -/
abbrev W0 : List (Ref sig .tc) := [main_v0, main_v1, main_c, main_v2, main_v3, main_c_0, main_v4, main_v5, main_v6, main_v7, main_v8, main_v9, main_v10, main_v11, main_cst, main_v12, main_v13, main_v14]
theorem skip0 (Z : Valuation τ sig (Elt F)) (b : Ref sig .tc) (hb : b ∉ W0) :
    after (P0 (F := F)) Z (Proc.devRef .tc b) = Z (Proc.devRef .tc b) :=
  after_of_writes_sub (W := W0) P0 Z (by
    simp only [P0, W0, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 1 writes, in order. -/
abbrev W1 : List (Ref sig .tc) := [main_c_1, main_v15, main_v16, main_c_2, main_v17, main_v18, main_v19, main_v20, main_v21, main_v22, main_cst_3, main_v23, main_v24, main_v25]
theorem skip1 (Z : Valuation τ sig (Elt F)) (b : Ref sig .tc) (hb : b ∉ W1) :
    after (P1 (F := F)) Z (Proc.devRef .tc b) = Z (Proc.devRef .tc b) :=
  after_of_writes_sub (W := W1) P1 Z (by
    simp only [P1, W1, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 2 writes, in order. -/
abbrev W2 : List (Ref sig .tc) := [main_v26, main_v27, main_c_4, main_v28, main_v29, main_c_5, main_v30, main_v31, main_v32, main_v33, main_v34, main_v35, main_v36, main_v37, main_cst_6, main_v38, main_v39, main_v40, main_v41]
theorem skip2 (Z : Valuation τ sig (Elt F)) (b : Ref sig .tc) (hb : b ∉ W2) :
    after (P2 (F := F)) Z (Proc.devRef .tc b) = Z (Proc.devRef .tc b) :=
  after_of_writes_sub (W := W2) P2 Z (by
    simp only [P2, W2, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 3 writes, in order. -/
abbrev W3 : List (Ref sig .tc) := [main_v42, main_v43, main_c_7, main_v44, main_v45, main_c_8, main_v46, main_v47, main_v48, main_v49, main_v50, main_v51, main_v52, main_v53, main_cst_9, main_v54, main_v55, main_v56, main_v57]
theorem skip3 (Z : Valuation τ sig (Elt F)) (b : Ref sig .tc) (hb : b ∉ W3) :
    after (P3 (F := F)) Z (Proc.devRef .tc b) = Z (Proc.devRef .tc b) :=
  after_of_writes_sub (W := W3) P3 Z (by
    simp only [P3, W3, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 4 writes, in order. -/
abbrev W4 : List (Ref sig .tc) := [main_v58, main_v59, main_c_10, main_v60, main_v61, main_c_11, main_v62, main_v63, main_v64, main_v65, main_v66, main_v67, main_v68, main_v69, main_cst_12, main_v70, main_v71, main_v72, main_v73]
theorem skip4 (Z : Valuation τ sig (Elt F)) (b : Ref sig .tc) (hb : b ∉ W4) :
    after (P4 (F := F)) Z (Proc.devRef .tc b) = Z (Proc.devRef .tc b) :=
  after_of_writes_sub (W := W4) P4 Z (by
    simp only [P4, W4, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 5 writes, in order. -/
abbrev W5 : List (Ref sig .tc) := [main_v74, main_v75, main_c_13, main_v76, main_v77, main_c_14, main_v78, main_v79, main_v80, main_v81, main_v82, main_v83, main_v84, main_v85, main_cst_15, main_v86, main_v87, main_v88, main_v89]
theorem skip5 (Z : Valuation τ sig (Elt F)) (b : Ref sig .tc) (hb : b ∉ W5) :
    after (P5 (F := F)) Z (Proc.devRef .tc b) = Z (Proc.devRef .tc b) :=
  after_of_writes_sub (W := W5) P5 Z (by
    simp only [P5, W5, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 6 writes, in order. -/
abbrev W6 : List (Ref sig .tc) := [main_call0_cst, main_call0_v0, main_v90, main_call1_cst, main_call1_v0, main_v91]
theorem skip6 (Z : Valuation τ sig (Elt F)) (b : Ref sig .tc) (hb : b ∉ W6) :
    after (P6 (F := F)) Z (Proc.devRef .tc b) = Z (Proc.devRef .tc b) :=
  after_of_writes_sub (W := W6) P6 Z (by
    simp only [P6, W6, List.Forall, nullary_writes, unary_writes, binary_writes, ternary_writes, quaternary_writes, reshape_writes, binaryIndexed_writes, Finset.singleton_subset_iff, List.mem_toFinset]
    repeat' apply And.intro
    all_goals exact List.mem_map_of_mem (by decide)) hb

end Cert.ReferenceIdeal.RunV.L1

end
-- ==== Proof.RefLayer1.lean ====
/-
  The reference's first layer, read from any starting contents: operations 0 to 113 leave the first layer's gene table and
  drug table in their buffers, each one function of the arguments the layer reads.

  The layer is read piece by piece: each relation's piece leaves its messages (added to the running sum of the
  relations before it) in its last buffer, a function of the argument arrays it reads and of the running sum;
  the pieces before it write none of those arrays, so the running sum after each piece is a function of the
  starting contents at the argument arrays alone.  The last piece takes the two positive parts.
-/
import proofs.«105939_j23287312679606_2_alg».proof.Proof.RefPieces1
import proofs.«105939_j23287312679606_2_alg».proof.Proof.TableR
import Idealize.ShloMosaic.Lib.StableHlo.Run

set_option maxRecDepth 16384

noncomputable section

namespace Cert.ReferenceIdeal.RunV

open Cert.ReferenceIdeal Cert.ReferenceIdeal.Gen Cert.ReferenceIdeal.ValueP
open Idealize.ShloMosaic Idealize.ShloMosaic.TcCoe Idealize.SL.Sem Idealize.ShloMosaic.StableHlo

namespace L1

/-! ## Each piece at its last buffer, from any contents -/

/-- Piece 0: the gene-to-gene messages. -/
theorem r0 (Z : Valuation τ sig (Elt Ideal)) :
    after (P0 (F := Ideal)) Z (Proc.devRef .tc main_v14)
      = TableV.msg_gg1 (Z (Proc.devRef .tc main_arg0)) (Z (Proc.devRef .tc main_arg9)) (TableV.wrap_20000_1000000 (TableV.edgeRow_1000000_0 (Z (Proc.devRef .tc main_arg2)))) (TableV.col_1000000 (TableV.edgeRow_1000000_1 (Z (Proc.devRef .tc main_arg2)))) := by
  dsimp only [P0]
  after_results_simp <;> rfl

/-- Piece 1: the messages from genes into drugs. -/
theorem r1 (Z : Valuation τ sig (Elt Ideal)) :
    after (P1 (F := Ideal)) Z (Proc.devRef .tc main_v25)
      = TableV.msg_gd1 (Z (Proc.devRef .tc main_arg0)) (Z (Proc.devRef .tc main_arg10)) (TableV.wrap_20000_400000 (Z (Proc.devRef .tc main_arg3))) (TableV.col_400000 (Z (Proc.devRef .tc main_arg4))) := by
  dsimp only [P1]
  after_results_simp <;> rfl

/-- Piece 2: a relation among drugs, its messages added to the running sum. -/
theorem r2 (Z : Valuation τ sig (Elt Ideal)) :
    after (P2 (F := Ideal)) Z (Proc.devRef .tc main_v41)
      = addf (F := Ideal) (Z (Proc.devRef .tc main_v25)) (TableV.msg_dd1 (Z (Proc.devRef .tc main_arg1)) (Z (Proc.devRef .tc main_arg11)) (TableV.wrap_4000_500000 (TableV.edgeRow_500000_0 (Z (Proc.devRef .tc main_arg5)))) (TableV.col_500000 (TableV.edgeRow_500000_1 (Z (Proc.devRef .tc main_arg5))))) := by
  dsimp only [P2]
  after_results_simp <;> rfl

/-- Piece 3: a relation among drugs, its messages added to the running sum. -/
theorem r3 (Z : Valuation τ sig (Elt Ideal)) :
    after (P3 (F := Ideal)) Z (Proc.devRef .tc main_v57)
      = addf (F := Ideal) (Z (Proc.devRef .tc main_v41)) (TableV.msg_dd1 (Z (Proc.devRef .tc main_arg1)) (Z (Proc.devRef .tc main_arg12)) (TableV.wrap_4000_500000 (TableV.edgeRow_500000_0 (Z (Proc.devRef .tc main_arg6)))) (TableV.col_500000 (TableV.edgeRow_500000_1 (Z (Proc.devRef .tc main_arg6))))) := by
  dsimp only [P3]
  after_results_simp <;> rfl

/-- Piece 4: a relation among drugs, its messages added to the running sum. -/
theorem r4 (Z : Valuation τ sig (Elt Ideal)) :
    after (P4 (F := Ideal)) Z (Proc.devRef .tc main_v73)
      = addf (F := Ideal) (Z (Proc.devRef .tc main_v57)) (TableV.msg_dd1 (Z (Proc.devRef .tc main_arg1)) (Z (Proc.devRef .tc main_arg13)) (TableV.wrap_4000_500000 (TableV.edgeRow_500000_0 (Z (Proc.devRef .tc main_arg7)))) (TableV.col_500000 (TableV.edgeRow_500000_1 (Z (Proc.devRef .tc main_arg7))))) := by
  dsimp only [P4]
  after_results_simp <;> rfl

/-- Piece 5: a relation among drugs, its messages added to the running sum. -/
theorem r5 (Z : Valuation τ sig (Elt Ideal)) :
    after (P5 (F := Ideal)) Z (Proc.devRef .tc main_v89)
      = addf (F := Ideal) (Z (Proc.devRef .tc main_v73)) (TableV.msg_dd1 (Z (Proc.devRef .tc main_arg1)) (Z (Proc.devRef .tc main_arg14)) (TableV.wrap_4000_500000 (TableV.edgeRow_500000_0 (Z (Proc.devRef .tc main_arg8)))) (TableV.col_500000 (TableV.edgeRow_500000_1 (Z (Proc.devRef .tc main_arg8))))) := by
  dsimp only [P5]
  after_results_simp <;> rfl

/-- Piece 6 at `main_v90`: the positive part of `main_v14`. -/
theorem r6_main_v90 (Z : Valuation τ sig (Elt Ideal)) :
    after (P6 (F := Ideal)) Z (Proc.devRef .tc main_v90)
      = TableV.relu_20000 (Z (Proc.devRef .tc main_v14)) := by
  dsimp only [P6]
  after_results_simp <;> rfl

/-- Piece 6 at `main_v91`: the positive part of `main_v89`. -/
theorem r6_main_v91 (Z : Valuation τ sig (Elt Ideal)) :
    after (P6 (F := Ideal)) Z (Proc.devRef .tc main_v91)
      = TableV.relu_4000 (Z (Proc.devRef .tc main_v89)) := by
  dsimp only [P6]
  after_results_simp <;> rfl

/-! ## A buffer the first pieces do not write, after them -/
theorem pre1 (Z : Valuation τ sig (Elt Ideal)) (b : Ref sig .tc) (h0 : b ∉ W0) :
    after (P0 (F := Ideal)) (Z) (Proc.devRef .tc b) = Z (Proc.devRef .tc b) :=
  skip0 Z b h0
theorem pre2 (Z : Valuation τ sig (Elt Ideal)) (b : Ref sig .tc) (h0 : b ∉ W0) (h1 : b ∉ W1) :
    after (P1 (F := Ideal)) (after (P0 (F := Ideal)) (Z)) (Proc.devRef .tc b) = Z (Proc.devRef .tc b) :=
  (skip1 _ b h1).trans (pre1 Z b h0)
theorem pre3 (Z : Valuation τ sig (Elt Ideal)) (b : Ref sig .tc) (h0 : b ∉ W0) (h1 : b ∉ W1) (h2 : b ∉ W2) :
    after (P2 (F := Ideal)) (after (P1 (F := Ideal)) (after (P0 (F := Ideal)) (Z))) (Proc.devRef .tc b) = Z (Proc.devRef .tc b) :=
  (skip2 _ b h2).trans (pre2 Z b h0 h1)
theorem pre4 (Z : Valuation τ sig (Elt Ideal)) (b : Ref sig .tc) (h0 : b ∉ W0) (h1 : b ∉ W1) (h2 : b ∉ W2) (h3 : b ∉ W3) :
    after (P3 (F := Ideal)) (after (P2 (F := Ideal)) (after (P1 (F := Ideal)) (after (P0 (F := Ideal)) (Z)))) (Proc.devRef .tc b) = Z (Proc.devRef .tc b) :=
  (skip3 _ b h3).trans (pre3 Z b h0 h1 h2)
theorem pre5 (Z : Valuation τ sig (Elt Ideal)) (b : Ref sig .tc) (h0 : b ∉ W0) (h1 : b ∉ W1) (h2 : b ∉ W2) (h3 : b ∉ W3) (h4 : b ∉ W4) :
    after (P4 (F := Ideal)) (after (P3 (F := Ideal)) (after (P2 (F := Ideal)) (after (P1 (F := Ideal)) (after (P0 (F := Ideal)) (Z))))) (Proc.devRef .tc b) = Z (Proc.devRef .tc b) :=
  (skip4 _ b h4).trans (pre4 Z b h0 h1 h2 h3)
theorem pre6 (Z : Valuation τ sig (Elt Ideal)) (b : Ref sig .tc) (h0 : b ∉ W0) (h1 : b ∉ W1) (h2 : b ∉ W2) (h3 : b ∉ W3) (h4 : b ∉ W4) (h5 : b ∉ W5) :
    after (P5 (F := Ideal)) (after (P4 (F := Ideal)) (after (P3 (F := Ideal)) (after (P2 (F := Ideal)) (after (P1 (F := Ideal)) (after (P0 (F := Ideal)) (Z)))))) (Proc.devRef .tc b) = Z (Proc.devRef .tc b) :=
  (skip5 _ b h5).trans (pre5 Z b h0 h1 h2 h3 h4)

/-! ## The running sum after each piece, over the starting contents -/

theorem sum1 (Z : Valuation τ sig (Elt Ideal)) :
    after (P1 (F := Ideal)) (after (P0 (F := Ideal)) (Z)) (Proc.devRef .tc main_v25)
      = TableV.msg_gd1 (Z (Proc.devRef .tc main_arg0)) (Z (Proc.devRef .tc main_arg10)) (TableV.wrap_20000_400000 (Z (Proc.devRef .tc main_arg3))) (TableV.col_400000 (Z (Proc.devRef .tc main_arg4))) :=
  (r1 _).trans (by
    rw [show after (P0 (F := Ideal)) (Z) (Proc.devRef .tc main_arg0) = Z (Proc.devRef .tc main_arg0) from pre1 Z main_arg0 (by decide),
      show after (P0 (F := Ideal)) (Z) (Proc.devRef .tc main_arg10) = Z (Proc.devRef .tc main_arg10) from pre1 Z main_arg10 (by decide),
      show after (P0 (F := Ideal)) (Z) (Proc.devRef .tc main_arg3) = Z (Proc.devRef .tc main_arg3) from pre1 Z main_arg3 (by decide),
      show after (P0 (F := Ideal)) (Z) (Proc.devRef .tc main_arg4) = Z (Proc.devRef .tc main_arg4) from pre1 Z main_arg4 (by decide)])

theorem sum2 (Z : Valuation τ sig (Elt Ideal)) :
    after (P2 (F := Ideal)) (after (P1 (F := Ideal)) (after (P0 (F := Ideal)) (Z))) (Proc.devRef .tc main_v41)
      = addf (F := Ideal) (TableV.msg_gd1 (Z (Proc.devRef .tc main_arg0)) (Z (Proc.devRef .tc main_arg10)) (TableV.wrap_20000_400000 (Z (Proc.devRef .tc main_arg3))) (TableV.col_400000 (Z (Proc.devRef .tc main_arg4)))) (TableV.msg_dd1 (Z (Proc.devRef .tc main_arg1)) (Z (Proc.devRef .tc main_arg11)) (TableV.wrap_4000_500000 (TableV.edgeRow_500000_0 (Z (Proc.devRef .tc main_arg5)))) (TableV.col_500000 (TableV.edgeRow_500000_1 (Z (Proc.devRef .tc main_arg5))))) :=
  (r2 _).trans (by
    rw [sum1 Z,
      show after (P1 (F := Ideal)) (after (P0 (F := Ideal)) (Z)) (Proc.devRef .tc main_arg1) = Z (Proc.devRef .tc main_arg1) from pre2 Z main_arg1 (by decide) (by decide),
      show after (P1 (F := Ideal)) (after (P0 (F := Ideal)) (Z)) (Proc.devRef .tc main_arg11) = Z (Proc.devRef .tc main_arg11) from pre2 Z main_arg11 (by decide) (by decide),
      show after (P1 (F := Ideal)) (after (P0 (F := Ideal)) (Z)) (Proc.devRef .tc main_arg5) = Z (Proc.devRef .tc main_arg5) from pre2 Z main_arg5 (by decide) (by decide)])

theorem sum3 (Z : Valuation τ sig (Elt Ideal)) :
    after (P3 (F := Ideal)) (after (P2 (F := Ideal)) (after (P1 (F := Ideal)) (after (P0 (F := Ideal)) (Z)))) (Proc.devRef .tc main_v57)
      = addf (F := Ideal) (addf (F := Ideal) (TableV.msg_gd1 (Z (Proc.devRef .tc main_arg0)) (Z (Proc.devRef .tc main_arg10)) (TableV.wrap_20000_400000 (Z (Proc.devRef .tc main_arg3))) (TableV.col_400000 (Z (Proc.devRef .tc main_arg4)))) (TableV.msg_dd1 (Z (Proc.devRef .tc main_arg1)) (Z (Proc.devRef .tc main_arg11)) (TableV.wrap_4000_500000 (TableV.edgeRow_500000_0 (Z (Proc.devRef .tc main_arg5)))) (TableV.col_500000 (TableV.edgeRow_500000_1 (Z (Proc.devRef .tc main_arg5)))))) (TableV.msg_dd1 (Z (Proc.devRef .tc main_arg1)) (Z (Proc.devRef .tc main_arg12)) (TableV.wrap_4000_500000 (TableV.edgeRow_500000_0 (Z (Proc.devRef .tc main_arg6)))) (TableV.col_500000 (TableV.edgeRow_500000_1 (Z (Proc.devRef .tc main_arg6))))) :=
  (r3 _).trans (by
    rw [sum2 Z,
      show after (P2 (F := Ideal)) (after (P1 (F := Ideal)) (after (P0 (F := Ideal)) (Z))) (Proc.devRef .tc main_arg1) = Z (Proc.devRef .tc main_arg1) from pre3 Z main_arg1 (by decide) (by decide) (by decide),
      show after (P2 (F := Ideal)) (after (P1 (F := Ideal)) (after (P0 (F := Ideal)) (Z))) (Proc.devRef .tc main_arg12) = Z (Proc.devRef .tc main_arg12) from pre3 Z main_arg12 (by decide) (by decide) (by decide),
      show after (P2 (F := Ideal)) (after (P1 (F := Ideal)) (after (P0 (F := Ideal)) (Z))) (Proc.devRef .tc main_arg6) = Z (Proc.devRef .tc main_arg6) from pre3 Z main_arg6 (by decide) (by decide) (by decide)])

theorem sum4 (Z : Valuation τ sig (Elt Ideal)) :
    after (P4 (F := Ideal)) (after (P3 (F := Ideal)) (after (P2 (F := Ideal)) (after (P1 (F := Ideal)) (after (P0 (F := Ideal)) (Z))))) (Proc.devRef .tc main_v73)
      = addf (F := Ideal) (addf (F := Ideal) (addf (F := Ideal) (TableV.msg_gd1 (Z (Proc.devRef .tc main_arg0)) (Z (Proc.devRef .tc main_arg10)) (TableV.wrap_20000_400000 (Z (Proc.devRef .tc main_arg3))) (TableV.col_400000 (Z (Proc.devRef .tc main_arg4)))) (TableV.msg_dd1 (Z (Proc.devRef .tc main_arg1)) (Z (Proc.devRef .tc main_arg11)) (TableV.wrap_4000_500000 (TableV.edgeRow_500000_0 (Z (Proc.devRef .tc main_arg5)))) (TableV.col_500000 (TableV.edgeRow_500000_1 (Z (Proc.devRef .tc main_arg5)))))) (TableV.msg_dd1 (Z (Proc.devRef .tc main_arg1)) (Z (Proc.devRef .tc main_arg12)) (TableV.wrap_4000_500000 (TableV.edgeRow_500000_0 (Z (Proc.devRef .tc main_arg6)))) (TableV.col_500000 (TableV.edgeRow_500000_1 (Z (Proc.devRef .tc main_arg6)))))) (TableV.msg_dd1 (Z (Proc.devRef .tc main_arg1)) (Z (Proc.devRef .tc main_arg13)) (TableV.wrap_4000_500000 (TableV.edgeRow_500000_0 (Z (Proc.devRef .tc main_arg7)))) (TableV.col_500000 (TableV.edgeRow_500000_1 (Z (Proc.devRef .tc main_arg7))))) :=
  (r4 _).trans (by
    rw [sum3 Z,
      show after (P3 (F := Ideal)) (after (P2 (F := Ideal)) (after (P1 (F := Ideal)) (after (P0 (F := Ideal)) (Z)))) (Proc.devRef .tc main_arg1) = Z (Proc.devRef .tc main_arg1) from pre4 Z main_arg1 (by decide) (by decide) (by decide) (by decide),
      show after (P3 (F := Ideal)) (after (P2 (F := Ideal)) (after (P1 (F := Ideal)) (after (P0 (F := Ideal)) (Z)))) (Proc.devRef .tc main_arg13) = Z (Proc.devRef .tc main_arg13) from pre4 Z main_arg13 (by decide) (by decide) (by decide) (by decide),
      show after (P3 (F := Ideal)) (after (P2 (F := Ideal)) (after (P1 (F := Ideal)) (after (P0 (F := Ideal)) (Z)))) (Proc.devRef .tc main_arg7) = Z (Proc.devRef .tc main_arg7) from pre4 Z main_arg7 (by decide) (by decide) (by decide) (by decide)])

theorem sum5 (Z : Valuation τ sig (Elt Ideal)) :
    after (P5 (F := Ideal)) (after (P4 (F := Ideal)) (after (P3 (F := Ideal)) (after (P2 (F := Ideal)) (after (P1 (F := Ideal)) (after (P0 (F := Ideal)) (Z)))))) (Proc.devRef .tc main_v89)
      = addf (F := Ideal) (addf (F := Ideal) (addf (F := Ideal) (addf (F := Ideal) (TableV.msg_gd1 (Z (Proc.devRef .tc main_arg0)) (Z (Proc.devRef .tc main_arg10)) (TableV.wrap_20000_400000 (Z (Proc.devRef .tc main_arg3))) (TableV.col_400000 (Z (Proc.devRef .tc main_arg4)))) (TableV.msg_dd1 (Z (Proc.devRef .tc main_arg1)) (Z (Proc.devRef .tc main_arg11)) (TableV.wrap_4000_500000 (TableV.edgeRow_500000_0 (Z (Proc.devRef .tc main_arg5)))) (TableV.col_500000 (TableV.edgeRow_500000_1 (Z (Proc.devRef .tc main_arg5)))))) (TableV.msg_dd1 (Z (Proc.devRef .tc main_arg1)) (Z (Proc.devRef .tc main_arg12)) (TableV.wrap_4000_500000 (TableV.edgeRow_500000_0 (Z (Proc.devRef .tc main_arg6)))) (TableV.col_500000 (TableV.edgeRow_500000_1 (Z (Proc.devRef .tc main_arg6)))))) (TableV.msg_dd1 (Z (Proc.devRef .tc main_arg1)) (Z (Proc.devRef .tc main_arg13)) (TableV.wrap_4000_500000 (TableV.edgeRow_500000_0 (Z (Proc.devRef .tc main_arg7)))) (TableV.col_500000 (TableV.edgeRow_500000_1 (Z (Proc.devRef .tc main_arg7)))))) (TableV.msg_dd1 (Z (Proc.devRef .tc main_arg1)) (Z (Proc.devRef .tc main_arg14)) (TableV.wrap_4000_500000 (TableV.edgeRow_500000_0 (Z (Proc.devRef .tc main_arg8)))) (TableV.col_500000 (TableV.edgeRow_500000_1 (Z (Proc.devRef .tc main_arg8))))) :=
  (r5 _).trans (by
    rw [sum4 Z,
      show after (P4 (F := Ideal)) (after (P3 (F := Ideal)) (after (P2 (F := Ideal)) (after (P1 (F := Ideal)) (after (P0 (F := Ideal)) (Z))))) (Proc.devRef .tc main_arg1) = Z (Proc.devRef .tc main_arg1) from pre5 Z main_arg1 (by decide) (by decide) (by decide) (by decide) (by decide),
      show after (P4 (F := Ideal)) (after (P3 (F := Ideal)) (after (P2 (F := Ideal)) (after (P1 (F := Ideal)) (after (P0 (F := Ideal)) (Z))))) (Proc.devRef .tc main_arg14) = Z (Proc.devRef .tc main_arg14) from pre5 Z main_arg14 (by decide) (by decide) (by decide) (by decide) (by decide),
      show after (P4 (F := Ideal)) (after (P3 (F := Ideal)) (after (P2 (F := Ideal)) (after (P1 (F := Ideal)) (after (P0 (F := Ideal)) (Z))))) (Proc.devRef .tc main_arg8) = Z (Proc.devRef .tc main_arg8) from pre5 Z main_arg8 (by decide) (by decide) (by decide) (by decide) (by decide)])

/-- The gene-to-gene messages, untouched by the later pieces. -/
theorem gene (Z : Valuation τ sig (Elt Ideal)) :
    after (P5 (F := Ideal)) (after (P4 (F := Ideal)) (after (P3 (F := Ideal)) (after (P2 (F := Ideal)) (after (P1 (F := Ideal)) (after (P0 (F := Ideal)) (Z)))))) (Proc.devRef .tc main_v14)
      = TableV.msg_gg1 (Z (Proc.devRef .tc main_arg0)) (Z (Proc.devRef .tc main_arg9)) (TableV.wrap_20000_1000000 (TableV.edgeRow_1000000_0 (Z (Proc.devRef .tc main_arg2)))) (TableV.col_1000000 (TableV.edgeRow_1000000_1 (Z (Proc.devRef .tc main_arg2)))) :=
  (skip5 _ main_v14 (by decide)).trans ((skip4 _ main_v14 (by decide)).trans ((skip3 _ main_v14 (by decide)).trans ((skip2 _ main_v14 (by decide)).trans ((skip1 _ main_v14 (by decide)).trans (r0 Z)))))

end L1

/-! ## The first layer, from any contents -/

theorem layer1_gene (Z : Valuation τ sig (Elt Ideal)) :
    after (layer1 (F := Ideal)) Z (Proc.devRef .tc main_v90)
      = TableV.geneTable1 (Z (Proc.devRef .tc main_arg0)) (Z (Proc.devRef .tc main_arg2)) (Z (Proc.devRef .tc main_arg9)) := by
  rw [L1.run]
  exact (L1.r6_main_v90 _).trans (congrArg TableV.relu_20000 (L1.gene Z))

theorem layer1_drug (Z : Valuation τ sig (Elt Ideal)) :
    after (layer1 (F := Ideal)) Z (Proc.devRef .tc main_v91)
      = TableV.relu_4000 (TableV.drugSum1 (Z (Proc.devRef .tc main_arg0)) (Z (Proc.devRef .tc main_arg1)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg10)) (Z (Proc.devRef .tc main_arg11)) (Z (Proc.devRef .tc main_arg12)) (Z (Proc.devRef .tc main_arg13)) (Z (Proc.devRef .tc main_arg14))) := by
  rw [L1.run]
  exact (L1.r6_main_v91 _).trans (congrArg TableV.relu_4000 (L1.sum5 Z))

end Cert.ReferenceIdeal.RunV

end
-- ==== Proof.RefPieces2.lean ====
/-
  The reference's second layer cut into seven consecutive pieces: one per relation's messages (the
  gene-to-gene messages first, then the relation from genes into drugs, then the four relations among
  drugs, each of these four adding its messages to the running sum), and last the two positive parts.
  Running the layer is running the pieces in order, and a piece leaves alone every buffer it does not
  write.
-/
import proofs.«105939_j23287312679606_2_alg».proof.Proof.RefOps
import Idealize.ShloMosaic.Lib.StableHlo.Run

set_option maxRecDepth 16384

noncomputable section

namespace Cert.ReferenceIdeal.RunV.L2

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Operations 0 to 17 of the layer. -/
abbrev P0 : List (HloOp τ sig (Elt F)) :=
  ( unary main_arg2 main_v92 ((extractStridedSlice S1x1000000 ![0, 0] · slices_S2x1000000_S1x1000000_0_0) : (⟨S2x1000000, .i32⟩ : BufTy).Contents (Elt F) → (⟨S1x1000000, .i32⟩ : BufTy).Contents (Elt F))
  :: reshape main_v92 main_v93 rfl shapeCasts_S1x1000000_S1000000
  :: nullary main_c_16 (constantI S_ 32 0#32)
  :: unary main_c_16 main_v94 (broadcastInDim S1000000 ![] bcast_S_S1000000 : (⟨S_, .i32⟩ : BufTy).Contents (Elt F) → (⟨S1000000, .i32⟩ : BufTy).Contents (Elt F))
  :: binary main_v93 main_v94 main_v95 (cmpi .slt : (⟨S1000000, .i32⟩ : BufTy).Contents (Elt F) → (⟨S1000000, .i32⟩ : BufTy).Contents (Elt F) → (⟨S1000000, .i1⟩ : BufTy).Contents (Elt F))
  :: nullary main_c_17 (constantI S_ 32 20000#32)
  :: unary main_c_17 main_v96 (broadcastInDim S1000000 ![] bcast_S_S1000000 : (⟨S_, .i32⟩ : BufTy).Contents (Elt F) → (⟨S1000000, .i32⟩ : BufTy).Contents (Elt F))
  :: binary main_v93 main_v96 main_v97 (addi : (⟨S1000000, .i32⟩ : BufTy).Contents (Elt F) → (⟨S1000000, .i32⟩ : BufTy).Contents (Elt F) → (⟨S1000000, .i32⟩ : BufTy).Contents (Elt F))
  :: ternary main_v95 main_v97 main_v93 main_v98 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: unary main_v98 main_v99 (broadcastInDim S1000000x1 ![0] bcast_S1000000_S1000000x1_0 : (⟨S1000000, .i32⟩ : BufTy).Contents (Elt F) → (⟨S1000000x1, .i32⟩ : BufTy).Contents (Elt F))
  :: binary main_v90 main_v99 main_v100 ((fun x i => Host.gather gather_S20000x64_S1000000x1_S1000000x64_1_0_n_n_0_1_164 x i) : (⟨S20000x64, .f32⟩ : BufTy).Contents (Elt F) → (⟨S1000000x1, .i32⟩ : BufTy).Contents (Elt F) → (⟨S1000000x64, .f32⟩ : BufTy).Contents (Elt F))
  :: binary main_v100 main_arg15 main_v101 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F))
  :: unary main_arg2 main_v102 ((extractStridedSlice S1x1000000 ![1, 0] · slices_S2x1000000_S1x1000000_1_0) : (⟨S2x1000000, .i32⟩ : BufTy).Contents (Elt F) → (⟨S1x1000000, .i32⟩ : BufTy).Contents (Elt F))
  :: reshape main_v102 main_v103 rfl shapeCasts_S1x1000000_S1000000
  :: nullary main_cst_18 (constant S_ .f32 0x00000000#32)
  :: unary main_cst_18 main_v104 (broadcastInDim S20000x64 ![] bcast_S_S20000x64 : (⟨S_, .f32⟩ : BufTy).Contents (Elt F) → (⟨S20000x64, .f32⟩ : BufTy).Contents (Elt F))
  :: unary main_v103 main_v105 (broadcastInDim S1000000x1 ![0] bcast_S1000000_S1000000x1_0 : (⟨S1000000, .i32⟩ : BufTy).Contents (Elt F) → (⟨S1000000x1, .i32⟩ : BufTy).Contents (Elt F))
  :: ternary main_v104 main_v105 main_v101 main_v106 ((fun x i u => Host.scatterAdd scatter_S20000x64_S1000000x1_S1000000x64_1_0_0_1 x i u) : (⟨S20000x64, .f32⟩ : BufTy).Contents (Elt F) → (⟨S1000000x1, .i32⟩ : BufTy).Contents (Elt F) → (⟨S1000000x64, .f32⟩ : BufTy).Contents (Elt F) → (⟨S20000x64, .f32⟩ : BufTy).Contents (Elt F))
  :: [] )

/-- Operations 18 to 31 of the layer. -/
abbrev P1 : List (HloOp τ sig (Elt F)) :=
  ( nullary main_c_19 (constantI S_ 32 0#32)
  :: unary main_c_19 main_v107 (broadcastInDim S400000 ![] bcast_S_S400000 : (⟨S_, .i32⟩ : BufTy).Contents (Elt F) → (⟨S400000, .i32⟩ : BufTy).Contents (Elt F))
  :: binary main_arg3 main_v107 main_v108 (cmpi .slt : (⟨S400000, .i32⟩ : BufTy).Contents (Elt F) → (⟨S400000, .i32⟩ : BufTy).Contents (Elt F) → (⟨S400000, .i1⟩ : BufTy).Contents (Elt F))
  :: nullary main_c_20 (constantI S_ 32 20000#32)
  :: unary main_c_20 main_v109 (broadcastInDim S400000 ![] bcast_S_S400000 : (⟨S_, .i32⟩ : BufTy).Contents (Elt F) → (⟨S400000, .i32⟩ : BufTy).Contents (Elt F))
  :: binary main_arg3 main_v109 main_v110 (addi : (⟨S400000, .i32⟩ : BufTy).Contents (Elt F) → (⟨S400000, .i32⟩ : BufTy).Contents (Elt F) → (⟨S400000, .i32⟩ : BufTy).Contents (Elt F))
  :: ternary main_v108 main_v110 main_arg3 main_v111 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
  :: unary main_v111 main_v112 (broadcastInDim S400000x1 ![0] bcast_S400000_S400000x1_0 : (⟨S400000, .i32⟩ : BufTy).Contents (Elt F) → (⟨S400000x1, .i32⟩ : BufTy).Contents (Elt F))
  :: binary main_v90 main_v112 main_v113 ((fun x i => Host.gather gather_S20000x64_S400000x1_S400000x64_1_0_n_n_0_1_164 x i) : (⟨S20000x64, .f32⟩ : BufTy).Contents (Elt F) → (⟨S400000x1, .i32⟩ : BufTy).Contents (Elt F) → (⟨S400000x64, .f32⟩ : BufTy).Contents (Elt F))
  :: binary main_v113 main_arg16 main_v114 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F))
  :: nullary main_cst_21 (constant S_ .f32 0x00000000#32)
  :: unary main_cst_21 main_v115 (broadcastInDim S4000x64 ![] bcast_S_S4000x64 : (⟨S_, .f32⟩ : BufTy).Contents (Elt F) → (⟨S4000x64, .f32⟩ : BufTy).Contents (Elt F))
  :: unary main_arg4 main_v116 (broadcastInDim S400000x1 ![0] bcast_S400000_S400000x1_0 : (⟨S400000, .i32⟩ : BufTy).Contents (Elt F) → (⟨S400000x1, .i32⟩ : BufTy).Contents (Elt F))
  :: ternary main_v115 main_v116 main_v114 main_v117 ((fun x i u => Host.scatterAdd scatter_S4000x64_S400000x1_S400000x64_1_0_0_1 x i u) : (⟨S4000x64, .f32⟩ : BufTy).Contents (Elt F) → (⟨S400000x1, .i32⟩ : BufTy).Contents (Elt F) → (⟨S400000x64, .f32⟩ : BufTy).Contents (Elt F) → (⟨S4000x64, .f32⟩ : BufTy).Contents (Elt F))
  :: [] )

/-- Operations 32 to 50 of the layer. -/
abbrev P2 : List (HloOp τ sig (Elt F)) :=
  ( unary main_arg5 main_v118 ((extractStridedSlice S1x500000 ![0, 0] · slices_S2x500000_S1x500000_0_0) : (⟨S2x500000, .i32⟩ : BufTy).Contents (Elt F) → (⟨S1x500000, .i32⟩ : BufTy).Contents (Elt F))
  :: reshape main_v118 main_v119 rfl shapeCasts_S1x500000_S500000
  :: nullary main_c_22 (constantI S_ 32 0#32)
  :: unary main_c_22 main_v120 (broadcastInDim S500000 ![] bcast_S_S500000 : (⟨S_, .i32⟩ : BufTy).Contents (Elt F) → (⟨S500000, .i32⟩ : BufTy).Contents (Elt F))
  :: binary main_v119 main_v120 main_v121 (cmpi .slt : (⟨S500000, .i32⟩ : BufTy).Contents (Elt F) → (⟨S500000, .i32⟩ : BufTy).Contents (Elt F) → (⟨S500000, .i1⟩ : BufTy).Contents (Elt F))
  :: nullary main_c_23 (constantI S_ 32 4000#32)
  :: unary main_c_23 main_v122 (broadcastInDim S500000 ![] bcast_S_S500000 : (⟨S_, .i32⟩ : BufTy).Contents (Elt F) → (⟨S500000, .i32⟩ : BufTy).Contents (Elt F))
  :: binary main_v119 main_v122 main_v123 (addi : (⟨S500000, .i32⟩ : BufTy).Contents (Elt F) → (⟨S500000, .i32⟩ : BufTy).Contents (Elt F) → (⟨S500000, .i32⟩ : BufTy).Contents (Elt F))
  :: ternary main_v121 main_v123 main_v119 main_v124 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: unary main_v124 main_v125 (broadcastInDim S500000x1 ![0] bcast_S500000_S500000x1_0 : (⟨S500000, .i32⟩ : BufTy).Contents (Elt F) → (⟨S500000x1, .i32⟩ : BufTy).Contents (Elt F))
  :: binary main_v91 main_v125 main_v126 ((fun x i => Host.gather gather_S4000x64_S500000x1_S500000x64_1_0_n_n_0_1_164 x i) : (⟨S4000x64, .f32⟩ : BufTy).Contents (Elt F) → (⟨S500000x1, .i32⟩ : BufTy).Contents (Elt F) → (⟨S500000x64, .f32⟩ : BufTy).Contents (Elt F))
  :: binary main_v126 main_arg17 main_v127 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F))
  :: unary main_arg5 main_v128 ((extractStridedSlice S1x500000 ![1, 0] · slices_S2x500000_S1x500000_1_0) : (⟨S2x500000, .i32⟩ : BufTy).Contents (Elt F) → (⟨S1x500000, .i32⟩ : BufTy).Contents (Elt F))
  :: reshape main_v128 main_v129 rfl shapeCasts_S1x500000_S500000
  :: nullary main_cst_24 (constant S_ .f32 0x00000000#32)
  :: unary main_cst_24 main_v130 (broadcastInDim S4000x64 ![] bcast_S_S4000x64 : (⟨S_, .f32⟩ : BufTy).Contents (Elt F) → (⟨S4000x64, .f32⟩ : BufTy).Contents (Elt F))
  :: unary main_v129 main_v131 (broadcastInDim S500000x1 ![0] bcast_S500000_S500000x1_0 : (⟨S500000, .i32⟩ : BufTy).Contents (Elt F) → (⟨S500000x1, .i32⟩ : BufTy).Contents (Elt F))
  :: ternary main_v130 main_v131 main_v127 main_v132 ((fun x i u => Host.scatterAdd scatter_S4000x64_S500000x1_S500000x64_1_0_0_1 x i u) : (⟨S4000x64, .f32⟩ : BufTy).Contents (Elt F) → (⟨S500000x1, .i32⟩ : BufTy).Contents (Elt F) → (⟨S500000x64, .f32⟩ : BufTy).Contents (Elt F) → (⟨S4000x64, .f32⟩ : BufTy).Contents (Elt F))
  :: binary main_v117 main_v132 main_v133 (addf : (⟨S4000x64, .f32⟩ : BufTy).Contents (Elt F) → (⟨S4000x64, .f32⟩ : BufTy).Contents (Elt F) → (⟨S4000x64, .f32⟩ : BufTy).Contents (Elt F))
  :: [] )

/-- Operations 51 to 69 of the layer. -/
abbrev P3 : List (HloOp τ sig (Elt F)) :=
  ( unary main_arg6 main_v134 ((extractStridedSlice S1x500000 ![0, 0] · slices_S2x500000_S1x500000_0_0) : (⟨S2x500000, .i32⟩ : BufTy).Contents (Elt F) → (⟨S1x500000, .i32⟩ : BufTy).Contents (Elt F))
  :: reshape main_v134 main_v135 rfl shapeCasts_S1x500000_S500000
  :: nullary main_c_25 (constantI S_ 32 0#32)
  :: unary main_c_25 main_v136 (broadcastInDim S500000 ![] bcast_S_S500000 : (⟨S_, .i32⟩ : BufTy).Contents (Elt F) → (⟨S500000, .i32⟩ : BufTy).Contents (Elt F))
  :: binary main_v135 main_v136 main_v137 (cmpi .slt : (⟨S500000, .i32⟩ : BufTy).Contents (Elt F) → (⟨S500000, .i32⟩ : BufTy).Contents (Elt F) → (⟨S500000, .i1⟩ : BufTy).Contents (Elt F))
  :: nullary main_c_26 (constantI S_ 32 4000#32)
  :: unary main_c_26 main_v138 (broadcastInDim S500000 ![] bcast_S_S500000 : (⟨S_, .i32⟩ : BufTy).Contents (Elt F) → (⟨S500000, .i32⟩ : BufTy).Contents (Elt F))
  :: binary main_v135 main_v138 main_v139 (addi : (⟨S500000, .i32⟩ : BufTy).Contents (Elt F) → (⟨S500000, .i32⟩ : BufTy).Contents (Elt F) → (⟨S500000, .i32⟩ : BufTy).Contents (Elt F))
  :: ternary main_v137 main_v139 main_v135 main_v140 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: unary main_v140 main_v141 (broadcastInDim S500000x1 ![0] bcast_S500000_S500000x1_0 : (⟨S500000, .i32⟩ : BufTy).Contents (Elt F) → (⟨S500000x1, .i32⟩ : BufTy).Contents (Elt F))
  :: binary main_v91 main_v141 main_v142 ((fun x i => Host.gather gather_S4000x64_S500000x1_S500000x64_1_0_n_n_0_1_164 x i) : (⟨S4000x64, .f32⟩ : BufTy).Contents (Elt F) → (⟨S500000x1, .i32⟩ : BufTy).Contents (Elt F) → (⟨S500000x64, .f32⟩ : BufTy).Contents (Elt F))
  :: binary main_v142 main_arg18 main_v143 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F))
  :: unary main_arg6 main_v144 ((extractStridedSlice S1x500000 ![1, 0] · slices_S2x500000_S1x500000_1_0) : (⟨S2x500000, .i32⟩ : BufTy).Contents (Elt F) → (⟨S1x500000, .i32⟩ : BufTy).Contents (Elt F))
  :: reshape main_v144 main_v145 rfl shapeCasts_S1x500000_S500000
  :: nullary main_cst_27 (constant S_ .f32 0x00000000#32)
  :: unary main_cst_27 main_v146 (broadcastInDim S4000x64 ![] bcast_S_S4000x64 : (⟨S_, .f32⟩ : BufTy).Contents (Elt F) → (⟨S4000x64, .f32⟩ : BufTy).Contents (Elt F))
  :: unary main_v145 main_v147 (broadcastInDim S500000x1 ![0] bcast_S500000_S500000x1_0 : (⟨S500000, .i32⟩ : BufTy).Contents (Elt F) → (⟨S500000x1, .i32⟩ : BufTy).Contents (Elt F))
  :: ternary main_v146 main_v147 main_v143 main_v148 ((fun x i u => Host.scatterAdd scatter_S4000x64_S500000x1_S500000x64_1_0_0_1 x i u) : (⟨S4000x64, .f32⟩ : BufTy).Contents (Elt F) → (⟨S500000x1, .i32⟩ : BufTy).Contents (Elt F) → (⟨S500000x64, .f32⟩ : BufTy).Contents (Elt F) → (⟨S4000x64, .f32⟩ : BufTy).Contents (Elt F))
  :: binary main_v133 main_v148 main_v149 (addf : (⟨S4000x64, .f32⟩ : BufTy).Contents (Elt F) → (⟨S4000x64, .f32⟩ : BufTy).Contents (Elt F) → (⟨S4000x64, .f32⟩ : BufTy).Contents (Elt F))
  :: [] )

/-- Operations 70 to 88 of the layer. -/
abbrev P4 : List (HloOp τ sig (Elt F)) :=
  ( unary main_arg7 main_v150 ((extractStridedSlice S1x500000 ![0, 0] · slices_S2x500000_S1x500000_0_0) : (⟨S2x500000, .i32⟩ : BufTy).Contents (Elt F) → (⟨S1x500000, .i32⟩ : BufTy).Contents (Elt F))
  :: reshape main_v150 main_v151 rfl shapeCasts_S1x500000_S500000
  :: nullary main_c_28 (constantI S_ 32 0#32)
  :: unary main_c_28 main_v152 (broadcastInDim S500000 ![] bcast_S_S500000 : (⟨S_, .i32⟩ : BufTy).Contents (Elt F) → (⟨S500000, .i32⟩ : BufTy).Contents (Elt F))
  :: binary main_v151 main_v152 main_v153 (cmpi .slt : (⟨S500000, .i32⟩ : BufTy).Contents (Elt F) → (⟨S500000, .i32⟩ : BufTy).Contents (Elt F) → (⟨S500000, .i1⟩ : BufTy).Contents (Elt F))
  :: nullary main_c_29 (constantI S_ 32 4000#32)
  :: unary main_c_29 main_v154 (broadcastInDim S500000 ![] bcast_S_S500000 : (⟨S_, .i32⟩ : BufTy).Contents (Elt F) → (⟨S500000, .i32⟩ : BufTy).Contents (Elt F))
  :: binary main_v151 main_v154 main_v155 (addi : (⟨S500000, .i32⟩ : BufTy).Contents (Elt F) → (⟨S500000, .i32⟩ : BufTy).Contents (Elt F) → (⟨S500000, .i32⟩ : BufTy).Contents (Elt F))
  :: ternary main_v153 main_v155 main_v151 main_v156 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: unary main_v156 main_v157 (broadcastInDim S500000x1 ![0] bcast_S500000_S500000x1_0 : (⟨S500000, .i32⟩ : BufTy).Contents (Elt F) → (⟨S500000x1, .i32⟩ : BufTy).Contents (Elt F))
  :: binary main_v91 main_v157 main_v158 ((fun x i => Host.gather gather_S4000x64_S500000x1_S500000x64_1_0_n_n_0_1_164 x i) : (⟨S4000x64, .f32⟩ : BufTy).Contents (Elt F) → (⟨S500000x1, .i32⟩ : BufTy).Contents (Elt F) → (⟨S500000x64, .f32⟩ : BufTy).Contents (Elt F))
  :: binary main_v158 main_arg19 main_v159 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F))
  :: unary main_arg7 main_v160 ((extractStridedSlice S1x500000 ![1, 0] · slices_S2x500000_S1x500000_1_0) : (⟨S2x500000, .i32⟩ : BufTy).Contents (Elt F) → (⟨S1x500000, .i32⟩ : BufTy).Contents (Elt F))
  :: reshape main_v160 main_v161 rfl shapeCasts_S1x500000_S500000
  :: nullary main_cst_30 (constant S_ .f32 0x00000000#32)
  :: unary main_cst_30 main_v162 (broadcastInDim S4000x64 ![] bcast_S_S4000x64 : (⟨S_, .f32⟩ : BufTy).Contents (Elt F) → (⟨S4000x64, .f32⟩ : BufTy).Contents (Elt F))
  :: unary main_v161 main_v163 (broadcastInDim S500000x1 ![0] bcast_S500000_S500000x1_0 : (⟨S500000, .i32⟩ : BufTy).Contents (Elt F) → (⟨S500000x1, .i32⟩ : BufTy).Contents (Elt F))
  :: ternary main_v162 main_v163 main_v159 main_v164 ((fun x i u => Host.scatterAdd scatter_S4000x64_S500000x1_S500000x64_1_0_0_1 x i u) : (⟨S4000x64, .f32⟩ : BufTy).Contents (Elt F) → (⟨S500000x1, .i32⟩ : BufTy).Contents (Elt F) → (⟨S500000x64, .f32⟩ : BufTy).Contents (Elt F) → (⟨S4000x64, .f32⟩ : BufTy).Contents (Elt F))
  :: binary main_v149 main_v164 main_v165 (addf : (⟨S4000x64, .f32⟩ : BufTy).Contents (Elt F) → (⟨S4000x64, .f32⟩ : BufTy).Contents (Elt F) → (⟨S4000x64, .f32⟩ : BufTy).Contents (Elt F))
  :: [] )

/-- Operations 89 to 107 of the layer. -/
abbrev P5 : List (HloOp τ sig (Elt F)) :=
  ( unary main_arg8 main_v166 ((extractStridedSlice S1x500000 ![0, 0] · slices_S2x500000_S1x500000_0_0) : (⟨S2x500000, .i32⟩ : BufTy).Contents (Elt F) → (⟨S1x500000, .i32⟩ : BufTy).Contents (Elt F))
  :: reshape main_v166 main_v167 rfl shapeCasts_S1x500000_S500000
  :: nullary main_c_31 (constantI S_ 32 0#32)
  :: unary main_c_31 main_v168 (broadcastInDim S500000 ![] bcast_S_S500000 : (⟨S_, .i32⟩ : BufTy).Contents (Elt F) → (⟨S500000, .i32⟩ : BufTy).Contents (Elt F))
  :: binary main_v167 main_v168 main_v169 (cmpi .slt : (⟨S500000, .i32⟩ : BufTy).Contents (Elt F) → (⟨S500000, .i32⟩ : BufTy).Contents (Elt F) → (⟨S500000, .i1⟩ : BufTy).Contents (Elt F))
  :: nullary main_c_32 (constantI S_ 32 4000#32)
  :: unary main_c_32 main_v170 (broadcastInDim S500000 ![] bcast_S_S500000 : (⟨S_, .i32⟩ : BufTy).Contents (Elt F) → (⟨S500000, .i32⟩ : BufTy).Contents (Elt F))
  :: binary main_v167 main_v170 main_v171 (addi : (⟨S500000, .i32⟩ : BufTy).Contents (Elt F) → (⟨S500000, .i32⟩ : BufTy).Contents (Elt F) → (⟨S500000, .i32⟩ : BufTy).Contents (Elt F))
  :: ternary main_v169 main_v171 main_v167 main_v172 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F))
  :: unary main_v172 main_v173 (broadcastInDim S500000x1 ![0] bcast_S500000_S500000x1_0 : (⟨S500000, .i32⟩ : BufTy).Contents (Elt F) → (⟨S500000x1, .i32⟩ : BufTy).Contents (Elt F))
  :: binary main_v91 main_v173 main_v174 ((fun x i => Host.gather gather_S4000x64_S500000x1_S500000x64_1_0_n_n_0_1_164 x i) : (⟨S4000x64, .f32⟩ : BufTy).Contents (Elt F) → (⟨S500000x1, .i32⟩ : BufTy).Contents (Elt F) → (⟨S500000x64, .f32⟩ : BufTy).Contents (Elt F))
  :: binary main_v174 main_arg20 main_v175 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F))
  :: unary main_arg8 main_v176 ((extractStridedSlice S1x500000 ![1, 0] · slices_S2x500000_S1x500000_1_0) : (⟨S2x500000, .i32⟩ : BufTy).Contents (Elt F) → (⟨S1x500000, .i32⟩ : BufTy).Contents (Elt F))
  :: reshape main_v176 main_v177 rfl shapeCasts_S1x500000_S500000
  :: nullary main_cst_33 (constant S_ .f32 0x00000000#32)
  :: unary main_cst_33 main_v178 (broadcastInDim S4000x64 ![] bcast_S_S4000x64 : (⟨S_, .f32⟩ : BufTy).Contents (Elt F) → (⟨S4000x64, .f32⟩ : BufTy).Contents (Elt F))
  :: unary main_v177 main_v179 (broadcastInDim S500000x1 ![0] bcast_S500000_S500000x1_0 : (⟨S500000, .i32⟩ : BufTy).Contents (Elt F) → (⟨S500000x1, .i32⟩ : BufTy).Contents (Elt F))
  :: ternary main_v178 main_v179 main_v175 main_v180 ((fun x i u => Host.scatterAdd scatter_S4000x64_S500000x1_S500000x64_1_0_0_1 x i u) : (⟨S4000x64, .f32⟩ : BufTy).Contents (Elt F) → (⟨S500000x1, .i32⟩ : BufTy).Contents (Elt F) → (⟨S500000x64, .f32⟩ : BufTy).Contents (Elt F) → (⟨S4000x64, .f32⟩ : BufTy).Contents (Elt F))
  :: binary main_v165 main_v180 main_v181 (addf : (⟨S4000x64, .f32⟩ : BufTy).Contents (Elt F) → (⟨S4000x64, .f32⟩ : BufTy).Contents (Elt F) → (⟨S4000x64, .f32⟩ : BufTy).Contents (Elt F))
  :: [] )

/-- Operations 108 to 113 of the layer. -/
abbrev P6 : List (HloOp τ sig (Elt F)) :=
  ( TRef.nullary (TRef.of (T := ⟨S_, .f32⟩) main_call2_cst) (constant S_ .f32 0x00000000#32)
  :: TRef.unary (TRef.of (T := ⟨S_, .f32⟩) main_call2_cst) (TRef.of (T := ⟨S20000x64, .f32⟩) main_call2_v0) (broadcastInDim S20000x64 ![] bcast_S_S20000x64)
  :: TRef.binary (TRef.of (T := ⟨S20000x64, .f32⟩) main_v106) (TRef.of (T := ⟨S20000x64, .f32⟩) main_call2_v0) (TRef.of (T := ⟨S20000x64, .f32⟩) main_v182) maximumf
  :: TRef.nullary (TRef.of (T := ⟨S_, .f32⟩) main_call3_cst) (constant S_ .f32 0x00000000#32)
  :: TRef.unary (TRef.of (T := ⟨S_, .f32⟩) main_call3_cst) (TRef.of (T := ⟨S4000x64, .f32⟩) main_call3_v0) (broadcastInDim S4000x64 ![] bcast_S_S4000x64)
  :: TRef.binary (TRef.of (T := ⟨S4000x64, .f32⟩) main_v181) (TRef.of (T := ⟨S4000x64, .f32⟩) main_call3_v0) (TRef.of (T := ⟨S4000x64, .f32⟩) main_v183) maximumf
  :: [] )

set_option maxHeartbeats 4000000 in
/-- The layer is its pieces in order. -/
theorem cut : (layer2 : List (HloOp τ sig (Elt F))) = P0 ++ (P1 ++ (P2 ++ (P3 ++ (P4 ++ (P5 ++ P6))))) := rfl

/-- Running two lines one after the other is running their concatenation. -/
theorem app {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Running the layer is running its pieces in order. -/
theorem run (V : Valuation τ sig (Elt F)) :
    after (layer2 (F := F)) V = after P6 (after P5 (after P4 (after P3 (after P2 (after P1 (after P0 V)))))) := by
  rw [cut, app, app, app, app, app, app]

/-! ## A piece leaves alone what it does not write -/

/-- The buffers piece 0 writes, in order. -/
abbrev W0 : List (Ref sig .tc) := [main_v92, main_v93, main_c_16, main_v94, main_v95, main_c_17, main_v96, main_v97, main_v98, main_v99, main_v100, main_v101, main_v102, main_v103, main_cst_18, main_v104, main_v105, main_v106]
theorem skip0 (Z : Valuation τ sig (Elt F)) (b : Ref sig .tc) (hb : b ∉ W0) :
    after (P0 (F := F)) Z (Proc.devRef .tc b) = Z (Proc.devRef .tc b) :=
  after_of_writes_sub (W := W0) P0 Z (by
    simp only [P0, W0, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 1 writes, in order. -/
abbrev W1 : List (Ref sig .tc) := [main_c_19, main_v107, main_v108, main_c_20, main_v109, main_v110, main_v111, main_v112, main_v113, main_v114, main_cst_21, main_v115, main_v116, main_v117]
theorem skip1 (Z : Valuation τ sig (Elt F)) (b : Ref sig .tc) (hb : b ∉ W1) :
    after (P1 (F := F)) Z (Proc.devRef .tc b) = Z (Proc.devRef .tc b) :=
  after_of_writes_sub (W := W1) P1 Z (by
    simp only [P1, W1, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 2 writes, in order. -/
abbrev W2 : List (Ref sig .tc) := [main_v118, main_v119, main_c_22, main_v120, main_v121, main_c_23, main_v122, main_v123, main_v124, main_v125, main_v126, main_v127, main_v128, main_v129, main_cst_24, main_v130, main_v131, main_v132, main_v133]
theorem skip2 (Z : Valuation τ sig (Elt F)) (b : Ref sig .tc) (hb : b ∉ W2) :
    after (P2 (F := F)) Z (Proc.devRef .tc b) = Z (Proc.devRef .tc b) :=
  after_of_writes_sub (W := W2) P2 Z (by
    simp only [P2, W2, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 3 writes, in order. -/
abbrev W3 : List (Ref sig .tc) := [main_v134, main_v135, main_c_25, main_v136, main_v137, main_c_26, main_v138, main_v139, main_v140, main_v141, main_v142, main_v143, main_v144, main_v145, main_cst_27, main_v146, main_v147, main_v148, main_v149]
theorem skip3 (Z : Valuation τ sig (Elt F)) (b : Ref sig .tc) (hb : b ∉ W3) :
    after (P3 (F := F)) Z (Proc.devRef .tc b) = Z (Proc.devRef .tc b) :=
  after_of_writes_sub (W := W3) P3 Z (by
    simp only [P3, W3, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 4 writes, in order. -/
abbrev W4 : List (Ref sig .tc) := [main_v150, main_v151, main_c_28, main_v152, main_v153, main_c_29, main_v154, main_v155, main_v156, main_v157, main_v158, main_v159, main_v160, main_v161, main_cst_30, main_v162, main_v163, main_v164, main_v165]
theorem skip4 (Z : Valuation τ sig (Elt F)) (b : Ref sig .tc) (hb : b ∉ W4) :
    after (P4 (F := F)) Z (Proc.devRef .tc b) = Z (Proc.devRef .tc b) :=
  after_of_writes_sub (W := W4) P4 Z (by
    simp only [P4, W4, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 5 writes, in order. -/
abbrev W5 : List (Ref sig .tc) := [main_v166, main_v167, main_c_31, main_v168, main_v169, main_c_32, main_v170, main_v171, main_v172, main_v173, main_v174, main_v175, main_v176, main_v177, main_cst_33, main_v178, main_v179, main_v180, main_v181]
theorem skip5 (Z : Valuation τ sig (Elt F)) (b : Ref sig .tc) (hb : b ∉ W5) :
    after (P5 (F := F)) Z (Proc.devRef .tc b) = Z (Proc.devRef .tc b) :=
  after_of_writes_sub (W := W5) P5 Z (by
    simp only [P5, W5, List.Forall, nullary_writes, unary_writes, binary_writes, ternary_writes, quaternary_writes, reshape_writes, binaryIndexed_writes, Finset.singleton_subset_iff, List.mem_toFinset]
    repeat' apply And.intro
    all_goals exact List.mem_map_of_mem (by decide)) hb

/-- The buffers piece 6 writes, in order. -/
abbrev W6 : List (Ref sig .tc) := [main_call2_cst, main_call2_v0, main_v182, main_call3_cst, main_call3_v0, main_v183]
theorem skip6 (Z : Valuation τ sig (Elt F)) (b : Ref sig .tc) (hb : b ∉ W6) :
    after (P6 (F := F)) Z (Proc.devRef .tc b) = Z (Proc.devRef .tc b) :=
  after_of_writes_sub (W := W6) P6 Z (by
    simp only [P6, W6, List.Forall, nullary_writes, unary_writes, binary_writes, ternary_writes, quaternary_writes, reshape_writes, binaryIndexed_writes, Finset.singleton_subset_iff, List.mem_toFinset]
    repeat' apply And.intro
    all_goals exact List.mem_map_of_mem (by decide)) hb

end Cert.ReferenceIdeal.RunV.L2

end
-- ==== Proof.RefLayer2.lean ====
/-
  The reference's second layer, read from any starting contents: operations 114 to 227 leave the drug table the decoders
  read, a function of the first layer's two tables and of the arguments.

  The layer is read piece by piece: each relation's piece leaves its messages (added to the running sum of the
  relations before it) in its last buffer, a function of the first layer's table and the argument arrays it
  reads and of the running sum; the pieces before it write none of those, so the running sum after each piece
  is a function of the starting contents at those buffers alone.  The last piece takes the positive part.  The
  layer's first piece computes a second gene table that nothing reads afterwards.
-/
import proofs.«105939_j23287312679606_2_alg».proof.Proof.RefPieces2
import proofs.«105939_j23287312679606_2_alg».proof.Proof.TableR
import Idealize.ShloMosaic.Lib.StableHlo.Run

set_option maxRecDepth 16384

noncomputable section

namespace Cert.ReferenceIdeal.RunV

open Cert.ReferenceIdeal Cert.ReferenceIdeal.Gen Cert.ReferenceIdeal.ValueP
open Idealize.ShloMosaic Idealize.ShloMosaic.TcCoe Idealize.SL.Sem Idealize.ShloMosaic.StableHlo

namespace L2

/-! ## Each piece at its last buffer, from any contents -/

/-- Piece 1: the messages from genes into drugs. -/
theorem r1 (Z : Valuation τ sig (Elt Ideal)) :
    after (P1 (F := Ideal)) Z (Proc.devRef .tc main_v117)
      = TableV.msg_gd2 (Z (Proc.devRef .tc main_v90)) (Z (Proc.devRef .tc main_arg16)) (TableV.wrap_20000_400000 (Z (Proc.devRef .tc main_arg3))) (TableV.col_400000 (Z (Proc.devRef .tc main_arg4))) := by
  dsimp only [P1]
  after_results_simp <;> rfl

/-- Piece 2: a relation among drugs, its messages added to the running sum. -/
theorem r2 (Z : Valuation τ sig (Elt Ideal)) :
    after (P2 (F := Ideal)) Z (Proc.devRef .tc main_v133)
      = addf (F := Ideal) (Z (Proc.devRef .tc main_v117)) (TableV.msg_dd2 (Z (Proc.devRef .tc main_v91)) (Z (Proc.devRef .tc main_arg17)) (TableV.wrap_4000_500000 (TableV.edgeRow_500000_0 (Z (Proc.devRef .tc main_arg5)))) (TableV.col_500000 (TableV.edgeRow_500000_1 (Z (Proc.devRef .tc main_arg5))))) := by
  dsimp only [P2]
  after_results_simp <;> rfl

/-- Piece 3: a relation among drugs, its messages added to the running sum. -/
theorem r3 (Z : Valuation τ sig (Elt Ideal)) :
    after (P3 (F := Ideal)) Z (Proc.devRef .tc main_v149)
      = addf (F := Ideal) (Z (Proc.devRef .tc main_v133)) (TableV.msg_dd2 (Z (Proc.devRef .tc main_v91)) (Z (Proc.devRef .tc main_arg18)) (TableV.wrap_4000_500000 (TableV.edgeRow_500000_0 (Z (Proc.devRef .tc main_arg6)))) (TableV.col_500000 (TableV.edgeRow_500000_1 (Z (Proc.devRef .tc main_arg6))))) := by
  dsimp only [P3]
  after_results_simp <;> rfl

/-- Piece 4: a relation among drugs, its messages added to the running sum. -/
theorem r4 (Z : Valuation τ sig (Elt Ideal)) :
    after (P4 (F := Ideal)) Z (Proc.devRef .tc main_v165)
      = addf (F := Ideal) (Z (Proc.devRef .tc main_v149)) (TableV.msg_dd2 (Z (Proc.devRef .tc main_v91)) (Z (Proc.devRef .tc main_arg19)) (TableV.wrap_4000_500000 (TableV.edgeRow_500000_0 (Z (Proc.devRef .tc main_arg7)))) (TableV.col_500000 (TableV.edgeRow_500000_1 (Z (Proc.devRef .tc main_arg7))))) := by
  dsimp only [P4]
  after_results_simp <;> rfl

/-- Piece 5: a relation among drugs, its messages added to the running sum. -/
theorem r5 (Z : Valuation τ sig (Elt Ideal)) :
    after (P5 (F := Ideal)) Z (Proc.devRef .tc main_v181)
      = addf (F := Ideal) (Z (Proc.devRef .tc main_v165)) (TableV.msg_dd2 (Z (Proc.devRef .tc main_v91)) (Z (Proc.devRef .tc main_arg20)) (TableV.wrap_4000_500000 (TableV.edgeRow_500000_0 (Z (Proc.devRef .tc main_arg8)))) (TableV.col_500000 (TableV.edgeRow_500000_1 (Z (Proc.devRef .tc main_arg8))))) := by
  dsimp only [P5]
  after_results_simp <;> rfl

/-- Piece 6 at `main_v183`: the positive part of `main_v181`. -/
theorem r6_main_v183 (Z : Valuation τ sig (Elt Ideal)) :
    after (P6 (F := Ideal)) Z (Proc.devRef .tc main_v183)
      = TableV.relu_4000 (Z (Proc.devRef .tc main_v181)) := by
  dsimp only [P6]
  after_results_simp <;> rfl

/-! ## A buffer the first pieces do not write, after them -/
theorem pre1 (Z : Valuation τ sig (Elt Ideal)) (b : Ref sig .tc) (h0 : b ∉ W0) :
    after (P0 (F := Ideal)) (Z) (Proc.devRef .tc b) = Z (Proc.devRef .tc b) :=
  skip0 Z b h0
theorem pre2 (Z : Valuation τ sig (Elt Ideal)) (b : Ref sig .tc) (h0 : b ∉ W0) (h1 : b ∉ W1) :
    after (P1 (F := Ideal)) (after (P0 (F := Ideal)) (Z)) (Proc.devRef .tc b) = Z (Proc.devRef .tc b) :=
  (skip1 _ b h1).trans (pre1 Z b h0)
theorem pre3 (Z : Valuation τ sig (Elt Ideal)) (b : Ref sig .tc) (h0 : b ∉ W0) (h1 : b ∉ W1) (h2 : b ∉ W2) :
    after (P2 (F := Ideal)) (after (P1 (F := Ideal)) (after (P0 (F := Ideal)) (Z))) (Proc.devRef .tc b) = Z (Proc.devRef .tc b) :=
  (skip2 _ b h2).trans (pre2 Z b h0 h1)
theorem pre4 (Z : Valuation τ sig (Elt Ideal)) (b : Ref sig .tc) (h0 : b ∉ W0) (h1 : b ∉ W1) (h2 : b ∉ W2) (h3 : b ∉ W3) :
    after (P3 (F := Ideal)) (after (P2 (F := Ideal)) (after (P1 (F := Ideal)) (after (P0 (F := Ideal)) (Z)))) (Proc.devRef .tc b) = Z (Proc.devRef .tc b) :=
  (skip3 _ b h3).trans (pre3 Z b h0 h1 h2)
theorem pre5 (Z : Valuation τ sig (Elt Ideal)) (b : Ref sig .tc) (h0 : b ∉ W0) (h1 : b ∉ W1) (h2 : b ∉ W2) (h3 : b ∉ W3) (h4 : b ∉ W4) :
    after (P4 (F := Ideal)) (after (P3 (F := Ideal)) (after (P2 (F := Ideal)) (after (P1 (F := Ideal)) (after (P0 (F := Ideal)) (Z))))) (Proc.devRef .tc b) = Z (Proc.devRef .tc b) :=
  (skip4 _ b h4).trans (pre4 Z b h0 h1 h2 h3)
theorem pre6 (Z : Valuation τ sig (Elt Ideal)) (b : Ref sig .tc) (h0 : b ∉ W0) (h1 : b ∉ W1) (h2 : b ∉ W2) (h3 : b ∉ W3) (h4 : b ∉ W4) (h5 : b ∉ W5) :
    after (P5 (F := Ideal)) (after (P4 (F := Ideal)) (after (P3 (F := Ideal)) (after (P2 (F := Ideal)) (after (P1 (F := Ideal)) (after (P0 (F := Ideal)) (Z)))))) (Proc.devRef .tc b) = Z (Proc.devRef .tc b) :=
  (skip5 _ b h5).trans (pre5 Z b h0 h1 h2 h3 h4)

/-! ## The running sum after each piece, over the starting contents -/

theorem sum1 (Z : Valuation τ sig (Elt Ideal)) :
    after (P1 (F := Ideal)) (after (P0 (F := Ideal)) (Z)) (Proc.devRef .tc main_v117)
      = TableV.msg_gd2 (Z (Proc.devRef .tc main_v90)) (Z (Proc.devRef .tc main_arg16)) (TableV.wrap_20000_400000 (Z (Proc.devRef .tc main_arg3))) (TableV.col_400000 (Z (Proc.devRef .tc main_arg4))) :=
  (r1 _).trans (by
    rw [show after (P0 (F := Ideal)) (Z) (Proc.devRef .tc main_v90) = Z (Proc.devRef .tc main_v90) from pre1 Z main_v90 (by decide),
      show after (P0 (F := Ideal)) (Z) (Proc.devRef .tc main_arg16) = Z (Proc.devRef .tc main_arg16) from pre1 Z main_arg16 (by decide),
      show after (P0 (F := Ideal)) (Z) (Proc.devRef .tc main_arg3) = Z (Proc.devRef .tc main_arg3) from pre1 Z main_arg3 (by decide),
      show after (P0 (F := Ideal)) (Z) (Proc.devRef .tc main_arg4) = Z (Proc.devRef .tc main_arg4) from pre1 Z main_arg4 (by decide)])

theorem sum2 (Z : Valuation τ sig (Elt Ideal)) :
    after (P2 (F := Ideal)) (after (P1 (F := Ideal)) (after (P0 (F := Ideal)) (Z))) (Proc.devRef .tc main_v133)
      = addf (F := Ideal) (TableV.msg_gd2 (Z (Proc.devRef .tc main_v90)) (Z (Proc.devRef .tc main_arg16)) (TableV.wrap_20000_400000 (Z (Proc.devRef .tc main_arg3))) (TableV.col_400000 (Z (Proc.devRef .tc main_arg4)))) (TableV.msg_dd2 (Z (Proc.devRef .tc main_v91)) (Z (Proc.devRef .tc main_arg17)) (TableV.wrap_4000_500000 (TableV.edgeRow_500000_0 (Z (Proc.devRef .tc main_arg5)))) (TableV.col_500000 (TableV.edgeRow_500000_1 (Z (Proc.devRef .tc main_arg5))))) :=
  (r2 _).trans (by
    rw [sum1 Z,
      show after (P1 (F := Ideal)) (after (P0 (F := Ideal)) (Z)) (Proc.devRef .tc main_v91) = Z (Proc.devRef .tc main_v91) from pre2 Z main_v91 (by decide) (by decide),
      show after (P1 (F := Ideal)) (after (P0 (F := Ideal)) (Z)) (Proc.devRef .tc main_arg17) = Z (Proc.devRef .tc main_arg17) from pre2 Z main_arg17 (by decide) (by decide),
      show after (P1 (F := Ideal)) (after (P0 (F := Ideal)) (Z)) (Proc.devRef .tc main_arg5) = Z (Proc.devRef .tc main_arg5) from pre2 Z main_arg5 (by decide) (by decide)])

theorem sum3 (Z : Valuation τ sig (Elt Ideal)) :
    after (P3 (F := Ideal)) (after (P2 (F := Ideal)) (after (P1 (F := Ideal)) (after (P0 (F := Ideal)) (Z)))) (Proc.devRef .tc main_v149)
      = addf (F := Ideal) (addf (F := Ideal) (TableV.msg_gd2 (Z (Proc.devRef .tc main_v90)) (Z (Proc.devRef .tc main_arg16)) (TableV.wrap_20000_400000 (Z (Proc.devRef .tc main_arg3))) (TableV.col_400000 (Z (Proc.devRef .tc main_arg4)))) (TableV.msg_dd2 (Z (Proc.devRef .tc main_v91)) (Z (Proc.devRef .tc main_arg17)) (TableV.wrap_4000_500000 (TableV.edgeRow_500000_0 (Z (Proc.devRef .tc main_arg5)))) (TableV.col_500000 (TableV.edgeRow_500000_1 (Z (Proc.devRef .tc main_arg5)))))) (TableV.msg_dd2 (Z (Proc.devRef .tc main_v91)) (Z (Proc.devRef .tc main_arg18)) (TableV.wrap_4000_500000 (TableV.edgeRow_500000_0 (Z (Proc.devRef .tc main_arg6)))) (TableV.col_500000 (TableV.edgeRow_500000_1 (Z (Proc.devRef .tc main_arg6))))) :=
  (r3 _).trans (by
    rw [sum2 Z,
      show after (P2 (F := Ideal)) (after (P1 (F := Ideal)) (after (P0 (F := Ideal)) (Z))) (Proc.devRef .tc main_v91) = Z (Proc.devRef .tc main_v91) from pre3 Z main_v91 (by decide) (by decide) (by decide),
      show after (P2 (F := Ideal)) (after (P1 (F := Ideal)) (after (P0 (F := Ideal)) (Z))) (Proc.devRef .tc main_arg18) = Z (Proc.devRef .tc main_arg18) from pre3 Z main_arg18 (by decide) (by decide) (by decide),
      show after (P2 (F := Ideal)) (after (P1 (F := Ideal)) (after (P0 (F := Ideal)) (Z))) (Proc.devRef .tc main_arg6) = Z (Proc.devRef .tc main_arg6) from pre3 Z main_arg6 (by decide) (by decide) (by decide)])

theorem sum4 (Z : Valuation τ sig (Elt Ideal)) :
    after (P4 (F := Ideal)) (after (P3 (F := Ideal)) (after (P2 (F := Ideal)) (after (P1 (F := Ideal)) (after (P0 (F := Ideal)) (Z))))) (Proc.devRef .tc main_v165)
      = addf (F := Ideal) (addf (F := Ideal) (addf (F := Ideal) (TableV.msg_gd2 (Z (Proc.devRef .tc main_v90)) (Z (Proc.devRef .tc main_arg16)) (TableV.wrap_20000_400000 (Z (Proc.devRef .tc main_arg3))) (TableV.col_400000 (Z (Proc.devRef .tc main_arg4)))) (TableV.msg_dd2 (Z (Proc.devRef .tc main_v91)) (Z (Proc.devRef .tc main_arg17)) (TableV.wrap_4000_500000 (TableV.edgeRow_500000_0 (Z (Proc.devRef .tc main_arg5)))) (TableV.col_500000 (TableV.edgeRow_500000_1 (Z (Proc.devRef .tc main_arg5)))))) (TableV.msg_dd2 (Z (Proc.devRef .tc main_v91)) (Z (Proc.devRef .tc main_arg18)) (TableV.wrap_4000_500000 (TableV.edgeRow_500000_0 (Z (Proc.devRef .tc main_arg6)))) (TableV.col_500000 (TableV.edgeRow_500000_1 (Z (Proc.devRef .tc main_arg6)))))) (TableV.msg_dd2 (Z (Proc.devRef .tc main_v91)) (Z (Proc.devRef .tc main_arg19)) (TableV.wrap_4000_500000 (TableV.edgeRow_500000_0 (Z (Proc.devRef .tc main_arg7)))) (TableV.col_500000 (TableV.edgeRow_500000_1 (Z (Proc.devRef .tc main_arg7))))) :=
  (r4 _).trans (by
    rw [sum3 Z,
      show after (P3 (F := Ideal)) (after (P2 (F := Ideal)) (after (P1 (F := Ideal)) (after (P0 (F := Ideal)) (Z)))) (Proc.devRef .tc main_v91) = Z (Proc.devRef .tc main_v91) from pre4 Z main_v91 (by decide) (by decide) (by decide) (by decide),
      show after (P3 (F := Ideal)) (after (P2 (F := Ideal)) (after (P1 (F := Ideal)) (after (P0 (F := Ideal)) (Z)))) (Proc.devRef .tc main_arg19) = Z (Proc.devRef .tc main_arg19) from pre4 Z main_arg19 (by decide) (by decide) (by decide) (by decide),
      show after (P3 (F := Ideal)) (after (P2 (F := Ideal)) (after (P1 (F := Ideal)) (after (P0 (F := Ideal)) (Z)))) (Proc.devRef .tc main_arg7) = Z (Proc.devRef .tc main_arg7) from pre4 Z main_arg7 (by decide) (by decide) (by decide) (by decide)])

theorem sum5 (Z : Valuation τ sig (Elt Ideal)) :
    after (P5 (F := Ideal)) (after (P4 (F := Ideal)) (after (P3 (F := Ideal)) (after (P2 (F := Ideal)) (after (P1 (F := Ideal)) (after (P0 (F := Ideal)) (Z)))))) (Proc.devRef .tc main_v181)
      = addf (F := Ideal) (addf (F := Ideal) (addf (F := Ideal) (addf (F := Ideal) (TableV.msg_gd2 (Z (Proc.devRef .tc main_v90)) (Z (Proc.devRef .tc main_arg16)) (TableV.wrap_20000_400000 (Z (Proc.devRef .tc main_arg3))) (TableV.col_400000 (Z (Proc.devRef .tc main_arg4)))) (TableV.msg_dd2 (Z (Proc.devRef .tc main_v91)) (Z (Proc.devRef .tc main_arg17)) (TableV.wrap_4000_500000 (TableV.edgeRow_500000_0 (Z (Proc.devRef .tc main_arg5)))) (TableV.col_500000 (TableV.edgeRow_500000_1 (Z (Proc.devRef .tc main_arg5)))))) (TableV.msg_dd2 (Z (Proc.devRef .tc main_v91)) (Z (Proc.devRef .tc main_arg18)) (TableV.wrap_4000_500000 (TableV.edgeRow_500000_0 (Z (Proc.devRef .tc main_arg6)))) (TableV.col_500000 (TableV.edgeRow_500000_1 (Z (Proc.devRef .tc main_arg6)))))) (TableV.msg_dd2 (Z (Proc.devRef .tc main_v91)) (Z (Proc.devRef .tc main_arg19)) (TableV.wrap_4000_500000 (TableV.edgeRow_500000_0 (Z (Proc.devRef .tc main_arg7)))) (TableV.col_500000 (TableV.edgeRow_500000_1 (Z (Proc.devRef .tc main_arg7)))))) (TableV.msg_dd2 (Z (Proc.devRef .tc main_v91)) (Z (Proc.devRef .tc main_arg20)) (TableV.wrap_4000_500000 (TableV.edgeRow_500000_0 (Z (Proc.devRef .tc main_arg8)))) (TableV.col_500000 (TableV.edgeRow_500000_1 (Z (Proc.devRef .tc main_arg8))))) :=
  (r5 _).trans (by
    rw [sum4 Z,
      show after (P4 (F := Ideal)) (after (P3 (F := Ideal)) (after (P2 (F := Ideal)) (after (P1 (F := Ideal)) (after (P0 (F := Ideal)) (Z))))) (Proc.devRef .tc main_v91) = Z (Proc.devRef .tc main_v91) from pre5 Z main_v91 (by decide) (by decide) (by decide) (by decide) (by decide),
      show after (P4 (F := Ideal)) (after (P3 (F := Ideal)) (after (P2 (F := Ideal)) (after (P1 (F := Ideal)) (after (P0 (F := Ideal)) (Z))))) (Proc.devRef .tc main_arg20) = Z (Proc.devRef .tc main_arg20) from pre5 Z main_arg20 (by decide) (by decide) (by decide) (by decide) (by decide),
      show after (P4 (F := Ideal)) (after (P3 (F := Ideal)) (after (P2 (F := Ideal)) (after (P1 (F := Ideal)) (after (P0 (F := Ideal)) (Z))))) (Proc.devRef .tc main_arg8) = Z (Proc.devRef .tc main_arg8) from pre5 Z main_arg8 (by decide) (by decide) (by decide) (by decide) (by decide)])

end L2

/-! ## The second layer, from any contents -/

theorem layer2_drug (Z : Valuation τ sig (Elt Ideal)) :
    after (layer2 (F := Ideal)) Z (Proc.devRef .tc main_v183)
      = TableV.relu_4000 (TableV.drugSum2 (Z (Proc.devRef .tc main_v90)) (Z (Proc.devRef .tc main_v91))
          (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg16)) (Z (Proc.devRef .tc main_arg17)) (Z (Proc.devRef .tc main_arg18)) (Z (Proc.devRef .tc main_arg19)) (Z (Proc.devRef .tc main_arg20))) := by
  rw [L2.run]
  exact (L2.r6_main_v183 _).trans (congrArg TableV.relu_4000 (L2.sum5 Z))

end Cert.ReferenceIdeal.RunV

end
-- ==== Proof.RefDecoders.lean ====
/-
  The reference's two edge decoders over a node table `z`, and their value at one edge.

  Both gather, for every edge, the table's rows at the edge's node numbers (a negative number counted from
  the end, any number clamped into the table). The bilinear decoder multiplies the source rows by the relation
  matrix, multiplies entry by entry with the target rows and sums each edge's 64 products. The
  diagonal-rescaled decoder reads one row for both ends, scales it by `v` entry by entry, multiplies by the
  matrix, scales again by `v`, multiplies entry by entry with the row and sums. Read at edge `e` these are the
  sums `bilinearScore` and `dedicomScore` at the rows the edge selects; the sum starts from the real zero.
-/
import proofs.«105939_j23287312679606_2_alg».proof.Proof.TableR
import proofs.«105939_j23287312679606_2_alg».proof.Proof.ScoreSpec
import proofs.«105939_j23287312679606_2_alg».proof.Proof.LibRowGather
import proofs.«105939_j23287312679606_2_alg».proof.Proof.LibDotIdx
import Idealize.ShloMosaic.PureOps.Ideal.Laws
import Idealize.ShloMosaic.Lib.ValueIdx

noncomputable section

namespace Cert.ReferenceIdeal.DecV

open Idealize.ShloMosaic Idealize.ShloMosaic.ValueIdx
open Cert.LibRowGather Cert.LibDotIdx Cert.ScoreSpec
open Cert.ReferenceIdeal Cert.ReferenceIdeal.TableV

theorem pos4000 : 0 < 4000 := by decide

/-- The table's rows at the node numbers `i`, one row per edge. -/
def rowsOf (z : FVec Ideal S4000x64 .f32) (i : IVec S500000 32) : FVec Ideal S500000x64 .f32 :=
  Host.gather gather_S4000x64_S500000x1_S500000x64_1_0_n_n_0_1_164 z (wrap_4000_500000 i)

/-- Edge `e`'s row is the table's row at the clamped node number. -/
theorem rowsOf_apply (z : FVec Ideal S4000x64 .f32) (i : IVec S500000 32) (e : Fin 500000) (j : Fin 64) :
    rowsOf z i (ix2 e j) = z (ix2 (rowSel 4000 pos4000 (wrap_4000_500000 i) e) j) :=
  gather_rows_apply pos4000 _ z (wrap_4000_500000 i) e j

/-- The scale vector repeated along the edges. -/
def scaleRows (v : FVec Ideal S64 .f32) : FVec Ideal S500000x64 .f32 :=
  broadcastInDim S500000x64 ![0, 1] Gen.bcast_S1x64_S500000x64_0_1 (broadcastInDim S1x64 ![1] Gen.bcast_S64_S1x64_1 v)

theorem scaleRows_apply (v : FVec Ideal S64 .f32) (e : Fin 500000) (j : Fin 64) :
    scaleRows v (ix2 e j) = v (ix1 j) := by
  unfold scaleRows broadcastInDim
  refine congrArg v ?_
  funext a
  match a with
  | ⟨0, _⟩ => rfl

/-- A product of per-edge rows with a 64 x 64 matrix, read at `(e, j)`: the sum over the contracted feature. -/
theorem rowsDot_apply (A : FVec Ideal S500000x64 .f32) (M : FVec Ideal S64x64 .f32) (e : Fin 500000) (j : Fin 64) :
    Host.dotGeneral (F := Ideal) dot_S500000x64_S64x64_S500000x64_1_0_0_1_n_n none A M (ix2 e j)
      = ∑ k : Fin 64, A (ix2 e k) * M (ix2 k j) := by
  simp only [Host.dotGeneral]
  rw [Ideal.dotGeneral_apply,
    ← Equiv.sum_comp (contrEquiv1 dot_S500000x64_S64x64_S500000x64_1_0_0_1_n_n 64 rfl rfl).symm]
  refine Finset.sum_congr rfl fun k _ => ?_
  have hk := contrEquiv1_symm_val dot_S500000x64_S64x64_S500000x64_1_0_0_1_n_n 64 rfl rfl k
  have el : dot_S500000x64_S64x64_S500000x64_1_0_0_1_n_n.lhsIdx (ix2 e j)
      ((contrEquiv1 dot_S500000x64_S64x64_S500000x64_1_0_0_1_n_n 64 rfl rfl).symm k) = ix2 e k := by
    funext a
    refine Fin.ext ?_
    match a with
    | ⟨0, _⟩ =>
      exact lhsIdx_val_of_free dot_S500000x64_S64x64_S500000x64_1_0_0_1_n_n 0 (by decide) (by decide) _ _ 0 (by decide)
    | ⟨1, _⟩ =>
      exact ((dot_S500000x64_S64x64_S500000x64_1_0_0_1_n_n).lhsIdx_val_of_single rfl _ _).trans hk
  have er : dot_S500000x64_S64x64_S500000x64_1_0_0_1_n_n.rhsIdx (ix2 e j)
      ((contrEquiv1 dot_S500000x64_S64x64_S500000x64_1_0_0_1_n_n 64 rfl rfl).symm k) = ix2 k j := by
    funext a
    refine Fin.ext ?_
    match a with
    | ⟨0, _⟩ =>
      exact ((dot_S500000x64_S64x64_S500000x64_1_0_0_1_n_n).rhsIdx_val_of_single rfl _ _).trans hk
    | ⟨1, _⟩ =>
      exact rhsIdx_val_of_free dot_S500000x64_S64x64_S500000x64_1_0_0_1_n_n 1 (by decide) (by decide) _ _ 1 (by decide)
  rw [el, er]

/-- A sum over the 64 features of each edge, from the real zero, read at edge `e`. -/
theorem rowSum_apply (X : FVec Ideal S500000x64 .f32) (e : Fin 500000) :
    Host.reduceAdd (F := Ideal) X (constant (F := Ideal) S_ .f32 0x00000000#32) Gen.reducesTo_S500000x64_S500000_d1 Gen.h_S_ (ix1 e)
      = ∑ j : Fin 64, X (ix2 e j) := by
  have hRed : S500000x64.Reduces [1] S500000 := by decide
  refine (Ideal.hostReduceAdd_single Gen.reducesTo_S500000x64_S500000_d1 hRed X _ (ix1 e)).trans ?_
  show Ideal.ofBits .f32 0x00000000#32 + ∑ j : Fin 64, X (hRed.lift (ix1 e) j) = _
  rw [Ideal.ofBits_zero_f32, zero_add]
  refine Finset.sum_congr rfl fun j _ => congrArg X ?_
  funext a
  match a with
  | ⟨0, _⟩ => rfl
  | ⟨1, _⟩ => rfl

/-- The bilinear decoder over a table `z`, the edge list `x5` and the relation matrix `M`. -/
def bilinearDec (z : FVec Ideal S4000x64 .f32) (x5 : IVec S2x500000 32) (M : FVec Ideal S64x64 .f32) :
    FVec Ideal S500000 .f32 :=
  Host.reduceAdd (F := Ideal)
    (mulf (F := Ideal)
      (Host.dotGeneral (F := Ideal) dot_S500000x64_S64x64_S500000x64_1_0_0_1_n_n none (rowsOf z (edgeRow_500000_0 x5)) M)
      (rowsOf z (edgeRow_500000_1 x5)))
    (constant (F := Ideal) S_ .f32 0x00000000#32) Gen.reducesTo_S500000x64_S500000_d1 Gen.h_S_

/-- The bilinear decoder at edge `e` is the bilinear score of the rows the edge's two node numbers select. -/
theorem bilinearDec_apply (z : FVec Ideal S4000x64 .f32) (x5 : IVec S2x500000 32) (M : FVec Ideal S64x64 .f32)
    (e : Fin 500000) :
    bilinearDec z x5 M (ix1 e)
      = bilinearScore z M (rowSel 4000 pos4000 (wrap_4000_500000 (edgeRow_500000_0 x5)) e)
          (rowSel 4000 pos4000 (wrap_4000_500000 (edgeRow_500000_1 x5)) e) := by
  unfold bilinearDec bilinearScore
  rw [rowSum_apply]
  refine Finset.sum_congr rfl fun j _ => ?_
  show Host.dotGeneral (F := Ideal) dot_S500000x64_S64x64_S500000x64_1_0_0_1_n_n none (rowsOf z (edgeRow_500000_0 x5)) M (ix2 e j)
    * rowsOf z (edgeRow_500000_1 x5) (ix2 e j) = _
  rw [rowsDot_apply, rowsOf_apply]
  refine congrArg (· * _) (Finset.sum_congr rfl fun k _ => ?_)
  rw [rowsOf_apply]

/-- The diagonal-rescaled decoder over a table `z`, the edge list `x7`, the scale `v` and the matrix `R`. -/
def dedicomDec (z : FVec Ideal S4000x64 .f32) (x7 : IVec S2x500000 32) (v : FVec Ideal S64 .f32)
    (R : FVec Ideal S64x64 .f32) : FVec Ideal S500000 .f32 :=
  Host.reduceAdd (F := Ideal)
    (mulf (F := Ideal)
      (mulf (F := Ideal)
        (Host.dotGeneral (F := Ideal) dot_S500000x64_S64x64_S500000x64_1_0_0_1_n_n none
          (mulf (F := Ideal) (rowsOf z (edgeRow_500000_0 x7)) (scaleRows v)) R)
        (scaleRows v))
      (rowsOf z (edgeRow_500000_0 x7)))
    (constant (F := Ideal) S_ .f32 0x00000000#32) Gen.reducesTo_S500000x64_S500000_d1 Gen.h_S_

/-- The diagonal-rescaled decoder at edge `e` is the diagonal-rescaled score of the row the edge selects. -/
theorem dedicomDec_apply (z : FVec Ideal S4000x64 .f32) (x7 : IVec S2x500000 32) (v : FVec Ideal S64 .f32)
    (R : FVec Ideal S64x64 .f32) (e : Fin 500000) :
    dedicomDec z x7 v R (ix1 e)
      = dedicomScore z v R (rowSel 4000 pos4000 (wrap_4000_500000 (edgeRow_500000_0 x7)) e) := by
  unfold dedicomDec dedicomScore
  rw [rowSum_apply]
  refine Finset.sum_congr rfl fun j _ => ?_
  show (Host.dotGeneral (F := Ideal) dot_S500000x64_S64x64_S500000x64_1_0_0_1_n_n none
      (mulf (F := Ideal) (rowsOf z (edgeRow_500000_0 x7)) (scaleRows v)) R (ix2 e j) * scaleRows v (ix2 e j))
    * rowsOf z (edgeRow_500000_0 x7) (ix2 e j) = _
  rw [rowsDot_apply, scaleRows_apply, rowsOf_apply]
  refine congrArg (fun t => (t * _) * _) (Finset.sum_congr rfl fun k _ => ?_)
  show (rowsOf z (edgeRow_500000_0 x7) (ix2 e k) * scaleRows v (ix2 e k)) * R (ix2 k j) = _
  rw [rowsOf_apply, scaleRows_apply]

end Cert.ReferenceIdeal.DecV

end
-- ==== Proof.RefDecs.lean ====
/-
  The reference's four decoders, read from any starting contents: operations 228 to 343 leave, in each result buffer, the
  decoder of the drug table's buffer, of one edge list and of that relation's parameters.
-/
import proofs.«105939_j23287312679606_2_alg».proof.Proof.RefOps
import proofs.«105939_j23287312679606_2_alg».proof.Proof.RefDecoders
import Idealize.ShloMosaic.Lib.StableHlo.Run

set_option maxRecDepth 16384

noncomputable section

namespace Cert.ReferenceIdeal.RunV

open Cert.ReferenceIdeal Cert.ReferenceIdeal.Gen Cert.ReferenceIdeal.ValueP
open Idealize.ShloMosaic Idealize.ShloMosaic.TcCoe Idealize.SL.Sem Idealize.ShloMosaic.StableHlo

/-! ## The decoders, from any contents -/

set_option maxHeartbeats 16000000 in
theorem dec0 (Z : Valuation τ sig (Elt Ideal)) :
    after (decoders (F := Ideal)) Z (Proc.devRef .tc main_v204)
      = DecV.bilinearDec (Z (Proc.devRef .tc main_v183)) (Z (Proc.devRef .tc main_arg5)) (Z (Proc.devRef .tc main_arg21)) := by
  simp only [decoders]
  after_results_simp
  rfl

set_option maxHeartbeats 16000000 in
theorem dec1 (Z : Valuation τ sig (Elt Ideal)) :
    after (decoders (F := Ideal)) Z (Proc.devRef .tc main_v225)
      = DecV.bilinearDec (Z (Proc.devRef .tc main_v183)) (Z (Proc.devRef .tc main_arg6)) (Z (Proc.devRef .tc main_arg22)) := by
  simp only [decoders]
  after_results_simp
  rfl

set_option maxHeartbeats 16000000 in
theorem dec2 (Z : Valuation τ sig (Elt Ideal)) :
    after (decoders (F := Ideal)) Z (Proc.devRef .tc main_v252)
      = DecV.dedicomDec (Z (Proc.devRef .tc main_v183)) (Z (Proc.devRef .tc main_arg7)) (Z (Proc.devRef .tc main_arg24)) (Z (Proc.devRef .tc main_arg23)) := by
  simp only [decoders]
  after_results_simp
  rfl

set_option maxHeartbeats 16000000 in
theorem dec3 (Z : Valuation τ sig (Elt Ideal)) :
    after (decoders (F := Ideal)) Z (Proc.devRef .tc main_v279)
      = DecV.dedicomDec (Z (Proc.devRef .tc main_v183)) (Z (Proc.devRef .tc main_arg8)) (Z (Proc.devRef .tc main_arg25)) (Z (Proc.devRef .tc main_arg23)) := by
  simp only [decoders]
  after_results_simp
  rfl

end Cert.ReferenceIdeal.RunV

end
-- ==== Proof.RefKeep1.lean ====
/-
  A buffer that the reference's first 114 operations do not write holds after them what it held before: each
  operation rewrites its own result buffer only.
-/
import proofs.«105939_j23287312679606_2_alg».proof.Proof.RefOps
import Idealize.ShloMosaic.Lib.StableHlo.Run
import Idealize.ShloMosaic.PureOps.Ideal

set_option maxRecDepth 16384

noncomputable section

namespace Cert.ReferenceIdeal.RunV

open Cert.ReferenceIdeal Cert.ReferenceIdeal.Gen Cert.ReferenceIdeal.ValueP
open Idealize.ShloMosaic Idealize.ShloMosaic.TcCoe Idealize.SL.Sem Idealize.ShloMosaic.StableHlo

/-- The buffers the layer1 piece writes, in order. -/
abbrev layer1W : List (Ref sig .tc) := [main_v0, main_v1, main_c, main_v2, main_v3, main_c_0, main_v4, main_v5, main_v6, main_v7, main_v8, main_v9, main_v10, main_v11, main_cst, main_v12, main_v13, main_v14, main_c_1, main_v15, main_v16, main_c_2, main_v17, main_v18, main_v19, main_v20, main_v21, main_v22, main_cst_3, main_v23, main_v24, main_v25, main_v26, main_v27, main_c_4, main_v28, main_v29, main_c_5, main_v30, main_v31, main_v32, main_v33, main_v34, main_v35, main_v36, main_v37, main_cst_6, main_v38, main_v39, main_v40, main_v41, main_v42, main_v43, main_c_7, main_v44, main_v45, main_c_8, main_v46, main_v47, main_v48, main_v49, main_v50, main_v51, main_v52, main_v53, main_cst_9, main_v54, main_v55, main_v56, main_v57, main_v58, main_v59, main_c_10, main_v60, main_v61, main_c_11, main_v62, main_v63, main_v64, main_v65, main_v66, main_v67, main_v68, main_v69, main_cst_12, main_v70, main_v71, main_v72, main_v73, main_v74, main_v75, main_c_13, main_v76, main_v77, main_c_14, main_v78, main_v79, main_v80, main_v81, main_v82, main_v83, main_v84, main_v85, main_cst_15, main_v86, main_v87, main_v88, main_v89, main_call0_cst, main_call0_v0, main_v90, main_call1_cst, main_call1_v0, main_v91]

set_option maxHeartbeats 16000000 in
theorem layer1_writes : (layer1 (F := Ideal)).Forall fun op => op.writes ⊆ ((layer1W).map (Proc.devRef (τ := τ) .tc)).toFinset := by
  simp only [layer1, List.Forall, nullary_writes, unary_writes, binary_writes, ternary_writes, quaternary_writes,
    reshape_writes, binaryIndexed_writes, Finset.singleton_subset_iff, List.mem_toFinset]
  repeat' apply And.intro
  all_goals exact List.mem_map_of_mem (by decide)

/-- A buffer the layer1 piece does not write holds after it what it held before. -/
theorem keep1 (Z : Valuation τ sig (Elt Ideal)) (b : Ref sig .tc) (hb : b ∉ layer1W) :
    after (layer1 (F := Ideal)) Z (Proc.devRef .tc b) = Z (Proc.devRef .tc b) :=
  after_of_writes_sub (W := layer1W) layer1 Z layer1_writes hb

end Cert.ReferenceIdeal.RunV

end
-- ==== Proof.RefKeep2.lean ====
/-
  A buffer that the reference's operations 114 to 227 do not write holds after them what it held before.
-/
import proofs.«105939_j23287312679606_2_alg».proof.Proof.RefOps
import Idealize.ShloMosaic.Lib.StableHlo.Run
import Idealize.ShloMosaic.PureOps.Ideal

set_option maxRecDepth 16384

noncomputable section

namespace Cert.ReferenceIdeal.RunV

open Cert.ReferenceIdeal Cert.ReferenceIdeal.Gen Cert.ReferenceIdeal.ValueP
open Idealize.ShloMosaic Idealize.ShloMosaic.TcCoe Idealize.SL.Sem Idealize.ShloMosaic.StableHlo

/-- The buffers the layer2 piece writes, in order. -/
abbrev layer2W : List (Ref sig .tc) := [main_v92, main_v93, main_c_16, main_v94, main_v95, main_c_17, main_v96, main_v97, main_v98, main_v99, main_v100, main_v101, main_v102, main_v103, main_cst_18, main_v104, main_v105, main_v106, main_c_19, main_v107, main_v108, main_c_20, main_v109, main_v110, main_v111, main_v112, main_v113, main_v114, main_cst_21, main_v115, main_v116, main_v117, main_v118, main_v119, main_c_22, main_v120, main_v121, main_c_23, main_v122, main_v123, main_v124, main_v125, main_v126, main_v127, main_v128, main_v129, main_cst_24, main_v130, main_v131, main_v132, main_v133, main_v134, main_v135, main_c_25, main_v136, main_v137, main_c_26, main_v138, main_v139, main_v140, main_v141, main_v142, main_v143, main_v144, main_v145, main_cst_27, main_v146, main_v147, main_v148, main_v149, main_v150, main_v151, main_c_28, main_v152, main_v153, main_c_29, main_v154, main_v155, main_v156, main_v157, main_v158, main_v159, main_v160, main_v161, main_cst_30, main_v162, main_v163, main_v164, main_v165, main_v166, main_v167, main_c_31, main_v168, main_v169, main_c_32, main_v170, main_v171, main_v172, main_v173, main_v174, main_v175, main_v176, main_v177, main_cst_33, main_v178, main_v179, main_v180, main_v181, main_call2_cst, main_call2_v0, main_v182, main_call3_cst, main_call3_v0, main_v183]

set_option maxHeartbeats 16000000 in
theorem layer2_writes : (layer2 (F := Ideal)).Forall fun op => op.writes ⊆ ((layer2W).map (Proc.devRef (τ := τ) .tc)).toFinset := by
  simp only [layer2, List.Forall, nullary_writes, unary_writes, binary_writes, ternary_writes, quaternary_writes,
    reshape_writes, binaryIndexed_writes, Finset.singleton_subset_iff, List.mem_toFinset]
  repeat' apply And.intro
  all_goals exact List.mem_map_of_mem (by decide)

/-- A buffer the layer2 piece does not write holds after it what it held before. -/
theorem keep2 (Z : Valuation τ sig (Elt Ideal)) (b : Ref sig .tc) (hb : b ∉ layer2W) :
    after (layer2 (F := Ideal)) Z (Proc.devRef .tc b) = Z (Proc.devRef .tc b) :=
  after_of_writes_sub (W := layer2W) layer2 Z layer2_writes hb

end Cert.ReferenceIdeal.RunV

end
-- ==== Proof.RefKeep3.lean ====
/-
  A buffer that the reference's last 116 operations do not write holds after them what it held before.
-/
import proofs.«105939_j23287312679606_2_alg».proof.Proof.RefOps
import Idealize.ShloMosaic.Lib.StableHlo.Run
import Idealize.ShloMosaic.PureOps.Ideal

set_option maxRecDepth 16384

noncomputable section

namespace Cert.ReferenceIdeal.RunV

open Cert.ReferenceIdeal Cert.ReferenceIdeal.Gen Cert.ReferenceIdeal.ValueP
open Idealize.ShloMosaic Idealize.ShloMosaic.TcCoe Idealize.SL.Sem Idealize.ShloMosaic.StableHlo

/-- The buffers the decoders piece writes, in order. -/
abbrev decodersW : List (Ref sig .tc) := [main_v184, main_v185, main_c_34, main_v186, main_v187, main_c_35, main_v188, main_v189, main_v190, main_v191, main_v192, main_v193, main_v194, main_v195, main_c_36, main_v196, main_v197, main_c_37, main_v198, main_v199, main_v200, main_v201, main_v202, main_v203, main_cst_38, main_v204, main_v205, main_v206, main_c_39, main_v207, main_v208, main_c_40, main_v209, main_v210, main_v211, main_v212, main_v213, main_v214, main_v215, main_v216, main_c_41, main_v217, main_v218, main_c_42, main_v219, main_v220, main_v221, main_v222, main_v223, main_v224, main_cst_43, main_v225, main_v226, main_v227, main_c_44, main_v228, main_v229, main_c_45, main_v230, main_v231, main_v232, main_v233, main_v234, main_v235, main_v236, main_c_46, main_v237, main_v238, main_c_47, main_v239, main_v240, main_v241, main_v242, main_v243, main_v244, main_v245, main_v246, main_v247, main_v248, main_v249, main_v250, main_v251, main_cst_48, main_v252, main_v253, main_v254, main_c_49, main_v255, main_v256, main_c_50, main_v257, main_v258, main_v259, main_v260, main_v261, main_v262, main_v263, main_c_51, main_v264, main_v265, main_c_52, main_v266, main_v267, main_v268, main_v269, main_v270, main_v271, main_v272, main_v273, main_v274, main_v275, main_v276, main_v277, main_v278, main_cst_53, main_v279]

set_option maxHeartbeats 16000000 in
theorem decoders_writes : (decoders (F := Ideal)).Forall fun op => op.writes ⊆ ((decodersW).map (Proc.devRef (τ := τ) .tc)).toFinset := by
  simp only [decoders, List.Forall, nullary_writes, unary_writes, binary_writes, ternary_writes, quaternary_writes,
    reshape_writes, binaryIndexed_writes, Finset.singleton_subset_iff, List.mem_toFinset]
  repeat' apply And.intro
  all_goals exact List.mem_map_of_mem (by decide)

/-- A buffer the decoders piece does not write holds after it what it held before. -/
theorem keep3 (Z : Valuation τ sig (Elt Ideal)) (b : Ref sig .tc) (hb : b ∉ decodersW) :
    after (decoders (F := Ideal)) Z (Proc.devRef .tc b) = Z (Proc.devRef .tc b) :=
  after_of_writes_sub (W := decodersW) decoders Z decoders_writes hb

end Cert.ReferenceIdeal.RunV

end
-- ==== Proof.RefKeep.lean ====
/-
  The reference's run is its three pieces in order, and a buffer none of them writes — every argument — is kept throughout.
-/
import proofs.«105939_j23287312679606_2_alg».proof.Proof.RefKeep1
import proofs.«105939_j23287312679606_2_alg».proof.Proof.RefKeep2
import proofs.«105939_j23287312679606_2_alg».proof.Proof.RefKeep3

set_option maxRecDepth 16384

noncomputable section

namespace Cert.ReferenceIdeal.RunV

open Cert.ReferenceIdeal Cert.ReferenceIdeal.Gen Cert.ReferenceIdeal.ValueP
open Idealize.ShloMosaic Idealize.ShloMosaic.TcCoe Idealize.SL.Sem Idealize.ShloMosaic.StableHlo

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The whole run is the three pieces in order. -/
theorem after_ops (V : Valuation τ sig (Elt Ideal)) :
    after (ops (F := Ideal)) V = after (decoders (F := Ideal)) (after (layer2 (F := Ideal)) (after (layer1 (F := Ideal)) V)) := by
  rw [ops_split (F := Ideal), after_append, after_append]

end Cert.ReferenceIdeal.RunV

end
-- ==== Proof.RefRunLite.lean ====
/-
  The reference program's run: every weakly fair execution terminates, the four results are the decoders of the drug table
  of the arguments (the three pieces of the program composed), and the arguments end as launched.
-/
import proofs.«105939_j23287312679606_2_alg».proof.Proof.RefLayer1
import proofs.«105939_j23287312679606_2_alg».proof.Proof.RefLayer2
import proofs.«105939_j23287312679606_2_alg».proof.Proof.RefDecs
import proofs.«105939_j23287312679606_2_alg».proof.Proof.RefKeep

set_option maxRecDepth 16384

noncomputable section

namespace Cert.ReferenceIdeal.RunV

open Cert.ReferenceIdeal Cert.ReferenceIdeal.Gen Cert.ReferenceIdeal.ValueP
open Idealize.ShloMosaic Idealize.ShloMosaic.TcCoe Idealize.SL.Sem Idealize.ShloMosaic.StableHlo

/-! ## The run -/

variable (m : (ℓ : Loc nD τ sig) → Buf (Elt Ideal) ℓ) (ρ : Dev nD → PrngReg)

/-- The drug table of the launch arguments on device `c`. -/
def table (c : Dev nD) : FVec Ideal S4000x64 .f32 :=
  TableV.drugTable (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))

/-- An argument is never written: after the whole run it holds its launch contents. -/
theorem arg_kept (c : Dev nD) (b : Ref sig .tc) (h1 : b ∉ layer1W) (h2 : b ∉ layer2W) (h3 : b ∉ decodersW) :
    after (ops (F := Ideal)) (launchContents m c) (Proc.devRef .tc b) = m ((c.tc : Thread nD τ).loc b) := by
  rw [after_ops, keep3 _ b h3, keep2 _ b h2, keep1 _ b h1]

/-- After the two layers the drug table's buffer holds `table`, and an argument its launch contents. -/
theorem arg_mid (c : Dev nD) (b : Ref sig .tc) (h1 : b ∉ layer1W) (h2 : b ∉ layer2W) :
    after (layer2 (F := Ideal)) (after (layer1 (F := Ideal)) (launchContents m c)) (Proc.devRef .tc b) = m ((c.tc : Thread nD τ).loc b) := by
  rw [keep2 _ b h2, keep1 _ b h1]

theorem arg_one (c : Dev nD) (b : Ref sig .tc) (h1 : b ∉ layer1W) :
    after (layer1 (F := Ideal)) (launchContents m c) (Proc.devRef .tc b) = m ((c.tc : Thread nD τ).loc b) := by
  rw [keep1 _ b h1]

theorem table_mid (c : Dev nD) :
    after (layer2 (F := Ideal)) (after (layer1 (F := Ideal)) (launchContents m c)) (Proc.devRef .tc main_v183) = table m c := by
  rw [layer2_drug, layer1_gene, layer1_drug]
  rw [arg_one m c main_arg3 (by decide), arg_one m c main_arg4 (by decide), arg_one m c main_arg5 (by decide), arg_one m c main_arg6 (by decide), arg_one m c main_arg7 (by decide), arg_one m c main_arg8 (by decide), arg_one m c main_arg16 (by decide), arg_one m c main_arg17 (by decide), arg_one m c main_arg18 (by decide), arg_one m c main_arg19 (by decide), arg_one m c main_arg20 (by decide)]
  rfl

theorem res0 (c : Dev nD) :
    after (ops (F := Ideal)) (launchContents m c) (Proc.devRef .tc main_v204)
      = DecV.bilinearDec (table m c) (m ((c.tc : Thread nD τ).loc main_arg5)) (m ((c.tc : Thread nD τ).loc main_arg21)) := by
  rw [after_ops, dec0, table_mid, arg_mid m c main_arg5 (by decide) (by decide), arg_mid m c main_arg21 (by decide) (by decide)]

theorem res1 (c : Dev nD) :
    after (ops (F := Ideal)) (launchContents m c) (Proc.devRef .tc main_v225)
      = DecV.bilinearDec (table m c) (m ((c.tc : Thread nD τ).loc main_arg6)) (m ((c.tc : Thread nD τ).loc main_arg22)) := by
  rw [after_ops, dec1, table_mid, arg_mid m c main_arg6 (by decide) (by decide), arg_mid m c main_arg22 (by decide) (by decide)]

theorem res2 (c : Dev nD) :
    after (ops (F := Ideal)) (launchContents m c) (Proc.devRef .tc main_v252)
      = DecV.dedicomDec (table m c) (m ((c.tc : Thread nD τ).loc main_arg7)) (m ((c.tc : Thread nD τ).loc main_arg24)) (m ((c.tc : Thread nD τ).loc main_arg23)) := by
  rw [after_ops, dec2, table_mid, arg_mid m c main_arg7 (by decide) (by decide), arg_mid m c main_arg24 (by decide) (by decide),
    arg_mid m c main_arg23 (by decide) (by decide)]

theorem res3 (c : Dev nD) :
    after (ops (F := Ideal)) (launchContents m c) (Proc.devRef .tc main_v279)
      = DecV.dedicomDec (table m c) (m ((c.tc : Thread nD τ).loc main_arg8)) (m ((c.tc : Thread nD τ).loc main_arg25)) (m ((c.tc : Thread nD τ).loc main_arg23)) := by
  rw [after_ops, dec3, table_mid, arg_mid m c main_arg8 (by decide) (by decide), arg_mid m c main_arg25 (by decide) (by decide),
    arg_mid m c main_arg23 (by decide) (by decide)]

set_option maxRecDepth 16384 in
set_option maxHeartbeats 64000000 in
/-- Every weakly fair execution of the reference terminates; its four results are the decoders of the drug table of
    the arguments, and the arguments end as launched. -/
theorem run_values : θ_run defs (onTc (τ := τ) (main (F := Ideal))) ⟨m, fun _ => 0, ρ⟩ (fun r => ∀ c : Dev nD,
      r.2.mem ((c.tc : Thread nD τ).loc main_v204) = DecV.bilinearDec (table m c) (m ((c.tc : Thread nD τ).loc main_arg5)) (m ((c.tc : Thread nD τ).loc main_arg21))
      ∧ r.2.mem ((c.tc : Thread nD τ).loc main_v225) = DecV.bilinearDec (table m c) (m ((c.tc : Thread nD τ).loc main_arg6)) (m ((c.tc : Thread nD τ).loc main_arg22))
      ∧ r.2.mem ((c.tc : Thread nD τ).loc main_v252) = DecV.dedicomDec (table m c) (m ((c.tc : Thread nD τ).loc main_arg7)) (m ((c.tc : Thread nD τ).loc main_arg24)) (m ((c.tc : Thread nD τ).loc main_arg23))
      ∧ r.2.mem ((c.tc : Thread nD τ).loc main_v279) = DecV.dedicomDec (table m c) (m ((c.tc : Thread nD τ).loc main_arg8)) (m ((c.tc : Thread nD τ).loc main_arg25)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨(h c main_v204).trans (res0 m c), (h c main_v225).trans (res1 m c),
      (h c main_v252).trans (res2 m c), (h c main_v279).trans (res3 m c),
      (h c main_arg0).trans (arg_kept m c main_arg0 (by decide) (by decide) (by decide)),
      (h c main_arg1).trans (arg_kept m c main_arg1 (by decide) (by decide) (by decide)),
      (h c main_arg2).trans (arg_kept m c main_arg2 (by decide) (by decide) (by decide)),
      (h c main_arg3).trans (arg_kept m c main_arg3 (by decide) (by decide) (by decide)),
      (h c main_arg4).trans (arg_kept m c main_arg4 (by decide) (by decide) (by decide)),
      (h c main_arg5).trans (arg_kept m c main_arg5 (by decide) (by decide) (by decide)),
      (h c main_arg6).trans (arg_kept m c main_arg6 (by decide) (by decide) (by decide)),
      (h c main_arg7).trans (arg_kept m c main_arg7 (by decide) (by decide) (by decide)),
      (h c main_arg8).trans (arg_kept m c main_arg8 (by decide) (by decide) (by decide)),
      (h c main_arg9).trans (arg_kept m c main_arg9 (by decide) (by decide) (by decide)),
      (h c main_arg10).trans (arg_kept m c main_arg10 (by decide) (by decide) (by decide)),
      (h c main_arg11).trans (arg_kept m c main_arg11 (by decide) (by decide) (by decide)),
      (h c main_arg12).trans (arg_kept m c main_arg12 (by decide) (by decide) (by decide)),
      (h c main_arg13).trans (arg_kept m c main_arg13 (by decide) (by decide) (by decide)),
      (h c main_arg14).trans (arg_kept m c main_arg14 (by decide) (by decide) (by decide)),
      (h c main_arg15).trans (arg_kept m c main_arg15 (by decide) (by decide) (by decide)),
      (h c main_arg16).trans (arg_kept m c main_arg16 (by decide) (by decide) (by decide)),
      (h c main_arg17).trans (arg_kept m c main_arg17 (by decide) (by decide) (by decide)),
      (h c main_arg18).trans (arg_kept m c main_arg18 (by decide) (by decide) (by decide)),
      (h c main_arg19).trans (arg_kept m c main_arg19 (by decide) (by decide) (by decide)),
      (h c main_arg20).trans (arg_kept m c main_arg20 (by decide) (by decide) (by decide)),
      (h c main_arg21).trans (arg_kept m c main_arg21 (by decide) (by decide) (by decide)),
      (h c main_arg22).trans (arg_kept m c main_arg22 (by decide) (by decide) (by decide)),
      (h c main_arg23).trans (arg_kept m c main_arg23 (by decide) (by decide) (by decide)),
      (h c main_arg24).trans (arg_kept m c main_arg24 (by decide) (by decide) (by decide)),
      (h c main_arg25).trans (arg_kept m c main_arg25 (by decide) (by decide) (by decide))⟩)
    (run_seq scopedRefs_eq scopedSems_eq defs main (fun _ => ops) main_eq (fun _ => ops_sub) m ρ)

end Cert.ReferenceIdeal.RunV

end
-- ==== Proof.lean ====
/-
  The certificate: the Pallas decoders of a two-layer graph encoder against the plain array program.

  Both programs first build a table of 4000 drug nodes with 64 features by two rounds of message passing over
  six kinds of edges, and then score four lists of 500000 drug-drug edges. The tables agree because projecting
  the node table and then selecting the rows the edges name is selecting the rows and then projecting them
  (row selection by clamped node numbers commutes with a row-wise linear map), relation by relation, with the
  same sums at the target nodes around it. The scores agree edge by edge: the kernel's blocks of 8192 edges
  tile the padded edge axis, each stored column is the score of its edge read through the transposed,
  zero-padded tables, and the two orders of the products are the same number because multiplication of extended
  reals is commutative and associative; no distributivity is used, so infinite entries need no care and the
  finiteness of the inputs is never opened. The idealization rewrote nothing, so it is preserved trivially.
  The three programs terminate with their arguments unchanged: the two kernel programs by the generated frames,
  the reference because none of its operations writes an argument.
-/
import proofs.«105939_j23287312679606_2_alg».proof.Defs
import proofs.«105939_j23287312679606_2_alg».proof.Proof.Gen.Kernel
import proofs.«105939_j23287312679606_2_alg».proof.Proof.Gen.Kernel.Skeleton
import proofs.«105939_j23287312679606_2_alg».proof.Proof.Gen.Kernel.Launch
import proofs.«105939_j23287312679606_2_alg».proof.Proof.Gen.Kernel.Points
import proofs.«105939_j23287312679606_2_alg».proof.Proof.Gen.Kernel.Frame
import proofs.«105939_j23287312679606_2_alg».proof.Proof.Gen.KernelIdeal
import proofs.«105939_j23287312679606_2_alg».proof.Proof.Gen.KernelIdeal.Skeleton
import proofs.«105939_j23287312679606_2_alg».proof.Proof.Gen.KernelIdeal.Launch
import proofs.«105939_j23287312679606_2_alg».proof.Proof.Gen.KernelIdeal.Points
import proofs.«105939_j23287312679606_2_alg».proof.Proof.Gen.KernelIdeal.Frame
import proofs.«105939_j23287312679606_2_alg».proof.Proof.Gen.ReferenceIdeal
import proofs.«105939_j23287312679606_2_alg».proof.Proof.Gen.Pre_finite_inputs
import proofs.«105939_j23287312679606_2_alg».proof.Proof.KernelRun
import proofs.«105939_j23287312679606_2_alg».proof.Proof.KernelScore
import proofs.«105939_j23287312679606_2_alg».proof.Proof.KernelTable
import proofs.«105939_j23287312679606_2_alg».proof.Proof.TableEq
import proofs.«105939_j23287312679606_2_alg».proof.Proof.RefRunLite
import Idealize.ShloMosaic.Adequacy
import Idealize.ShloMosaic.Init

noncomputable section

namespace Cert.Proof

open Idealize.ShloMosaic Idealize.SL.Sem Idealize.ShloMosaic.ValueIdx

/-- The word-level kernel program terminates with its arguments unchanged. -/
theorem frame_kernel : Cert.frame_Kernel := fun m ρ _ => Cert.Kernel.Gen.frame m ρ

/-- The idealized kernel program terminates with its arguments unchanged. -/
theorem frame_kernelIdeal : Cert.frame_KernelIdeal := fun m ρ _ => Cert.KernelIdeal.Gen.frame m ρ

/-- The reference terminates with its arguments unchanged: its run, with the results dropped. -/
theorem frame_referenceIdeal : Cert.frame_ReferenceIdeal := fun m ρ _ =>
  (θ_run Cert.ReferenceIdeal.defs _ _).mono (fun _ h c => (h c).2.2.2.2) (Cert.ReferenceIdeal.RunV.run_values m ρ)

/-- The idealization rewrote no operation. -/
theorem preserves : Cert.preserves_Kernel_KernelIdeal := trivial

set_option maxRecDepth 16384 in
/-- From memories that agree on the arguments the two idealized programs end with equal results: the same drug table,
    and on it the same four lists of edge scores, edge by edge. -/
theorem algebraic : Cert.algebraic_KernelIdeal_ReferenceIdeal := by
  intro m ρ m' ρ' _ hagree
  refine ⟨fun c => Cert.KernelIdeal.Gen.W27 m ρ c (Proc.devRef .tc Cert.KernelIdeal.main_v195),
    fun c => Cert.KernelIdeal.Gen.W27 m ρ c (Proc.devRef .tc Cert.KernelIdeal.main_v223),
    fun c => Cert.KernelIdeal.Gen.W27 m ρ c (Proc.devRef .tc Cert.KernelIdeal.main_v240),
    fun c => Cert.KernelIdeal.Gen.W27 m ρ c (Proc.devRef .tc Cert.KernelIdeal.main_v257),
    Cert.KernelIdeal.HostV.run_results m ρ, ?_⟩
  refine (θ_run Cert.ReferenceIdeal.defs _ _).mono (fun r h c => ?_) (Cert.ReferenceIdeal.RunV.run_values m' ρ')
  obtain ⟨h0, h1, h2, h3, hargs⟩ := h c
  obtain ⟨a0, a1, a2, a3, a4, a5, a6, a7, a8, a9, a10, a11, a12, a13, a14, a15, a16, a17, a18, a19, a20, a21, a22, a23, a24, a25⟩ := hagree c
  -- the two programs' drug tables are one array
  have htab : Cert.ReferenceIdeal.RunV.table m' c = Cert.KernelIdeal.HostV.zdK m ρ c := by
    rw [Cert.KernelIdeal.HostV.zdK_eq, Cert.Bridge.Tables.drugTable_eq]
    unfold Cert.ReferenceIdeal.RunV.table
    rw [a0, a1, a2, a3, a4, a5, a6, a7, a8, a9, a10, a11, a12, a13, a14, a16, a17, a18, a19, a20]
  refine ⟨h0.trans (funext fun i => ?_), h1.trans (funext fun i => ?_), h2.trans (funext fun i => ?_),
    h3.trans (funext fun i => ?_), hargs⟩
  · rw [eq_ix1 i]
    refine (Cert.ReferenceIdeal.DecV.bilinearDec_apply _ _ _ (i 0)).trans ?_
    rw [htab, a5, a21]
    exact (Cert.KernelIdeal.ScoreV.score0 m ρ c (i 0)).symm
  · rw [eq_ix1 i]
    refine (Cert.ReferenceIdeal.DecV.bilinearDec_apply _ _ _ (i 0)).trans ?_
    rw [htab, a6, a22]
    exact (Cert.KernelIdeal.ScoreV.score1 m ρ c (i 0)).symm
  · rw [eq_ix1 i]
    refine (Cert.ReferenceIdeal.DecV.dedicomDec_apply _ _ _ _ (i 0)).trans ?_
    rw [htab, a7, a24, a23]
    exact (Cert.KernelIdeal.ScoreV.score2 m ρ c (i 0)).symm
  · rw [eq_ix1 i]
    refine (Cert.ReferenceIdeal.DecV.dedicomDec_apply _ _ _ _ (i 0)).trans ?_
    rw [htab, a8, a25, a23]
    exact (Cert.KernelIdeal.ScoreV.score3 m ρ c (i 0)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
